-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  IdealRules.named_const.Statement Cert.KernelIdeal.κ "inv_127" .f32 0x3C010204#32 ((1 / 127 : ℝ) : EReal)
  ∧ IdealRules.named_const.Statement Cert.KernelIdeal.κ "inv_127" .f32 0x3C010204#32 ((1 / 127 : ℝ) : EReal)
  ∧ IdealRules.named_const.Statement Cert.KernelIdeal.κ "inv_127" .f32 0x3C010204#32 ((1 / 127 : ℝ) : EReal)
  ∧ IdealRules.named_const.Statement Cert.KernelIdeal.κ "inv_127" .f32 0x3C010204#32 ((1 / 127 : ℝ) : EReal)

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v56)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v56) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v135) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S262144x160 : Shape := ⟨2, ![262144, 160]⟩
abbrev S40x160 : Shape := ⟨2, ![40, 160]⟩
abbrev S40 : Shape := ⟨1, ![40]⟩
abbrev S40x40 : Shape := ⟨2, ![40, 40]⟩
abbrev S2x40 : Shape := ⟨2, ![2, 40]⟩
abbrev S2 : Shape := ⟨1, ![2]⟩
abbrev S_ : Shape := ⟨0, ![]⟩

class Facts : Prop where
  bcast_S_S262144x160 : S_.BroadcastsInDim S262144x160 (![] : Fin 0 → Fin S262144x160.rank)
  reducesTo_S262144x160_S_d0_1 : S262144x160.ReducesTo [0, 1] S_
  h_S_ : 0 < S_.numel
  bcast_S_S40x160 : S_.BroadcastsInDim S40x160 (![] : Fin 0 → Fin S40x160.rank)
  reducesTo_S40x160_S_d0_1 : S40x160.ReducesTo [0, 1] S_
  bcast_S_S40 : S_.BroadcastsInDim S40 (![] : Fin 0 → Fin S40.rank)
  reducesTo_S40_S_d0 : S40.ReducesTo [0] S_
  bcast_S_S40x40 : S_.BroadcastsInDim S40x40 (![] : Fin 0 → Fin S40x40.rank)
  reducesTo_S40x40_S_d0_1 : S40x40.ReducesTo [0, 1] S_
  bcast_S_S2x40 : S_.BroadcastsInDim S2x40 (![] : Fin 0 → Fin S2x40.rank)
  reducesTo_S2x40_S_d0_1 : S2x40.ReducesTo [0, 1] S_
  bcast_S_S2 : S_.BroadcastsInDim S2 (![] : Fin 0 → Fin S2.rank)
  reducesTo_S2_S_d0 : S2.ReducesTo [0] S_

variable [Facts]

def fn_part2 {F : FTy → Type} [FloatOps F] (main_arg7 : FVec F S2x40 .f32) (main_arg8 : FVec F S2 .f32) (main_v33 : IVec S_ 1) : IVec S_ 1 :=
  let main_v34 : FVec F S2x40 .f32 := Host.absf main_arg7
  let main_cst_12 : FVec F S_ .f32 := constant S_ .f32 0x7F800000#32
  let main_v35 : FVec F S2x40 .f32 := broadcastInDim S2x40 ![] bcast_S_S2x40 main_cst_12
  let main_v36 : IVec S2x40 1 := cmpf .olt main_v34 main_v35
  let main_c_13 : IVec S_ 1 := constantI S_ 1 1#1
  let main_v37 : IVec S_ 1 := (fun x v => Host.reduce IntOp.andi x v reducesTo_S2x40_S_d0_1 h_S_) main_v36 main_c_13
  let main_v38 : IVec S_ 1 := andi main_v33 main_v37
  let main_v39 : FVec F S2 .f32 := Host.absf main_arg8
  let main_cst_14 : FVec F S_ .f32 := constant S_ .f32 0x7F800000#32
  let main_v40 : FVec F S2 .f32 := broadcastInDim S2 ![] bcast_S_S2 main_cst_14
  let main_v41 : IVec S2 1 := cmpf .olt main_v39 main_v40
  let main_c_15 : IVec S_ 1 := constantI S_ 1 1#1
  let main_v42 : IVec S_ 1 := (fun x v => Host.reduce IntOp.andi x v reducesTo_S2_S_d0 h_S_) main_v41 main_c_15
  let main_v43 : IVec S_ 1 := andi main_v38 main_v42
  main_v43

def fn_part1 {F : FTy → Type} [FloatOps F] (main_arg4 : FVec F S40 .f32) (main_arg5 : FVec F S40x40 .f32) (main_arg6 : FVec F S40 .f32) (main_arg7 : FVec F S2x40 .f32) (main_arg8 : FVec F S2 .f32) (main_v13 : IVec S_ 1) (main_v16 : IVec S40x40 1) : IVec S_ 1 :=
  let main_c_5 : IVec S_ 1 := constantI S_ 1 1#1
  let main_v17 : IVec S_ 1 := (fun x v => Host.reduce IntOp.andi x v reducesTo_S40x40_S_d0_1 h_S_) main_v16 main_c_5
  let main_v18 : IVec S_ 1 := andi main_v13 main_v17
  let main_v19 : FVec F S40 .f32 := Host.absf main_arg4
  let main_cst_6 : FVec F S_ .f32 := constant S_ .f32 0x7F800000#32
  let main_v20 : FVec F S40 .f32 := broadcastInDim S40 ![] bcast_S_S40 main_cst_6
  let main_v21 : IVec S40 1 := cmpf .olt main_v19 main_v20
  let main_c_7 : IVec S_ 1 := constantI S_ 1 1#1
  let main_v22 : IVec S_ 1 := (fun x v => Host.reduce IntOp.andi x v reducesTo_S40_S_d0 h_S_) main_v21 main_c_7
  let main_v23 : IVec S_ 1 := andi main_v18 main_v22
  let main_v24 : FVec F S40x40 .f32 := Host.absf main_arg5
  let main_cst_8 : FVec F S_ .f32 := constant S_ .f32 0x7F800000#32
  let main_v25 : FVec F S40x40 .f32 := broadcastInDim S40x40 ![] bcast_S_S40x40 main_cst_8
  let main_v26 : IVec S40x40 1 := cmpf .olt main_v24 main_v25
  let main_c_9 : IVec S_ 1 := constantI S_ 1 1#1
  let main_v27 : IVec S_ 1 := (fun x v => Host.reduce IntOp.andi x v reducesTo_S40x40_S_d0_1 h_S_) main_v26 main_c_9
  let main_v28 : IVec S_ 1 := andi main_v23 main_v27
  let main_v29 : FVec F S40 .f32 := Host.absf main_arg6
  let main_cst_10 : FVec F S_ .f32 := constant S_ .f32 0x7F800000#32
  let main_v30 : FVec F S40 .f32 := broadcastInDim S40 ![] bcast_S_S40 main_cst_10
  let main_v31 : IVec S40 1 := cmpf .olt main_v29 main_v30
  let main_c_11 : IVec S_ 1 := constantI S_ 1 1#1
  let main_v32 : IVec S_ 1 := (fun x v => Host.reduce IntOp.andi x v reducesTo_S40_S_d0 h_S_) main_v31 main_c_11
  let main_v33 : IVec S_ 1 := andi main_v28 main_v32
  fn_part2 (F := F) main_arg7 main_arg8 main_v33

def fn {F : FTy → Type} [FloatOps F] (main_arg0 : FVec F S262144x160 .f32) (main_arg1 : FVec F S40x160 .f32) (main_arg2 : FVec F S40 .f32) (main_arg3 : FVec F S40x40 .f32) (main_arg4 : FVec F S40 .f32) (main_arg5 : FVec F S40x40 .f32) (main_arg6 : FVec F S40 .f32) (main_arg7 : FVec F S2x40 .f32) (main_arg8 : FVec F S2 .f32) : IVec S_ 1 :=
  let main_v0 : FVec F S262144x160 .f32 := Host.absf main_arg0
  let main_cst : FVec F S_ .f32 := constant S_ .f32 0x7F800000#32
  let main_v1 : FVec F S262144x160 .f32 := broadcastInDim S262144x160 ![] bcast_S_S262144x160 main_cst
  let main_v2 : IVec S262144x160 1 := cmpf .olt main_v0 main_v1
  let main_c : IVec S_ 1 := constantI S_ 1 1#1
  let main_v3 : IVec S_ 1 := (fun x v => Host.reduce IntOp.andi x v reducesTo_S262144x160_S_d0_1 h_S_) main_v2 main_c
  let main_v4 : FVec F S40x160 .f32 := Host.absf main_arg1
  let main_cst_0 : FVec F S_ .f32 := constant S_ .f32 0x7F800000#32
  let main_v5 : FVec F S40x160 .f32 := broadcastInDim S40x160 ![] bcast_S_S40x160 main_cst_0
  let main_v6 : IVec S40x160 1 := cmpf .olt main_v4 main_v5
  let main_c_1 : IVec S_ 1 := constantI S_ 1 1#1
  let main_v7 : IVec S_ 1 := (fun x v => Host.reduce IntOp.andi x v reducesTo_S40x160_S_d0_1 h_S_) main_v6 main_c_1
  let main_v8 : IVec S_ 1 := andi main_v3 main_v7
  let main_v9 : FVec F S40 .f32 := Host.absf main_arg2
  let main_cst_2 : FVec F S_ .f32 := constant S_ .f32 0x7F800000#32
  let main_v10 : FVec F S40 .f32 := broadcastInDim S40 ![] bcast_S_S40 main_cst_2
  let main_v11 : IVec S40 1 := cmpf .olt main_v9 main_v10
  let main_c_3 : IVec S_ 1 := constantI S_ 1 1#1
  let main_v12 : IVec S_ 1 := (fun x v => Host.reduce IntOp.andi x v reducesTo_S40_S_d0 h_S_) main_v11 main_c_3
  let main_v13 : IVec S_ 1 := andi main_v8 main_v12
  let main_v14 : FVec F S40x40 .f32 := Host.absf main_arg3
  let main_cst_4 : FVec F S_ .f32 := constant S_ .f32 0x7F800000#32
  let main_v15 : FVec F S40x40 .f32 := broadcastInDim S40x40 ![] bcast_S_S40x40 main_cst_4
  let main_v16 : IVec S40x40 1 := cmpf .olt main_v14 main_v15
  fn_part1 (F := F) main_arg4 main_arg5 main_arg6 main_arg7 main_arg8 main_v13 main_v16
-- ==== Kernel.lean ====
abbrev S262144x160 : Shape := ⟨2, ![262144, 160]⟩
abbrev S40x160 : Shape := ⟨2, ![40, 160]⟩
abbrev S40 : Shape := ⟨1, ![40]⟩
abbrev S40x40 : Shape := ⟨2, ![40, 40]⟩
abbrev S2x40 : Shape := ⟨2, ![2, 40]⟩
abbrev S2 : Shape := ⟨1, ![2]⟩
abbrev S_ : Shape := ⟨0, ![]⟩
abbrev S40x1 : Shape := ⟨2, ![40, 1]⟩
abbrev S2x1 : Shape := ⟨2, ![2, 1]⟩
abbrev S160x40 : Shape := ⟨2, ![160, 40]⟩
abbrev S40x2 : Shape := ⟨2, ![40, 2]⟩
abbrev S1x40 : Shape := ⟨2, ![1, 40]⟩
abbrev S1x2 : Shape := ⟨2, ![1, 2]⟩
abbrev S262144x2 : Shape := ⟨2, ![262144, 2]⟩
abbrev S4096x160 : Shape := ⟨2, ![4096, 160]⟩
abbrev S4096x2 : Shape := ⟨2, ![4096, 2]⟩
abbrev S4096 : Shape := ⟨1, ![4096]⟩
abbrev S4096x1 : Shape := ⟨2, ![4096, 1]⟩
abbrev S4096x40 : Shape := ⟨2, ![4096, 40]⟩

abbrev nBuf : Space → Nat
  | .hbm => 78
  | .vmem => 16
  | .smem => 0
  | _ => 0

abbrev bufTy : (tb : Table) → Fin (tcTables nBuf tb) → BufTy
  | .hbm, ⟨0, _⟩ => ⟨S262144x160, .f32⟩
  | .hbm, ⟨1, _⟩ => ⟨S40x160, .f32⟩
  | .hbm, ⟨2, _⟩ => ⟨S40, .f32⟩
  | .hbm, ⟨3, _⟩ => ⟨S40x40, .f32⟩
  | .hbm, ⟨4, _⟩ => ⟨S40, .f32⟩
  | .hbm, ⟨5, _⟩ => ⟨S40x40, .f32⟩
  | .hbm, ⟨6, _⟩ => ⟨S40, .f32⟩
  | .hbm, ⟨7, _⟩ => ⟨S2x40, .f32⟩
  | .hbm, ⟨8, _⟩ => ⟨S2, .f32⟩
  | .hbm, ⟨9, _⟩ => ⟨S40x160, .f32⟩
  | .hbm, ⟨10, _⟩ => ⟨S_, .f32⟩
  | .hbm, ⟨11, _⟩ => ⟨S40, .f32⟩
  | .hbm, ⟨12, _⟩ => ⟨S40x1, .f32⟩
  | .hbm, ⟨13, _⟩ => ⟨S_, .f32⟩
  | .hbm, ⟨14, _⟩ => ⟨S40x1, .f32⟩
  | .hbm, ⟨15, _⟩ => ⟨S40x1, .f32⟩
  | .hbm, ⟨16, _⟩ => ⟨S_, .f32⟩
  | .hbm, ⟨17, _⟩ => ⟨S40x1, .f32⟩
  | .hbm, ⟨18, _⟩ => ⟨S40x1, .f32⟩
  | .hbm, ⟨19, _⟩ => ⟨S40x160, .f32⟩
  | .hbm, ⟨20, _⟩ => ⟨S40x160, .f32⟩
  | .hbm, ⟨21, _⟩ => ⟨S40x160, .f32⟩
  | .hbm, ⟨22, _⟩ => ⟨S40x40, .f32⟩
  | .hbm, ⟨23, _⟩ => ⟨S_, .f32⟩
  | .hbm, ⟨24, _⟩ => ⟨S40, .f32⟩
  | .hbm, ⟨25, _⟩ => ⟨S40x1, .f32⟩
  | .hbm, ⟨26, _⟩ => ⟨S_, .f32⟩
  | .hbm, ⟨27, _⟩ => ⟨S40x1, .f32⟩
  | .hbm, ⟨28, _⟩ => ⟨S40x1, .f32⟩
  | .hbm, ⟨29, _⟩ => ⟨S_, .f32⟩
  | .hbm, ⟨30, _⟩ => ⟨S40x1, .f32⟩
  | .hbm, ⟨31, _⟩ => ⟨S40x1, .f32⟩
  | .hbm, ⟨32, _⟩ => ⟨S40x40, .f32⟩
  | .hbm, ⟨33, _⟩ => ⟨S40x40, .f32⟩
  | .hbm, ⟨34, _⟩ => ⟨S40x40, .f32⟩
  | .hbm, ⟨35, _⟩ => ⟨S40x40, .f32⟩
  | .hbm, ⟨36, _⟩ => ⟨S_, .f32⟩
  | .hbm, ⟨37, _⟩ => ⟨S40, .f32⟩
  | .hbm, ⟨38, _⟩ => ⟨S40x1, .f32⟩
  | .hbm, ⟨39, _⟩ => ⟨S_, .f32⟩
  | .hbm, ⟨40, _⟩ => ⟨S40x1, .f32⟩
  | .hbm, ⟨41, _⟩ => ⟨S40x1, .f32⟩
  | .hbm, ⟨42, _⟩ => ⟨S_, .f32⟩
  | .hbm, ⟨43, _⟩ => ⟨S40x1, .f32⟩
  | .hbm, ⟨44, _⟩ => ⟨S40x1, .f32⟩
  | .hbm, ⟨45, _⟩ => ⟨S40x40, .f32⟩
  | .hbm, ⟨46, _⟩ => ⟨S40x40, .f32⟩
  | .hbm, ⟨47, _⟩ => ⟨S40x40, .f32⟩
  | .hbm, ⟨48, _⟩ => ⟨S2x40, .f32⟩
  | .hbm, ⟨49, _⟩ => ⟨S_, .f32⟩
  | .hbm, ⟨50, _⟩ => ⟨S2, .f32⟩
  | .hbm, ⟨51, _⟩ => ⟨S2x1, .f32⟩
  | .hbm, ⟨52, _⟩ => ⟨S_, .f32⟩
  | .hbm, ⟨53, _⟩ => ⟨S2x1, .f32⟩
  | .hbm, ⟨54, _⟩ => ⟨S2x1, .f32⟩
  | .hbm, ⟨55, _⟩ => ⟨S_, .f32⟩
  | .hbm, ⟨56, _⟩ => ⟨S2x1, .f32⟩
  | .hbm, ⟨57, _⟩ => ⟨S2x1, .f32⟩
  | .hbm, ⟨58, _⟩ => ⟨S2x40, .f32⟩
  | .hbm, ⟨59, _⟩ => ⟨S2x40, .f32⟩
  | .hbm, ⟨60, _⟩ => ⟨S2x40, .f32⟩
  | .hbm, ⟨61, _⟩ => ⟨S160x40, .f32⟩
  | .hbm, ⟨62, _⟩ => ⟨S160x40, .bf16⟩
  | .hbm, ⟨63, _⟩ => ⟨S40x40, .f32⟩
  | .hbm, ⟨64, _⟩ => ⟨S40x40, .bf16⟩
  | .hbm, ⟨65, _⟩ => ⟨S40x40, .f32⟩
  | .hbm, ⟨66, _⟩ => ⟨S40x40, .bf16⟩
  | .hbm, ⟨67, _⟩ => ⟨S40x2, .f32⟩
  | .hbm, ⟨68, _⟩ => ⟨S40x2, .bf16⟩
  | .hbm, ⟨69, _⟩ => ⟨S1x40, .f32⟩
  | .hbm, ⟨70, _⟩ => ⟨S1x40, .f32⟩
  | .hbm, ⟨71, _⟩ => ⟨S1x40, .f32⟩
  | .hbm, ⟨72, _⟩ => ⟨S1x2, .f32⟩
  | .hbm, ⟨73, _⟩ => ⟨S1x40, .f32⟩
  | .hbm, ⟨74, _⟩ => ⟨S1x40, .f32⟩
  | .hbm, ⟨75, _⟩ => ⟨S1x40, .f32⟩
  | .hbm, ⟨76, _⟩ => ⟨S1x2, .f32⟩
  | .hbm, ⟨77, _⟩ => ⟨S262144x2, .f32⟩
  | .local _ .vmem, ⟨0, _⟩ => ⟨S4096x160, .f32⟩
  | .local _ .vmem, ⟨1, _⟩ => ⟨S4096x160, .f32⟩
  | .local _ .vmem, ⟨2, _⟩ => ⟨S160x40, .bf16⟩
  | .local _ .vmem, ⟨3, _⟩ => ⟨S1x40, .f32⟩
  | .local _ .vmem, ⟨4, _⟩ => ⟨S1x40, .f32⟩
  | .local _ .vmem, ⟨5, _⟩ => ⟨S40x40, .bf16⟩
  | .local _ .vmem, ⟨6, _⟩ => ⟨S1x40, .f32⟩
  | .local _ .vmem, ⟨7, _⟩ => ⟨S1x40, .f32⟩
  | .local _ .vmem, ⟨8, _⟩ => ⟨S40x40, .bf16⟩
  | .local _ .vmem, ⟨9, _⟩ => ⟨S1x40, .f32⟩
  | .local _ .vmem, ⟨10, _⟩ => ⟨S1x40, .f32⟩
  | .local _ .vmem, ⟨11, _⟩ => ⟨S40x2, .bf16⟩
  | .local _ .vmem, ⟨12, _⟩ => ⟨S1x2, .f32⟩
  | .local _ .vmem, ⟨13, _⟩ => ⟨S1x2, .f32⟩
  | .local _ .vmem, ⟨14, _⟩ => ⟨S4096x2, .f32⟩
  | .local _ .vmem, ⟨15, _⟩ => ⟨S4096x2, .f32⟩
  | _, _ => ⟨S262144x160, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_cst : Ref sig .tc := ⟨.hbm, 10, rfl⟩
abbrev main_v1 : Ref sig .tc := ⟨.hbm, 11, rfl⟩
abbrev main_v2 : Ref sig .tc := ⟨.hbm, 12, rfl⟩
abbrev main_cst_0 : Ref sig .tc := ⟨.hbm, 13, rfl⟩
abbrev main_v3 : Ref sig .tc := ⟨.hbm, 14, rfl⟩
abbrev main_v4 : Ref sig .tc := ⟨.hbm, 15, rfl⟩
abbrev main_cst_1 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_cst_2 : Ref sig .tc := ⟨.hbm, 23, rfl⟩
abbrev main_v11 : Ref sig .tc := ⟨.hbm, 24, rfl⟩
abbrev main_v12 : Ref sig .tc := ⟨.hbm, 25, rfl⟩
abbrev main_cst_3 : Ref sig .tc := ⟨.hbm, 26, rfl⟩
abbrev main_v13 : Ref sig .tc := ⟨.hbm, 27, rfl⟩
abbrev main_v14 : Ref sig .tc := ⟨.hbm, 28, rfl⟩
abbrev main_cst_4 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_cst_5 : Ref sig .tc := ⟨.hbm, 36, rfl⟩
abbrev main_v21 : Ref sig .tc := ⟨.hbm, 37, rfl⟩
abbrev main_v22 : Ref sig .tc := ⟨.hbm, 38, rfl⟩
abbrev main_cst_6 : Ref sig .tc := ⟨.hbm, 39, rfl⟩
abbrev main_v23 : Ref sig .tc := ⟨.hbm, 40, rfl⟩
abbrev main_v24 : Ref sig .tc := ⟨.hbm, 41, rfl⟩
abbrev main_cst_7 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_cst_8 : Ref sig .tc := ⟨.hbm, 49, rfl⟩
abbrev main_v31 : Ref sig .tc := ⟨.hbm, 50, rfl⟩
abbrev main_v32 : Ref sig .tc := ⟨.hbm, 51, rfl⟩
abbrev main_cst_9 : Ref sig .tc := ⟨.hbm, 52, rfl⟩
abbrev main_v33 : Ref sig .tc := ⟨.hbm, 53, rfl⟩
abbrev main_v34 : Ref sig .tc := ⟨.hbm, 54, rfl⟩
abbrev main_cst_10 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg10_0 : Ref sig .tc := ⟨.vmem, 11, rfl⟩
abbrev cc0_stg11_0 : Ref sig .tc := ⟨.vmem, 12, rfl⟩
abbrev cc0_stg12_0 : Ref sig .tc := ⟨.vmem, 13, rfl⟩
abbrev cc0_stg13_0 : Ref sig .tc := ⟨.vmem, 14, rfl⟩
abbrev cc0_stg13_1 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem10_0 : DmaSem sig := 11
abbrev cc0_sem11_0 : DmaSem sig := 12
abbrev cc0_sem12_0 : DmaSem sig := 13
abbrev cc0_sem13_0 : DmaSem sig := 14
abbrev cc0_sem13_1 : DmaSem sig := 15

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4096x160 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S160x40 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x40 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x40 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S40x40 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x40 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x40 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S40x40 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x40 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x40 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S40x2 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x2 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x2 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 2 → Memref sig .tc .vmem S4096x2 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

class Facts₀ : Prop where
  reducesTo_S40x160_S40_d1 : S40x160.ReducesTo [1] S40
  h_S_ : 0 < S_.numel
  bcast_S40_S40x1_0 : S40.BroadcastsInDim S40x1 (![0] : Fin 1 → Fin S40x1.rank)
  bcast_S_S40x1 : S_.BroadcastsInDim S40x1 (![] : Fin 0 → Fin S40x1.rank)
  bcast_S40x1_S40x160_0_1 : S40x1.BroadcastsInDim S40x160 (![0, 1] : Fin 2 → Fin S40x160.rank)
  reducesTo_S40x40_S40_d1 : S40x40.ReducesTo [1] S40
  bcast_S40x1_S40x40_0_1 : S40x1.BroadcastsInDim S40x40 (![0, 1] : Fin 2 → Fin S40x40.rank)
  reducesTo_S2x40_S2_d1 : S2x40.ReducesTo [1] S2
  bcast_S2_S2x1_0 : S2.BroadcastsInDim S2x1 (![0] : Fin 1 → Fin S2x1.rank)
  bcast_S_S2x1 : S_.BroadcastsInDim S2x1 (![] : Fin 0 → Fin S2x1.rank)
  bcast_S2x1_S2x40_0_1 : S2x1.BroadcastsInDim S2x40 (![0, 1] : Fin 2 → Fin S2x40.rank)
  transposes_S40x160_S160x40_1_0 : S40x160.Transposes [1, 0] S160x40
  bitsLt_bf16_f32 : FTy.bits .bf16 < FTy.bits .f32
  transposes_S40x40_S40x40_1_0 : S40x40.Transposes [1, 0] S40x40
  transposes_S2x40_S40x2_1_0 : S2x40.Transposes [1, 0] S40x2
  shapeCasts_S40x1_S1x40 : S40x1.ShapeCasts S1x40
  shapeCasts_S2x1_S1x2 : S2x1.ShapeCasts S1x2
  shapeCasts_S40_S1x40 : S40.ShapeCasts S1x40
  shapeCasts_S2_S1x2 : S2.ShapeCasts S1x2
  inb_S4096x160_S4096x160_0_0 : ∀ a, (![0, 0] : Fin 2 → Nat) a + S4096x160.size a ≤ S4096x160.size a
  h_S4096x160 : 0 < S4096x160.numel
  reduces_S4096x160_S4096 : S4096x160.Reduces [1] S4096
  shapeCasts_S4096_S4096x1 : S4096.ShapeCasts S4096x1
  broadcasts_S4096x1_S4096x160 : S4096x1.Broadcasts S4096x160
  inb_S160x40_S160x40_0_0 : ∀ a, (![0, 0] : Fin 2 → Nat) a + S160x40.size a ≤ S160x40.size a
  h_S160x40 : 0 < S160x40.numel
  shapeCasts_S160x40_S160x40 : S160x40.ShapeCasts S160x40
  broadcasts_S4096x1_S4096x40 : S4096x1.Broadcasts S4096x40
  inb_S1x40_S1x40_0_0 : ∀ a, (![0, 0] : Fin 2 → Nat) a + S1x40.size a ≤ S1x40.size a
  h_S1x40 : 0 < S1x40.numel
  shapeCasts_S1x40_S1x40 : S1x40.ShapeCasts S1x40
  broadcasts_S1x40_S4096x40 : S1x40.Broadcasts S4096x40
  reduces_S4096x40_S4096 : S4096x40.Reduces [1] S4096
  inb_S40x40_S40x40_0_0 : ∀ a, (![0, 0] : Fin 2 → Nat) a + S40x40.size a ≤ S40x40.size a
  h_S40x40 : 0 < S40x40.numel
  shapeCasts_S40x40_S40x40 : S40x40.ShapeCasts S40x40
  inb_S40x2_S40x2_0_0 : ∀ a, (![0, 0] : Fin 2 → Nat) a + S40x2.size a ≤ S40x2.size a
  h_S40x2 : 0 < S40x2.numel
  shapeCasts_S40x2_S40x2 : S40x2.ShapeCasts S40x2
  broadcasts_S4096x1_S4096x2 : S4096x1.Broadcasts S4096x2
  inb_S1x2_S1x2_0_0 : ∀ a, (![0, 0] : Fin 2 → Nat) a + S1x2.size a ≤ S1x2.size a
  h_S1x2 : 0 < S1x2.numel
  shapeCasts_S1x2_S1x2 : S1x2.ShapeCasts S1x2
  broadcasts_S1x2_S4096x2 : S1x2.Broadcasts S4096x2
  inb_S4096x2_S4096x2_0_0 : ∀ a, (![0, 0] : Fin 2 → Nat) a + S4096x2.size a ≤ S4096x2.size a
  h_S4096x2 : 0 < S4096x2.numel
  dot_S4096x160_S160x40_S4096x40_1_0_0_1_n_n_wf : DotDims.WF S4096x160 S160x40 S4096x40 [1] [0] [0] [1] [] []
  dot_S4096x40_S40x40_S4096x40_1_0_0_1_n_n_wf : DotDims.WF S4096x40 S40x40 S4096x40 [1] [0] [0] [1] [] []
  dot_S4096x40_S40x2_S4096x2_1_0_0_1_n_n_wf : DotDims.WF S4096x40 S40x2 S4096x2 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4096x160.size a ≤ S262144x160.size a
  hwx0_0 : ∀ i : grid0.Coords, EltTy.bits .f32 = 32 ∨ (Rect.block (s := S262144x160) S4096x160.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S160x40.size a ≤ S160x40.size a
  hwx0_1 : ∀ i : grid0.Coords, EltTy.bits .bf16 = 32 ∨ (Rect.block (s := S160x40) S160x40.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x40.size a ≤ S1x40.size a
  hwx0_2 : ∀ i : grid0.Coords, EltTy.bits .f32 = 32 ∨ (Rect.block (s := S1x40) S1x40.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x40.size a ≤ S1x40.size a
  hwx0_3 : ∀ i : grid0.Coords, EltTy.bits .f32 = 32 ∨ (Rect.block (s := S1x40) S1x40.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S40x40.size a ≤ S40x40.size a
  hwx0_4 : ∀ i : grid0.Coords, EltTy.bits .bf16 = 32 ∨ (Rect.block (s := S40x40) S40x40.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x40.size a ≤ S1x40.size a
  hwx0_5 : ∀ i : grid0.Coords, EltTy.bits .f32 = 32 ∨ (Rect.block (s := S1x40) S1x40.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x40.size a ≤ S1x40.size a
  hwx0_6 : ∀ i : grid0.Coords, EltTy.bits .f32 = 32 ∨ (Rect.block (s := S1x40) S1x40.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S40x40.size a ≤ S40x40.size a
  hwx0_7 : ∀ i : grid0.Coords, EltTy.bits .bf16 = 32 ∨ (Rect.block (s := S40x40) S40x40.size (cc0_transform_7 i) (hinb0_7 i)).WholeWords (EltTy.packing .bf16)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x40.size a ≤ S1x40.size a
  hwx0_8 : ∀ i : grid0.Coords, EltTy.bits .f32 = 32 ∨ (Rect.block (s := S1x40) S1x40.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S1x40.size a ≤ S1x40.size a
  hwx0_9 : ∀ i : grid0.Coords, EltTy.bits .f32 = 32 ∨ (Rect.block (s := S1x40) S1x40.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S40x2.size a ≤ S40x2.size a
  hwx0_10 : ∀ i : grid0.Coords, EltTy.bits .bf16 = 32 ∨ (Rect.block (s := S40x2) S40x2.size (cc0_transform_10 i) (hinb0_10 i)).WholeWords (EltTy.packing .bf16)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S1x2.size a ≤ S1x2.size a
  hwx0_11 : ∀ i : grid0.Coords, EltTy.bits .f32 = 32 ∨ (Rect.block (s := S1x2) S1x2.size (cc0_transform_11 i) (hinb0_11 i)).WholeWords (EltTy.packing .f32)
  hstage0_12 : ∀ j, (stage0_12 j).IsWhole
  nbuf0_12 : grid0.bufCount reads0_12 true = 1
  hreads0_12 : ∀ i i' : grid0.Coords, (∀ a, reads0_12 a = true → i a = i' a) → cc0_transform_12 i = cc0_transform_12 i'
  hinb0_12 : ∀ (i : grid0.Coords) a, (cc0_transform_12 i a + 1) * S1x2.size a ≤ S1x2.size a
  hwx0_12 : ∀ i : grid0.Coords, EltTy.bits .f32 = 32 ∨ (Rect.block (s := S1x2) S1x2.size (cc0_transform_12 i) (hinb0_12 i)).WholeWords (EltTy.packing .f32)
  hstage0_13 : ∀ j, (stage0_13 j).IsWhole
  nbuf0_13 : grid0.bufCount reads0_13 false = 2
  hreads0_13 : ∀ i i' : grid0.Coords, (∀ a, reads0_13 a = true → i a = i' a) → cc0_transform_13 i = cc0_transform_13 i'
  hinb0_13 : ∀ (i : grid0.Coords) a, (cc0_transform_13 i a + 1) * S4096x2.size a ≤ S262144x2.size a
  hwx0_13 : ∀ i : grid0.Coords, EltTy.bits .f32 = 32 ∨ (Rect.block (s := S262144x2) S4096x2.size (cc0_transform_13 i) (hinb0_13 i)).WholeWords (EltTy.packing .f32)

variable [Facts₀]

def dot_S4096x160_S160x40_S4096x40_1_0_0_1_n_n : DotDims S4096x160 S160x40 S4096x40 where
  lhsContracting := [1]
  rhsContracting := [0]
  lhsNonContracting := [0]
  rhsNonContracting := [1]
  lhsBatch := []
  rhsBatch := []
  wf := dot_S4096x160_S160x40_S4096x40_1_0_0_1_n_n_wf
def dot_S4096x40_S40x40_S4096x40_1_0_0_1_n_n : DotDims S4096x40 S40x40 S4096x40 where
  lhsContracting := [1]
  rhsContracting := [0]
  lhsNonContracting := [0]
  rhsNonContracting := [1]
  lhsBatch := []
  rhsBatch := []
  wf := dot_S4096x40_S40x40_S4096x40_1_0_0_1_n_n_wf
def dot_S4096x40_S40x2_S4096x2_1_0_0_1_n_n : DotDims S4096x40 S40x2 S4096x2 where
  lhsContracting := [1]
  rhsContracting := [0]
  lhsNonContracting := [0]
  rhsNonContracting := [1]
  lhsBatch := []
  rhsBatch := []
  wf := dot_S4096x40_S40x2_S4096x2_1_0_0_1_n_n_wf

abbrev win0_0 : Pipeline.Window sig grid0 :=
  Pipeline.Window.ofSpec (Memref.whole main_arg0) S4096x160.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v41) S160x40.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v48) S1x40.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v52) S1x40.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v43) S40x40.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v49) S1x40.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v53) S1x40.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v45) S40x40.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v50) S1x40.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v54) S1x40.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v47) S40x2.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_v51) S1x2.size cc0_transform_11 reads0_11 false true 1 stage0_11 sem0_11
    hrank0 hreads0_11 hinb0_11 nbuf0_11 (Memref.isWhole_whole _) hwx0_11 hstage0_11

abbrev win0_12 : Pipeline.Window sig grid0 :=
  Pipeline.Window.ofSpec (Memref.whole main_v55) S1x2.size cc0_transform_12 reads0_12 false true 1 stage0_12 sem0_12
    hrank0 hreads0_12 hinb0_12 nbuf0_12 (Memref.isWhole_whole _) hwx0_12 hstage0_12

abbrev win0_13 : Pipeline.Window sig grid0 :=
  Pipeline.Window.ofSpec (Memref.whole main_v56) S4096x2.size cc0_transform_13 reads0_13 true false 2 stage0_13 sem0_13
    hrank0 hreads0_13 hinb0_13 nbuf0_13 (Memref.isWhole_whole _) hwx0_13 hstage0_13

abbrev win0 : Fin 14 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | ⟨_ + 14, h⟩ => absurd h (Nat.not_lt.2 (Nat.le_add_left _ _))
abbrev spec0 : Fin 14 → Pipeline.WinSpec sig grid0.rank := fun w => (win0 w).toWinSpec

class Facts : Prop extends Facts₀ where

variable [Facts]
-- ==== ReferenceIdeal.lean ====
abbrev S262144x160 : Shape := ⟨2, ![262144, 160]⟩
abbrev S40x160 : Shape := ⟨2, ![40, 160]⟩
abbrev S40 : Shape := ⟨1, ![40]⟩
abbrev S40x40 : Shape := ⟨2, ![40, 40]⟩
abbrev S2x40 : Shape := ⟨2, ![2, 40]⟩
abbrev S2 : Shape := ⟨1, ![2]⟩
abbrev S_ : Shape := ⟨0, ![]⟩
abbrev S262144 : Shape := ⟨1, ![262144]⟩
abbrev S262144x1 : Shape := ⟨2, ![262144, 1]⟩
abbrev S40x1 : Shape := ⟨2, ![40, 1]⟩
abbrev S160x40 : Shape := ⟨2, ![160, 40]⟩
abbrev S262144x40 : Shape := ⟨2, ![262144, 40]⟩
abbrev S1x40 : Shape := ⟨2, ![1, 40]⟩
abbrev S2x1 : Shape := ⟨2, ![2, 1]⟩
abbrev S40x2 : Shape := ⟨2, ![40, 2]⟩
abbrev S262144x2 : Shape := ⟨2, ![262144, 2]⟩
abbrev S1x2 : Shape := ⟨2, ![1, 2]⟩

abbrev nBuf : Space → Nat
  | .hbm => 210
  | .vmem => 0
  | .smem => 0
  | _ => 0

abbrev hbmTy0_0 (i : Nat) : BufTy := match i % 128 with
  | 0 => ⟨S262144x160, .f32⟩
  | 1 => ⟨S40x160, .f32⟩
  | 2 => ⟨S40, .f32⟩
  | 3 => ⟨S40x40, .f32⟩
  | 4 => ⟨S40, .f32⟩
  | 5 => ⟨S40x40, .f32⟩
  | 6 => ⟨S40, .f32⟩
  | 7 => ⟨S2x40, .f32⟩
  | 8 => ⟨S2, .f32⟩
  | 9 => ⟨S262144x160, .f32⟩
  | 10 => ⟨S_, .f32⟩
  | 11 => ⟨S262144, .f32⟩
  | 12 => ⟨S262144x1, .f32⟩
  | 13 => ⟨S_, .f32⟩
  | 14 => ⟨S262144x1, .f32⟩
  | 15 => ⟨S262144x1, .f32⟩
  | 16 => ⟨S_, .f32⟩
  | 17 => ⟨S262144x1, .f32⟩
  | 18 => ⟨S262144x1, .f32⟩
  | 19 => ⟨S262144x160, .f32⟩
  | 20 => ⟨S262144x160, .f32⟩
  | 21 => ⟨S262144x160, .f32⟩
  | 22 => ⟨S262144x160, .f32⟩
  | 23 => ⟨S262144x160, .f32⟩
  | 24 => ⟨S262144x160, .f32⟩
  | 25 => ⟨S262144x160, .f32⟩
  | 26 => ⟨S40x160, .f32⟩
  | 27 => ⟨S_, .f32⟩
  | 28 => ⟨S40, .f32⟩
  | 29 => ⟨S40x1, .f32⟩
  | 30 => ⟨S_, .f32⟩
  | 31 => ⟨S40x1, .f32⟩
  | 32 => ⟨S40x1, .f32⟩
  | 33 => ⟨S_, .f32⟩
  | 34 => ⟨S40x1, .f32⟩
  | 35 => ⟨S40x1, .f32⟩
  | 36 => ⟨S40x160, .f32⟩
  | 37 => ⟨S40x160, .f32⟩
  | 38 => ⟨S40x160, .f32⟩
  | 39 => ⟨S40x160, .f32⟩
  | 40 => ⟨S40x160, .f32⟩
  | 41 => ⟨S40x160, .f32⟩
  | 42 => ⟨S40x160, .f32⟩
  | 43 => ⟨S160x40, .f32⟩
  | 44 => ⟨S262144x40, .f32⟩
  | 45 => ⟨S1x40, .f32⟩
  | 46 => ⟨S262144x40, .f32⟩
  | 47 => ⟨S262144x40, .f32⟩
  | 48 => ⟨S262144x40, .f32⟩
  | 49 => ⟨S262144x40, .f32⟩
  | 50 => ⟨S_, .f32⟩
  | 51 => ⟨S262144, .f32⟩
  | 52 => ⟨S262144x1, .f32⟩
  | 53 => ⟨S_, .f32⟩
  | 54 => ⟨S262144x1, .f32⟩
  | 55 => ⟨S262144x1, .f32⟩
  | 56 => ⟨S_, .f32⟩
  | 57 => ⟨S262144x1, .f32⟩
  | 58 => ⟨S262144x1, .f32⟩
  | 59 => ⟨S262144x40, .f32⟩
  | 60 => ⟨S262144x40, .f32⟩
  | 61 => ⟨S262144x40, .f32⟩
  | 62 => ⟨S262144x40, .f32⟩
  | 63 => ⟨S262144x40, .f32⟩
  | 64 => ⟨S262144x40, .f32⟩
  | 65 => ⟨S262144x40, .f32⟩
  | 66 => ⟨S40x40, .f32⟩
  | 67 => ⟨S_, .f32⟩
  | 68 => ⟨S40, .f32⟩
  | 69 => ⟨S40x1, .f32⟩
  | 70 => ⟨S_, .f32⟩
  | 71 => ⟨S40x1, .f32⟩
  | 72 => ⟨S40x1, .f32⟩
  | 73 => ⟨S_, .f32⟩
  | 74 => ⟨S40x1, .f32⟩
  | 75 => ⟨S40x1, .f32⟩
  | 76 => ⟨S40x40, .f32⟩
  | 77 => ⟨S40x40, .f32⟩
  | 78 => ⟨S40x40, .f32⟩
  | 79 => ⟨S40x40, .f32⟩
  | 80 => ⟨S40x40, .f32⟩
  | 81 => ⟨S40x40, .f32⟩
  | 82 => ⟨S40x40, .f32⟩
  | 83 => ⟨S40x40, .f32⟩
  | 84 => ⟨S262144x40, .f32⟩
  | 85 => ⟨S1x40, .f32⟩
  | 86 => ⟨S262144x40, .f32⟩
  | 87 => ⟨S262144x40, .f32⟩
  | 88 => ⟨S_, .f32⟩
  | 89 => ⟨S262144x40, .f32⟩
  | 90 => ⟨S262144x40, .i1⟩
  | 91 => ⟨S_, .f32⟩
  | 92 => ⟨S262144x40, .f32⟩
  | 93 => ⟨S262144x40, .i1⟩
  | 94 => ⟨S_, .f32⟩
  | 95 => ⟨S_, .f32⟩
  | 96 => ⟨S262144x40, .f32⟩
  | 97 => ⟨S262144x40, .f32⟩
  | 98 => ⟨S262144x40, .f32⟩
  | 99 => ⟨S_, .f32⟩
  | 100 => ⟨S262144x40, .f32⟩
  | 101 => ⟨S262144x40, .f32⟩
  | 102 => ⟨S262144x40, .f32⟩
  | 103 => ⟨S262144x40, .f32⟩
  | 104 => ⟨S_, .f32⟩
  | 105 => ⟨S262144, .f32⟩
  | 106 => ⟨S262144x1, .f32⟩
  | 107 => ⟨S_, .f32⟩
  | 108 => ⟨S262144x1, .f32⟩
  | 109 => ⟨S262144x1, .f32⟩
  | 110 => ⟨S_, .f32⟩
  | 111 => ⟨S262144x1, .f32⟩
  | 112 => ⟨S262144x1, .f32⟩
  | 113 => ⟨S262144x40, .f32⟩
  | 114 => ⟨S262144x40, .f32⟩
  | 115 => ⟨S262144x40, .f32⟩
  | 116 => ⟨S262144x40, .f32⟩
  | 117 => ⟨S262144x40, .f32⟩
  | 118 => ⟨S262144x40, .f32⟩
  | 119 => ⟨S262144x40, .f32⟩
  | 120 => ⟨S40x40, .f32⟩
  | 121 => ⟨S_, .f32⟩
  | 122 => ⟨S40, .f32⟩
  | 123 => ⟨S40x1, .f32⟩
  | 124 => ⟨S_, .f32⟩
  | 125 => ⟨S40x1, .f32⟩
  | 126 => ⟨S40x1, .f32⟩
  | 127 => ⟨S_, .f32⟩
  | _ => ⟨S262144x160, .f32⟩

abbrev hbmTy0_1 (i : Nat) : BufTy := match i % 128 with
  | 0 => ⟨S40x1, .f32⟩
  | 1 => ⟨S40x1, .f32⟩
  | 2 => ⟨S40x40, .f32⟩
  | 3 => ⟨S40x40, .f32⟩
  | 4 => ⟨S40x40, .f32⟩
  | 5 => ⟨S40x40, .f32⟩
  | 6 => ⟨S40x40, .f32⟩
  | 7 => ⟨S40x40, .f32⟩
  | 8 => ⟨S40x40, .f32⟩
  | 9 => ⟨S40x40, .f32⟩
  | 10 => ⟨S262144x40, .f32⟩
  | 11 => ⟨S1x40, .f32⟩
  | 12 => ⟨S262144x40, .f32⟩
  | 13 => ⟨S262144x40, .f32⟩
  | 14 => ⟨S_, .f32⟩
  | 15 => ⟨S262144x40, .f32⟩
  | 16 => ⟨S262144x40, .i1⟩
  | 17 => ⟨S_, .f32⟩
  | 18 => ⟨S262144x40, .f32⟩
  | 19 => ⟨S262144x40, .i1⟩
  | 20 => ⟨S_, .f32⟩
  | 21 => ⟨S_, .f32⟩
  | 22 => ⟨S262144x40, .f32⟩
  | 23 => ⟨S262144x40, .f32⟩
  | 24 => ⟨S262144x40, .f32⟩
  | 25 => ⟨S_, .f32⟩
  | 26 => ⟨S262144x40, .f32⟩
  | 27 => ⟨S262144x40, .f32⟩
  | 28 => ⟨S262144x40, .f32⟩
  | 29 => ⟨S262144x40, .f32⟩
  | 30 => ⟨S_, .f32⟩
  | 31 => ⟨S262144, .f32⟩
  | 32 => ⟨S262144x1, .f32⟩
  | 33 => ⟨S_, .f32⟩
  | 34 => ⟨S262144x1, .f32⟩
  | 35 => ⟨S262144x1, .f32⟩
  | 36 => ⟨S_, .f32⟩
  | 37 => ⟨S262144x1, .f32⟩
  | 38 => ⟨S262144x1, .f32⟩
  | 39 => ⟨S262144x40, .f32⟩
  | 40 => ⟨S262144x40, .f32⟩
  | 41 => ⟨S262144x40, .f32⟩
  | 42 => ⟨S262144x40, .f32⟩
  | 43 => ⟨S262144x40, .f32⟩
  | 44 => ⟨S262144x40, .f32⟩
  | 45 => ⟨S262144x40, .f32⟩
  | 46 => ⟨S2x40, .f32⟩
  | 47 => ⟨S_, .f32⟩
  | 48 => ⟨S2, .f32⟩
  | 49 => ⟨S2x1, .f32⟩
  | 50 => ⟨S_, .f32⟩
  | 51 => ⟨S2x1, .f32⟩
  | 52 => ⟨S2x1, .f32⟩
  | 53 => ⟨S_, .f32⟩
  | 54 => ⟨S2x1, .f32⟩
  | 55 => ⟨S2x1, .f32⟩
  | 56 => ⟨S2x40, .f32⟩
  | 57 => ⟨S2x40, .f32⟩
  | 58 => ⟨S2x40, .f32⟩
  | 59 => ⟨S2x40, .f32⟩
  | 60 => ⟨S2x40, .f32⟩
  | 61 => ⟨S2x40, .f32⟩
  | 62 => ⟨S2x40, .f32⟩
  | 63 => ⟨S40x2, .f32⟩
  | 64 => ⟨S262144x2, .f32⟩
  | 65 => ⟨S1x2, .f32⟩
  | 66 => ⟨S262144x2, .f32⟩
  | 67 => ⟨S262144x2, .f32⟩
  | 68 => ⟨S_, .f32⟩
  | 69 => ⟨S262144x2, .f32⟩
  | 70 => ⟨S262144x2, .f32⟩
  | 71 => ⟨S262144x2, .f32⟩
  | 72 => ⟨S262144x2, .f32⟩
  | 73 => ⟨S262144x2, .i1⟩
  | 74 => ⟨S262144x2, .f32⟩
  | 75 => ⟨S262144x2, .f32⟩
  | 76 => ⟨S262144x2, .f32⟩
  | 77 => ⟨S262144x2, .f32⟩
  | 78 => ⟨S262144x2, .f32⟩
  | 79 => ⟨S262144x2, .f32⟩
  | 80 => ⟨S262144x2, .f32⟩
  | 81 => ⟨S262144x2, .f32⟩
  | _ => ⟨S262144x160, .f32⟩

abbrev hbmTy (i : Nat) : BufTy := match i / 128 with
  | 0 => hbmTy0_0 i
  | 1 => hbmTy0_1 i
  | _ => ⟨S262144x160, .f32⟩

abbrev bufTy : (tb : Table) → Fin (tcTables nBuf tb) → BufTy
  | .hbm, ⟨i, _⟩ => hbmTy i
  | _, _ => ⟨S262144x160, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_cst : Ref sig .tc := ⟨.hbm, 10, rfl⟩
abbrev main_v1 : Ref sig .tc := ⟨.hbm, 11, rfl⟩
abbrev main_v2 : Ref sig .tc := ⟨.hbm, 12, rfl⟩
abbrev main_cst_0 : Ref sig .tc := ⟨.hbm, 13, rfl⟩
abbrev main_v3 : Ref sig .tc := ⟨.hbm, 14, rfl⟩
abbrev main_v4 : Ref sig .tc := ⟨.hbm, 15, rfl⟩
abbrev main_cst_1 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_cst_2 : Ref sig .tc := ⟨.hbm, 27, rfl⟩
abbrev main_v15 : Ref sig .tc := ⟨.hbm, 28, rfl⟩
abbrev main_v16 : Ref sig .tc := ⟨.hbm, 29, rfl⟩
abbrev main_cst_3 : Ref sig .tc := ⟨.hbm, 30, rfl⟩
abbrev main_v17 : Ref sig .tc := ⟨.hbm, 31, rfl⟩
abbrev main_v18 : Ref sig .tc := ⟨.hbm, 32, rfl⟩
abbrev main_cst_4 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_cst_5 : Ref sig .tc := ⟨.hbm, 50, rfl⟩
abbrev main_v35 : Ref sig .tc := ⟨.hbm, 51, rfl⟩
abbrev main_v36 : Ref sig .tc := ⟨.hbm, 52, rfl⟩
abbrev main_cst_6 : Ref sig .tc := ⟨.hbm, 53, rfl⟩
abbrev main_v37 : Ref sig .tc := ⟨.hbm, 54, rfl⟩
abbrev main_v38 : Ref sig .tc := ⟨.hbm, 55, rfl⟩
abbrev main_cst_7 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_cst_8 : Ref sig .tc := ⟨.hbm, 67, rfl⟩
abbrev main_v49 : Ref sig .tc := ⟨.hbm, 68, rfl⟩
abbrev main_v50 : Ref sig .tc := ⟨.hbm, 69, rfl⟩
abbrev main_cst_9 : Ref sig .tc := ⟨.hbm, 70, rfl⟩
abbrev main_v51 : Ref sig .tc := ⟨.hbm, 71, rfl⟩
abbrev main_v52 : Ref sig .tc := ⟨.hbm, 72, rfl⟩
abbrev main_cst_10 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩
abbrev main_v60 : Ref sig .tc := ⟨.hbm, 81, rfl⟩
abbrev main_v61 : Ref sig .tc := ⟨.hbm, 82, rfl⟩
abbrev main_v62 : Ref sig .tc := ⟨.hbm, 83, rfl⟩
abbrev main_v63 : Ref sig .tc := ⟨.hbm, 84, rfl⟩
abbrev main_v64 : Ref sig .tc := ⟨.hbm, 85, rfl⟩
abbrev main_v65 : Ref sig .tc := ⟨.hbm, 86, rfl⟩
abbrev main_v66 : Ref sig .tc := ⟨.hbm, 87, rfl⟩
abbrev main_call4_cst : Ref sig .tc := ⟨.hbm, 88, rfl⟩
abbrev main_call4_v0 : Ref sig .tc := ⟨.hbm, 89, rfl⟩
abbrev main_call4_v1 : Ref sig .tc := ⟨.hbm, 90, rfl⟩
abbrev main_call4_cst_0 : Ref sig .tc := ⟨.hbm, 91, rfl⟩
abbrev main_call4_v2 : Ref sig .tc := ⟨.hbm, 92, rfl⟩
abbrev main_call4_v3 : Ref sig .tc := ⟨.hbm, 93, rfl⟩
abbrev main_call4_cst_1 : Ref sig .tc := ⟨.hbm, 94, rfl⟩
abbrev main_call4_call0_v0 : Ref sig .tc := ⟨.hbm, 95, rfl⟩
abbrev main_call4_call0_v1 : Ref sig .tc := ⟨.hbm, 96, rfl⟩
abbrev main_call4_v4 : Ref sig .tc := ⟨.hbm, 97, rfl⟩
abbrev main_call4_v5 : Ref sig .tc := ⟨.hbm, 98, rfl⟩
abbrev main_call4_cst_2 : Ref sig .tc := ⟨.hbm, 99, rfl⟩
abbrev main_call4_v6 : Ref sig .tc := ⟨.hbm, 100, rfl⟩
abbrev main_call4_v7 : Ref sig .tc := ⟨.hbm, 101, rfl⟩
abbrev main_v67 : Ref sig .tc := ⟨.hbm, 102, rfl⟩
abbrev main_v68 : Ref sig .tc := ⟨.hbm, 103, rfl⟩
abbrev main_cst_11 : Ref sig .tc := ⟨.hbm, 104, rfl⟩
abbrev main_v69 : Ref sig .tc := ⟨.hbm, 105, rfl⟩
abbrev main_v70 : Ref sig .tc := ⟨.hbm, 106, rfl⟩
abbrev main_cst_12 : Ref sig .tc := ⟨.hbm, 107, rfl⟩
abbrev main_v71 : Ref sig .tc := ⟨.hbm, 108, rfl⟩
abbrev main_v72 : Ref sig .tc := ⟨.hbm, 109, rfl⟩
abbrev main_cst_13 : Ref sig .tc := ⟨.hbm, 110, rfl⟩
abbrev main_v73 : Ref sig .tc := ⟨.hbm, 111, rfl⟩
abbrev main_v74 : Ref sig .tc := ⟨.hbm, 112, rfl⟩
abbrev main_v75 : Ref sig .tc := ⟨.hbm, 113, rfl⟩
abbrev main_v76 : Ref sig .tc := ⟨.hbm, 114, rfl⟩
abbrev main_v77 : Ref sig .tc := ⟨.hbm, 115, rfl⟩
abbrev main_v78 : Ref sig .tc := ⟨.hbm, 116, rfl⟩
abbrev main_v79 : Ref sig .tc := ⟨.hbm, 117, rfl⟩
abbrev main_v80 : Ref sig .tc := ⟨.hbm, 118, rfl⟩
abbrev main_v81 : Ref sig .tc := ⟨.hbm, 119, rfl⟩
abbrev main_v82 : Ref sig .tc := ⟨.hbm, 120, rfl⟩
abbrev main_cst_14 : Ref sig .tc := ⟨.hbm, 121, rfl⟩
abbrev main_v83 : Ref sig .tc := ⟨.hbm, 122, rfl⟩
abbrev main_v84 : Ref sig .tc := ⟨.hbm, 123, rfl⟩
abbrev main_cst_15 : Ref sig .tc := ⟨.hbm, 124, rfl⟩
abbrev main_v85 : Ref sig .tc := ⟨.hbm, 125, rfl⟩
abbrev main_v86 : Ref sig .tc := ⟨.hbm, 126, rfl⟩
abbrev main_cst_16 : Ref sig .tc := ⟨.hbm, 127, rfl⟩
abbrev main_v87 : Ref sig .tc := ⟨.hbm, 128, rfl⟩
abbrev main_v88 : Ref sig .tc := ⟨.hbm, 129, rfl⟩
abbrev main_v89 : Ref sig .tc := ⟨.hbm, 130, rfl⟩
abbrev main_v90 : Ref sig .tc := ⟨.hbm, 131, rfl⟩
abbrev main_v91 : Ref sig .tc := ⟨.hbm, 132, rfl⟩
abbrev main_v92 : Ref sig .tc := ⟨.hbm, 133, rfl⟩
abbrev main_v93 : Ref sig .tc := ⟨.hbm, 134, rfl⟩
abbrev main_v94 : Ref sig .tc := ⟨.hbm, 135, rfl⟩
abbrev main_v95 : Ref sig .tc := ⟨.hbm, 136, rfl⟩
abbrev main_v96 : Ref sig .tc := ⟨.hbm, 137, rfl⟩
abbrev main_v97 : Ref sig .tc := ⟨.hbm, 138, rfl⟩
abbrev main_v98 : Ref sig .tc := ⟨.hbm, 139, rfl⟩
abbrev main_v99 : Ref sig .tc := ⟨.hbm, 140, rfl⟩
abbrev main_v100 : Ref sig .tc := ⟨.hbm, 141, rfl⟩
abbrev main_call7_cst : Ref sig .tc := ⟨.hbm, 142, rfl⟩
abbrev main_call7_v0 : Ref sig .tc := ⟨.hbm, 143, rfl⟩
abbrev main_call7_v1 : Ref sig .tc := ⟨.hbm, 144, rfl⟩
abbrev main_call7_cst_0 : Ref sig .tc := ⟨.hbm, 145, rfl⟩
abbrev main_call7_v2 : Ref sig .tc := ⟨.hbm, 146, rfl⟩
abbrev main_call7_v3 : Ref sig .tc := ⟨.hbm, 147, rfl⟩
abbrev main_call7_cst_1 : Ref sig .tc := ⟨.hbm, 148, rfl⟩
abbrev main_call7_call0_v0 : Ref sig .tc := ⟨.hbm, 149, rfl⟩
abbrev main_call7_call0_v1 : Ref sig .tc := ⟨.hbm, 150, rfl⟩
abbrev main_call7_v4 : Ref sig .tc := ⟨.hbm, 151, rfl⟩
abbrev main_call7_v5 : Ref sig .tc := ⟨.hbm, 152, rfl⟩
abbrev main_call7_cst_2 : Ref sig .tc := ⟨.hbm, 153, rfl⟩
abbrev main_call7_v6 : Ref sig .tc := ⟨.hbm, 154, rfl⟩
abbrev main_call7_v7 : Ref sig .tc := ⟨.hbm, 155, rfl⟩
abbrev main_v101 : Ref sig .tc := ⟨.hbm, 156, rfl⟩
abbrev main_v102 : Ref sig .tc := ⟨.hbm, 157, rfl⟩
abbrev main_cst_17 : Ref sig .tc := ⟨.hbm, 158, rfl⟩
abbrev main_v103 : Ref sig .tc := ⟨.hbm, 159, rfl⟩
abbrev main_v104 : Ref sig .tc := ⟨.hbm, 160, rfl⟩
abbrev main_cst_18 : Ref sig .tc := ⟨.hbm, 161, rfl⟩
abbrev main_v105 : Ref sig .tc := ⟨.hbm, 162, rfl⟩
abbrev main_v106 : Ref sig .tc := ⟨.hbm, 163, rfl⟩
abbrev main_cst_19 : Ref sig .tc := ⟨.hbm, 164, rfl⟩
abbrev main_v107 : Ref sig .tc := ⟨.hbm, 165, rfl⟩
abbrev main_v108 : Ref sig .tc := ⟨.hbm, 166, rfl⟩
abbrev main_v109 : Ref sig .tc := ⟨.hbm, 167, rfl⟩
abbrev main_v110 : Ref sig .tc := ⟨.hbm, 168, rfl⟩
abbrev main_v111 : Ref sig .tc := ⟨.hbm, 169, rfl⟩
abbrev main_v112 : Ref sig .tc := ⟨.hbm, 170, rfl⟩
abbrev main_v113 : Ref sig .tc := ⟨.hbm, 171, rfl⟩
abbrev main_v114 : Ref sig .tc := ⟨.hbm, 172, rfl⟩
abbrev main_v115 : Ref sig .tc := ⟨.hbm, 173, rfl⟩
abbrev main_v116 : Ref sig .tc := ⟨.hbm, 174, rfl⟩
abbrev main_cst_20 : Ref sig .tc := ⟨.hbm, 175, rfl⟩
abbrev main_v117 : Ref sig .tc := ⟨.hbm, 176, rfl⟩
abbrev main_v118 : Ref sig .tc := ⟨.hbm, 177, rfl⟩
abbrev main_cst_21 : Ref sig .tc := ⟨.hbm, 178, rfl⟩
abbrev main_v119 : Ref sig .tc := ⟨.hbm, 179, rfl⟩
abbrev main_v120 : Ref sig .tc := ⟨.hbm, 180, rfl⟩
abbrev main_cst_22 : Ref sig .tc := ⟨.hbm, 181, rfl⟩
abbrev main_v121 : Ref sig .tc := ⟨.hbm, 182, rfl⟩
abbrev main_v122 : Ref sig .tc := ⟨.hbm, 183, rfl⟩
abbrev main_v123 : Ref sig .tc := ⟨.hbm, 184, rfl⟩
abbrev main_v124 : Ref sig .tc := ⟨.hbm, 185, rfl⟩
abbrev main_v125 : Ref sig .tc := ⟨.hbm, 186, rfl⟩
abbrev main_v126 : Ref sig .tc := ⟨.hbm, 187, rfl⟩
abbrev main_v127 : Ref sig .tc := ⟨.hbm, 188, rfl⟩
abbrev main_v128 : Ref sig .tc := ⟨.hbm, 189, rfl⟩
abbrev main_v129 : Ref sig .tc := ⟨.hbm, 190, rfl⟩
abbrev main_v130 : Ref sig .tc := ⟨.hbm, 191, rfl⟩
abbrev main_v131 : Ref sig .tc := ⟨.hbm, 192, rfl⟩
abbrev main_v132 : Ref sig .tc := ⟨.hbm, 193, rfl⟩
abbrev main_v133 : Ref sig .tc := ⟨.hbm, 194, rfl⟩
abbrev main_v134 : Ref sig .tc := ⟨.hbm, 195, rfl⟩
abbrev main_call10_cst : Ref sig .tc := ⟨.hbm, 196, rfl⟩
abbrev main_call10_v0 : Ref sig .tc := ⟨.hbm, 197, rfl⟩
abbrev main_call10_v1 : Ref sig .tc := ⟨.hbm, 198, rfl⟩
abbrev main_call10_v2 : Ref sig .tc := ⟨.hbm, 199, rfl⟩
abbrev main_call10_v3 : Ref sig .tc := ⟨.hbm, 200, rfl⟩
abbrev main_call10_v4 : Ref sig .tc := ⟨.hbm, 201, rfl⟩
abbrev main_call10_v5 : Ref sig .tc := ⟨.hbm, 202, rfl⟩
abbrev main_call10_v6 : Ref sig .tc := ⟨.hbm, 203, rfl⟩
abbrev main_call10_v7 : Ref sig .tc := ⟨.hbm, 204, rfl⟩
abbrev main_call10_v8 : Ref sig .tc := ⟨.hbm, 205, rfl⟩
abbrev main_call10_v9 : Ref sig .tc := ⟨.hbm, 206, rfl⟩
abbrev main_call10_v10 : Ref sig .tc := ⟨.hbm, 207, rfl⟩
abbrev main_call10_v11 : Ref sig .tc := ⟨.hbm, 208, rfl⟩
abbrev main_v135 : Ref sig .tc := ⟨.hbm, 209, rfl⟩

abbrev nD : Nat := 1
abbrev τ : Topo := Topo.v7x

variable {F : FTy → Type} [FloatOps F]

class Facts₀ : Prop where
  reducesTo_S262144x160_S262144_d1 : S262144x160.ReducesTo [1] S262144
  h_S_ : 0 < S_.numel
  bcast_S262144_S262144x1_0 : S262144.BroadcastsInDim S262144x1 (![0] : Fin 1 → Fin S262144x1.rank)
  bcast_S_S262144x1 : S_.BroadcastsInDim S262144x1 (![] : Fin 0 → Fin S262144x1.rank)
  bcast_S262144x1_S262144x160_0_1 : S262144x1.BroadcastsInDim S262144x160 (![0, 1] : Fin 2 → Fin S262144x160.rank)
  reducesTo_S40x160_S40_d1 : S40x160.ReducesTo [1] S40
  bcast_S40_S40x1_0 : S40.BroadcastsInDim S40x1 (![0] : Fin 1 → Fin S40x1.rank)
  bcast_S_S40x1 : S_.BroadcastsInDim S40x1 (![] : Fin 0 → Fin S40x1.rank)
  bcast_S40x1_S40x160_0_1 : S40x1.BroadcastsInDim S40x160 (![0, 1] : Fin 2 → Fin S40x160.rank)
  transposes_S40x160_S160x40_1_0 : S40x160.Transposes [1, 0] S160x40
  bcast_S40_S1x40_1 : S40.BroadcastsInDim S1x40 (![1] : Fin 1 → Fin S1x40.rank)
  bcast_S1x40_S262144x40_0_1 : S1x40.BroadcastsInDim S262144x40 (![0, 1] : Fin 2 → Fin S262144x40.rank)
  reducesTo_S262144x40_S262144_d1 : S262144x40.ReducesTo [1] S262144
  bcast_S262144x1_S262144x40_0_1 : S262144x1.BroadcastsInDim S262144x40 (![0, 1] : Fin 2 → Fin S262144x40.rank)
  reducesTo_S40x40_S40_d1 : S40x40.ReducesTo [1] S40
  bcast_S40x1_S40x40_0_1 : S40x1.BroadcastsInDim S40x40 (![0, 1] : Fin 2 → Fin S40x40.rank)
  transposes_S40x40_S40x40_1_0 : S40x40.Transposes [1, 0] S40x40
  bcast_S_S262144x40 : S_.BroadcastsInDim S262144x40 (![] : Fin 0 → Fin S262144x40.rank)
  reducesTo_S2x40_S2_d1 : S2x40.ReducesTo [1] S2
  bcast_S2_S2x1_0 : S2.BroadcastsInDim S2x1 (![0] : Fin 1 → Fin S2x1.rank)
  bcast_S_S2x1 : S_.BroadcastsInDim S2x1 (![] : Fin 0 → Fin S2x1.rank)
  bcast_S2x1_S2x40_0_1 : S2x1.BroadcastsInDim S2x40 (![0, 1] : Fin 2 → Fin S2x40.rank)
  transposes_S2x40_S40x2_1_0 : S2x40.Transposes [1, 0] S40x2
  bcast_S2_S1x2_1 : S2.BroadcastsInDim S1x2 (![1] : Fin 1 → Fin S1x2.rank)
  bcast_S1x2_S262144x2_0_1 : S1x2.BroadcastsInDim S262144x2 (![0, 1] : Fin 2 → Fin S262144x2.rank)
  bcast_S_S262144x2 : S_.BroadcastsInDim S262144x2 (![] : Fin 0 → Fin S262144x2.rank)
  dot_S262144x160_S160x40_S262144x40_1_0_0_1_n_n_wf : DotDims.WF S262144x160 S160x40 S262144x40 [1] [0] [0] [1] [] []
  dot_S262144x40_S40x40_S262144x40_1_0_0_1_n_n_wf : DotDims.WF S262144x40 S40x40 S262144x40 [1] [0] [0] [1] [] []
  dot_S262144x40_S40x2_S262144x2_1_0_0_1_n_n_wf : DotDims.WF S262144x40 S40x2 S262144x2 [1] [0] [0] [1] [] []

variable [Facts₀]

def dot_S262144x160_S160x40_S262144x40_1_0_0_1_n_n : DotDims S262144x160 S160x40 S262144x40 where
  lhsContracting := [1]
  rhsContracting := [0]
  lhsNonContracting := [0]
  rhsNonContracting := [1]
  lhsBatch := []
  rhsBatch := []
  wf := dot_S262144x160_S160x40_S262144x40_1_0_0_1_n_n_wf
def dot_S262144x40_S40x40_S262144x40_1_0_0_1_n_n : DotDims S262144x40 S40x40 S262144x40 where
  lhsContracting := [1]
  rhsContracting := [0]
  lhsNonContracting := [0]
  rhsNonContracting := [1]
  lhsBatch := []
  rhsBatch := []
  wf := dot_S262144x40_S40x40_S262144x40_1_0_0_1_n_n_wf
def dot_S262144x40_S40x2_S262144x2_1_0_0_1_n_n : DotDims S262144x40 S40x2 S262144x2 where
  lhsContracting := [1]
  rhsContracting := [0]
  lhsNonContracting := [0]
  rhsNonContracting := [1]
  lhsBatch := []
  rhsBatch := []
  wf := dot_S262144x40_S40x2_S262144x2_1_0_0_1_n_n_wf

class Facts : Prop extends Facts₀ where

variable [Facts]
-- ==== Proof.LibRealEntries.lean ====
/-
  Entries that are real numbers, and the array operations that keep them so (at the ideal instance, where a float is
  an extended real). A sum, a product, a maximum and a finite sum of real numbers are real; hence entrywise sums,
  products and maxima of arrays with real entries, their broadcasts, a gather from such an array (each result entry
  is an entry of the operand), an accumulating scatter of such updates into such an operand (each entry gains
  finitely many real updates), and a contraction of two such arrays (finite sums of real products from zero) all
  have real entries. The reciprocal square root of an extended real that is at least one is real (it is 0 at +∞), so a
  reciprocal square root of anything clamped below at one is real, whatever was clamped.
-/
import Idealize.ShloMosaic.PureOps.Ideal.Laws

noncomputable section

namespace Cert.LibRealEntries

open Idealize.ShloMosaic Idealize.ShloMosaic.TcCoe

/-- An extended real that is a real number. -/
def IsReal (x : EReal) : Prop := ∃ y : ℝ, x = (y : EReal)

theorem IsReal.zero : IsReal 0 := ⟨0, rfl⟩
theorem IsReal.one : IsReal 1 := ⟨1, rfl⟩
theorem IsReal.add {x y : EReal} (hx : IsReal x) (hy : IsReal y) : IsReal (x + y) := by
  obtain ⟨a, rfl⟩ := hx; obtain ⟨b, rfl⟩ := hy; exact ⟨a + b, (EReal.coe_add a b).symm⟩
theorem IsReal.mul {x y : EReal} (hx : IsReal x) (hy : IsReal y) : IsReal (x * y) := by
  obtain ⟨a, rfl⟩ := hx; obtain ⟨b, rfl⟩ := hy; exact ⟨a * b, (EReal.coe_mul a b).symm⟩
theorem IsReal.max {x y : EReal} (hx : IsReal x) (hy : IsReal y) : IsReal (max x y) := by
  obtain ⟨a, rfl⟩ := hx; obtain ⟨b, rfl⟩ := hy; exact ⟨Max.max a b, (EReal.coe_strictMono.monotone.map_max).symm⟩
theorem IsReal.sum {ι : Type} (s : Finset ι) (f : ι → EReal) (h : ∀ i ∈ s, IsReal (f i)) : IsReal (∑ i ∈ s, f i) :=
  Finset.sum_induction f IsReal (fun _ _ => IsReal.add) IsReal.zero h

/-- The reciprocal square root of an extended real that is at least one is a real number. -/
theorem isReal_rsqrt_of_one_le {x : EReal} (h : 1 ≤ x) : IsReal (Ideal.rsqrt x) := by
  induction x using EReal.rec with
  | bot =>
    have hlt : (⊥ : EReal) < 1 := by exact_mod_cast EReal.bot_lt_coe 1
    exact absurd h (not_le.mpr hlt)
  | top => exact ⟨0, rfl⟩
  | coe r =>
    have hr : (1 : ℝ) ≤ r := by exact_mod_cast h
    show IsReal (if r < 0 then ⊥ else if r = 0 then ⊤ else (((Real.sqrt r)⁻¹ : ℝ) : EReal))
    rw [if_neg (by linarith), if_neg (by linarith)]
    exact ⟨_, rfl⟩

theorem isReal_zero_word : IsReal (Ideal.ofBits .f32 0x00000000#32) := by
  rw [Ideal.ofBits_zero_f32]; exact IsReal.zero

/-! ## The operations keep entries real (any shapes) -/

section Generic
variable {s t si u sl sr so : Shape} {w : Nat}

theorem real_maximumf (a b : FVec Ideal s .f32) (ha : ∀ i, IsReal (a i)) (hb : ∀ i, IsReal (b i)) (i : s.Idx) :
    IsReal (maximumf a b i) := (ha i).max (hb i)
theorem real_addf (a b : FVec Ideal s .f32) (ha : ∀ i, IsReal (a i)) (hb : ∀ i, IsReal (b i)) (i : s.Idx) :
    IsReal (addf a b i) := (ha i).add (hb i)
theorem real_mulf (a b : FVec Ideal s .f32) (ha : ∀ i, IsReal (a i)) (hb : ∀ i, IsReal (b i)) (i : s.Idx) :
    IsReal (mulf a b i) := (ha i).mul (hb i)
theorem real_bcast (dims : Fin s.rank → Fin t.rank) (h : s.BroadcastsInDim t dims) (x : FVec Ideal s .f32)
    (hx : ∀ i, IsReal (x i)) (j : t.Idx) : IsReal (broadcastInDim t dims h x j) := hx _
theorem real_gather (d : GatherDims s si t) (x : FVec Ideal s .f32) (idx : IVec si w) (hx : ∀ i, IsReal (x i)) (j : t.Idx) :
    IsReal (Host.gather d x idx j) := hx _
theorem real_scatterAdd (d : ScatterDims s si u) (x : FVec Ideal s .f32) (idx : IVec si w) (upd : FVec Ideal u .f32)
    (hx : ∀ i, IsReal (x i)) (hu : ∀ j, IsReal (upd j)) (i : s.Idx) : IsReal (Host.scatterAdd d x idx upd i) :=
  (hx i).add (IsReal.sum _ _ fun j _ => hu j)
theorem real_dot (d : DotDims sl sr so) (prec : Option ContractPrecision) (l : FVec Ideal sl .f32) (r : FVec Ideal sr .f32)
    (hl : ∀ i, IsReal (l i)) (hr : ∀ i, IsReal (r i)) (j : so.Idx) : IsReal (Host.dotGeneral d prec l r j) :=
  IsReal.zero.add (IsReal.sum _ _ fun k _ => (hl _).mul (hr _))
/-- A reciprocal square root of a value clamped below at one. -/
theorem real_rsqrt_clamp (one y : FVec Ideal s .f32) (h1 : ∀ i, one i = 1) (i : s.Idx) :
    IsReal (Host.rsqrt (maximumf one y) i) := by
  show IsReal (Ideal.rsqrt (Max.max (one i) (y i)))
  rw [h1 i]; exact isReal_rsqrt_of_one_le (le_max_left _ _)

end Generic

end Cert.LibRealEntries

end
-- ==== Proof.LibQuant.lean ====
/-
  Row-wise absmax quantisation ("fake int8") of a dense layer, on the extended reals.

  A row `x` of length `n` has greatest magnitude `amax x`; its quantisation step is `amax x / 127` clamped below by a
  small positive floor; an entry is quantised to the nearest integer multiple of the step (ties to even).  A dense layer
  may multiply the quantised-and-rescaled operands (`layerR`), or multiply the integer parts and apply the two steps after
  the sum (`layerK`); for real operands the two agree, because a real factor moves across a finite sum of reals.  The
  file also has the two spellings of the exponential linear unit and of the soft-plus that such a network uses, and the
  four-layer network on one input row in both arrangements with the law that they agree on real data.
-/
import Idealize.ShloMosaic.PureOps.Ideal.Laws
import Idealize.ShloMosaic.Lib.ValueIdx
import proofs.«101763_j14748917694594_2_alg».proof.Proof.LibRealEntries

noncomputable section

open scoped BigOperators

namespace Cert.LibQuant

open Idealize.ShloMosaic Cert.LibRealEntries

/-! ## The float words the programs carry -/

/-- The floor of a quantisation step: the float nearest `1e-8`. -/
def eps : EReal := Ideal.ofBits .f32 0x322BCC77#32
/-- The float `127`. -/
def w127 : EReal := Ideal.ofBits .f32 0x42FE0000#32
/-- The float `1`. -/
def w1 : EReal := Ideal.ofBits .f32 0x3F800000#32
/-- The float `0`. -/
def w0 : EReal := Ideal.ofBits .f32 0x00000000#32
/-- The exact reciprocal of 127. -/
def r127 : EReal := ((1 / 127 : ℝ) : EReal)

/-- Rounding to the nearest integer, ties to even. -/
def rnd (v : EReal) : EReal := Ideal.liftRound Ideal.roundHalfEven v

/-! ## One row -/

/-- The greatest magnitude of a row (`⊥` for an empty row). -/
def amax {n : ℕ} (x : Fin n → EReal) : EReal := Finset.univ.sup fun k => max (x k) (-(x k))

/-- A row's quantisation step, the quotient spelling: `max (amax x / 127) eps`. -/
def step {n : ℕ} (x : Fin n → EReal) : EReal := max (Ideal.div (amax x) w127) eps

/-- A row's quantisation step, the product spelling: `max (amax x * c) eps` (`c` the reciprocal of 127). -/
def stepMul {n : ℕ} (c : EReal) (x : Fin n → EReal) : EReal := max (amax x * c) eps

/-- An entry's integer part: the entry over the row's step, rounded. -/
def qv {n : ℕ} (x : Fin n → EReal) (k : Fin n) : EReal := rnd (Ideal.div (x k) (step x))

/-- The same with the product spelling of the step. -/
def qvMul {n : ℕ} (c : EReal) (x : Fin n → EReal) (k : Fin n) : EReal := rnd (Ideal.div (x k) (stepMul c x))

/-- The quantised entry in the straight-through spelling `x + (q * s - x)`. -/
def fq {n : ℕ} (x : Fin n → EReal) (k : Fin n) : EReal := x k + (qv x k * step x - x k)

/-! ## One output of a dense layer -/

/-- Quantise both operands, rescale each, multiply, sum, add the bias. -/
def layerR {k : ℕ} (x w : Fin k → EReal) (b : EReal) : EReal := (∑ j, fq x j * fq w j) + b

/-- Multiply the integer parts, sum, then apply the activation's step, the weight's step and the bias.  The weight row
    arrives already split into its integer parts `wq` and its step `sw`. -/
def layerKq {k : ℕ} (c : EReal) (x wq : Fin k → EReal) (sw b : EReal) : EReal :=
  ((∑ j, qvMul c x j * wq j) * stepMul c x) * sw + b

/-! ## The activations, each in its two spellings -/

/-- `v` where it is positive, `exp (min v 0) - 1` elsewhere. -/
def eluK (v : EReal) : EReal := Scalar.select (Ideal.cmp .ogt v w0) v (Ideal.exp (min v w0) - w1)

/-- `v` where it is positive, `1 * expm1 (v where it is not positive, 0 elsewhere)` elsewhere. -/
def eluR (v : EReal) : EReal :=
  Scalar.select (Ideal.cmp .ogt v w0) v (w1 * (Ideal.exp (Scalar.select (Ideal.cmp .ogt v w0) w0 v) - 1))

/-- Soft-plus as `max v 0 + log1p (exp (-|v - 0|))`, the magnitude negated by subtraction from zero, behind a test
    "`v - 0` differs from itself" (ordered spelling) that selects `v + 0`; no extended real differs from itself. -/
def spK (v : EReal) : EReal :=
  Scalar.select (Ideal.cmp .one (v - w0) (v - w0)) (v + w0)
    (max v w0 + Ideal.log1p (Ideal.exp (w0 - max (v - w0) (-(v - w0)))))

/-- The same with the magnitude negated outright and the test in its unordered spelling. -/
def spR (v : EReal) : EReal :=
  Scalar.select (Ideal.cmp .une (v - w0) (v - w0)) (v + w0)
    (max v w0 + Ideal.log1p (Ideal.exp (-(max (v - w0) (-(v - w0))))))

/-! ## The four-layer network on one input row -/

section net
variable (c : EReal)
variable (x : Fin 160 → EReal)

/-- The network in the integer-product arrangement.  Each weight matrix arrives as its integer parts (indexed input
    first, output second: `q k o`), its per-output steps and its bias. -/
def netK (q1 : Fin 160 → Fin 40 → EReal) (s1 b1 : Fin 40 → EReal)
    (q2 : Fin 40 → Fin 40 → EReal) (s2 b2 : Fin 40 → EReal)
    (q3 : Fin 40 → Fin 40 → EReal) (s3 b3 : Fin 40 → EReal)
    (q4 : Fin 40 → Fin 2 → EReal) (s4 b4 : Fin 2 → EReal) (o : Fin 2) : EReal :=
  let h1 : Fin 40 → EReal := fun a => Ideal.tanh (layerKq c x (fun k => q1 k a) (s1 a) (b1 a))
  let h2 : Fin 40 → EReal := fun a => eluK (layerKq c h1 (fun k => q2 k a) (s2 a) (b2 a))
  let h3 : Fin 40 → EReal := fun a => eluK (layerKq c h2 (fun k => q3 k a) (s3 a) (b3 a))
  spK (layerKq c h3 (fun k => q4 k o) (s4 o) (b4 o))

/-- The network in the rescale-then-multiply arrangement, over the raw weights (`W a k`: output first, input second). -/
def netR (W1 : Fin 40 → Fin 160 → EReal) (b1 : Fin 40 → EReal)
    (W2 : Fin 40 → Fin 40 → EReal) (b2 : Fin 40 → EReal)
    (W3 : Fin 40 → Fin 40 → EReal) (b3 : Fin 40 → EReal)
    (W4 : Fin 2 → Fin 40 → EReal) (b4 : Fin 2 → EReal) (o : Fin 2) : EReal :=
  let h1 : Fin 40 → EReal := fun a => Ideal.tanh (layerR x (W1 a) (b1 a))
  let h2 : Fin 40 → EReal := fun a => eluR (layerR h1 (W2 a) (b2 a))
  let h3 : Fin 40 → EReal := fun a => eluR (layerR h2 (W3 a) (b3 a))
  spR (layerR h3 (W4 o) (b4 o))

end net

end Cert.LibQuant

end
-- ==== Proof.LibRowMax.lean ====
/-
  The maximum of a two-axis array along its second axis, read at a row: over the extended reals, started from the word
  of −∞ (which denotes the least extended real), the maximum of an `[a, b]` array along its columns is at row `i` the
  supremum over the columns `k` of the entries `(i, k)`.  It holds for any extents.
-/
import Idealize.ShloMosaic.Lib.ValueIdx
import Idealize.ShloMosaic.PureOps.Ideal.Laws

noncomputable section

open scoped BigOperators

namespace Cert.LibRowMax

open Idealize.ShloMosaic Idealize.ShloMosaic.ValueIdx

/-- The f32 word of −∞ denotes the least extended real. -/
theorem ofBits_neg_inf_f32 : Ideal.ofBits .f32 0xFF800000#32 = (⊥ : EReal) := by
  simp [Ideal.ofBits, Ideal.ieee]

/-- A fold of `max` from the least element is the supremum. -/
theorem fold_max_bot_eq_sup {ι : Type*} (s : Finset ι) (f : ι → EReal) : s.fold max ⊥ f = s.sup f := rfl

/-- Over the extended reals, the maximum of an `[a, b]` array along its second axis, started from the word of −∞, is
    at row `i` the supremum over the columns `k` of the entries `(i, k)`. -/
theorem multiReduction_max_rows_apply {a b : ℕ} (src : FVec Ideal ⟨2, ![a, b]⟩ .f32)
    (h : (⟨2, ![a, b]⟩ : Shape).Reduces [1] ⟨1, ![a]⟩) (hφ : FKind.Formats .f32)
    (hacc : (0xFF800000#32 : BitVec 32) = FKind.maximumf.neutral .f32 hφ) (i : Fin a) :
    multiReduction .maximumf [1] ⟨1, ![a]⟩ src 0xFF800000#32 h hφ hacc (ix1 i)
      = Finset.univ.sup fun k : Fin b => src (ix2 i k) := by
  refine (Ideal.multiReduction_maximumf_single src 0xFF800000#32 h hφ hacc (ix1 i)).trans ?_
  have hf : (src ∘ h.lift (ix1 i)) = fun k : Fin b => src (ix2 i k) :=
    funext fun k => congrArg src (funext fun ax => Fin.ext (by
      match ax with
      | ⟨0, _⟩ => rfl
      | ⟨1, _⟩ => rfl))
  rw [hf]
  show (Finset.univ : Finset (Fin b)).fold max (Ideal.ofBits .f32 0xFF800000#32) _ = _
  rw [ofBits_neg_inf_f32]
  exact fold_max_bot_eq_sup _ _

end Cert.LibRowMax

end
-- ==== Proof.LibKeepdims.lean ====
/-
  Three layout facts a row reduction with kept dimensions meets, each read at an entry given by its coordinates:
  a vector of per-row values viewed as a one-column array, a one-column array spread across the columns of each
  row, and the sum along the second axis of a two-axis array.  They hold for arrays of any extents `[a]`,
  `[a, 1]`, `[a, b]` and, the first two, for entries of any type.
-/
import Idealize.ShloMosaic.Lib.Pipeline.Value
import Idealize.ShloMosaic.Lib.ValueIdx
import Idealize.ShloMosaic.PureOps.Ideal.Laws

noncomputable section

open scoped BigOperators

namespace Cert.LibKeepdims

open Idealize.ShloMosaic Idealize.ShloMosaic.ValueIdx

variable {α : Type}

/-- An `[a]` array cast to `[a, 1]` reads, at `(i, u)`, the operand at `i`: both sit at row-major position `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` array broadcast to `[a, b]` reads, at `(i, j)`, the operand's one entry of row `i`. -/
theorem broadcastTo_a1_ab_apply {a b : ℕ} (v : (⟨2, ![a, 1]⟩ : Shape).Idx → α) (h : (⟨2, ![a, 1]⟩ : Shape).Broadcasts ⟨2, ![a, b]⟩)
    (i : Fin a) (j : Fin b) : broadcastTo ⟨2, ![a, b]⟩ v h (ix2 i j) = v (ix2 i (0 : Fin 1)) := by
  refine broadcastTo_apply v h (ix2 i j) (ix2 i (0 : Fin 1)) fun ax => ?_
  match ax with
  | ⟨0, _⟩ =>
    show i.val = if a = 1 then 0 else i.val
    split
    · have := i.isLt; omega
    · rfl
  | ⟨1, _⟩ => rfl

/-- Over the extended reals, the sum of a `[a, b]` array along its second axis, started from the zero word, is at
    row `i` the sum over the columns `k` of the entries `(i, k)`. -/
theorem multiReduction_add_rows_apply {a b : ℕ} (src : FVec Ideal ⟨2, ![a, b]⟩ .f32)
    (h : (⟨2, ![a, b]⟩ : Shape).Reduces [1] ⟨1, ![a]⟩) (hφ : FKind.Formats .f32)
    (hacc : (0x00000000#32 : BitVec 32) = FKind.add.neutral .f32 hφ) (i : Fin a) :
    multiReduction .add [1] ⟨1, ![a]⟩ src 0x00000000#32 h hφ hacc (ix1 i) = ∑ k : Fin b, src (ix2 i k) := by
  refine (Ideal.multiReduction_add_single src 0x00000000#32 h hφ hacc (ix1 i)).trans ?_
  refine Finset.sum_congr rfl fun k _ => congrArg src ?_
  funext ax
  apply Fin.ext
  match ax with
  | ⟨0, _⟩ => rfl
  | ⟨1, _⟩ => rfl

end Cert.LibKeepdims

end
-- ==== Proof.LibRowLayout.lean ====
/-
  Two layout facts about one-row arrays, each read at an entry given by its coordinates: a one-row array `[1, b]`
  spread over the rows of an `[a, b]` array, and a vector `[b]` viewed as a one-row array `[1, b]`.  They hold for
  any extents and for entries of any type.  (The companions for one-column arrays are the keepdims facts.)
-/
import Idealize.ShloMosaic.Lib.Pipeline.Value
import Idealize.ShloMosaic.Lib.ValueIdx

noncomputable section

namespace Cert.LibRowLayout

open Idealize.ShloMosaic Idealize.ShloMosaic.ValueIdx

/-- A `[1, b]` row spread over `a` rows reads, at `(i, j)`, the row's entry `j`. -/
theorem broadcastTo_1b_ab_apply {α : Type} {a b : ℕ} (v : (⟨2, ![1, b]⟩ : Shape).Idx → α)
    (h : (⟨2, ![1, b]⟩ : Shape).Broadcasts ⟨2, ![a, b]⟩) (i : Fin a) (j : Fin b) :
    broadcastTo ⟨2, ![a, b]⟩ v h (ix2 i j) = v (ix2 (0 : Fin 1) j) := by
  refine broadcastTo_apply v h (ix2 i j) (ix2 (0 : Fin 1) j) fun ax => ?_
  match ax with
  | ⟨0, _⟩ => rfl
  | ⟨1, _⟩ =>
    show j.val = if b = 1 then 0 else j.val
    split
    · have := j.isLt; omega
    · rfl

/-- A `[b]` vector viewed as a one-row array reads, at `(u, j)`, the vector's entry `j`: both sit at row-major position `j`. -/
theorem shapeCast_b_1b_apply {α : Type} {b : ℕ} (x : (⟨1, ![b]⟩ : Shape).Idx → α) (h : (⟨1, ![b]⟩ : Shape).ShapeCasts ⟨2, ![1, b]⟩)
    (u : Fin 1) (j : Fin b) : shapeCast ⟨2, ![1, b]⟩ x h (ix2 u j) = x (ix1 j) :=
  shapeCast_apply x h _ _ (by
    have hu : u.val = 0 := by omega
    rw [Shape.rowMajor_val_two, Shape.rowMajor_val_one]
    show j.val = u.val * b + j.val
    rw [hu, Nat.zero_mul, Nat.zero_add])

end Cert.LibRowLayout

end
-- ==== Proof.LibPlainDot.lean ====
/-
  A plain matrix product read at an entry.

  A contraction whose dimension numbers say "the second axis of an [A, K] operand against the first axis of a [K, B]
  operand, no batch axis, result [A, B]" reads its left operand at (row of the result, k) and its right operand at
  (k, column of the result), `k` ranging over the one contracted axis.  So the sum over the contraction index of the
  operands' products, at result entry (p, c), is `Σ_{k < K} l (p, k) · r (k, c)`; a `tpu.matmul` into the zero splat
  is exactly that sum at the ideal values.  Generic in A, K, B and in the record: the hypotheses are the record's six lists.
-/
import Idealize.ShloMosaic.PureOps.Ideal.Laws
import Idealize.ShloMosaic.Lib.ValueIdx

noncomputable section

namespace Cert.LibPlainDot

open Idealize.ShloMosaic Idealize.ShloMosaic.ValueIdx

/-- The dimension numbers of a plain product `[A, K] × [K, B] → [A, B]`. -/
structure Plain {A K B : Nat} (D : DotDims ⟨2, ![A, K]⟩ ⟨2, ![K, B]⟩ ⟨2, ![A, B]⟩) : Prop where
  lc : D.lhsContracting = [1]
  rc : D.rhsContracting = [0]
  ln : D.lhsNonContracting = [0]
  rn : D.rhsNonContracting = [1]
  lb : D.lhsBatch = []
  rb : D.rhsBatch = []

variable {A K B : Nat} {D : DotDims ⟨2, ![A, K]⟩ ⟨2, ![K, B]⟩ ⟨2, ![A, B]⟩}

/-- One axis is contracted. -/
theorem Plain.rank (h : Plain D) : D.contr.rank = 1 := by rw [D.rank_contr, h.lc]; rfl

/-- Its extent is `K`. -/
theorem Plain.size (h : Plain D) : D.contr.size ⟨0, by rw [h.rank]; exact Nat.one_pos⟩ = K := by
  rw [D.size_contr 0 (by rw [h.lc]; exact Nat.one_pos)]
  simp only [h.lc, List.getElem_cons_zero]
  rfl

/-- The left operand is read at the result's row … -/
theorem Plain.lhs0 (h : Plain D) (j : (⟨2, ![A, B]⟩ : Shape).Idx) (q : D.contr.Idx) : (D.lhsIdx j q 0).val = (j 0).val := by
  unfold DotDims.lhsIdx
  rw [dif_neg (by rw [h.lb]; exact List.not_mem_nil), dif_pos (by rw [h.ln]; exact List.mem_singleton.mpr rfl)]
  simp only [Fin.val_cast]
  have key : ∀ (a b : Nat) (ha : a < (⟨2, ![A, B]⟩ : Shape).rank) (hb : b < (⟨2, ![A, B]⟩ : Shape).rank), a = b →
      (j ⟨a, ha⟩).val = (j ⟨b, hb⟩).val := fun a b ha hb e => by subst e; rfl
  exact key _ _ _ _ (by simp [h.lb, h.ln])

/-- … and the contraction position, -/
theorem Plain.lhs1 (h : Plain D) (j : (⟨2, ![A, B]⟩ : Shape).Idx) (q : D.contr.Idx) :
    (D.lhsIdx j q 1).val = (q ⟨0, by rw [h.rank]; exact Nat.one_pos⟩).val :=
  D.lhsIdx_val_of_single h.lc j q

/-- the right operand at the contraction position … -/
theorem Plain.rhs0 (h : Plain D) (j : (⟨2, ![A, B]⟩ : Shape).Idx) (q : D.contr.Idx) :
    (D.rhsIdx j q 0).val = (q ⟨0, by rw [h.rank]; exact Nat.one_pos⟩).val :=
  D.rhsIdx_val_of_single h.rc j q

/-- … and the result's column. -/
theorem Plain.rhs1 (h : Plain D) (j : (⟨2, ![A, B]⟩ : Shape).Idx) (q : D.contr.Idx) : (D.rhsIdx j q 1).val = (j 1).val := by
  unfold DotDims.rhsIdx
  rw [dif_neg (by rw [h.rb]; exact List.not_mem_nil), dif_pos (by rw [h.rn]; exact List.mem_singleton.mpr rfl)]
  simp only [Fin.val_cast]
  have key : ∀ (a b : Nat) (ha : a < (⟨2, ![A, B]⟩ : Shape).rank) (hb : b < (⟨2, ![A, B]⟩ : Shape).rank), a = b →
      (j ⟨a, ha⟩).val = (j ⟨b, hb⟩).val := fun a b ha hb e => by subst e; rfl
  exact key _ _ _ _ (by simp [h.lb, h.ln, h.rn])

/-- The contraction sum at result entry `(p, c)` is `Σ_k l (p, k) · r (k, c)`. -/
theorem Plain.sum_eq (h : Plain D) (l : (⟨2, ![A, K]⟩ : Shape).Idx → EReal) (r : (⟨2, ![K, B]⟩ : Shape).Idx → EReal)
    (p : Fin A) (c : Fin B) :
    ∑ q : D.contr.Idx, l (D.lhsIdx (ix2 p c) q) * r (D.rhsIdx (ix2 p c) q) = ∑ k : Fin K, l (ix2 p k) * r (ix2 k c) := by
  rw [← Equiv.sum_comp (contrEquiv1 D K h.rank h.size).symm]
  refine Finset.sum_congr rfl fun k _ => ?_
  have hk := contrEquiv1_symm_val D K h.rank h.size k
  have el : D.lhsIdx (ix2 p c) ((contrEquiv1 D K h.rank h.size).symm k) = ix2 p k := funext fun a => Fin.ext (by
    match a with
    | ⟨0, _⟩ => exact h.lhs0 _ _
    | ⟨1, _⟩ => exact (h.lhs1 _ _).trans hk)
  have er : D.rhsIdx (ix2 p c) ((contrEquiv1 D K h.rank h.size).symm k) = ix2 k c := funext fun a => Fin.ext (by
    match a with
    | ⟨0, _⟩ => exact (h.rhs0 _ _).trans hk
    | ⟨1, _⟩ => exact h.rhs1 _ _)
  rw [el, er]

/-- A `tpu.matmul` of such dimension numbers into the zero accumulator, at the ideal values, read at `(p, c)`. -/
theorem Plain.matmul_zero_apply (h : Plain D) (prec : Option ContractPrecision)
    (l : FVec Ideal ⟨2, ![A, K]⟩ .f32) (r : FVec Ideal ⟨2, ![K, B]⟩ .f32) (p : Fin A) (c : Fin B) :
    FloatOps.matmul D prec l r (constant ⟨2, ![A, B]⟩ .f32 0x00000000#32) (ix2 p c) = ∑ k : Fin K, l (ix2 p k) * r (ix2 k c) :=
  (Ideal.matmul_constant_zero_apply D prec l r (ix2 p c)).trans (h.sum_eq l r p c)

/-- A host `dot_general` of such dimension numbers, at the ideal values, read at `(p, c)`. -/
theorem Plain.dotGeneral_apply (h : Plain D) (prec : Option ContractPrecision) (sched : HostSchedule)
    (l : FVec Ideal ⟨2, ![A, K]⟩ .f32) (r : FVec Ideal ⟨2, ![K, B]⟩ .f32) (p : Fin A) (c : Fin B) :
    FloatOps.dotGeneral D prec sched l r (ix2 p c) = ∑ k : Fin K, l (ix2 p k) * r (ix2 k c) :=
  (Ideal.dotGeneral_apply D prec sched l r (ix2 p c)).trans (h.sum_eq l r p c)

end Cert.LibPlainDot

end
-- ==== Proof.LibPlainDotFormats.lean ====
/-
  A plain matrix product `[A, K] × [K, B] → [A, B]` into the zero accumulator read at an entry, for operands of ANY
  float formats: over the extended reals a format only names the set the entries came from, so the sum
  `Σ_{k < K} l (p, k) · r (k, c)` is the same whatever the two formats are.
-/
import proofs.«101763_j14748917694594_2_alg».proof.Proof.LibPlainDot

noncomputable section

namespace Cert.LibPlainDot

open Idealize.ShloMosaic Idealize.ShloMosaic.ValueIdx

variable {A K B : Nat} {D : DotDims ⟨2, ![A, K]⟩ ⟨2, ![K, B]⟩ ⟨2, ![A, B]⟩}

/-- A `tpu.matmul` of plain dimension numbers into the zero accumulator, at the ideal values, read at `(p, c)`,
    whatever the operands' formats. -/
theorem Plain.matmul_zero_apply_formats (h : Plain D) (prec : Option ContractPrecision) {φ₁ φ₂ : FTy}
    (l : FVec Ideal ⟨2, ![A, K]⟩ φ₁) (r : FVec Ideal ⟨2, ![K, B]⟩ φ₂) (p : Fin A) (c : Fin B) :
    FloatOps.matmul D prec l r (constant ⟨2, ![A, B]⟩ .f32 0x00000000#32) (ix2 p c) = ∑ k : Fin K, l (ix2 p k) * r (ix2 k c) :=
  (Ideal.matmul_constant_zero_apply D prec l r (ix2 p c)).trans (h.sum_eq l r p c)

end Cert.LibPlainDot

end
-- ==== Proof.KernelPayload.lean ====
/-
  The result block of the network's kernel body, read at an entry.

  The body takes one block of 4096 input rows of length 160 and, per layer, an integer weight matrix, a row of weight
  steps and a row of biases.  Each of its four layers finds every row's greatest magnitude, turns it into the row's
  quantisation step (the magnitude times the reciprocal of 127, floored by a small positive number), divides the row
  by the step and rounds to integers, multiplies the integer row into the integer weight matrix, and then applies the
  row's step, the weight steps and the bias; the activations are the hyperbolic tangent, the exponential linear unit
  twice, and the soft-plus.  Read at row p and output o, the block is the four-layer network in the integer-product
  arrangement applied to row p.
-/
import proofs.«101763_j14748917694594_2_alg».proof.Proof.Gen.KernelIdeal.Frame
import proofs.«101763_j14748917694594_2_alg».proof.Proof.LibQuant
import proofs.«101763_j14748917694594_2_alg».proof.Proof.LibRowMax
import proofs.«101763_j14748917694594_2_alg».proof.Proof.LibKeepdims
import proofs.«101763_j14748917694594_2_alg».proof.Proof.LibRowLayout
import proofs.«101763_j14748917694594_2_alg».proof.Proof.LibPlainDotFormats
import Idealize.ShloMosaic.Lib.Pipeline.Value
import Idealize.ShloMosaic.Lib.ValueIdx
import Idealize.ShloMosaic.PureOps.IdealRules

noncomputable section

open scoped BigOperators

namespace Cert.KernelIdeal.Pay

open Idealize.ShloMosaic Idealize.ShloMosaic.ValueIdx Cert.KernelIdeal Cert.KernelIdeal.Gen

/-! ## The named reciprocal -/

/-- The body's named reciprocal denotes the rational 1/127. -/
theorem inv127 : Named.named (F := Ideal) Cert.KernelIdeal.κ "inv_127" (φ := .f32) 0x3C010204#32 = Cert.LibQuant.r127 :=
  IdealRules.named_const.ideal_named_scalar _ _ _ _ rfl

/-! ## One quantised layer over arrays of any extents -/

section anyExtents
variable {a k d : ℕ}

/-- A row's step as the body spells it: the greatest magnitude along the row, kept as a one-column array, times a
    constant, floored by the small positive word.  Read at row `p` it is the step of that row. -/
theorem rowStep_apply (h : FVec Ideal ⟨2, ![a, k]⟩ .f32)
    (hr : (⟨2, ![a, k]⟩ : Shape).Reduces [1] ⟨1, ![a]⟩) (hφ : FKind.Formats .f32)
    (hacc : (0xFF800000#32 : BitVec 32) = FKind.maximumf.neutral .f32 hφ)
    (hc : (⟨1, ![a]⟩ : Shape).ShapeCasts ⟨2, ![a, 1]⟩) (c : Ideal .f32) (p : Fin a) (u : Fin 1) :
    maximumf (F := Ideal) (φ := .f32)
        (mulf (F := Ideal) (φ := .f32)
          (shapeCast ⟨2, ![a, 1]⟩ (multiReduction .maximumf [1] ⟨1, ![a]⟩ (absf h) 0xFF800000#32 hr hφ hacc) hc)
          (broadcast ⟨2, ![a, 1]⟩ c))
        (broadcast ⟨2, ![a, 1]⟩ (Scalar.ofBits .f32 0x322BCC77#32)) (ix2 p u)
      = Cert.LibQuant.stepMul c (fun j => h (ix2 p j)) := by
  show max (shapeCast ⟨2, ![a, 1]⟩ (multiReduction .maximumf [1] ⟨1, ![a]⟩ (absf h) 0xFF800000#32 hr hφ hacc) hc (ix2 p u) * c)
      (Ideal.ofBits .f32 0x322BCC77#32) = _
  rw [Cert.LibKeepdims.shapeCast_a_a1_apply, Cert.LibRowMax.multiReduction_max_rows_apply]
  rfl

/-- The integer product of a layer: the activations over the row's step, rounded (a change of float format is the
    identity), times the integer weights into the zero accumulator.  Read at `(p, c)`. -/
theorem quantDot_apply {D : DotDims ⟨2, ![a, k]⟩ ⟨2, ![k, d]⟩ ⟨2, ![a, d]⟩} (hD : Cert.LibPlainDot.Plain D)
    (h : FVec Ideal ⟨2, ![a, k]⟩ .f32) (st : FVec Ideal ⟨2, ![a, 1]⟩ .f32)
    (hb : (⟨2, ![a, 1]⟩ : Shape).Broadcasts ⟨2, ![a, k]⟩) (hlt : FTy.bits .bf16 < FTy.bits .f32)
    (wq : FVec Ideal ⟨2, ![k, d]⟩ .bf16) (hcw : (⟨2, ![k, d]⟩ : Shape).ShapeCasts ⟨2, ![k, d]⟩)
    (p : Fin a) (c : Fin d) :
    matmul D none (truncf .bf16 (roundeven (divf h (broadcastTo ⟨2, ![a, k]⟩ st hb))) hlt)
        (shapeCast ⟨2, ![k, d]⟩ wq hcw) (constant ⟨2, ![a, d]⟩ .f32 0x00000000#32) (ix2 p c)
      = ∑ j : Fin k, Cert.LibQuant.rnd (Ideal.div (h (ix2 p j)) (st (ix2 p 0))) * wq (ix2 j c) := by
  refine (hD.matmul_zero_apply_formats none _ _ p c).trans ?_
  refine Finset.sum_congr rfl fun j _ => ?_
  rw [shapeCast_self]
  show Ideal.liftRound Ideal.roundHalfEven (Ideal.div (h (ix2 p j)) (broadcastTo ⟨2, ![a, k]⟩ st hb (ix2 p j))) * _ = _
  rw [Cert.LibKeepdims.broadcastTo_a1_ab_apply]
  rfl

/-- The tail of a layer: a product array times a per-row array, times a one-row array spread down the rows, plus
    another one-row array spread down the rows.  Read at `(p, c)`. -/
theorem affine_apply (mm bs : FVec Ideal ⟨2, ![a, d]⟩ .f32) (sw b : FVec Ideal ⟨2, ![1, d]⟩ .f32)
    (hcs hcb : (⟨2, ![1, d]⟩ : Shape).ShapeCasts ⟨2, ![1, d]⟩)
    (hbs hbb : (⟨2, ![1, d]⟩ : Shape).Broadcasts ⟨2, ![a, d]⟩) (p : Fin a) (c : Fin d) :
    addf (mulf (mulf mm bs) (broadcastTo ⟨2, ![a, d]⟩ (shapeCast ⟨2, ![1, d]⟩ sw hcs) hbs))
        (broadcastTo ⟨2, ![a, d]⟩ (shapeCast ⟨2, ![1, d]⟩ b hcb) hbb) (ix2 p c)
      = mm (ix2 p c) * bs (ix2 p c) * sw (ix2 0 c) + b (ix2 0 c) := by
  show mm (ix2 p c) * bs (ix2 p c) * broadcastTo ⟨2, ![a, d]⟩ (shapeCast ⟨2, ![1, d]⟩ sw hcs) hbs (ix2 p c)
      + broadcastTo ⟨2, ![a, d]⟩ (shapeCast ⟨2, ![1, d]⟩ b hcb) hbb (ix2 p c) = _
  rw [Cert.LibRowLayout.broadcastTo_1b_ab_apply, Cert.LibRowLayout.broadcastTo_1b_ab_apply, shapeCast_self, shapeCast_self]

/-- A whole layer before its activation, over a per-row array `st` that holds each row's step: read at `(p, c)` it is
    the integer-product arrangement of the layer on row `p`. -/
theorem layer_apply {D : DotDims ⟨2, ![a, k]⟩ ⟨2, ![k, d]⟩ ⟨2, ![a, d]⟩} (hD : Cert.LibPlainDot.Plain D) (cc : EReal)
    (h : FVec Ideal ⟨2, ![a, k]⟩ .f32) (st : FVec Ideal ⟨2, ![a, 1]⟩ .f32)
    (hst : ∀ p : Fin a, st (ix2 p 0) = Cert.LibQuant.stepMul cc (fun j => h (ix2 p j)))
    (hb : (⟨2, ![a, 1]⟩ : Shape).Broadcasts ⟨2, ![a, k]⟩) (hlt : FTy.bits .bf16 < FTy.bits .f32)
    (wq : FVec Ideal ⟨2, ![k, d]⟩ .bf16) (hcw : (⟨2, ![k, d]⟩ : Shape).ShapeCasts ⟨2, ![k, d]⟩)
    (hb2 : (⟨2, ![a, 1]⟩ : Shape).Broadcasts ⟨2, ![a, d]⟩)
    (sw b : FVec Ideal ⟨2, ![1, d]⟩ .f32)
    (hcs hcb : (⟨2, ![1, d]⟩ : Shape).ShapeCasts ⟨2, ![1, d]⟩)
    (hbs hbb : (⟨2, ![1, d]⟩ : Shape).Broadcasts ⟨2, ![a, d]⟩) (p : Fin a) (c : Fin d) :
    addf (mulf (mulf
          (matmul D none (truncf .bf16 (roundeven (divf h (broadcastTo ⟨2, ![a, k]⟩ st hb))) hlt)
            (shapeCast ⟨2, ![k, d]⟩ wq hcw) (constant ⟨2, ![a, d]⟩ .f32 0x00000000#32))
          (broadcastTo ⟨2, ![a, d]⟩ st hb2))
          (broadcastTo ⟨2, ![a, d]⟩ (shapeCast ⟨2, ![1, d]⟩ sw hcs) hbs))
        (broadcastTo ⟨2, ![a, d]⟩ (shapeCast ⟨2, ![1, d]⟩ b hcb) hbb) (ix2 p c)
      = Cert.LibQuant.layerKq cc (fun j => h (ix2 p j)) (fun j => wq (ix2 j c)) (sw (ix2 0 c)) (b (ix2 0 c)) := by
  refine (affine_apply _ _ sw b hcs hcb hbs hbb p c).trans ?_
  rw [quantDot_apply hD, Cert.LibKeepdims.broadcastTo_a1_ab_apply, hst]
  rfl

end anyExtents

section wholeLayer
variable {a k d : ℕ}

/-- A whole layer before its activation as the body spells it, the row step computed from the activations themselves:
    read at `(p, c)` it is the integer-product arrangement of the layer on row `p`. -/
theorem qlayer_apply {D : DotDims ⟨2, ![a, k]⟩ ⟨2, ![k, d]⟩ ⟨2, ![a, d]⟩} (hD : Cert.LibPlainDot.Plain D) (cc : Ideal .f32)
    (h : FVec Ideal ⟨2, ![a, k]⟩ .f32)
    (hr : (⟨2, ![a, k]⟩ : Shape).Reduces [1] ⟨1, ![a]⟩) (hφ : FKind.Formats .f32)
    (hacc : (0xFF800000#32 : BitVec 32) = FKind.maximumf.neutral .f32 hφ)
    (hc : (⟨1, ![a]⟩ : Shape).ShapeCasts ⟨2, ![a, 1]⟩)
    (hb : (⟨2, ![a, 1]⟩ : Shape).Broadcasts ⟨2, ![a, k]⟩) (hlt : FTy.bits .bf16 < FTy.bits .f32)
    (wq : FVec Ideal ⟨2, ![k, d]⟩ .bf16) (hcw : (⟨2, ![k, d]⟩ : Shape).ShapeCasts ⟨2, ![k, d]⟩)
    (hb2 : (⟨2, ![a, 1]⟩ : Shape).Broadcasts ⟨2, ![a, d]⟩)
    (sw b : FVec Ideal ⟨2, ![1, d]⟩ .f32)
    (hcs hcb : (⟨2, ![1, d]⟩ : Shape).ShapeCasts ⟨2, ![1, d]⟩)
    (hbs hbb : (⟨2, ![1, d]⟩ : Shape).Broadcasts ⟨2, ![a, d]⟩) (p : Fin a) (c : Fin d) :
    addf (mulf (mulf
          (matmul D none (truncf .bf16 (roundeven (divf h (broadcastTo ⟨2, ![a, k]⟩
              (maximumf (F := Ideal) (φ := .f32)
                (mulf (F := Ideal) (φ := .f32)
                  (shapeCast ⟨2, ![a, 1]⟩ (multiReduction .maximumf [1] ⟨1, ![a]⟩ (absf h) 0xFF800000#32 hr hφ hacc) hc)
                  (broadcast ⟨2, ![a, 1]⟩ cc))
                (broadcast ⟨2, ![a, 1]⟩ (Scalar.ofBits .f32 0x322BCC77#32))) hb))) hlt)
            (shapeCast ⟨2, ![k, d]⟩ wq hcw) (constant ⟨2, ![a, d]⟩ .f32 0x00000000#32))
          (broadcastTo ⟨2, ![a, d]⟩
              (maximumf (F := Ideal) (φ := .f32)
                (mulf (F := Ideal) (φ := .f32)
                  (shapeCast ⟨2, ![a, 1]⟩ (multiReduction .maximumf [1] ⟨1, ![a]⟩ (absf h) 0xFF800000#32 hr hφ hacc) hc)
                  (broadcast ⟨2, ![a, 1]⟩ cc))
                (broadcast ⟨2, ![a, 1]⟩ (Scalar.ofBits .f32 0x322BCC77#32))) hb2))
          (broadcastTo ⟨2, ![a, d]⟩ (shapeCast ⟨2, ![1, d]⟩ sw hcs) hbs))
        (broadcastTo ⟨2, ![a, d]⟩ (shapeCast ⟨2, ![1, d]⟩ b hcb) hbb) (ix2 p c)
      = Cert.LibQuant.layerKq cc (fun j => h (ix2 p j)) (fun j => wq (ix2 j c)) (sw (ix2 0 c)) (b (ix2 0 c)) :=
  layer_apply hD cc h _ (fun q => rowStep_apply h hr hφ hacc hc cc q 0) hb hlt wq hcw hb2 sw b hcs hcb hbs hbb p c

end wholeLayer

/-! ## The body's values at an entry -/

/-- The three contractions are plain matrix products. -/
theorem plain1 : Cert.LibPlainDot.Plain dot_S4096x160_S160x40_S4096x40_1_0_0_1_n_n := ⟨rfl, rfl, rfl, rfl, rfl, rfl⟩
theorem plain2 : Cert.LibPlainDot.Plain dot_S4096x40_S40x40_S4096x40_1_0_0_1_n_n := ⟨rfl, rfl, rfl, rfl, rfl, rfl⟩
theorem plain3 : Cert.LibPlainDot.Plain dot_S4096x40_S40x2_S4096x2_1_0_0_1_n_n := ⟨rfl, rfl, rfl, rfl, rfl, rfl⟩

/-- The hyperbolic tangent of an array, at an entry. -/
theorem tanh_apply {s : Shape} (v : FVec Ideal s .f32) (i : s.Idx) : tanh v i = Ideal.tanh (v i) := rfl

/-- The first layer's output: the hyperbolic tangent of the layer on row `p`. -/
theorem pay1_apply (v0 : Vec Ideal S4096x160 .f32) (v12 : Vec Ideal S160x40 .bf16) (v17 v21 : Vec Ideal S1x40 .f32)
    (p : Fin 4096) (c : Fin 40) :
    k0_pay1 (F := Ideal) v0 v12 v17 v21 (ix2 p c)
      = Ideal.tanh (Cert.LibQuant.layerKq Cert.LibQuant.r127 (fun j => v0 (ix2 p j)) (fun j => v12 (ix2 j c))
          (v17 (ix2 0 c)) (v21 (ix2 0 c))) := by
  unfold k0_pay1
  refine (tanh_apply _ _).trans (congrArg Ideal.tanh ?_)
  refine (qlayer_apply plain1 _ v0 _ _ _ _ _ _ v12 _ _ v17 v21 _ _ _ _ p c).trans ?_
  rw [inv127]

/-- The second layer's row step: the step of the first layer's output row. -/
theorem pay2_apply (v0 : Vec Ideal S4096x160 .f32) (v12 : Vec Ideal S160x40 .bf16) (v17 v21 : Vec Ideal S1x40 .f32)
    (p : Fin 4096) (u : Fin 1) :
    k0_pay2 (F := Ideal) v0 v12 v17 v21 (ix2 p u)
      = Cert.LibQuant.stepMul Cert.LibQuant.r127 (fun j => k0_pay1 (F := Ideal) v0 v12 v17 v21 (ix2 p j)) := by
  unfold k0_pay2
  refine (rowStep_apply (k0_pay1 (F := Ideal) v0 v12 v17 v21) _ _ _ _ _ p u).trans ?_
  rw [inv127]

/-- The second layer's integer product. -/
theorem pay3_apply (v0 : Vec Ideal S4096x160 .f32) (v12 : Vec Ideal S160x40 .bf16) (v17 v21 : Vec Ideal S1x40 .f32)
    (v37 : Vec Ideal S40x40 .bf16) (p : Fin 4096) (c : Fin 40) :
    k0_pay3 (F := Ideal) v0 v12 v17 v21 v37 (ix2 p c)
      = ∑ j : Fin 40, Cert.LibQuant.rnd (Ideal.div (k0_pay1 (F := Ideal) v0 v12 v17 v21 (ix2 p j))
          (k0_pay2 (F := Ideal) v0 v12 v17 v21 (ix2 p 0))) * v37 (ix2 j c) := by
  unfold k0_pay3
  exact quantDot_apply plain2 (k0_pay1 (F := Ideal) v0 v12 v17 v21) (k0_pay2 (F := Ideal) v0 v12 v17 v21) _ _ v37 _ p c

/-- The second layer's row step spread along the row. -/
theorem pay4_apply (v0 : Vec Ideal S4096x160 .f32) (v12 : Vec Ideal S160x40 .bf16) (v17 v21 : Vec Ideal S1x40 .f32)
    (p : Fin 4096) (c : Fin 40) :
    k0_pay4 (F := Ideal) v0 v12 v17 v21 (ix2 p c) = k0_pay2 (F := Ideal) v0 v12 v17 v21 (ix2 p 0) := by
  unfold k0_pay4
  exact Cert.LibKeepdims.broadcastTo_a1_ab_apply _ _ p c

/-- The exponential linear unit as the body spells it — the entry itself where it exceeds the entry of an array `z`,
    the exponential of its minimum with zero, less one, elsewhere — at an entry where `z` holds zero. -/
theorem elu_apply {s : Shape} (v z : FVec Ideal s .f32) (i : s.Idx) (hz : z i = Cert.LibQuant.w0) :
    select (cmpf .ogt v z) v
        (subf (exp (minimumf v (broadcast s (Scalar.ofBits (F := Ideal) .f32 0x00000000#32))))
          (broadcast s (Scalar.ofBits (F := Ideal) .f32 0x3F800000#32))) i
      = Cert.LibQuant.eluK (v i) := by
  show Scalar.select (Ideal.cmp .ogt (v i) (z i)) (v i) _ = _
  rw [hz]
  rfl

/-- The soft-plus as the body spells it, at an entry. -/
theorem softplus_apply {s : Shape} (v : FVec Ideal s .f32) (i : s.Idx) :
    select
        (cmpf .one (subf v (broadcast s (Scalar.ofBits (F := Ideal) .f32 0x00000000#32)))
          (subf v (broadcast s (Scalar.ofBits (F := Ideal) .f32 0x00000000#32))))
        (addf v (broadcast s (Scalar.ofBits (F := Ideal) .f32 0x00000000#32)))
        (addf (maximumf v (broadcast s (Scalar.ofBits (F := Ideal) .f32 0x00000000#32)))
          (log1p (exp (subf (broadcast s (Scalar.ofBits (F := Ideal) .f32 0x00000000#32))
            (absf (subf v (broadcast s (Scalar.ofBits (F := Ideal) .f32 0x00000000#32)))))))) i
      = Cert.LibQuant.spK (v i) := rfl

/-- The third layer before its activation, from the second layer's integer product `v39` and spread row step `v40`. -/
theorem pay5_apply (v39 v40 : FVec Ideal S4096x40 .f32) (v42 v46 : Vec Ideal S1x40 .f32) (v69 : Vec Ideal S40x40 .bf16)
    (v74 v78 : Vec Ideal S1x40 .f32) (p : Fin 4096) (c : Fin 40) :
    k0_pay5 (F := Ideal) v39 v40 v42 v46 v69 v74 v78 (ix2 p c)
      = Cert.LibQuant.layerKq Cert.LibQuant.r127
          (fun j => Cert.LibQuant.eluK (v39 (ix2 p j) * v40 (ix2 p j) * v42 (ix2 0 j) + v46 (ix2 0 j)))
          (fun j => v69 (ix2 j c)) (v74 (ix2 0 c)) (v78 (ix2 0 c)) := by
  unfold k0_pay5
  refine (qlayer_apply plain2 _ _ _ _ _ _ _ _ v69 _ _ v74 v78 _ _ _ _ p c).trans ?_
  rw [inv127]
  refine congrArg (fun row : Fin 40 → EReal => Cert.LibQuant.layerKq Cert.LibQuant.r127 row (fun j => v69 (ix2 j c))
    (v74 (ix2 0 c)) (v78 (ix2 0 c))) (funext fun j => ?_)
  refine (elu_apply _ _ (ix2 p j) rfl).trans (congrArg Cert.LibQuant.eluK ?_)
  exact affine_apply v39 v40 v42 v46 _ _ _ _ p j

/-- The array of zeros the last unit compares with. -/
theorem pay6_apply (i : S4096x40.Idx) : k0_pay6 (F := Ideal) i = Cert.LibQuant.w0 := rfl

/-- The body's result: the soft-plus of the fourth layer on the unit of the third layer's row `v81`, `v82` an array of
    zeros. -/
theorem pay7_apply (v81 v82 : FVec Ideal S4096x40 .f32) (hv82 : ∀ i, v82 i = Cert.LibQuant.w0)
    (v101 : Vec Ideal S40x2 .bf16) (v106 v110 : Vec Ideal S1x2 .f32) (p : Fin 4096) (o : Fin 2) :
    k0_pay7 (F := Ideal) v81 v82 v101 v106 v110 (ix2 p o)
      = Cert.LibQuant.spK (Cert.LibQuant.layerKq Cert.LibQuant.r127 (fun j => Cert.LibQuant.eluK (v81 (ix2 p j)))
          (fun j => v101 (ix2 j o)) (v106 (ix2 0 o)) (v110 (ix2 0 o))) := by
  unfold k0_pay7
  refine (softplus_apply _ _).trans (congrArg Cert.LibQuant.spK ?_)
  refine (qlayer_apply plain3 _ _ _ _ _ _ _ _ v101 _ _ v106 v110 _ _ _ _ p o).trans ?_
  rw [inv127]
  refine congrArg (fun row : Fin 40 → EReal => Cert.LibQuant.layerKq Cert.LibQuant.r127 row (fun j => v101 (ix2 j o))
    (v106 (ix2 0 o)) (v110 (ix2 0 o))) (funext fun j => ?_)
  exact elu_apply v81 v82 (ix2 p j) (hv82 _)

/-! ## The result block -/

/-- The body's accesses all start at the origin of their blocks. -/
theorem origin2 : (![0, 0] : Fin 2 → Nat) = fun _ => 0 := funext fun a => by fin_cases a <;> rfl

/-- The second and third layers together: from the first layer's output, through the unit, to the third layer before
    its activation. -/
theorem pay5_of_pay1 (v0 : Vec Ideal S4096x160 .f32) (v12 : Vec Ideal S160x40 .bf16) (v17 v21 : Vec Ideal S1x40 .f32)
    (v37 : Vec Ideal S40x40 .bf16) (v42 v46 : Vec Ideal S1x40 .f32) (v69 : Vec Ideal S40x40 .bf16)
    (v74 v78 : Vec Ideal S1x40 .f32) (p : Fin 4096) (c : Fin 40) :
    k0_pay5 (F := Ideal) (k0_pay3 (F := Ideal) v0 v12 v17 v21 v37) (k0_pay4 (F := Ideal) v0 v12 v17 v21)
        v42 v46 v69 v74 v78 (ix2 p c)
      = Cert.LibQuant.layerKq Cert.LibQuant.r127
          (fun a => Cert.LibQuant.eluK (Cert.LibQuant.layerKq Cert.LibQuant.r127
            (fun j => k0_pay1 (F := Ideal) v0 v12 v17 v21 (ix2 p j)) (fun j => v37 (ix2 j a))
            (v42 (ix2 0 a)) (v46 (ix2 0 a))))
          (fun j => v69 (ix2 j c)) (v74 (ix2 0 c)) (v78 (ix2 0 c)) := by
  rw [pay5_apply]
  refine congrArg (fun row : Fin 40 → EReal => Cert.LibQuant.layerKq Cert.LibQuant.r127 row (fun j => v69 (ix2 j c))
    (v74 (ix2 0 c)) (v78 (ix2 0 c))) (funext fun a => congrArg Cert.LibQuant.eluK ?_)
  rw [pay3_apply, pay4_apply, pay2_apply]
  rfl

/-- The kernel body's result block at row `p` and output `o` is the four-layer network, in the integer-product
    arrangement, of input row `p`: the payloads compose layer by layer. -/
theorem out_apply (x0 : Vec Ideal S4096x160 .f32) (x1 : Vec Ideal S160x40 .bf16) (x2 x3 : Vec Ideal S1x40 .f32)
    (x4 : Vec Ideal S40x40 .bf16) (x5 x6 : Vec Ideal S1x40 .f32) (x7 : Vec Ideal S40x40 .bf16)
    (x8 x9 : Vec Ideal S1x40 .f32) (x10 : Vec Ideal S40x2 .bf16) (x11 x12 : Vec Ideal S1x2 .f32)
    (p : Fin 4096) (o : Fin 2) :
    out0_13 (F := Ideal) x0 x1 x2 x3 x4 x5 x6 x7 x8 x9 x10 x11 x12 (ix2 p o)
      = Cert.LibQuant.netK Cert.LibQuant.r127 (fun k => x0 (ix2 p k))
          (fun k a => x1 (ix2 k a)) (fun a => x2 (ix2 0 a)) (fun a => x3 (ix2 0 a))
          (fun k a => x4 (ix2 k a)) (fun a => x5 (ix2 0 a)) (fun a => x6 (ix2 0 a))
          (fun k a => x7 (ix2 k a)) (fun a => x8 (ix2 0 a)) (fun a => x9 (ix2 0 a))
          (fun k a => x10 (ix2 k a)) (fun a => x11 (ix2 0 a)) (fun a => x12 (ix2 0 a)) o := by
  unfold out0_13
  rw [View.canon_unit_zero origin2]
  simp only [View.ld_unit_zero (S := S4096x160) origin2, View.ld_unit_zero (S := S160x40) origin2,
    View.ld_unit_zero (S := S1x40) origin2, View.ld_unit_zero (S := S40x40) origin2,
    View.ld_unit_zero (S := S40x2) origin2, View.ld_unit_zero (S := S1x2) origin2]
  rw [pay7_apply _ _ pay6_apply]
  simp only [pay5_of_pay1, pay1_apply]
  rfl

end Cert.KernelIdeal.Pay

end
-- ==== Proof.LibJoinedRows.lean ====
/-
  Layout reads a gather / scatter pipeline over an edge list meets, each at an entry given by its coordinates, generic in
  the extents and (but for the last section) the entry type:

  * a scalar spread over any shape reads the scalar everywhere;
  * a vector `[a]` made a column `[a, 1]` reads, at `(i, 0)`, the vector's entry `i`;
  * a column `[a, 1]` spread across `[a, b]` reads, at `(i, j)`, the column's entry `i`;
  * the transpose of an `[a, b]` matrix reads, at `(j, i)`, the matrix at `(i, j)`;
  * two arrays joined along their first axis (`[E₁, C]` and `[E₂, C]` into `[T, C]`; `[E₁]` and `[E₂]` into `[T]`) read
    the first piece at a row below `E₁` and the second piece, `E₁` rows up, at or above it;
  * a sum over the `T = E₁ + E₂` rows of a joined array is the sum over the first piece's rows plus the sum over the
    second piece's.
-/
import Idealize.ShloMosaic.Lib.Pipeline.Value
import Idealize.ShloMosaic.Lib.ValueIdx

noncomputable section

open scoped BigOperators

namespace Cert.LibJoinedRows

open Idealize.ShloMosaic Idealize.ShloMosaic.ValueIdx

variable {α : Type}

/-- A scalar spread over a shape reads the scalar at every index. -/
theorem bcast_scalar_apply {t : Shape} (h : (⟨0, ![]⟩ : Shape).BroadcastsInDim t (![] : Fin 0 → Fin t.rank))
    (x : (⟨0, ![]⟩ : Shape).Idx → α) (j : t.Idx) : broadcastInDim t ![] h x j = x ix0 :=
  broadcastInDim_apply _ h x j ix0 (fun a => a.elim0)

/-- A vector made a column reads the vector's entry. -/
theorem bcast_vec_col_apply {a : ℕ} (h : (⟨1, ![a]⟩ : Shape).BroadcastsInDim ⟨2, ![a, 1]⟩ (![0] : Fin 1 → Fin 2))
    (x : (⟨1, ![a]⟩ : Shape).Idx → α) (i : Fin a) (u : Fin 1) :
    broadcastInDim ⟨2, ![a, 1]⟩ ![0] h x (ix2 i u) = x (ix1 i) := by
  refine broadcastInDim_apply _ h x _ (ix1 i) fun ax => ?_
  match ax with
  | ⟨0, _⟩ =>
    show i.val = if a = 1 then 0 else i.val
    split
    · have := i.isLt; omega
    · rfl

/-- A column spread across the columns of each row reads the column's entry of that row. -/
theorem bcast_col_rows_apply {a b : ℕ} (h : (⟨2, ![a, 1]⟩ : Shape).BroadcastsInDim ⟨2, ![a, b]⟩ (![0, 1] : Fin 2 → Fin 2))
    (x : (⟨2, ![a, 1]⟩ : Shape).Idx → α) (i : Fin a) (j : Fin b) :
    broadcastInDim ⟨2, ![a, b]⟩ ![0, 1] h x (ix2 i j) = x (ix2 i (0 : Fin 1)) := by
  refine broadcastInDim_apply _ h x _ (ix2 i (0 : Fin 1)) fun ax => ?_
  match ax with
  | ⟨0, _⟩ =>
    show i.val = if a = 1 then 0 else i.val
    split
    · have := i.isLt; omega
    · rfl
  | ⟨1, _⟩ => rfl

/-- The transpose of a matrix reads the matrix at the swapped coordinates. -/
theorem transpose2_apply {a b : ℕ} (h : (⟨2, ![a, b]⟩ : Shape).Transposes [1, 0] ⟨2, ![b, a]⟩)
    (x : (⟨2, ![a, b]⟩ : Shape).Idx → α) (j : Fin b) (i : Fin a) :
    transpose ⟨2, ![b, a]⟩ [1, 0] x h (ix2 j i) = x (ix2 i j) := by
  refine transpose_apply [1, 0] x h (ix2 j i) (ix2 i j) fun bx => ?_
  match bx with
  | ⟨0, _⟩ => rfl
  | ⟨1, _⟩ => rfl

/-! ## Two arrays joined along the first axis -/

section Join
variable {E1 E2 T C : ℕ}

/-- A row below the first piece's extent reads the first piece. -/
theorem join_rows_left (h : Shape.Concatenates [(⟨2, ![E1, C]⟩ : Shape), ⟨2, ![E2, C]⟩] ⟨2, ![T, C]⟩ 0)
    (x₁ : (⟨2, ![E1, C]⟩ : Shape).Idx → α) (x₂ : (⟨2, ![E2, C]⟩ : Shape).Idx → α) (e : Fin E1) (he : e.val < T) (c : Fin C) :
    concatenate ⟨2, ![T, C]⟩ 0 [⟨_, x₁⟩, ⟨_, x₂⟩] h (ix2 ⟨e.val, he⟩ c) = x₁ (ix2 e c) :=
  concatenate_pair_apply_left 0 x₁ x₂ h _ rfl (ix2 e c) (fun b => by
    match b with
    | ⟨0, _⟩ => rfl
    | ⟨1, _⟩ => rfl)

/-- A row at or above it reads the second piece, that many rows up. -/
theorem join_rows_right (h : Shape.Concatenates [(⟨2, ![E1, C]⟩ : Shape), ⟨2, ![E2, C]⟩] ⟨2, ![T, C]⟩ 0)
    (x₁ : (⟨2, ![E1, C]⟩ : Shape).Idx → α) (x₂ : (⟨2, ![E2, C]⟩ : Shape).Idx → α) (e : Fin E2) (he : E1 + e.val < T) (c : Fin C) :
    concatenate ⟨2, ![T, C]⟩ 0 [⟨_, x₁⟩, ⟨_, x₂⟩] h (ix2 ⟨E1 + e.val, he⟩ c) = x₂ (ix2 e c) :=
  concatenate_pair_apply_right 0 x₁ x₂ h _ rfl rfl (ix2 e c) (fun b hb => by
    match b with
    | ⟨0, _⟩ => exact absurd rfl hb
    | ⟨1, _⟩ => rfl) (by show e.val + E1 = E1 + e.val; omega)

/-- The same for one-axis arrays: an entry below the first piece's extent … -/
theorem join_vec_left (h : Shape.Concatenates [(⟨1, ![E1]⟩ : Shape), ⟨1, ![E2]⟩] ⟨1, ![T]⟩ 0)
    (x₁ : (⟨1, ![E1]⟩ : Shape).Idx → α) (x₂ : (⟨1, ![E2]⟩ : Shape).Idx → α) (e : Fin E1) (he : e.val < T) :
    concatenate ⟨1, ![T]⟩ 0 [⟨_, x₁⟩, ⟨_, x₂⟩] h (ix1 ⟨e.val, he⟩) = x₁ (ix1 e) :=
  concatenate_pair_apply_left 0 x₁ x₂ h _ rfl (ix1 e) (fun b => by
    match b with
    | ⟨0, _⟩ => rfl)

/-- … and one at or above it. -/
theorem join_vec_right (h : Shape.Concatenates [(⟨1, ![E1]⟩ : Shape), ⟨1, ![E2]⟩] ⟨1, ![T]⟩ 0)
    (x₁ : (⟨1, ![E1]⟩ : Shape).Idx → α) (x₂ : (⟨1, ![E2]⟩ : Shape).Idx → α) (e : Fin E2) (he : E1 + e.val < T) :
    concatenate ⟨1, ![T]⟩ 0 [⟨_, x₁⟩, ⟨_, x₂⟩] h (ix1 ⟨E1 + e.val, he⟩) = x₂ (ix1 e) :=
  concatenate_pair_apply_right 0 x₁ x₂ h _ rfl rfl (ix1 e) (fun b hb => by
    match b with
    | ⟨0, _⟩ => exact absurd rfl hb) (by show e.val + E1 = E1 + e.val; omega)

/-- A sum over `T = E₁ + E₂` rows is the sum over the first `E₁` plus the sum over the last `E₂`. -/
theorem sum_rows_split {M : Type} [AddCommMonoid M] (hT : T = E1 + E2) (f : Fin T → M) :
    ∑ e', f e' = ∑ e : Fin E1, f ⟨e.val, by omega⟩ + ∑ e : Fin E2, f ⟨E1 + e.val, by omega⟩ := by
  subst hT
  rw [Fin.sum_univ_add]
  congr 1 <;> exact Finset.sum_congr rfl fun e _ => congrArg f (Fin.ext rfl)

end Join

end Cert.LibJoinedRows

end
-- ==== Proof.HostQuant.lean ====
/-
  Row-wise absmax quantisation of a two-axis array, as the host operations spell it, read at an entry.

  For an array x of shape [a, k] the host computes, row by row: the magnitudes |x|, their maximum along the row
  (started from −∞), that maximum as a column [a, 1], the column divided by 127 and clamped below by a small floor
  (the STEP column); then the array divided by the step column spread across the row and rounded to the nearest
  integer, ties to even (the INTEGER PARTS); and last x + (q · step − x), the straight-through spelling of the
  quantised array.  Read at row i (and column j) these are the step, the integer part and the quantised entry of the
  row (fun j => x (i, j)) in the vocabulary of a single row.  All of it holds for any extents.
-/
import Idealize.ShloMosaic.Lib.Pipeline.Value
import Idealize.ShloMosaic.Lib.ValueIdx
import Idealize.ShloMosaic.Lib.IdealHost
import Idealize.ShloMosaic.PureOps.Ideal.Laws
import proofs.«101763_j14748917694594_2_alg».proof.Proof.LibQuant
import proofs.«101763_j14748917694594_2_alg».proof.Proof.LibRowMax
import proofs.«101763_j14748917694594_2_alg».proof.Proof.LibJoinedRows

noncomputable section

open scoped BigOperators

namespace Cert.HostQuant

open Idealize.ShloMosaic Idealize.ShloMosaic.ValueIdx Cert.LibJoinedRows

variable {a k : ℕ}

/-- The step column [a, 1]: the row maxima of |x| as a column, over 127, clamped below by the floor. -/
def stepCol (x : FVec Ideal ⟨2, ![a, k]⟩ .f32)
    (hred : (⟨2, ![a, k]⟩ : Shape).ReducesTo [1] ⟨1, ![a]⟩) (hS : 0 < (⟨0, ![]⟩ : Shape).numel)
    (hb0 : (⟨1, ![a]⟩ : Shape).BroadcastsInDim ⟨2, ![a, 1]⟩ (![0] : Fin 1 → Fin 2))
    (hbs : (⟨0, ![]⟩ : Shape).BroadcastsInDim ⟨2, ![a, 1]⟩ (![] : Fin 0 → Fin 2)) :
    FVec Ideal ⟨2, ![a, 1]⟩ .f32 :=
  maximumf
    (Host.divf (F := Ideal)
      (broadcastInDim ⟨2, ![a, 1]⟩ ![0] hb0
        ((fun x v => Host.reduce FloatOps.maximumf x v hred hS) (Host.absf (F := Ideal) x)
          (constant (F := Ideal) ⟨0, ![]⟩ .f32 0xFF800000#32)))
      (broadcastInDim ⟨2, ![a, 1]⟩ ![] hbs (constant (F := Ideal) ⟨0, ![]⟩ .f32 0x42FE0000#32)))
    (broadcastInDim ⟨2, ![a, 1]⟩ ![] hbs (constant (F := Ideal) ⟨0, ![]⟩ .f32 0x322BCC77#32))

/-- The integer parts [a, k]: the array over its step column spread across each row, rounded. -/
def quant (x : FVec Ideal ⟨2, ![a, k]⟩ .f32)
    (hred : (⟨2, ![a, k]⟩ : Shape).ReducesTo [1] ⟨1, ![a]⟩) (hS : 0 < (⟨0, ![]⟩ : Shape).numel)
    (hb0 : (⟨1, ![a]⟩ : Shape).BroadcastsInDim ⟨2, ![a, 1]⟩ (![0] : Fin 1 → Fin 2))
    (hbs : (⟨0, ![]⟩ : Shape).BroadcastsInDim ⟨2, ![a, 1]⟩ (![] : Fin 0 → Fin 2))
    (hb01 : (⟨2, ![a, 1]⟩ : Shape).BroadcastsInDim ⟨2, ![a, k]⟩ (![0, 1] : Fin 2 → Fin 2)) :
    FVec Ideal ⟨2, ![a, k]⟩ .f32 :=
  Host.roundeven (F := Ideal)
    (Host.divf (F := Ideal) x (broadcastInDim ⟨2, ![a, k]⟩ ![0, 1] hb01 (stepCol x hred hS hb0 hbs)))

/-- The quantised array [a, k] in the straight-through spelling x + (q · step − x). -/
def fakeQuant (x : FVec Ideal ⟨2, ![a, k]⟩ .f32)
    (hred : (⟨2, ![a, k]⟩ : Shape).ReducesTo [1] ⟨1, ![a]⟩) (hS : 0 < (⟨0, ![]⟩ : Shape).numel)
    (hb0 : (⟨1, ![a]⟩ : Shape).BroadcastsInDim ⟨2, ![a, 1]⟩ (![0] : Fin 1 → Fin 2))
    (hbs : (⟨0, ![]⟩ : Shape).BroadcastsInDim ⟨2, ![a, 1]⟩ (![] : Fin 0 → Fin 2))
    (hb01 : (⟨2, ![a, 1]⟩ : Shape).BroadcastsInDim ⟨2, ![a, k]⟩ (![0, 1] : Fin 2 → Fin 2)) :
    FVec Ideal ⟨2, ![a, k]⟩ .f32 :=
  addf x
    (subf
      (mulf (quant x hred hS hb0 hbs hb01)
        (broadcastInDim ⟨2, ![a, k]⟩ ![0, 1] hb01 (stepCol x hred hS hb0 hbs)))
      x)

/-- The host's maximum of the magnitudes along a row, started from −∞, is at row i the greatest magnitude of the row. -/
theorem rowAbsMax_apply (x : FVec Ideal ⟨2, ![a, k]⟩ .f32)
    (hred : (⟨2, ![a, k]⟩ : Shape).ReducesTo [1] ⟨1, ![a]⟩) (hS : 0 < (⟨0, ![]⟩ : Shape).numel) (i : Fin a) :
    Host.reduce FloatOps.maximumf (Host.absf (F := Ideal) x) (constant (F := Ideal) ⟨0, ![]⟩ .f32 0xFF800000#32) hred hS (ix1 i)
      = Cert.LibQuant.amax (fun j => x (ix2 i j)) := by
  have h : (⟨2, ![a, k]⟩ : Shape).Reduces [1] ⟨1, ![a]⟩ := ⟨hred.1, Nat.one_pos, hred.2⟩
  rw [Host.reduce_eq_fold_single FloatOps.maximumf (Host.absf (F := Ideal) x) _ hred h hS]
  have hf : (Host.absf (F := Ideal) x ∘ h.lift (ix1 i)) = fun j : Fin k => max (x (ix2 i j)) (-(x (ix2 i j))) :=
    funext fun j => by
      have e : h.lift (ix1 i) j = ix2 i j := funext fun ax => Fin.ext (by
        match ax with
        | ⟨0, _⟩ => rfl
        | ⟨1, _⟩ => rfl)
      show Host.absf (F := Ideal) x (h.lift (ix1 i) j) = _
      rw [e]; rfl
  rw [hf]
  show (Finset.univ : Finset (Fin k)).fold max (Ideal.ofBits .f32 0xFF800000#32) _ = _
  rw [Cert.LibRowMax.ofBits_neg_inf_f32]
  exact Cert.LibRowMax.fold_max_bot_eq_sup _ _

/-- The step column at row i is the step of that row. -/
theorem stepCol_apply (x : FVec Ideal ⟨2, ![a, k]⟩ .f32)
    (hred : (⟨2, ![a, k]⟩ : Shape).ReducesTo [1] ⟨1, ![a]⟩) (hS : 0 < (⟨0, ![]⟩ : Shape).numel)
    (hb0 : (⟨1, ![a]⟩ : Shape).BroadcastsInDim ⟨2, ![a, 1]⟩ (![0] : Fin 1 → Fin 2))
    (hbs : (⟨0, ![]⟩ : Shape).BroadcastsInDim ⟨2, ![a, 1]⟩ (![] : Fin 0 → Fin 2)) (i : Fin a) :
    stepCol x hred hS hb0 hbs (ix2 i 0) = Cert.LibQuant.step (fun j => x (ix2 i j)) := by
  unfold stepCol Cert.LibQuant.step
  rw [maximumf_apply, hostDivf_apply, bcast_scalar_apply, bcast_scalar_apply, bcast_vec_col_apply]
  dsimp only
  rw [rowAbsMax_apply]
  rfl

/-- The integer parts at (i, j) are the integer part of entry j of row i. -/
theorem quant_apply (x : FVec Ideal ⟨2, ![a, k]⟩ .f32)
    (hred : (⟨2, ![a, k]⟩ : Shape).ReducesTo [1] ⟨1, ![a]⟩) (hS : 0 < (⟨0, ![]⟩ : Shape).numel)
    (hb0 : (⟨1, ![a]⟩ : Shape).BroadcastsInDim ⟨2, ![a, 1]⟩ (![0] : Fin 1 → Fin 2))
    (hbs : (⟨0, ![]⟩ : Shape).BroadcastsInDim ⟨2, ![a, 1]⟩ (![] : Fin 0 → Fin 2))
    (hb01 : (⟨2, ![a, 1]⟩ : Shape).BroadcastsInDim ⟨2, ![a, k]⟩ (![0, 1] : Fin 2 → Fin 2)) (i : Fin a) (j : Fin k) :
    quant x hred hS hb0 hbs hb01 (ix2 i j) = Cert.LibQuant.qv (fun j => x (ix2 i j)) j := by
  unfold quant Cert.LibQuant.qv Cert.LibQuant.rnd
  show Ideal.liftRound Ideal.roundHalfEven
      (Ideal.div (x (ix2 i j)) (broadcastInDim ⟨2, ![a, k]⟩ ![0, 1] hb01 (stepCol x hred hS hb0 hbs) (ix2 i j))) = _
  rw [bcast_col_rows_apply, stepCol_apply]

/-- The quantised array at (i, j) is the quantised entry j of row i. -/
theorem fakeQuant_apply (x : FVec Ideal ⟨2, ![a, k]⟩ .f32)
    (hred : (⟨2, ![a, k]⟩ : Shape).ReducesTo [1] ⟨1, ![a]⟩) (hS : 0 < (⟨0, ![]⟩ : Shape).numel)
    (hb0 : (⟨1, ![a]⟩ : Shape).BroadcastsInDim ⟨2, ![a, 1]⟩ (![0] : Fin 1 → Fin 2))
    (hbs : (⟨0, ![]⟩ : Shape).BroadcastsInDim ⟨2, ![a, 1]⟩ (![] : Fin 0 → Fin 2))
    (hb01 : (⟨2, ![a, 1]⟩ : Shape).BroadcastsInDim ⟨2, ![a, k]⟩ (![0, 1] : Fin 2 → Fin 2)) (i : Fin a) (j : Fin k) :
    fakeQuant x hred hS hb0 hbs hb01 (ix2 i j) = Cert.LibQuant.fq (fun j => x (ix2 i j)) j := by
  unfold fakeQuant Cert.LibQuant.fq
  rw [addf_apply, subf_apply, mulf_apply, quant_apply, bcast_col_rows_apply, stepCol_apply]

end Cert.HostQuant

end
-- ==== Proof.KernelHost.lean ====
/-
  What the host side of the quantised network hands to its one fused region.

  Before the region the program quantises each weight matrix W (shape [a, k], one row per output) row by row: the step
  column max(amax(row) / 127, floor), and the integer parts round(W / step).  The region is then given, per layer,
  the integer parts TRANSPOSED to [k, a] (and stored in the narrower float format, which on the extended reals is the
  identity), the step column laid out as one row [1, a], and the bias vector laid out as one row [1, a].  Read at
  an entry these twelve arrays are: the integer part of entry k of row a of W; the step of row a of W; entry a of
  the bias.  Each array is first identified with the composed term of the operations that made it, then read at
  coordinates by the row-wise quantisation lemmas, the transpose, and the fact that a reshape keeps row-major order.
-/
import proofs.«101763_j14748917694594_2_alg».proof.Proof.Gen.KernelIdeal.Frame
import proofs.«101763_j14748917694594_2_alg».proof.Proof.HostQuant
import proofs.«101763_j14748917694594_2_alg».proof.Proof.LibJoinedRows
import Idealize.ShloMosaic.Lib.Pipeline.Value
import Idealize.ShloMosaic.Lib.ValueLayout

noncomputable section

namespace Cert.KernelIdeal.HostVals

open Idealize.ShloMosaic Idealize.ShloMosaic.TcCoe Idealize.ShloMosaic.ValueIdx Cert.KernelIdeal Cert.KernelIdeal.Gen

variable (m : (ℓ : Loc nD τ sig) → Buf (Elt Ideal) ℓ) (c : Dev nD)

/-- A column [a, 1] viewed as a one-row array [1, a] reads, at (u, j), the column's entry (j, v): both sit at
    row-major position j. -/
theorem shapeCast_a1_1a_apply {α : Type} {a : ℕ} (x : (⟨2, ![a, 1]⟩ : Shape).Idx → α)
    (h : (⟨2, ![a, 1]⟩ : Shape).ShapeCasts ⟨2, ![1, a]⟩) (u v : Fin 1) (j : Fin a) :
    shapeCast ⟨2, ![1, a]⟩ x h (ix2 u j) = x (ix2 j v) :=
  shapeCast_apply x h _ _ (by
    have hu : u.val = 0 := by omega
    have hv : v.val = 0 := by omega
    rw [Shape.rowMajor_val_two, Shape.rowMajor_val_two]
    show j.val * 1 + v.val = u.val * a + j.val
    rw [hu, hv, Nat.zero_mul, Nat.zero_add, Nat.mul_one, Nat.add_zero])

/-! ## Layer 1: the weight matrix main_arg1 [40, 160], the bias main_arg2 -/

set_option maxHeartbeats 4000000 in
/-- The transposed integer parts as the operations' composed term. -/
theorem v41_eq : (V m c main_v41 : S160x40.Idx → EReal)
    = truncf .bf16 (transpose S160x40 [1, 0]
        (Cert.HostQuant.quant (m ((c : Thread nD τ).loc main_arg1) : FVec Ideal ⟨2, ![40, 160]⟩ .f32)
          Gen.reducesTo_S40x160_S40_d1 Gen.h_S_ Gen.bcast_S40_S40x1_0 Gen.bcast_S_S40x1 Gen.bcast_S40x1_S40x160_0_1)
        Gen.transposes_S40x160_S160x40_1_0) Gen.bitsLt_bf16_f32 := by
  dsimp only [Gen.V]
  simp only [Gen.hostOps0, Gen.hostOps0_1, Gen.hostOps0_2, Gen.hostOps0_3, Gen.hostOps0_4, Gen.hostOps0_5, Gen.hostOps0_6, Gen.hostOps0_7, Gen.hostOps0_8, List.flatten_cons, List.flatten_nil, List.append_nil, List.cons_append, List.nil_append]
  after_results_simp
  rfl

/-- Entry (k, a) of the transposed integer parts is the integer part of entry k of row a of the weight matrix. -/
theorem v41_apply (k : Fin 160) (a : Fin 40) :
    (V m c main_v41 : S160x40.Idx → EReal) (ix2 k a)
      = Cert.LibQuant.qv (fun j => (m ((c : Thread nD τ).loc main_arg1) : S40x160.Idx → EReal) (ix2 a j)) k := by
  refine (congrFun (v41_eq m c) (ix2 k a)).trans ?_
  rw [truncf_apply, Cert.LibJoinedRows.transpose2_apply, Cert.HostQuant.quant_apply]

set_option maxHeartbeats 4000000 in
/-- The step row as the operations' composed term. -/
theorem v48_eq : (V m c main_v48 : S1x40.Idx → EReal)
    = shapeCast S1x40 (Cert.HostQuant.stepCol (m ((c : Thread nD τ).loc main_arg1) : FVec Ideal ⟨2, ![40, 160]⟩ .f32)
        Gen.reducesTo_S40x160_S40_d1 Gen.h_S_ Gen.bcast_S40_S40x1_0 Gen.bcast_S_S40x1) Gen.shapeCasts_S40x1_S1x40 := by
  dsimp only [Gen.V]
  simp only [Gen.hostOps0, Gen.hostOps0_1, Gen.hostOps0_2, Gen.hostOps0_3, Gen.hostOps0_4, Gen.hostOps0_5, Gen.hostOps0_6, Gen.hostOps0_7, Gen.hostOps0_8, List.flatten_cons, List.flatten_nil, List.append_nil, List.cons_append, List.nil_append]
  after_results_simp
  rfl

/-- Entry a of the step row is the step of row a of the weight matrix. -/
theorem v48_apply (a : Fin 40) :
    (V m c main_v48 : S1x40.Idx → EReal) (ix2 0 a)
      = Cert.LibQuant.step (fun j => (m ((c : Thread nD τ).loc main_arg1) : S40x160.Idx → EReal) (ix2 a j)) := by
  refine (congrFun (v48_eq m c) (ix2 0 a)).trans ?_
  rw [shapeCast_a1_1a_apply _ _ 0 0 a, Cert.HostQuant.stepCol_apply]

set_option maxHeartbeats 4000000 in
/-- The bias row as the operations' composed term. -/
theorem v52_eq : (V m c main_v52 : S1x40.Idx → EReal)
    = shapeCast S1x40 (m ((c : Thread nD τ).loc main_arg2) : S40.Idx → EReal) Gen.shapeCasts_S40_S1x40 := by
  dsimp only [Gen.V]
  simp only [Gen.hostOps0, Gen.hostOps0_1, Gen.hostOps0_2, Gen.hostOps0_3, Gen.hostOps0_4, Gen.hostOps0_5, Gen.hostOps0_6, Gen.hostOps0_7, Gen.hostOps0_8, List.flatten_cons, List.flatten_nil, List.append_nil, List.cons_append, List.nil_append]
  after_results_simp
  rfl

/-- Entry a of the bias row is entry a of the bias. -/
theorem v52_apply (a : Fin 40) :
    (V m c main_v52 : S1x40.Idx → EReal) (ix2 0 a) = (m ((c : Thread nD τ).loc main_arg2) : S40.Idx → EReal) (ix1 a) := by
  refine (congrFun (v52_eq m c) (ix2 0 a)).trans ?_
  exact shapeCast_a_1a_apply _ _ 0 a

/-! ## Layer 2: the weight matrix main_arg3 [40, 40], the bias main_arg4 -/

set_option maxHeartbeats 4000000 in
/-- The transposed integer parts as the operations' composed term. -/
theorem v43_eq : (V m c main_v43 : S40x40.Idx → EReal)
    = truncf .bf16 (transpose S40x40 [1, 0]
        (Cert.HostQuant.quant (m ((c : Thread nD τ).loc main_arg3) : FVec Ideal ⟨2, ![40, 40]⟩ .f32)
          Gen.reducesTo_S40x40_S40_d1 Gen.h_S_ Gen.bcast_S40_S40x1_0 Gen.bcast_S_S40x1 Gen.bcast_S40x1_S40x40_0_1)
        Gen.transposes_S40x40_S40x40_1_0) Gen.bitsLt_bf16_f32 := by
  dsimp only [Gen.V]
  simp only [Gen.hostOps0, Gen.hostOps0_1, Gen.hostOps0_2, Gen.hostOps0_3, Gen.hostOps0_4, Gen.hostOps0_5, Gen.hostOps0_6, Gen.hostOps0_7, Gen.hostOps0_8, List.flatten_cons, List.flatten_nil, List.append_nil, List.cons_append, List.nil_append]
  after_results_simp
  rfl

/-- Entry (k, a) of the transposed integer parts is the integer part of entry k of row a of the weight matrix. -/
theorem v43_apply (k : Fin 40) (a : Fin 40) :
    (V m c main_v43 : S40x40.Idx → EReal) (ix2 k a)
      = Cert.LibQuant.qv (fun j => (m ((c : Thread nD τ).loc main_arg3) : S40x40.Idx → EReal) (ix2 a j)) k := by
  refine (congrFun (v43_eq m c) (ix2 k a)).trans ?_
  rw [truncf_apply, Cert.LibJoinedRows.transpose2_apply, Cert.HostQuant.quant_apply]

set_option maxHeartbeats 4000000 in
/-- The step row as the operations' composed term. -/
theorem v49_eq : (V m c main_v49 : S1x40.Idx → EReal)
    = shapeCast S1x40 (Cert.HostQuant.stepCol (m ((c : Thread nD τ).loc main_arg3) : FVec Ideal ⟨2, ![40, 40]⟩ .f32)
        Gen.reducesTo_S40x40_S40_d1 Gen.h_S_ Gen.bcast_S40_S40x1_0 Gen.bcast_S_S40x1) Gen.shapeCasts_S40x1_S1x40 := by
  dsimp only [Gen.V]
  simp only [Gen.hostOps0, Gen.hostOps0_1, Gen.hostOps0_2, Gen.hostOps0_3, Gen.hostOps0_4, Gen.hostOps0_5, Gen.hostOps0_6, Gen.hostOps0_7, Gen.hostOps0_8, List.flatten_cons, List.flatten_nil, List.append_nil, List.cons_append, List.nil_append]
  after_results_simp
  rfl

/-- Entry a of the step row is the step of row a of the weight matrix. -/
theorem v49_apply (a : Fin 40) :
    (V m c main_v49 : S1x40.Idx → EReal) (ix2 0 a)
      = Cert.LibQuant.step (fun j => (m ((c : Thread nD τ).loc main_arg3) : S40x40.Idx → EReal) (ix2 a j)) := by
  refine (congrFun (v49_eq m c) (ix2 0 a)).trans ?_
  rw [shapeCast_a1_1a_apply _ _ 0 0 a, Cert.HostQuant.stepCol_apply]

set_option maxHeartbeats 4000000 in
/-- The bias row as the operations' composed term. -/
theorem v53_eq : (V m c main_v53 : S1x40.Idx → EReal)
    = shapeCast S1x40 (m ((c : Thread nD τ).loc main_arg4) : S40.Idx → EReal) Gen.shapeCasts_S40_S1x40 := by
  dsimp only [Gen.V]
  simp only [Gen.hostOps0, Gen.hostOps0_1, Gen.hostOps0_2, Gen.hostOps0_3, Gen.hostOps0_4, Gen.hostOps0_5, Gen.hostOps0_6, Gen.hostOps0_7, Gen.hostOps0_8, List.flatten_cons, List.flatten_nil, List.append_nil, List.cons_append, List.nil_append]
  after_results_simp
  rfl

/-- Entry a of the bias row is entry a of the bias. -/
theorem v53_apply (a : Fin 40) :
    (V m c main_v53 : S1x40.Idx → EReal) (ix2 0 a) = (m ((c : Thread nD τ).loc main_arg4) : S40.Idx → EReal) (ix1 a) := by
  refine (congrFun (v53_eq m c) (ix2 0 a)).trans ?_
  exact shapeCast_a_1a_apply _ _ 0 a

/-! ## Layer 3: the weight matrix main_arg5 [40, 40], the bias main_arg6 -/

set_option maxHeartbeats 4000000 in
/-- The transposed integer parts as the operations' composed term. -/
theorem v45_eq : (V m c main_v45 : S40x40.Idx → EReal)
    = truncf .bf16 (transpose S40x40 [1, 0]
        (Cert.HostQuant.quant (m ((c : Thread nD τ).loc main_arg5) : FVec Ideal ⟨2, ![40, 40]⟩ .f32)
          Gen.reducesTo_S40x40_S40_d1 Gen.h_S_ Gen.bcast_S40_S40x1_0 Gen.bcast_S_S40x1 Gen.bcast_S40x1_S40x40_0_1)
        Gen.transposes_S40x40_S40x40_1_0) Gen.bitsLt_bf16_f32 := by
  dsimp only [Gen.V]
  simp only [Gen.hostOps0, Gen.hostOps0_1, Gen.hostOps0_2, Gen.hostOps0_3, Gen.hostOps0_4, Gen.hostOps0_5, Gen.hostOps0_6, Gen.hostOps0_7, Gen.hostOps0_8, List.flatten_cons, List.flatten_nil, List.append_nil, List.cons_append, List.nil_append]
  after_results_simp
  rfl

/-- Entry (k, a) of the transposed integer parts is the integer part of entry k of row a of the weight matrix. -/
theorem v45_apply (k : Fin 40) (a : Fin 40) :
    (V m c main_v45 : S40x40.Idx → EReal) (ix2 k a)
      = Cert.LibQuant.qv (fun j => (m ((c : Thread nD τ).loc main_arg5) : S40x40.Idx → EReal) (ix2 a j)) k := by
  refine (congrFun (v45_eq m c) (ix2 k a)).trans ?_
  rw [truncf_apply, Cert.LibJoinedRows.transpose2_apply, Cert.HostQuant.quant_apply]

set_option maxHeartbeats 4000000 in
/-- The step row as the operations' composed term. -/
theorem v50_eq : (V m c main_v50 : S1x40.Idx → EReal)
    = shapeCast S1x40 (Cert.HostQuant.stepCol (m ((c : Thread nD τ).loc main_arg5) : FVec Ideal ⟨2, ![40, 40]⟩ .f32)
        Gen.reducesTo_S40x40_S40_d1 Gen.h_S_ Gen.bcast_S40_S40x1_0 Gen.bcast_S_S40x1) Gen.shapeCasts_S40x1_S1x40 := by
  dsimp only [Gen.V]
  simp only [Gen.hostOps0, Gen.hostOps0_1, Gen.hostOps0_2, Gen.hostOps0_3, Gen.hostOps0_4, Gen.hostOps0_5, Gen.hostOps0_6, Gen.hostOps0_7, Gen.hostOps0_8, List.flatten_cons, List.flatten_nil, List.append_nil, List.cons_append, List.nil_append]
  after_results_simp
  rfl

/-- Entry a of the step row is the step of row a of the weight matrix. -/
theorem v50_apply (a : Fin 40) :
    (V m c main_v50 : S1x40.Idx → EReal) (ix2 0 a)
      = Cert.LibQuant.step (fun j => (m ((c : Thread nD τ).loc main_arg5) : S40x40.Idx → EReal) (ix2 a j)) := by
  refine (congrFun (v50_eq m c) (ix2 0 a)).trans ?_
  rw [shapeCast_a1_1a_apply _ _ 0 0 a, Cert.HostQuant.stepCol_apply]

set_option maxHeartbeats 4000000 in
/-- The bias row as the operations' composed term. -/
theorem v54_eq : (V m c main_v54 : S1x40.Idx → EReal)
    = shapeCast S1x40 (m ((c : Thread nD τ).loc main_arg6) : S40.Idx → EReal) Gen.shapeCasts_S40_S1x40 := by
  dsimp only [Gen.V]
  simp only [Gen.hostOps0, Gen.hostOps0_1, Gen.hostOps0_2, Gen.hostOps0_3, Gen.hostOps0_4, Gen.hostOps0_5, Gen.hostOps0_6, Gen.hostOps0_7, Gen.hostOps0_8, List.flatten_cons, List.flatten_nil, List.append_nil, List.cons_append, List.nil_append]
  after_results_simp
  rfl

/-- Entry a of the bias row is entry a of the bias. -/
theorem v54_apply (a : Fin 40) :
    (V m c main_v54 : S1x40.Idx → EReal) (ix2 0 a) = (m ((c : Thread nD τ).loc main_arg6) : S40.Idx → EReal) (ix1 a) := by
  refine (congrFun (v54_eq m c) (ix2 0 a)).trans ?_
  exact shapeCast_a_1a_apply _ _ 0 a

/-! ## Layer 4: the weight matrix main_arg7 [2, 40], the bias main_arg8 -/

set_option maxHeartbeats 4000000 in
/-- The transposed integer parts as the operations' composed term. -/
theorem v47_eq : (V m c main_v47 : S40x2.Idx → EReal)
    = truncf .bf16 (transpose S40x2 [1, 0]
        (Cert.HostQuant.quant (m ((c : Thread nD τ).loc main_arg7) : FVec Ideal ⟨2, ![2, 40]⟩ .f32)
          Gen.reducesTo_S2x40_S2_d1 Gen.h_S_ Gen.bcast_S2_S2x1_0 Gen.bcast_S_S2x1 Gen.bcast_S2x1_S2x40_0_1)
        Gen.transposes_S2x40_S40x2_1_0) Gen.bitsLt_bf16_f32 := by
  dsimp only [Gen.V]
  simp only [Gen.hostOps0, Gen.hostOps0_1, Gen.hostOps0_2, Gen.hostOps0_3, Gen.hostOps0_4, Gen.hostOps0_5, Gen.hostOps0_6, Gen.hostOps0_7, Gen.hostOps0_8, List.flatten_cons, List.flatten_nil, List.append_nil, List.cons_append, List.nil_append]
  after_results_simp
  rfl

/-- Entry (k, a) of the transposed integer parts is the integer part of entry k of row a of the weight matrix. -/
theorem v47_apply (k : Fin 40) (a : Fin 2) :
    (V m c main_v47 : S40x2.Idx → EReal) (ix2 k a)
      = Cert.LibQuant.qv (fun j => (m ((c : Thread nD τ).loc main_arg7) : S2x40.Idx → EReal) (ix2 a j)) k := by
  refine (congrFun (v47_eq m c) (ix2 k a)).trans ?_
  rw [truncf_apply, Cert.LibJoinedRows.transpose2_apply, Cert.HostQuant.quant_apply]

set_option maxHeartbeats 4000000 in
/-- The step row as the operations' composed term. -/
theorem v51_eq : (V m c main_v51 : S1x2.Idx → EReal)
    = shapeCast S1x2 (Cert.HostQuant.stepCol (m ((c : Thread nD τ).loc main_arg7) : FVec Ideal ⟨2, ![2, 40]⟩ .f32)
        Gen.reducesTo_S2x40_S2_d1 Gen.h_S_ Gen.bcast_S2_S2x1_0 Gen.bcast_S_S2x1) Gen.shapeCasts_S2x1_S1x2 := by
  dsimp only [Gen.V]
  simp only [Gen.hostOps0, Gen.hostOps0_1, Gen.hostOps0_2, Gen.hostOps0_3, Gen.hostOps0_4, Gen.hostOps0_5, Gen.hostOps0_6, Gen.hostOps0_7, Gen.hostOps0_8, List.flatten_cons, List.flatten_nil, List.append_nil, List.cons_append, List.nil_append]
  after_results_simp
  rfl

/-- Entry a of the step row is the step of row a of the weight matrix. -/
theorem v51_apply (a : Fin 2) :
    (V m c main_v51 : S1x2.Idx → EReal) (ix2 0 a)
      = Cert.LibQuant.step (fun j => (m ((c : Thread nD τ).loc main_arg7) : S2x40.Idx → EReal) (ix2 a j)) := by
  refine (congrFun (v51_eq m c) (ix2 0 a)).trans ?_
  rw [shapeCast_a1_1a_apply _ _ 0 0 a, Cert.HostQuant.stepCol_apply]

set_option maxHeartbeats 4000000 in
/-- The bias row as the operations' composed term. -/
theorem v55_eq : (V m c main_v55 : S1x2.Idx → EReal)
    = shapeCast S1x2 (m ((c : Thread nD τ).loc main_arg8) : S2.Idx → EReal) Gen.shapeCasts_S2_S1x2 := by
  dsimp only [Gen.V]
  simp only [Gen.hostOps0, Gen.hostOps0_1, Gen.hostOps0_2, Gen.hostOps0_3, Gen.hostOps0_4, Gen.hostOps0_5, Gen.hostOps0_6, Gen.hostOps0_7, Gen.hostOps0_8, List.flatten_cons, List.flatten_nil, List.append_nil, List.cons_append, List.nil_append]
  after_results_simp
  rfl

/-- Entry a of the bias row is entry a of the bias. -/
theorem v55_apply (a : Fin 2) :
    (V m c main_v55 : S1x2.Idx → EReal) (ix2 0 a) = (m ((c : Thread nD τ).loc main_arg8) : S2.Idx → EReal) (ix1 a) := by
  refine (congrFun (v55_eq m c) (ix2 0 a)).trans ?_
  exact shapeCast_a_1a_apply _ _ 0 a

end Cert.KernelIdeal.HostVals

end
-- ==== Proof.KernelValue.lean ====
/-
  From blocks to the array.  The kernel's grid has 64 points; point t stages rows 4096·t … 4096·t + 4095 of the input,
  the twelve weight-side arrays whole, and writes back rows 4096·t … 4096·t + 4095 of the result.  Every result row is
  the four-layer network, in the integer-product arrangement, of the same input row; the 64 blocks cover the result
  array; so the array after the run is that one function of the argument arrays, row by row.
  The two facts this rests on are taken as hypotheses here and supplied where the claims are assembled: what the body
  leaves in its block, read at an entry, and what the program put into the twelve staged arrays before the call.
-/
import proofs.«101763_j14748917694594_2_alg».proof.Proof.Gen.KernelIdeal.Value
import proofs.«101763_j14748917694594_2_alg».proof.Proof.LibQuant
import Idealize.ShloMosaic.Lib.Pipeline.Value
import Idealize.ShloMosaic.Lib.ValueIdx

noncomputable section

namespace Cert.KernelIdeal.KVal

open Cert.KernelIdeal Cert.KernelIdeal.Gen Idealize.ShloMosaic Idealize.ShloMosaic.TcCoe Idealize.SL.Sem Idealize.ShloMosaic.ValueIdx
open Idealize.ShloMosaic.Pipeline (Dat)

variable (m : (ℓ : Loc nD τ sig) → Buf (Elt Ideal) ℓ) (ρ : Dev nD → PrngReg)

/-! ## The result array as one function of the arguments -/

/-- Entry (r, o) of the result: the network on input row r, each weight matrix entering through its rows' integer parts
    and steps. -/
def row (c : Dev nD) (r : Fin 262144) (o : Fin 2) : EReal :=
  Cert.LibQuant.netK Cert.LibQuant.r127 (fun k => (m ((c : Thread nD τ).loc main_arg0) : S262144x160.Idx → EReal) (ix2 r k))
    (fun k a => Cert.LibQuant.qv (fun j => (m ((c : Thread nD τ).loc main_arg1) : S40x160.Idx → EReal) (ix2 a j)) k) (fun a => Cert.LibQuant.step (fun j => (m ((c : Thread nD τ).loc main_arg1) : S40x160.Idx → EReal) (ix2 a j))) (fun a => (m ((c : Thread nD τ).loc main_arg2) : S40.Idx → EReal) (ix1 a))
    (fun k a => Cert.LibQuant.qv (fun j => (m ((c : Thread nD τ).loc main_arg3) : S40x40.Idx → EReal) (ix2 a j)) k) (fun a => Cert.LibQuant.step (fun j => (m ((c : Thread nD τ).loc main_arg3) : S40x40.Idx → EReal) (ix2 a j))) (fun a => (m ((c : Thread nD τ).loc main_arg4) : S40.Idx → EReal) (ix1 a))
    (fun k a => Cert.LibQuant.qv (fun j => (m ((c : Thread nD τ).loc main_arg5) : S40x40.Idx → EReal) (ix2 a j)) k) (fun a => Cert.LibQuant.step (fun j => (m ((c : Thread nD τ).loc main_arg5) : S40x40.Idx → EReal) (ix2 a j))) (fun a => (m ((c : Thread nD τ).loc main_arg6) : S40.Idx → EReal) (ix1 a))
    (fun k a => Cert.LibQuant.qv (fun j => (m ((c : Thread nD τ).loc main_arg7) : S2x40.Idx → EReal) (ix2 a j)) k) (fun a => Cert.LibQuant.step (fun j => (m ((c : Thread nD τ).loc main_arg7) : S2x40.Idx → EReal) (ix2 a j))) (fun a => (m ((c : Thread nD τ).loc main_arg8) : S2.Idx → EReal) (ix1 a)) o

/-- The result array. -/
def G (c : Dev nD) : S262144x2.Idx → EReal := fun i => row m c ⟨(i 0).val, (i 0).isLt⟩ ⟨(i 1).val, (i 1).isLt⟩

theorem G_apply (c : Dev nD) (r : Fin 262144) (o : Fin 2) : G m c (ix2 r o) = row m c r o := rfl

/-! ## The printed index maps, decided over the 64 grid points -/

/-- The input and the result move one block of 4096 rows per point; the twelve weight-side windows stay at block (0, 0). -/
theorem idx_facts : ∀ t : Fin cfg0.N, win0_0.index t (0 : Fin 2) = t.val
    ∧ win0_0.index t (1 : Fin 2) = 0
    ∧ win0_13.index t (0 : Fin 2) = t.val
    ∧ win0_13.index t (1 : Fin 2) = 0
    ∧ win0_1.index t (0 : Fin 2) = 0
    ∧ win0_1.index t (1 : Fin 2) = 0
    ∧ win0_2.index t (0 : Fin 2) = 0
    ∧ win0_2.index t (1 : Fin 2) = 0
    ∧ win0_3.index t (0 : Fin 2) = 0
    ∧ win0_3.index t (1 : Fin 2) = 0
    ∧ win0_4.index t (0 : Fin 2) = 0
    ∧ win0_4.index t (1 : Fin 2) = 0
    ∧ win0_5.index t (0 : Fin 2) = 0
    ∧ win0_5.index t (1 : Fin 2) = 0
    ∧ win0_6.index t (0 : Fin 2) = 0
    ∧ win0_6.index t (1 : Fin 2) = 0
    ∧ win0_7.index t (0 : Fin 2) = 0
    ∧ win0_7.index t (1 : Fin 2) = 0
    ∧ win0_8.index t (0 : Fin 2) = 0
    ∧ win0_8.index t (1 : Fin 2) = 0
    ∧ win0_9.index t (0 : Fin 2) = 0
    ∧ win0_9.index t (1 : Fin 2) = 0
    ∧ win0_10.index t (0 : Fin 2) = 0
    ∧ win0_10.index t (1 : Fin 2) = 0
    ∧ win0_11.index t (0 : Fin 2) = 0
    ∧ win0_11.index t (1 : Fin 2) = 0
    ∧ win0_12.index t (0 : Fin 2) = 0
    ∧ win0_12.index t (1 : Fin 2) = 0 :=
  (by decide +kernel : ∀ t : Fin grid0.N, _)

/-! ## The blocks read at an entry -/

/-- The input window's block at point t is rows 4096·t … of the input array. -/
theorem blk0 (c : Dev nD) (t : Fin cfg0.N) (p : Fin 4096) (k : Fin 160) (h : t.val * 4096 + p.val < 262144) :
    (iblk m c 0 t : S4096x160.Idx → EReal) (ix2 p k) = (m ((c : Thread nD τ).loc main_arg0) : S262144x160.Idx → EReal) (ix2 ⟨t.val * 4096 + p.val, h⟩ k) := by
  have e0 : win0_0.index t (0 : Fin 2) = t.val := (idx_facts t).1
  have e1 : win0_0.index t (1 : Fin 2) = 0 := (idx_facts t).2.1
  unfold iblk
  rw [View.read_apply]
  show V m c main_arg0 _ = _
  rw [V_main_arg0]
  congr 1
  funext d
  apply Fin.ext
  match d with
  | ⟨0, _⟩ => show win0_0.index t (0 : Fin 2) * 4096 + 1 * p.val = t.val * 4096 + p.val; rw [e0]; omega
  | ⟨1, _⟩ => show win0_0.index t (1 : Fin 2) * 160 + 1 * k.val = k.val; rw [e1]; omega

/-- Window 1's block is its whole array at every point. -/
theorem blk1 (c : Dev nD) (t : Fin cfg0.N) (k : Fin 160) (a : Fin 40) :
    (iblk m c 1 t : S160x40.Idx → EReal) (ix2 k a) = (V m c main_v41 : S160x40.Idx → EReal) (ix2 k a) := by
  have e0 : win0_1.index t (0 : Fin 2) = 0 := (idx_facts t).2.2.2.2.1
  have e1 : win0_1.index t (1 : Fin 2) = 0 := (idx_facts t).2.2.2.2.2.1
  unfold iblk
  rw [View.read_apply]
  show V m c main_v41 _ = V m c main_v41 _
  congr 1
  funext d
  apply Fin.ext
  match d with
  | ⟨0, _⟩ => show win0_1.index t (0 : Fin 2) * 160 + 1 * k.val = k.val; rw [e0]; omega
  | ⟨1, _⟩ => show win0_1.index t (1 : Fin 2) * 40 + 1 * a.val = a.val; rw [e1]; omega

/-- Window 2's block is its whole array at every point. -/
theorem blk2 (c : Dev nD) (t : Fin cfg0.N) (k : Fin 1) (a : Fin 40) :
    (iblk m c 2 t : S1x40.Idx → EReal) (ix2 k a) = (V m c main_v48 : S1x40.Idx → EReal) (ix2 k a) := by
  have e0 : win0_2.index t (0 : Fin 2) = 0 := (idx_facts t).2.2.2.2.2.2.1
  have e1 : win0_2.index t (1 : Fin 2) = 0 := (idx_facts t).2.2.2.2.2.2.2.1
  unfold iblk
  rw [View.read_apply]
  show V m c main_v48 _ = V m c main_v48 _
  congr 1
  funext d
  apply Fin.ext
  match d with
  | ⟨0, _⟩ => show win0_2.index t (0 : Fin 2) * 1 + 1 * k.val = k.val; rw [e0]; omega
  | ⟨1, _⟩ => show win0_2.index t (1 : Fin 2) * 40 + 1 * a.val = a.val; rw [e1]; omega

/-- Window 3's block is its whole array at every point. -/
theorem blk3 (c : Dev nD) (t : Fin cfg0.N) (k : Fin 1) (a : Fin 40) :
    (iblk m c 3 t : S1x40.Idx → EReal) (ix2 k a) = (V m c main_v52 : S1x40.Idx → EReal) (ix2 k a) := by
  have e0 : win0_3.index t (0 : Fin 2) = 0 := (idx_facts t).2.2.2.2.2.2.2.2.1
  have e1 : win0_3.index t (1 : Fin 2) = 0 := (idx_facts t).2.2.2.2.2.2.2.2.2.1
  unfold iblk
  rw [View.read_apply]
  show V m c main_v52 _ = V m c main_v52 _
  congr 1
  funext d
  apply Fin.ext
  match d with
  | ⟨0, _⟩ => show win0_3.index t (0 : Fin 2) * 1 + 1 * k.val = k.val; rw [e0]; omega
  | ⟨1, _⟩ => show win0_3.index t (1 : Fin 2) * 40 + 1 * a.val = a.val; rw [e1]; omega

/-- Window 4's block is its whole array at every point. -/
theorem blk4 (c : Dev nD) (t : Fin cfg0.N) (k : Fin 40) (a : Fin 40) :
    (iblk m c 4 t : S40x40.Idx → EReal) (ix2 k a) = (V m c main_v43 : S40x40.Idx → EReal) (ix2 k a) := by
  have e0 : win0_4.index t (0 : Fin 2) = 0 := (idx_facts t).2.2.2.2.2.2.2.2.2.2.1
  have e1 : win0_4.index t (1 : Fin 2) = 0 := (idx_facts t).2.2.2.2.2.2.2.2.2.2.2.1
  unfold iblk
  rw [View.read_apply]
  show V m c main_v43 _ = V m c main_v43 _
  congr 1
  funext d
  apply Fin.ext
  match d with
  | ⟨0, _⟩ => show win0_4.index t (0 : Fin 2) * 40 + 1 * k.val = k.val; rw [e0]; omega
  | ⟨1, _⟩ => show win0_4.index t (1 : Fin 2) * 40 + 1 * a.val = a.val; rw [e1]; omega

/-- Window 5's block is its whole array at every point. -/
theorem blk5 (c : Dev nD) (t : Fin cfg0.N) (k : Fin 1) (a : Fin 40) :
    (iblk m c 5 t : S1x40.Idx → EReal) (ix2 k a) = (V m c main_v49 : S1x40.Idx → EReal) (ix2 k a) := by
  have e0 : win0_5.index t (0 : Fin 2) = 0 := (idx_facts t).2.2.2.2.2.2.2.2.2.2.2.2.1
  have e1 : win0_5.index t (1 : Fin 2) = 0 := (idx_facts t).2.2.2.2.2.2.2.2.2.2.2.2.2.1
  unfold iblk
  rw [View.read_apply]
  show V m c main_v49 _ = V m c main_v49 _
  congr 1
  funext d
  apply Fin.ext
  match d with
  | ⟨0, _⟩ => show win0_5.index t (0 : Fin 2) * 1 + 1 * k.val = k.val; rw [e0]; omega
  | ⟨1, _⟩ => show win0_5.index t (1 : Fin 2) * 40 + 1 * a.val = a.val; rw [e1]; omega

/-- Window 6's block is its whole array at every point. -/
theorem blk6 (c : Dev nD) (t : Fin cfg0.N) (k : Fin 1) (a : Fin 40) :
    (iblk m c 6 t : S1x40.Idx → EReal) (ix2 k a) = (V m c main_v53 : S1x40.Idx → EReal) (ix2 k a) := by
  have e0 : win0_6.index t (0 : Fin 2) = 0 := (idx_facts t).2.2.2.2.2.2.2.2.2.2.2.2.2.2.1
  have e1 : win0_6.index t (1 : Fin 2) = 0 := (idx_facts t).2.2.2.2.2.2.2.2.2.2.2.2.2.2.2.1
  unfold iblk
  rw [View.read_apply]
  show V m c main_v53 _ = V m c main_v53 _
  congr 1
  funext d
  apply Fin.ext
  match d with
  | ⟨0, _⟩ => show win0_6.index t (0 : Fin 2) * 1 + 1 * k.val = k.val; rw [e0]; omega
  | ⟨1, _⟩ => show win0_6.index t (1 : Fin 2) * 40 + 1 * a.val = a.val; rw [e1]; omega

/-- Window 7's block is its whole array at every point. -/
theorem blk7 (c : Dev nD) (t : Fin cfg0.N) (k : Fin 40) (a : Fin 40) :
    (iblk m c 7 t : S40x40.Idx → EReal) (ix2 k a) = (V m c main_v45 : S40x40.Idx → EReal) (ix2 k a) := by
  have e0 : win0_7.index t (0 : Fin 2) = 0 := (idx_facts t).2.2.2.2.2.2.2.2.2.2.2.2.2.2.2.2.1
  have e1 : win0_7.index t (1 : Fin 2) = 0 := (idx_facts t).2.2.2.2.2.2.2.2.2.2.2.2.2.2.2.2.2.1
  unfold iblk
  rw [View.read_apply]
  show V m c main_v45 _ = V m c main_v45 _
  congr 1
  funext d
  apply Fin.ext
  match d with
  | ⟨0, _⟩ => show win0_7.index t (0 : Fin 2) * 40 + 1 * k.val = k.val; rw [e0]; omega
  | ⟨1, _⟩ => show win0_7.index t (1 : Fin 2) * 40 + 1 * a.val = a.val; rw [e1]; omega

/-- Window 8's block is its whole array at every point. -/
theorem blk8 (c : Dev nD) (t : Fin cfg0.N) (k : Fin 1) (a : Fin 40) :
    (iblk m c 8 t : S1x40.Idx → EReal) (ix2 k a) = (V m c main_v50 : S1x40.Idx → EReal) (ix2 k a) := by
  have e0 : win0_8.index t (0 : Fin 2) = 0 := (idx_facts t).2.2.2.2.2.2.2.2.2.2.2.2.2.2.2.2.2.2.1
  have e1 : win0_8.index t (1 : Fin 2) = 0 := (idx_facts t).2.2.2.2.2.2.2.2.2.2.2.2.2.2.2.2.2.2.2.1
  unfold iblk
  rw [View.read_apply]
  show V m c main_v50 _ = V m c main_v50 _
  congr 1
  funext d
  apply Fin.ext
  match d with
  | ⟨0, _⟩ => show win0_8.index t (0 : Fin 2) * 1 + 1 * k.val = k.val; rw [e0]; omega
  | ⟨1, _⟩ => show win0_8.index t (1 : Fin 2) * 40 + 1 * a.val = a.val; rw [e1]; omega

/-- Window 9's block is its whole array at every point. -/
theorem blk9 (c : Dev nD) (t : Fin cfg0.N) (k : Fin 1) (a : Fin 40) :
    (iblk m c 9 t : S1x40.Idx → EReal) (ix2 k a) = (V m c main_v54 : S1x40.Idx → EReal) (ix2 k a) := by
  have e0 : win0_9.index t (0 : Fin 2) = 0 := (idx_facts t).2.2.2.2.2.2.2.2.2.2.2.2.2.2.2.2.2.2.2.2.1
  have e1 : win0_9.index t (1 : Fin 2) = 0 := (idx_facts t).2.2.2.2.2.2.2.2.2.2.2.2.2.2.2.2.2.2.2.2.2.1
  unfold iblk
  rw [View.read_apply]
  show V m c main_v54 _ = V m c main_v54 _
  congr 1
  funext d
  apply Fin.ext
  match d with
  | ⟨0, _⟩ => show win0_9.index t (0 : Fin 2) * 1 + 1 * k.val = k.val; rw [e0]; omega
  | ⟨1, _⟩ => show win0_9.index t (1 : Fin 2) * 40 + 1 * a.val = a.val; rw [e1]; omega

/-- Window 10's block is its whole array at every point. -/
theorem blk10 (c : Dev nD) (t : Fin cfg0.N) (k : Fin 40) (a : Fin 2) :
    (iblk m c 10 t : S40x2.Idx → EReal) (ix2 k a) = (V m c main_v47 : S40x2.Idx → EReal) (ix2 k a) := by
  have e0 : win0_10.index t (0 : Fin 2) = 0 := (idx_facts t).2.2.2.2.2.2.2.2.2.2.2.2.2.2.2.2.2.2.2.2.2.2.1
  have e1 : win0_10.index t (1 : Fin 2) = 0 := (idx_facts t).2.2.2.2.2.2.2.2.2.2.2.2.2.2.2.2.2.2.2.2.2.2.2.1
  unfold iblk
  rw [View.read_apply]
  show V m c main_v47 _ = V m c main_v47 _
  congr 1
  funext d
  apply Fin.ext
  match d with
  | ⟨0, _⟩ => show win0_10.index t (0 : Fin 2) * 40 + 1 * k.val = k.val; rw [e0]; omega
  | ⟨1, _⟩ => show win0_10.index t (1 : Fin 2) * 2 + 1 * a.val = a.val; rw [e1]; omega

/-- Window 11's block is its whole array at every point. -/
theorem blk11 (c : Dev nD) (t : Fin cfg0.N) (k : Fin 1) (a : Fin 2) :
    (iblk m c 11 t : S1x2.Idx → EReal) (ix2 k a) = (V m c main_v51 : S1x2.Idx → EReal) (ix2 k a) := by
  have e0 : win0_11.index t (0 : Fin 2) = 0 := (idx_facts t).2.2.2.2.2.2.2.2.2.2.2.2.2.2.2.2.2.2.2.2.2.2.2.2.1
  have e1 : win0_11.index t (1 : Fin 2) = 0 := (idx_facts t).2.2.2.2.2.2.2.2.2.2.2.2.2.2.2.2.2.2.2.2.2.2.2.2.2.1
  unfold iblk
  rw [View.read_apply]
  show V m c main_v51 _ = V m c main_v51 _
  congr 1
  funext d
  apply Fin.ext
  match d with
  | ⟨0, _⟩ => show win0_11.index t (0 : Fin 2) * 1 + 1 * k.val = k.val; rw [e0]; omega
  | ⟨1, _⟩ => show win0_11.index t (1 : Fin 2) * 2 + 1 * a.val = a.val; rw [e1]; omega

/-- Window 12's block is its whole array at every point. -/
theorem blk12 (c : Dev nD) (t : Fin cfg0.N) (k : Fin 1) (a : Fin 2) :
    (iblk m c 12 t : S1x2.Idx → EReal) (ix2 k a) = (V m c main_v55 : S1x2.Idx → EReal) (ix2 k a) := by
  have e0 : win0_12.index t (0 : Fin 2) = 0 := (idx_facts t).2.2.2.2.2.2.2.2.2.2.2.2.2.2.2.2.2.2.2.2.2.2.2.2.2.2.1
  have e1 : win0_12.index t (1 : Fin 2) = 0 := (idx_facts t).2.2.2.2.2.2.2.2.2.2.2.2.2.2.2.2.2.2.2.2.2.2.2.2.2.2.2
  unfold iblk
  rw [View.read_apply]
  show V m c main_v55 _ = V m c main_v55 _
  congr 1
  funext d
  apply Fin.ext
  match d with
  | ⟨0, _⟩ => show win0_12.index t (0 : Fin 2) * 1 + 1 * k.val = k.val; rw [e0]; omega
  | ⟨1, _⟩ => show win0_12.index t (1 : Fin 2) * 2 + 1 * a.val = a.val; rw [e1]; omega

/-! ## The cover -/

/-- Every entry of the result array lies in the block of the point that its row number, divided by 4096, names. -/
theorem cover (c : Dev nD) (i : S262144x2.Idx) :
    ∃ t : Fin cfg0.N, (cfg0.win 13).flush t = true ∧ i ∈ ((cfg0.win 13).blk t).view.set := by
  have hN : cfg0.N = 64 := N_0
  have hi0 : (i 0).val < 262144 := (i 0).isLt
  have hi1 : (i 1).val < 2 := (i 1).isLt
  have hlt : (i 0).val / 4096 < cfg0.N := by rw [hN]; omega
  refine ⟨⟨(i 0).val / 4096, hlt⟩, flush0_13 _, ?_⟩
  have e0 := (idx_facts ⟨(i 0).val / 4096, hlt⟩).2.2.1
  have e1 := (idx_facts ⟨(i 0).val / 4096, hlt⟩).2.2.2.1
  show i ∈ ((View.whole main_v56).slice (win0_13.rect ⟨(i 0).val / 4096, hlt⟩)).set
  rw [View.set_slice_whole, Rect.mem_set_unit]
  intro a
  match a with
  | ⟨0, _⟩ =>
    show win0_13.index ⟨(i 0).val / 4096, hlt⟩ (0 : Fin 2) * 4096 ≤ (i 0).val ∧ (i 0).val < win0_13.index ⟨(i 0).val / 4096, hlt⟩ (0 : Fin 2) * 4096 + 4096
    rw [e0]
    show (i 0).val / 4096 * 4096 ≤ (i 0).val ∧ (i 0).val < (i 0).val / 4096 * 4096 + 4096
    omega
  | ⟨1, _⟩ =>
    show win0_13.index ⟨(i 0).val / 4096, hlt⟩ (1 : Fin 2) * 2 ≤ (i 1).val ∧ (i 1).val < win0_13.index ⟨(i 0).val / 4096, hlt⟩ (1 : Fin 2) * 2 + 2
    rw [e1]
    omega

/-! ## What a point writes back, and the array after the run -/

section assembled

variable
  (hpay : ∀ (x0 : Vec Ideal S4096x160 .f32) (x1 : Vec Ideal S160x40 .bf16) (x2 x3 : Vec Ideal S1x40 .f32)
      (x4 : Vec Ideal S40x40 .bf16) (x5 x6 : Vec Ideal S1x40 .f32) (x7 : Vec Ideal S40x40 .bf16) (x8 x9 : Vec Ideal S1x40 .f32)
      (x10 : Vec Ideal S40x2 .bf16) (x11 x12 : Vec Ideal S1x2 .f32) (p : Fin 4096) (o : Fin 2),
      out0_13 (F := Ideal) x0 x1 x2 x3 x4 x5 x6 x7 x8 x9 x10 x11 x12 (ix2 p o)
        = Cert.LibQuant.netK Cert.LibQuant.r127 (fun k => x0 (ix2 p k))
            (fun k a => x1 (ix2 k a)) (fun a => x2 (ix2 0 a)) (fun a => x3 (ix2 0 a))
            (fun k a => x4 (ix2 k a)) (fun a => x5 (ix2 0 a)) (fun a => x6 (ix2 0 a))
            (fun k a => x7 (ix2 k a)) (fun a => x8 (ix2 0 a)) (fun a => x9 (ix2 0 a))
            (fun k a => x10 (ix2 k a)) (fun a => x11 (ix2 0 a)) (fun a => x12 (ix2 0 a)) o)
  (hv41 : ∀ (c : Dev nD) (k : Fin 160) (a : Fin 40), (V m c main_v41 : S160x40.Idx → EReal) (ix2 k a) = Cert.LibQuant.qv (fun j => (m ((c : Thread nD τ).loc main_arg1) : S40x160.Idx → EReal) (ix2 a j)) k)
  (hv48 : ∀ (c : Dev nD) (a : Fin 40), (V m c main_v48 : S1x40.Idx → EReal) (ix2 0 a) = Cert.LibQuant.step (fun j => (m ((c : Thread nD τ).loc main_arg1) : S40x160.Idx → EReal) (ix2 a j)))
  (hv52 : ∀ (c : Dev nD) (a : Fin 40), (V m c main_v52 : S1x40.Idx → EReal) (ix2 0 a) = (m ((c : Thread nD τ).loc main_arg2) : S40.Idx → EReal) (ix1 a))
  (hv43 : ∀ (c : Dev nD) (k : Fin 40) (a : Fin 40), (V m c main_v43 : S40x40.Idx → EReal) (ix2 k a) = Cert.LibQuant.qv (fun j => (m ((c : Thread nD τ).loc main_arg3) : S40x40.Idx → EReal) (ix2 a j)) k)
  (hv49 : ∀ (c : Dev nD) (a : Fin 40), (V m c main_v49 : S1x40.Idx → EReal) (ix2 0 a) = Cert.LibQuant.step (fun j => (m ((c : Thread nD τ).loc main_arg3) : S40x40.Idx → EReal) (ix2 a j)))
  (hv53 : ∀ (c : Dev nD) (a : Fin 40), (V m c main_v53 : S1x40.Idx → EReal) (ix2 0 a) = (m ((c : Thread nD τ).loc main_arg4) : S40.Idx → EReal) (ix1 a))
  (hv45 : ∀ (c : Dev nD) (k : Fin 40) (a : Fin 40), (V m c main_v45 : S40x40.Idx → EReal) (ix2 k a) = Cert.LibQuant.qv (fun j => (m ((c : Thread nD τ).loc main_arg5) : S40x40.Idx → EReal) (ix2 a j)) k)
  (hv50 : ∀ (c : Dev nD) (a : Fin 40), (V m c main_v50 : S1x40.Idx → EReal) (ix2 0 a) = Cert.LibQuant.step (fun j => (m ((c : Thread nD τ).loc main_arg5) : S40x40.Idx → EReal) (ix2 a j)))
  (hv54 : ∀ (c : Dev nD) (a : Fin 40), (V m c main_v54 : S1x40.Idx → EReal) (ix2 0 a) = (m ((c : Thread nD τ).loc main_arg6) : S40.Idx → EReal) (ix1 a))
  (hv47 : ∀ (c : Dev nD) (k : Fin 40) (a : Fin 2), (V m c main_v47 : S40x2.Idx → EReal) (ix2 k a) = Cert.LibQuant.qv (fun j => (m ((c : Thread nD τ).loc main_arg7) : S2x40.Idx → EReal) (ix2 a j)) k)
  (hv51 : ∀ (c : Dev nD) (a : Fin 2), (V m c main_v51 : S1x2.Idx → EReal) (ix2 0 a) = Cert.LibQuant.step (fun j => (m ((c : Thread nD τ).loc main_arg7) : S2x40.Idx → EReal) (ix2 a j)))
  (hv55 : ∀ (c : Dev nD) (a : Fin 2), (V m c main_v55 : S1x2.Idx → EReal) (ix2 0 a) = (m ((c : Thread nD τ).loc main_arg8) : S2.Idx → EReal) (ix1 a))

include hpay hv41 hv48 hv52 hv43 hv49 hv53 hv45 hv50 hv54 hv47 hv51 hv55

/-- What point t writes back is block t of the result array `G`: the body's block at entry (p, o) is the network on
    the block's input row p, which is row 4096·t + p of the input, over the staged weight-side arrays. -/
theorem flushed_eq (c : Dev nD) (t : Fin cfg0.N) :
    (dats m 0 c).flushed 13 t = ((cfg0.win 13).blk t).view.read (Elt Ideal) (G m c) := by
  rw [Value.flushed13]
  refine funext fun (y : S4096x2.Idx) => ?_
  obtain ⟨p, o, rfl⟩ : ∃ (p : Fin 4096) (o : Fin 2), y = ix2 p o := ⟨y 0, y 1, eq_ix2 y⟩
  have hN : cfg0.N = 64 := N_0
  have ht : t.val * 4096 + p.val < 262144 := by
    have h1 := t.isLt
    have h2 := p.isLt
    omega
  have e0 : win0_13.index t (0 : Fin 2) = t.val := (idx_facts t).2.2.1
  have e1 : win0_13.index t (1 : Fin 2) = 0 := (idx_facts t).2.2.2.1
  show out0_13 (F := Ideal) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (ix2 p o) = G m c (((cfg0.win 13).blk t).view.emb (ix2 p o))
  have hemb : ((cfg0.win 13).blk t).view.emb (ix2 p o) = (ix2 ⟨t.val * 4096 + p.val, ht⟩ o : S262144x2.Idx) := by
    funext d
    apply Fin.ext
    match d with
    | ⟨0, _⟩ => show win0_13.index t (0 : Fin 2) * 4096 + 1 * p.val = t.val * 4096 + p.val; rw [e0]; omega
    | ⟨1, _⟩ => show win0_13.index t (1 : Fin 2) * 2 + 1 * o.val = o.val; rw [e1]; omega
  rw [hemb, G_apply, hpay]
  unfold row
  simp only [blk0 m c t _ _ ht, blk1 m c t, blk2 m c t, blk3 m c t, blk4 m c t, blk5 m c t, blk6 m c t, blk7 m c t, blk8 m c t, blk9 m c t, blk10 m c t, blk11 m c t, blk12 m c t, hv41, hv48, hv52, hv43, hv49, hv53, hv45, hv50, hv54, hv47, hv51, hv55]

/-- The result array after the run is `G`. -/
theorem final (c : Dev nD) : (dats m 0 c).arrAt 13 cfg0.N = G m c :=
  (dats m 0 c).arrAt_eq_of_cover 13 (G m c)
    (fun t _ => flushed_eq m hpay hv41 hv48 hv52 hv43 hv49 hv53 hv45 hv50 hv54 hv47 hv51 hv55 c t)
    (cover c)

/-- Every weakly fair execution of the kernel's program terminates with the result array at `G` of the argument arrays
    and the argument arrays unchanged. -/
theorem run : θ_run defs (onTc (τ := τ) (main (F := Ideal))) ⟨m, fun _ => 0, ρ⟩ fun r => ∀ c : Dev nD,
      r.2.mem ((c : Thread nD τ).loc main_v56) = G m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8) :=
  (θ_run defs _ _).mono
    (fun r h c => ⟨(h c).1.trans (final m hpay hv41 hv48 hv52 hv43 hv49 hv53 hv45 hv50 hv54 hv47 hv51 hv55 c), (h c).2⟩)
    (Value.run_blocks m ρ)

end assembled

end Cert.KernelIdeal.KVal

end
-- ==== Proof.RefOps.lean ====
/-
  The reference network's program as a straight line of host operations: each layer quantises its activation rows,
  quantises its weight rows and transposes them, multiplies, adds the bias and applies its activation; the functions the
  program calls (the rounding, the exponential linear unit with its two selections, the soft-plus) are written out at
  their calls.  The line is given whole and cut into twelve segments, three per layer (activation rows, weight rows,
  product and activation).  This module is the table only.
-/
import proofs.«101763_j14748917694594_2_alg».proof.Proof.Gen.ReferenceIdeal
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- Segment A1: 17 operations. -/
abbrev segA1 : List (HloOp τ sig (Elt F)) :=
  [ StableHlo.unary main_arg0 main_v0 (Host.absf : (⟨S262144x160, .f32⟩ : BufTy).Contents (Elt F) → (⟨S262144x160, .f32⟩ : BufTy).Contents (Elt F)),
    StableHlo.nullary main_cst (constant S_ .f32 0xFF800000#32),
    StableHlo.binary main_v0 main_cst main_v1 ((fun x v => Host.reduce FloatOps.maximumf x v reducesTo_S262144x160_S262144_d1 h_S_) : (⟨S262144x160, .f32⟩ : BufTy).Contents (Elt F) → (⟨S_, .f32⟩ : BufTy).Contents (Elt F) → (⟨S262144, .f32⟩ : BufTy).Contents (Elt F)),
    StableHlo.unary main_v1 main_v2 (broadcastInDim S262144x1 ![0] bcast_S262144_S262144x1_0 : (⟨S262144, .f32⟩ : BufTy).Contents (Elt F) → (⟨S262144x1, .f32⟩ : BufTy).Contents (Elt F)),
    StableHlo.nullary main_cst_0 (constant S_ .f32 0x42FE0000#32),
    StableHlo.unary main_cst_0 main_v3 (broadcastInDim S262144x1 ![] bcast_S_S262144x1 : (⟨S_, .f32⟩ : BufTy).Contents (Elt F) → (⟨S262144x1, .f32⟩ : BufTy).Contents (Elt F)),
    StableHlo.binary main_v2 main_v3 main_v4 (Host.divf : (⟨S262144x1, .f32⟩ : BufTy).Contents (Elt F) → (⟨S262144x1, .f32⟩ : BufTy).Contents (Elt F) → (⟨S262144x1, .f32⟩ : BufTy).Contents (Elt F)),
    StableHlo.nullary main_cst_1 (constant S_ .f32 0x322BCC77#32),
    StableHlo.unary main_cst_1 main_v5 (broadcastInDim S262144x1 ![] bcast_S_S262144x1 : (⟨S_, .f32⟩ : BufTy).Contents (Elt F) → (⟨S262144x1, .f32⟩ : BufTy).Contents (Elt F)),
    StableHlo.binary main_v4 main_v5 main_v6 (maximumf : (⟨S262144x1, .f32⟩ : BufTy).Contents (Elt F) → (⟨S262144x1, .f32⟩ : BufTy).Contents (Elt F) → (⟨S262144x1, .f32⟩ : BufTy).Contents (Elt F)),
    StableHlo.unary main_v6 main_v7 (broadcastInDim S262144x160 ![0, 1] bcast_S262144x1_S262144x160_0_1 : (⟨S262144x1, .f32⟩ : BufTy).Contents (Elt F) → (⟨S262144x160, .f32⟩ : BufTy).Contents (Elt F)),
    StableHlo.binary main_arg0 main_v7 main_v8 (Host.divf : (⟨S262144x160, .f32⟩ : BufTy).Contents (Elt F) → (⟨S262144x160, .f32⟩ : BufTy).Contents (Elt F) → (⟨S262144x160, .f32⟩ : BufTy).Contents (Elt F)),
    StableHlo.TRef.unary (.of main_v8 : StableHlo.TRef sig ⟨S262144x160, .f32⟩) main_call0.v0 Host.roundeven,
    StableHlo.unary main_v6 main_v10 (broadcastInDim S262144x160 ![0, 1] bcast_S262144x1_S262144x160_0_1 : (⟨S262144x1, .f32⟩ : BufTy).Contents (Elt F) → (⟨S262144x160, .f32⟩ : BufTy).Contents (Elt F)),
    StableHlo.binary main_v9 main_v10 main_v11 (mulf : (⟨S262144x160, .f32⟩ : BufTy).Contents (Elt F) → (⟨S262144x160, .f32⟩ : BufTy).Contents (Elt F) → (⟨S262144x160, .f32⟩ : BufTy).Contents (Elt F)),
    StableHlo.binary main_v11 main_arg0 main_v12 (subf : (⟨S262144x160, .f32⟩ : BufTy).Contents (Elt F) → (⟨S262144x160, .f32⟩ : BufTy).Contents (Elt F) → (⟨S262144x160, .f32⟩ : BufTy).Contents (Elt F)),
    StableHlo.binary main_arg0 main_v12 main_v13 (addf : (⟨S262144x160, .f32⟩ : BufTy).Contents (Elt F) → (⟨S262144x160, .f32⟩ : BufTy).Contents (Elt F) → (⟨S262144x160, .f32⟩ : BufTy).Contents (Elt F)) ]

/-- Segment W1: 18 operations. -/
abbrev segW1 : List (HloOp τ sig (Elt F)) :=
  [ StableHlo.unary main_arg1 main_v14 (Host.absf : (⟨S40x160, .f32⟩ : BufTy).Contents (Elt F) → (⟨S40x160, .f32⟩ : BufTy).Contents (Elt F)),
    StableHlo.nullary main_cst_2 (constant S_ .f32 0xFF800000#32),
    StableHlo.binary main_v14 main_cst_2 main_v15 ((fun x v => Host.reduce FloatOps.maximumf x v reducesTo_S40x160_S40_d1 h_S_) : (⟨S40x160, .f32⟩ : BufTy).Contents (Elt F) → (⟨S_, .f32⟩ : BufTy).Contents (Elt F) → (⟨S40, .f32⟩ : BufTy).Contents (Elt F)),
    StableHlo.unary main_v15 main_v16 (broadcastInDim S40x1 ![0] bcast_S40_S40x1_0 : (⟨S40, .f32⟩ : BufTy).Contents (Elt F) → (⟨S40x1, .f32⟩ : BufTy).Contents (Elt F)),
    StableHlo.nullary main_cst_3 (constant S_ .f32 0x42FE0000#32),
    StableHlo.unary main_cst_3 main_v17 (broadcastInDim S40x1 ![] bcast_S_S40x1 : (⟨S_, .f32⟩ : BufTy).Contents (Elt F) → (⟨S40x1, .f32⟩ : BufTy).Contents (Elt F)),
    StableHlo.binary main_v16 main_v17 main_v18 (Host.divf : (⟨S40x1, .f32⟩ : BufTy).Contents (Elt F) → (⟨S40x1, .f32⟩ : BufTy).Contents (Elt F) → (⟨S40x1, .f32⟩ : BufTy).Contents (Elt F)),
    StableHlo.nullary main_cst_4 (constant S_ .f32 0x322BCC77#32),
    StableHlo.unary main_cst_4 main_v19 (broadcastInDim S40x1 ![] bcast_S_S40x1 : (⟨S_, .f32⟩ : BufTy).Contents (Elt F) → (⟨S40x1, .f32⟩ : BufTy).Contents (Elt F)),
    StableHlo.binary main_v18 main_v19 main_v20 (maximumf : (⟨S40x1, .f32⟩ : BufTy).Contents (Elt F) → (⟨S40x1, .f32⟩ : BufTy).Contents (Elt F) → (⟨S40x1, .f32⟩ : BufTy).Contents (Elt F)),
    StableHlo.unary main_v20 main_v21 (broadcastInDim S40x160 ![0, 1] bcast_S40x1_S40x160_0_1 : (⟨S40x1, .f32⟩ : BufTy).Contents (Elt F) → (⟨S40x160, .f32⟩ : BufTy).Contents (Elt F)),
    StableHlo.binary main_arg1 main_v21 main_v22 (Host.divf : (⟨S40x160, .f32⟩ : BufTy).Contents (Elt F) → (⟨S40x160, .f32⟩ : BufTy).Contents (Elt F) → (⟨S40x160, .f32⟩ : BufTy).Contents (Elt F)),
    StableHlo.TRef.unary (.of main_v22 : StableHlo.TRef sig ⟨S40x160, .f32⟩) main_call1.v0 Host.roundeven,
    StableHlo.unary main_v20 main_v24 (broadcastInDim S40x160 ![0, 1] bcast_S40x1_S40x160_0_1 : (⟨S40x1, .f32⟩ : BufTy).Contents (Elt F) → (⟨S40x160, .f32⟩ : BufTy).Contents (Elt F)),
    StableHlo.binary main_v23 main_v24 main_v25 (mulf : (⟨S40x160, .f32⟩ : BufTy).Contents (Elt F) → (⟨S40x160, .f32⟩ : BufTy).Contents (Elt F) → (⟨S40x160, .f32⟩ : BufTy).Contents (Elt F)),
    StableHlo.binary main_v25 main_arg1 main_v26 (subf : (⟨S40x160, .f32⟩ : BufTy).Contents (Elt F) → (⟨S40x160, .f32⟩ : BufTy).Contents (Elt F) → (⟨S40x160, .f32⟩ : BufTy).Contents (Elt F)),
    StableHlo.binary main_arg1 main_v26 main_v27 (addf : (⟨S40x160, .f32⟩ : BufTy).Contents (Elt F) → (⟨S40x160, .f32⟩ : BufTy).Contents (Elt F) → (⟨S40x160, .f32⟩ : BufTy).Contents (Elt F)),
    StableHlo.unary main_v27 main_v28 ((transpose S160x40 [1, 0] · transposes_S40x160_S160x40_1_0) : (⟨S40x160, .f32⟩ : BufTy).Contents (Elt F) → (⟨S160x40, .f32⟩ : BufTy).Contents (Elt F)) ]

/-- Segment D1: 5 operations. -/
abbrev segD1 : List (HloOp τ sig (Elt F)) :=
  [ StableHlo.binary main_v13 main_v28 main_v29 ((fun l r => Host.dotGeneral dot_S262144x160_S160x40_S262144x40_1_0_0_1_n_n none l r) : (⟨S262144x160, .f32⟩ : BufTy).Contents (Elt F) → (⟨S160x40, .f32⟩ : BufTy).Contents (Elt F) → (⟨S262144x40, .f32⟩ : BufTy).Contents (Elt F)),
    StableHlo.unary main_arg2 main_v30 (broadcastInDim S1x40 ![1] bcast_S40_S1x40_1 : (⟨S40, .f32⟩ : BufTy).Contents (Elt F) → (⟨S1x40, .f32⟩ : BufTy).Contents (Elt F)),
    StableHlo.unary main_v30 main_v31 (broadcastInDim S262144x40 ![0, 1] bcast_S1x40_S262144x40_0_1 : (⟨S1x40, .f32⟩ : BufTy).Contents (Elt F) → (⟨S262144x40, .f32⟩ : BufTy).Contents (Elt F)),
    StableHlo.binary main_v29 main_v31 main_v32 (addf : (⟨S262144x40, .f32⟩ : BufTy).Contents (Elt F) → (⟨S262144x40, .f32⟩ : BufTy).Contents (Elt F) → (⟨S262144x40, .f32⟩ : BufTy).Contents (Elt F)),
    StableHlo.unary main_v32 main_v33 (Host.tanh : (⟨S262144x40, .f32⟩ : BufTy).Contents (Elt F) → (⟨S262144x40, .f32⟩ : BufTy).Contents (Elt F)) ]

/-- Segment A2: 17 operations. -/
abbrev segA2 : List (HloOp τ sig (Elt F)) :=
  [ StableHlo.unary main_v33 main_v34 (Host.absf : (⟨S262144x40, .f32⟩ : BufTy).Contents (Elt F) → (⟨S262144x40, .f32⟩ : BufTy).Contents (Elt F)),
    StableHlo.nullary main_cst_5 (constant S_ .f32 0xFF800000#32),
    StableHlo.binary main_v34 main_cst_5 main_v35 ((fun x v => Host.reduce FloatOps.maximumf x v reducesTo_S262144x40_S262144_d1 h_S_) : (⟨S262144x40, .f32⟩ : BufTy).Contents (Elt F) → (⟨S_, .f32⟩ : BufTy).Contents (Elt F) → (⟨S262144, .f32⟩ : BufTy).Contents (Elt F)),
    StableHlo.unary main_v35 main_v36 (broadcastInDim S262144x1 ![0] bcast_S262144_S262144x1_0 : (⟨S262144, .f32⟩ : BufTy).Contents (Elt F) → (⟨S262144x1, .f32⟩ : BufTy).Contents (Elt F)),
    StableHlo.nullary main_cst_6 (constant S_ .f32 0x42FE0000#32),
    StableHlo.unary main_cst_6 main_v37 (broadcastInDim S262144x1 ![] bcast_S_S262144x1 : (⟨S_, .f32⟩ : BufTy).Contents (Elt F) → (⟨S262144x1, .f32⟩ : BufTy).Contents (Elt F)),
    StableHlo.binary main_v36 main_v37 main_v38 (Host.divf : (⟨S262144x1, .f32⟩ : BufTy).Contents (Elt F) → (⟨S262144x1, .f32⟩ : BufTy).Contents (Elt F) → (⟨S262144x1, .f32⟩ : BufTy).Contents (Elt F)),
    StableHlo.nullary main_cst_7 (constant S_ .f32 0x322BCC77#32),
    StableHlo.unary main_cst_7 main_v39 (broadcastInDim S262144x1 ![] bcast_S_S262144x1 : (⟨S_, .f32⟩ : BufTy).Contents (Elt F) → (⟨S262144x1, .f32⟩ : BufTy).Contents (Elt F)),
    StableHlo.binary main_v38 main_v39 main_v40 (maximumf : (⟨S262144x1, .f32⟩ : BufTy).Contents (Elt F) → (⟨S262144x1, .f32⟩ : BufTy).Contents (Elt F) → (⟨S262144x1, .f32⟩ : BufTy).Contents (Elt F)),
    StableHlo.unary main_v40 main_v41 (broadcastInDim S262144x40 ![0, 1] bcast_S262144x1_S262144x40_0_1 : (⟨S262144x1, .f32⟩ : BufTy).Contents (Elt F) → (⟨S262144x40, .f32⟩ : BufTy).Contents (Elt F)),
    StableHlo.binary main_v33 main_v41 main_v42 (Host.divf : (⟨S262144x40, .f32⟩ : BufTy).Contents (Elt F) → (⟨S262144x40, .f32⟩ : BufTy).Contents (Elt F) → (⟨S262144x40, .f32⟩ : BufTy).Contents (Elt F)),
    StableHlo.TRef.unary (.of main_v42 : StableHlo.TRef sig ⟨S262144x40, .f32⟩) main_call2.v0 Host.roundeven,
    StableHlo.unary main_v40 main_v44 (broadcastInDim S262144x40 ![0, 1] bcast_S262144x1_S262144x40_0_1 : (⟨S262144x1, .f32⟩ : BufTy).Contents (Elt F) → (⟨S262144x40, .f32⟩ : BufTy).Contents (Elt F)),
    StableHlo.binary main_v43 main_v44 main_v45 (mulf : (⟨S262144x40, .f32⟩ : BufTy).Contents (Elt F) → (⟨S262144x40, .f32⟩ : BufTy).Contents (Elt F) → (⟨S262144x40, .f32⟩ : BufTy).Contents (Elt F)),
    StableHlo.binary main_v45 main_v33 main_v46 (subf : (⟨S262144x40, .f32⟩ : BufTy).Contents (Elt F) → (⟨S262144x40, .f32⟩ : BufTy).Contents (Elt F) → (⟨S262144x40, .f32⟩ : BufTy).Contents (Elt F)),
    StableHlo.binary main_v33 main_v46 main_v47 (addf : (⟨S262144x40, .f32⟩ : BufTy).Contents (Elt F) → (⟨S262144x40, .f32⟩ : BufTy).Contents (Elt F) → (⟨S262144x40, .f32⟩ : BufTy).Contents (Elt F)) ]

/-- Segment W2: 18 operations. -/
abbrev segW2 : List (HloOp τ sig (Elt F)) :=
  [ StableHlo.unary main_arg3 main_v48 (Host.absf : (⟨S40x40, .f32⟩ : BufTy).Contents (Elt F) → (⟨S40x40, .f32⟩ : BufTy).Contents (Elt F)),
    StableHlo.nullary main_cst_8 (constant S_ .f32 0xFF800000#32),
    StableHlo.binary main_v48 main_cst_8 main_v49 ((fun x v => Host.reduce FloatOps.maximumf x v reducesTo_S40x40_S40_d1 h_S_) : (⟨S40x40, .f32⟩ : BufTy).Contents (Elt F) → (⟨S_, .f32⟩ : BufTy).Contents (Elt F) → (⟨S40, .f32⟩ : BufTy).Contents (Elt F)),
    StableHlo.unary main_v49 main_v50 (broadcastInDim S40x1 ![0] bcast_S40_S40x1_0 : (⟨S40, .f32⟩ : BufTy).Contents (Elt F) → (⟨S40x1, .f32⟩ : BufTy).Contents (Elt F)),
    StableHlo.nullary main_cst_9 (constant S_ .f32 0x42FE0000#32),
    StableHlo.unary main_cst_9 main_v51 (broadcastInDim S40x1 ![] bcast_S_S40x1 : (⟨S_, .f32⟩ : BufTy).Contents (Elt F) → (⟨S40x1, .f32⟩ : BufTy).Contents (Elt F)),
    StableHlo.binary main_v50 main_v51 main_v52 (Host.divf : (⟨S40x1, .f32⟩ : BufTy).Contents (Elt F) → (⟨S40x1, .f32⟩ : BufTy).Contents (Elt F) → (⟨S40x1, .f32⟩ : BufTy).Contents (Elt F)),
    StableHlo.nullary main_cst_10 (constant S_ .f32 0x322BCC77#32),
    StableHlo.unary main_cst_10 main_v53 (broadcastInDim S40x1 ![] bcast_S_S40x1 : (⟨S_, .f32⟩ : BufTy).Contents (Elt F) → (⟨S40x1, .f32⟩ : BufTy).Contents (Elt F)),
    StableHlo.binary main_v52 main_v53 main_v54 (maximumf : (⟨S40x1, .f32⟩ : BufTy).Contents (Elt F) → (⟨S40x1, .f32⟩ : BufTy).Contents (Elt F) → (⟨S40x1, .f32⟩ : BufTy).Contents (Elt F)),
    StableHlo.unary main_v54 main_v55 (broadcastInDim S40x40 ![0, 1] bcast_S40x1_S40x40_0_1 : (⟨S40x1, .f32⟩ : BufTy).Contents (Elt F) → (⟨S40x40, .f32⟩ : BufTy).Contents (Elt F)),
    StableHlo.binary main_arg3 main_v55 main_v56 (Host.divf : (⟨S40x40, .f32⟩ : BufTy).Contents (Elt F) → (⟨S40x40, .f32⟩ : BufTy).Contents (Elt F) → (⟨S40x40, .f32⟩ : BufTy).Contents (Elt F)),
    StableHlo.TRef.unary (.of main_v56 : StableHlo.TRef sig ⟨S40x40, .f32⟩) main_call3.v0 Host.roundeven,
    StableHlo.unary main_v54 main_v58 (broadcastInDim S40x40 ![0, 1] bcast_S40x1_S40x40_0_1 : (⟨S40x1, .f32⟩ : BufTy).Contents (Elt F) → (⟨S40x40, .f32⟩ : BufTy).Contents (Elt F)),
    StableHlo.binary main_v57 main_v58 main_v59 (mulf : (⟨S40x40, .f32⟩ : BufTy).Contents (Elt F) → (⟨S40x40, .f32⟩ : BufTy).Contents (Elt F) → (⟨S40x40, .f32⟩ : BufTy).Contents (Elt F)),
    StableHlo.binary main_v59 main_arg3 main_v60 (subf : (⟨S40x40, .f32⟩ : BufTy).Contents (Elt F) → (⟨S40x40, .f32⟩ : BufTy).Contents (Elt F) → (⟨S40x40, .f32⟩ : BufTy).Contents (Elt F)),
    StableHlo.binary main_arg3 main_v60 main_v61 (addf : (⟨S40x40, .f32⟩ : BufTy).Contents (Elt F) → (⟨S40x40, .f32⟩ : BufTy).Contents (Elt F) → (⟨S40x40, .f32⟩ : BufTy).Contents (Elt F)),
    StableHlo.unary main_v61 main_v62 ((transpose S40x40 [1, 0] · transposes_S40x40_S40x40_1_0) : (⟨S40x40, .f32⟩ : BufTy).Contents (Elt F) → (⟨S40x40, .f32⟩ : BufTy).Contents (Elt F)) ]

/-- Segment D2: 19 operations. -/
abbrev segD2 : List (HloOp τ sig (Elt F)) :=
  [ StableHlo.binary main_v47 main_v62 main_v63 ((fun l r => Host.dotGeneral dot_S262144x40_S40x40_S262144x40_1_0_0_1_n_n none l r) : (⟨S262144x40, .f32⟩ : BufTy).Contents (Elt F) → (⟨S40x40, .f32⟩ : BufTy).Contents (Elt F) → (⟨S262144x40, .f32⟩ : BufTy).Contents (Elt F)),
    StableHlo.unary main_arg4 main_v64 (broadcastInDim S1x40 ![1] bcast_S40_S1x40_1 : (⟨S40, .f32⟩ : BufTy).Contents (Elt F) → (⟨S1x40, .f32⟩ : BufTy).Contents (Elt F)),
    StableHlo.unary main_v64 main_v65 (broadcastInDim S262144x40 ![0, 1] bcast_S1x40_S262144x40_0_1 : (⟨S1x40, .f32⟩ : BufTy).Contents (Elt F) → (⟨S262144x40, .f32⟩ : BufTy).Contents (Elt F)),
    StableHlo.binary main_v63 main_v65 main_v66 (addf : (⟨S262144x40, .f32⟩ : BufTy).Contents (Elt F) → (⟨S262144x40, .f32⟩ : BufTy).Contents (Elt F) → (⟨S262144x40, .f32⟩ : BufTy).Contents (Elt F)),
    StableHlo.TRef.nullary main_call4.cst (constant S_ .f32 0x00000000#32),
    StableHlo.TRef.unary main_call4.cst main_call4.v0 (broadcastInDim S262144x40 ![] bcast_S_S262144x40),
    StableHlo.TRef.binary (.of main_v66 : StableHlo.TRef sig ⟨S262144x40, .f32⟩) main_call4.v0 main_call4.v1 (cmpf .ogt),
    StableHlo.TRef.nullary main_call4.cst_0 (constant S_ .f32 0x00000000#32),
    StableHlo.TRef.unary main_call4.cst_0 main_call4.v2 (broadcastInDim S262144x40 ![] bcast_S_S262144x40),
    StableHlo.TRef.binary (.of main_v66 : StableHlo.TRef sig ⟨S262144x40, .f32⟩) main_call4.v2 main_call4.v3 (cmpf .ogt),
    StableHlo.TRef.nullary main_call4.cst_1 (constant S_ .f32 0x00000000#32),
    StableHlo.TRef.unary main_call4.cst_1 main_call4.call0.v0 id,
    StableHlo.TRef.unary main_call4.call0.v0 main_call4.call0.v1 (broadcastInDim S262144x40 ![] bcast_S_S262144x40),
    StableHlo.TRef.ternary main_call4.v3 main_call4.call0.v1 (.of main_v66 : StableHlo.TRef sig ⟨S262144x40, .f32⟩) main_call4.call0.v2 select,
    StableHlo.TRef.unary main_call4.call0.v2 main_call4.v5 Host.expm1,
    StableHlo.TRef.nullary main_call4.cst_2 (constant S_ .f32 0x3F800000#32),
    StableHlo.TRef.unary main_call4.cst_2 main_call4.v6 (broadcastInDim S262144x40 ![] bcast_S_S262144x40),
    StableHlo.TRef.binary main_call4.v6 main_call4.v5 main_call4.v7 mulf,
    StableHlo.TRef.ternary main_call4.v1 (.of main_v66 : StableHlo.TRef sig ⟨S262144x40, .f32⟩) main_call4.v7 main_call4.call1.v0 select ]

/-- Segment A3: 17 operations. -/
abbrev segA3 : List (HloOp τ sig (Elt F)) :=
  [ StableHlo.unary main_v67 main_v68 (Host.absf : (⟨S262144x40, .f32⟩ : BufTy).Contents (Elt F) → (⟨S262144x40, .f32⟩ : BufTy).Contents (Elt F)),
    StableHlo.nullary main_cst_11 (constant S_ .f32 0xFF800000#32),
    StableHlo.binary main_v68 main_cst_11 main_v69 ((fun x v => Host.reduce FloatOps.maximumf x v reducesTo_S262144x40_S262144_d1 h_S_) : (⟨S262144x40, .f32⟩ : BufTy).Contents (Elt F) → (⟨S_, .f32⟩ : BufTy).Contents (Elt F) → (⟨S262144, .f32⟩ : BufTy).Contents (Elt F)),
    StableHlo.unary main_v69 main_v70 (broadcastInDim S262144x1 ![0] bcast_S262144_S262144x1_0 : (⟨S262144, .f32⟩ : BufTy).Contents (Elt F) → (⟨S262144x1, .f32⟩ : BufTy).Contents (Elt F)),
    StableHlo.nullary main_cst_12 (constant S_ .f32 0x42FE0000#32),
    StableHlo.unary main_cst_12 main_v71 (broadcastInDim S262144x1 ![] bcast_S_S262144x1 : (⟨S_, .f32⟩ : BufTy).Contents (Elt F) → (⟨S262144x1, .f32⟩ : BufTy).Contents (Elt F)),
    StableHlo.binary main_v70 main_v71 main_v72 (Host.divf : (⟨S262144x1, .f32⟩ : BufTy).Contents (Elt F) → (⟨S262144x1, .f32⟩ : BufTy).Contents (Elt F) → (⟨S262144x1, .f32⟩ : BufTy).Contents (Elt F)),
    StableHlo.nullary main_cst_13 (constant S_ .f32 0x322BCC77#32),
    StableHlo.unary main_cst_13 main_v73 (broadcastInDim S262144x1 ![] bcast_S_S262144x1 : (⟨S_, .f32⟩ : BufTy).Contents (Elt F) → (⟨S262144x1, .f32⟩ : BufTy).Contents (Elt F)),
    StableHlo.binary main_v72 main_v73 main_v74 (maximumf : (⟨S262144x1, .f32⟩ : BufTy).Contents (Elt F) → (⟨S262144x1, .f32⟩ : BufTy).Contents (Elt F) → (⟨S262144x1, .f32⟩ : BufTy).Contents (Elt F)),
    StableHlo.unary main_v74 main_v75 (broadcastInDim S262144x40 ![0, 1] bcast_S262144x1_S262144x40_0_1 : (⟨S262144x1, .f32⟩ : BufTy).Contents (Elt F) → (⟨S262144x40, .f32⟩ : BufTy).Contents (Elt F)),
    StableHlo.binary main_v67 main_v75 main_v76 (Host.divf : (⟨S262144x40, .f32⟩ : BufTy).Contents (Elt F) → (⟨S262144x40, .f32⟩ : BufTy).Contents (Elt F) → (⟨S262144x40, .f32⟩ : BufTy).Contents (Elt F)),
    StableHlo.TRef.unary (.of main_v76 : StableHlo.TRef sig ⟨S262144x40, .f32⟩) main_call5.v0 Host.roundeven,
    StableHlo.unary main_v74 main_v78 (broadcastInDim S262144x40 ![0, 1] bcast_S262144x1_S262144x40_0_1 : (⟨S262144x1, .f32⟩ : BufTy).Contents (Elt F) → (⟨S262144x40, .f32⟩ : BufTy).Contents (Elt F)),
    StableHlo.binary main_v77 main_v78 main_v79 (mulf : (⟨S262144x40, .f32⟩ : BufTy).Contents (Elt F) → (⟨S262144x40, .f32⟩ : BufTy).Contents (Elt F) → (⟨S262144x40, .f32⟩ : BufTy).Contents (Elt F)),
    StableHlo.binary main_v79 main_v67 main_v80 (subf : (⟨S262144x40, .f32⟩ : BufTy).Contents (Elt F) → (⟨S262144x40, .f32⟩ : BufTy).Contents (Elt F) → (⟨S262144x40, .f32⟩ : BufTy).Contents (Elt F)),
    StableHlo.binary main_v67 main_v80 main_v81 (addf : (⟨S262144x40, .f32⟩ : BufTy).Contents (Elt F) → (⟨S262144x40, .f32⟩ : BufTy).Contents (Elt F) → (⟨S262144x40, .f32⟩ : BufTy).Contents (Elt F)) ]

/-- Segment W3: 18 operations. -/
abbrev segW3 : List (HloOp τ sig (Elt F)) :=
  [ StableHlo.unary main_arg5 main_v82 (Host.absf : (⟨S40x40, .f32⟩ : BufTy).Contents (Elt F) → (⟨S40x40, .f32⟩ : BufTy).Contents (Elt F)),
    StableHlo.nullary main_cst_14 (constant S_ .f32 0xFF800000#32),
    StableHlo.binary main_v82 main_cst_14 main_v83 ((fun x v => Host.reduce FloatOps.maximumf x v reducesTo_S40x40_S40_d1 h_S_) : (⟨S40x40, .f32⟩ : BufTy).Contents (Elt F) → (⟨S_, .f32⟩ : BufTy).Contents (Elt F) → (⟨S40, .f32⟩ : BufTy).Contents (Elt F)),
    StableHlo.unary main_v83 main_v84 (broadcastInDim S40x1 ![0] bcast_S40_S40x1_0 : (⟨S40, .f32⟩ : BufTy).Contents (Elt F) → (⟨S40x1, .f32⟩ : BufTy).Contents (Elt F)),
    StableHlo.nullary main_cst_15 (constant S_ .f32 0x42FE0000#32),
    StableHlo.unary main_cst_15 main_v85 (broadcastInDim S40x1 ![] bcast_S_S40x1 : (⟨S_, .f32⟩ : BufTy).Contents (Elt F) → (⟨S40x1, .f32⟩ : BufTy).Contents (Elt F)),
    StableHlo.binary main_v84 main_v85 main_v86 (Host.divf : (⟨S40x1, .f32⟩ : BufTy).Contents (Elt F) → (⟨S40x1, .f32⟩ : BufTy).Contents (Elt F) → (⟨S40x1, .f32⟩ : BufTy).Contents (Elt F)),
    StableHlo.nullary main_cst_16 (constant S_ .f32 0x322BCC77#32),
    StableHlo.unary main_cst_16 main_v87 (broadcastInDim S40x1 ![] bcast_S_S40x1 : (⟨S_, .f32⟩ : BufTy).Contents (Elt F) → (⟨S40x1, .f32⟩ : BufTy).Contents (Elt F)),
    StableHlo.binary main_v86 main_v87 main_v88 (maximumf : (⟨S40x1, .f32⟩ : BufTy).Contents (Elt F) → (⟨S40x1, .f32⟩ : BufTy).Contents (Elt F) → (⟨S40x1, .f32⟩ : BufTy).Contents (Elt F)),
    StableHlo.unary main_v88 main_v89 (broadcastInDim S40x40 ![0, 1] bcast_S40x1_S40x40_0_1 : (⟨S40x1, .f32⟩ : BufTy).Contents (Elt F) → (⟨S40x40, .f32⟩ : BufTy).Contents (Elt F)),
    StableHlo.binary main_arg5 main_v89 main_v90 (Host.divf : (⟨S40x40, .f32⟩ : BufTy).Contents (Elt F) → (⟨S40x40, .f32⟩ : BufTy).Contents (Elt F) → (⟨S40x40, .f32⟩ : BufTy).Contents (Elt F)),
    StableHlo.TRef.unary (.of main_v90 : StableHlo.TRef sig ⟨S40x40, .f32⟩) main_call6.v0 Host.roundeven,
    StableHlo.unary main_v88 main_v92 (broadcastInDim S40x40 ![0, 1] bcast_S40x1_S40x40_0_1 : (⟨S40x1, .f32⟩ : BufTy).Contents (Elt F) → (⟨S40x40, .f32⟩ : BufTy).Contents (Elt F)),
    StableHlo.binary main_v91 main_v92 main_v93 (mulf : (⟨S40x40, .f32⟩ : BufTy).Contents (Elt F) → (⟨S40x40, .f32⟩ : BufTy).Contents (Elt F) → (⟨S40x40, .f32⟩ : BufTy).Contents (Elt F)),
    StableHlo.binary main_v93 main_arg5 main_v94 (subf : (⟨S40x40, .f32⟩ : BufTy).Contents (Elt F) → (⟨S40x40, .f32⟩ : BufTy).Contents (Elt F) → (⟨S40x40, .f32⟩ : BufTy).Contents (Elt F)),
    StableHlo.binary main_arg5 main_v94 main_v95 (addf : (⟨S40x40, .f32⟩ : BufTy).Contents (Elt F) → (⟨S40x40, .f32⟩ : BufTy).Contents (Elt F) → (⟨S40x40, .f32⟩ : BufTy).Contents (Elt F)),
    StableHlo.unary main_v95 main_v96 ((transpose S40x40 [1, 0] · transposes_S40x40_S40x40_1_0) : (⟨S40x40, .f32⟩ : BufTy).Contents (Elt F) → (⟨S40x40, .f32⟩ : BufTy).Contents (Elt F)) ]

/-- Segment D3: 19 operations. -/
abbrev segD3 : List (HloOp τ sig (Elt F)) :=
  [ StableHlo.binary main_v81 main_v96 main_v97 ((fun l r => Host.dotGeneral dot_S262144x40_S40x40_S262144x40_1_0_0_1_n_n none l r) : (⟨S262144x40, .f32⟩ : BufTy).Contents (Elt F) → (⟨S40x40, .f32⟩ : BufTy).Contents (Elt F) → (⟨S262144x40, .f32⟩ : BufTy).Contents (Elt F)),
    StableHlo.unary main_arg6 main_v98 (broadcastInDim S1x40 ![1] bcast_S40_S1x40_1 : (⟨S40, .f32⟩ : BufTy).Contents (Elt F) → (⟨S1x40, .f32⟩ : BufTy).Contents (Elt F)),
    StableHlo.unary main_v98 main_v99 (broadcastInDim S262144x40 ![0, 1] bcast_S1x40_S262144x40_0_1 : (⟨S1x40, .f32⟩ : BufTy).Contents (Elt F) → (⟨S262144x40, .f32⟩ : BufTy).Contents (Elt F)),
    StableHlo.binary main_v97 main_v99 main_v100 (addf : (⟨S262144x40, .f32⟩ : BufTy).Contents (Elt F) → (⟨S262144x40, .f32⟩ : BufTy).Contents (Elt F) → (⟨S262144x40, .f32⟩ : BufTy).Contents (Elt F)),
    StableHlo.TRef.nullary main_call7.cst (constant S_ .f32 0x00000000#32),
    StableHlo.TRef.unary main_call7.cst main_call7.v0 (broadcastInDim S262144x40 ![] bcast_S_S262144x40),
    StableHlo.TRef.binary (.of main_v100 : StableHlo.TRef sig ⟨S262144x40, .f32⟩) main_call7.v0 main_call7.v1 (cmpf .ogt),
    StableHlo.TRef.nullary main_call7.cst_0 (constant S_ .f32 0x00000000#32),
    StableHlo.TRef.unary main_call7.cst_0 main_call7.v2 (broadcastInDim S262144x40 ![] bcast_S_S262144x40),
    StableHlo.TRef.binary (.of main_v100 : StableHlo.TRef sig ⟨S262144x40, .f32⟩) main_call7.v2 main_call7.v3 (cmpf .ogt),
    StableHlo.TRef.nullary main_call7.cst_1 (constant S_ .f32 0x00000000#32),
    StableHlo.TRef.unary main_call7.cst_1 main_call7.call0.v0 id,
    StableHlo.TRef.unary main_call7.call0.v0 main_call7.call0.v1 (broadcastInDim S262144x40 ![] bcast_S_S262144x40),
    StableHlo.TRef.ternary main_call7.v3 main_call7.call0.v1 (.of main_v100 : StableHlo.TRef sig ⟨S262144x40, .f32⟩) main_call7.call0.v2 select,
    StableHlo.TRef.unary main_call7.call0.v2 main_call7.v5 Host.expm1,
    StableHlo.TRef.nullary main_call7.cst_2 (constant S_ .f32 0x3F800000#32),
    StableHlo.TRef.unary main_call7.cst_2 main_call7.v6 (broadcastInDim S262144x40 ![] bcast_S_S262144x40),
    StableHlo.TRef.binary main_call7.v6 main_call7.v5 main_call7.v7 mulf,
    StableHlo.TRef.ternary main_call7.v1 (.of main_v100 : StableHlo.TRef sig ⟨S262144x40, .f32⟩) main_call7.v7 main_call7.call1.v0 select ]

/-- Segment A4: 17 operations. -/
abbrev segA4 : List (HloOp τ sig (Elt F)) :=
  [ StableHlo.unary main_v101 main_v102 (Host.absf : (⟨S262144x40, .f32⟩ : BufTy).Contents (Elt F) → (⟨S262144x40, .f32⟩ : BufTy).Contents (Elt F)),
    StableHlo.nullary main_cst_17 (constant S_ .f32 0xFF800000#32),
    StableHlo.binary main_v102 main_cst_17 main_v103 ((fun x v => Host.reduce FloatOps.maximumf x v reducesTo_S262144x40_S262144_d1 h_S_) : (⟨S262144x40, .f32⟩ : BufTy).Contents (Elt F) → (⟨S_, .f32⟩ : BufTy).Contents (Elt F) → (⟨S262144, .f32⟩ : BufTy).Contents (Elt F)),
    StableHlo.unary main_v103 main_v104 (broadcastInDim S262144x1 ![0] bcast_S262144_S262144x1_0 : (⟨S262144, .f32⟩ : BufTy).Contents (Elt F) → (⟨S262144x1, .f32⟩ : BufTy).Contents (Elt F)),
    StableHlo.nullary main_cst_18 (constant S_ .f32 0x42FE0000#32),
    StableHlo.unary main_cst_18 main_v105 (broadcastInDim S262144x1 ![] bcast_S_S262144x1 : (⟨S_, .f32⟩ : BufTy).Contents (Elt F) → (⟨S262144x1, .f32⟩ : BufTy).Contents (Elt F)),
    StableHlo.binary main_v104 main_v105 main_v106 (Host.divf : (⟨S262144x1, .f32⟩ : BufTy).Contents (Elt F) → (⟨S262144x1, .f32⟩ : BufTy).Contents (Elt F) → (⟨S262144x1, .f32⟩ : BufTy).Contents (Elt F)),
    StableHlo.nullary main_cst_19 (constant S_ .f32 0x322BCC77#32),
    StableHlo.unary main_cst_19 main_v107 (broadcastInDim S262144x1 ![] bcast_S_S262144x1 : (⟨S_, .f32⟩ : BufTy).Contents (Elt F) → (⟨S262144x1, .f32⟩ : BufTy).Contents (Elt F)),
    StableHlo.binary main_v106 main_v107 main_v108 (maximumf : (⟨S262144x1, .f32⟩ : BufTy).Contents (Elt F) → (⟨S262144x1, .f32⟩ : BufTy).Contents (Elt F) → (⟨S262144x1, .f32⟩ : BufTy).Contents (Elt F)),
    StableHlo.unary main_v108 main_v109 (broadcastInDim S262144x40 ![0, 1] bcast_S262144x1_S262144x40_0_1 : (⟨S262144x1, .f32⟩ : BufTy).Contents (Elt F) → (⟨S262144x40, .f32⟩ : BufTy).Contents (Elt F)),
    StableHlo.binary main_v101 main_v109 main_v110 (Host.divf : (⟨S262144x40, .f32⟩ : BufTy).Contents (Elt F) → (⟨S262144x40, .f32⟩ : BufTy).Contents (Elt F) → (⟨S262144x40, .f32⟩ : BufTy).Contents (Elt F)),
    StableHlo.TRef.unary (.of main_v110 : StableHlo.TRef sig ⟨S262144x40, .f32⟩) main_call8.v0 Host.roundeven,
    StableHlo.unary main_v108 main_v112 (broadcastInDim S262144x40 ![0, 1] bcast_S262144x1_S262144x40_0_1 : (⟨S262144x1, .f32⟩ : BufTy).Contents (Elt F) → (⟨S262144x40, .f32⟩ : BufTy).Contents (Elt F)),
    StableHlo.binary main_v111 main_v112 main_v113 (mulf : (⟨S262144x40, .f32⟩ : BufTy).Contents (Elt F) → (⟨S262144x40, .f32⟩ : BufTy).Contents (Elt F) → (⟨S262144x40, .f32⟩ : BufTy).Contents (Elt F)),
    StableHlo.binary main_v113 main_v101 main_v114 (subf : (⟨S262144x40, .f32⟩ : BufTy).Contents (Elt F) → (⟨S262144x40, .f32⟩ : BufTy).Contents (Elt F) → (⟨S262144x40, .f32⟩ : BufTy).Contents (Elt F)),
    StableHlo.binary main_v101 main_v114 main_v115 (addf : (⟨S262144x40, .f32⟩ : BufTy).Contents (Elt F) → (⟨S262144x40, .f32⟩ : BufTy).Contents (Elt F) → (⟨S262144x40, .f32⟩ : BufTy).Contents (Elt F)) ]

/-- Segment W4: 18 operations. -/
abbrev segW4 : List (HloOp τ sig (Elt F)) :=
  [ StableHlo.unary main_arg7 main_v116 (Host.absf : (⟨S2x40, .f32⟩ : BufTy).Contents (Elt F) → (⟨S2x40, .f32⟩ : BufTy).Contents (Elt F)),
    StableHlo.nullary main_cst_20 (constant S_ .f32 0xFF800000#32),
    StableHlo.binary main_v116 main_cst_20 main_v117 ((fun x v => Host.reduce FloatOps.maximumf x v reducesTo_S2x40_S2_d1 h_S_) : (⟨S2x40, .f32⟩ : BufTy).Contents (Elt F) → (⟨S_, .f32⟩ : BufTy).Contents (Elt F) → (⟨S2, .f32⟩ : BufTy).Contents (Elt F)),
    StableHlo.unary main_v117 main_v118 (broadcastInDim S2x1 ![0] bcast_S2_S2x1_0 : (⟨S2, .f32⟩ : BufTy).Contents (Elt F) → (⟨S2x1, .f32⟩ : BufTy).Contents (Elt F)),
    StableHlo.nullary main_cst_21 (constant S_ .f32 0x42FE0000#32),
    StableHlo.unary main_cst_21 main_v119 (broadcastInDim S2x1 ![] bcast_S_S2x1 : (⟨S_, .f32⟩ : BufTy).Contents (Elt F) → (⟨S2x1, .f32⟩ : BufTy).Contents (Elt F)),
    StableHlo.binary main_v118 main_v119 main_v120 (Host.divf : (⟨S2x1, .f32⟩ : BufTy).Contents (Elt F) → (⟨S2x1, .f32⟩ : BufTy).Contents (Elt F) → (⟨S2x1, .f32⟩ : BufTy).Contents (Elt F)),
    StableHlo.nullary main_cst_22 (constant S_ .f32 0x322BCC77#32),
    StableHlo.unary main_cst_22 main_v121 (broadcastInDim S2x1 ![] bcast_S_S2x1 : (⟨S_, .f32⟩ : BufTy).Contents (Elt F) → (⟨S2x1, .f32⟩ : BufTy).Contents (Elt F)),
    StableHlo.binary main_v120 main_v121 main_v122 (maximumf : (⟨S2x1, .f32⟩ : BufTy).Contents (Elt F) → (⟨S2x1, .f32⟩ : BufTy).Contents (Elt F) → (⟨S2x1, .f32⟩ : BufTy).Contents (Elt F)),
    StableHlo.unary main_v122 main_v123 (broadcastInDim S2x40 ![0, 1] bcast_S2x1_S2x40_0_1 : (⟨S2x1, .f32⟩ : BufTy).Contents (Elt F) → (⟨S2x40, .f32⟩ : BufTy).Contents (Elt F)),
    StableHlo.binary main_arg7 main_v123 main_v124 (Host.divf : (⟨S2x40, .f32⟩ : BufTy).Contents (Elt F) → (⟨S2x40, .f32⟩ : BufTy).Contents (Elt F) → (⟨S2x40, .f32⟩ : BufTy).Contents (Elt F)),
    StableHlo.TRef.unary (.of main_v124 : StableHlo.TRef sig ⟨S2x40, .f32⟩) main_call9.v0 Host.roundeven,
    StableHlo.unary main_v122 main_v126 (broadcastInDim S2x40 ![0, 1] bcast_S2x1_S2x40_0_1 : (⟨S2x1, .f32⟩ : BufTy).Contents (Elt F) → (⟨S2x40, .f32⟩ : BufTy).Contents (Elt F)),
    StableHlo.binary main_v125 main_v126 main_v127 (mulf : (⟨S2x40, .f32⟩ : BufTy).Contents (Elt F) → (⟨S2x40, .f32⟩ : BufTy).Contents (Elt F) → (⟨S2x40, .f32⟩ : BufTy).Contents (Elt F)),
    StableHlo.binary main_v127 main_arg7 main_v128 (subf : (⟨S2x40, .f32⟩ : BufTy).Contents (Elt F) → (⟨S2x40, .f32⟩ : BufTy).Contents (Elt F) → (⟨S2x40, .f32⟩ : BufTy).Contents (Elt F)),
    StableHlo.binary main_arg7 main_v128 main_v129 (addf : (⟨S2x40, .f32⟩ : BufTy).Contents (Elt F) → (⟨S2x40, .f32⟩ : BufTy).Contents (Elt F) → (⟨S2x40, .f32⟩ : BufTy).Contents (Elt F)),
    StableHlo.unary main_v129 main_v130 ((transpose S40x2 [1, 0] · transposes_S2x40_S40x2_1_0) : (⟨S2x40, .f32⟩ : BufTy).Contents (Elt F) → (⟨S40x2, .f32⟩ : BufTy).Contents (Elt F)) ]

/-- Segment D4: 18 operations. -/
abbrev segD4 : List (HloOp τ sig (Elt F)) :=
  [ StableHlo.binary main_v115 main_v130 main_v131 ((fun l r => Host.dotGeneral dot_S262144x40_S40x2_S262144x2_1_0_0_1_n_n none l r) : (⟨S262144x40, .f32⟩ : BufTy).Contents (Elt F) → (⟨S40x2, .f32⟩ : BufTy).Contents (Elt F) → (⟨S262144x2, .f32⟩ : BufTy).Contents (Elt F)),
    StableHlo.unary main_arg8 main_v132 (broadcastInDim S1x2 ![1] bcast_S2_S1x2_1 : (⟨S2, .f32⟩ : BufTy).Contents (Elt F) → (⟨S1x2, .f32⟩ : BufTy).Contents (Elt F)),
    StableHlo.unary main_v132 main_v133 (broadcastInDim S262144x2 ![0, 1] bcast_S1x2_S262144x2_0_1 : (⟨S1x2, .f32⟩ : BufTy).Contents (Elt F) → (⟨S262144x2, .f32⟩ : BufTy).Contents (Elt F)),
    StableHlo.binary main_v131 main_v133 main_v134 (addf : (⟨S262144x2, .f32⟩ : BufTy).Contents (Elt F) → (⟨S262144x2, .f32⟩ : BufTy).Contents (Elt F) → (⟨S262144x2, .f32⟩ : BufTy).Contents (Elt F)),
    StableHlo.TRef.nullary main_call10.cst (constant S_ .f32 0x00000000#32),
    StableHlo.TRef.unary main_call10.cst main_call10.v0 (broadcastInDim S262144x2 ![] bcast_S_S262144x2),
    StableHlo.TRef.binary (.of main_v134 : StableHlo.TRef sig ⟨S262144x2, .f32⟩) main_call10.v0 main_call10.v1 maximumf,
    StableHlo.TRef.unary main_call10.cst main_call10.v2 (broadcastInDim S262144x2 ![] bcast_S_S262144x2),
    StableHlo.TRef.binary (.of main_v134 : StableHlo.TRef sig ⟨S262144x2, .f32⟩) main_call10.v2 main_call10.v3 subf,
    StableHlo.TRef.binary main_call10.v3 main_call10.v3 main_call10.v4 (cmpf .une),
    StableHlo.TRef.unary main_call10.cst main_call10.v5 (broadcastInDim S262144x2 ![] bcast_S_S262144x2),
    StableHlo.TRef.binary (.of main_v134 : StableHlo.TRef sig ⟨S262144x2, .f32⟩) main_call10.v5 main_call10.v6 addf,
    StableHlo.TRef.unary main_call10.v3 main_call10.v7 Host.absf,
    StableHlo.TRef.unary main_call10.v7 main_call10.v8 Host.negf,
    StableHlo.TRef.unary main_call10.v8 main_call10.v9 Host.exp,
    StableHlo.TRef.unary main_call10.v9 main_call10.v10 Host.log1p,
    StableHlo.TRef.binary main_call10.v1 main_call10.v10 main_call10.v11 addf,
    StableHlo.TRef.ternary main_call10.v4 main_call10.v6 main_call10.v11 main_call10.v12 select ]

/-- The whole line: 201 operations, in order. -/
abbrev ops : List (HloOp τ sig (Elt F)) :=
  [ StableHlo.unary main_arg0 main_v0 (Host.absf : (⟨S262144x160, .f32⟩ : BufTy).Contents (Elt F) → (⟨S262144x160, .f32⟩ : BufTy).Contents (Elt F)),
    StableHlo.nullary main_cst (constant S_ .f32 0xFF800000#32),
    StableHlo.binary main_v0 main_cst main_v1 ((fun x v => Host.reduce FloatOps.maximumf x v reducesTo_S262144x160_S262144_d1 h_S_) : (⟨S262144x160, .f32⟩ : BufTy).Contents (Elt F) → (⟨S_, .f32⟩ : BufTy).Contents (Elt F) → (⟨S262144, .f32⟩ : BufTy).Contents (Elt F)),
    StableHlo.unary main_v1 main_v2 (broadcastInDim S262144x1 ![0] bcast_S262144_S262144x1_0 : (⟨S262144, .f32⟩ : BufTy).Contents (Elt F) → (⟨S262144x1, .f32⟩ : BufTy).Contents (Elt F)),
    StableHlo.nullary main_cst_0 (constant S_ .f32 0x42FE0000#32),
    StableHlo.unary main_cst_0 main_v3 (broadcastInDim S262144x1 ![] bcast_S_S262144x1 : (⟨S_, .f32⟩ : BufTy).Contents (Elt F) → (⟨S262144x1, .f32⟩ : BufTy).Contents (Elt F)),
    StableHlo.binary main_v2 main_v3 main_v4 (Host.divf : (⟨S262144x1, .f32⟩ : BufTy).Contents (Elt F) → (⟨S262144x1, .f32⟩ : BufTy).Contents (Elt F) → (⟨S262144x1, .f32⟩ : BufTy).Contents (Elt F)),
    StableHlo.nullary main_cst_1 (constant S_ .f32 0x322BCC77#32),
    StableHlo.unary main_cst_1 main_v5 (broadcastInDim S262144x1 ![] bcast_S_S262144x1 : (⟨S_, .f32⟩ : BufTy).Contents (Elt F) → (⟨S262144x1, .f32⟩ : BufTy).Contents (Elt F)),
    StableHlo.binary main_v4 main_v5 main_v6 (maximumf : (⟨S262144x1, .f32⟩ : BufTy).Contents (Elt F) → (⟨S262144x1, .f32⟩ : BufTy).Contents (Elt F) → (⟨S262144x1, .f32⟩ : BufTy).Contents (Elt F)),
    StableHlo.unary main_v6 main_v7 (broadcastInDim S262144x160 ![0, 1] bcast_S262144x1_S262144x160_0_1 : (⟨S262144x1, .f32⟩ : BufTy).Contents (Elt F) → (⟨S262144x160, .f32⟩ : BufTy).Contents (Elt F)),
    StableHlo.binary main_arg0 main_v7 main_v8 (Host.divf : (⟨S262144x160, .f32⟩ : BufTy).Contents (Elt F) → (⟨S262144x160, .f32⟩ : BufTy).Contents (Elt F) → (⟨S262144x160, .f32⟩ : BufTy).Contents (Elt F)),
    StableHlo.TRef.unary (.of main_v8 : StableHlo.TRef sig ⟨S262144x160, .f32⟩) main_call0.v0 Host.roundeven,
    StableHlo.unary main_v6 main_v10 (broadcastInDim S262144x160 ![0, 1] bcast_S262144x1_S262144x160_0_1 : (⟨S262144x1, .f32⟩ : BufTy).Contents (Elt F) → (⟨S262144x160, .f32⟩ : BufTy).Contents (Elt F)),
    StableHlo.binary main_v9 main_v10 main_v11 (mulf : (⟨S262144x160, .f32⟩ : BufTy).Contents (Elt F) → (⟨S262144x160, .f32⟩ : BufTy).Contents (Elt F) → (⟨S262144x160, .f32⟩ : BufTy).Contents (Elt F)),
    StableHlo.binary main_v11 main_arg0 main_v12 (subf : (⟨S262144x160, .f32⟩ : BufTy).Contents (Elt F) → (⟨S262144x160, .f32⟩ : BufTy).Contents (Elt F) → (⟨S262144x160, .f32⟩ : BufTy).Contents (Elt F)),
    StableHlo.binary main_arg0 main_v12 main_v13 (addf : (⟨S262144x160, .f32⟩ : BufTy).Contents (Elt F) → (⟨S262144x160, .f32⟩ : BufTy).Contents (Elt F) → (⟨S262144x160, .f32⟩ : BufTy).Contents (Elt F)),
    StableHlo.unary main_arg1 main_v14 (Host.absf : (⟨S40x160, .f32⟩ : BufTy).Contents (Elt F) → (⟨S40x160, .f32⟩ : BufTy).Contents (Elt F)),
    StableHlo.nullary main_cst_2 (constant S_ .f32 0xFF800000#32),
    StableHlo.binary main_v14 main_cst_2 main_v15 ((fun x v => Host.reduce FloatOps.maximumf x v reducesTo_S40x160_S40_d1 h_S_) : (⟨S40x160, .f32⟩ : BufTy).Contents (Elt F) → (⟨S_, .f32⟩ : BufTy).Contents (Elt F) → (⟨S40, .f32⟩ : BufTy).Contents (Elt F)),
    StableHlo.unary main_v15 main_v16 (broadcastInDim S40x1 ![0] bcast_S40_S40x1_0 : (⟨S40, .f32⟩ : BufTy).Contents (Elt F) → (⟨S40x1, .f32⟩ : BufTy).Contents (Elt F)),
    StableHlo.nullary main_cst_3 (constant S_ .f32 0x42FE0000#32),
    StableHlo.unary main_cst_3 main_v17 (broadcastInDim S40x1 ![] bcast_S_S40x1 : (⟨S_, .f32⟩ : BufTy).Contents (Elt F) → (⟨S40x1, .f32⟩ : BufTy).Contents (Elt F)),
    StableHlo.binary main_v16 main_v17 main_v18 (Host.divf : (⟨S40x1, .f32⟩ : BufTy).Contents (Elt F) → (⟨S40x1, .f32⟩ : BufTy).Contents (Elt F) → (⟨S40x1, .f32⟩ : BufTy).Contents (Elt F)),
    StableHlo.nullary main_cst_4 (constant S_ .f32 0x322BCC77#32),
    StableHlo.unary main_cst_4 main_v19 (broadcastInDim S40x1 ![] bcast_S_S40x1 : (⟨S_, .f32⟩ : BufTy).Contents (Elt F) → (⟨S40x1, .f32⟩ : BufTy).Contents (Elt F)),
    StableHlo.binary main_v18 main_v19 main_v20 (maximumf : (⟨S40x1, .f32⟩ : BufTy).Contents (Elt F) → (⟨S40x1, .f32⟩ : BufTy).Contents (Elt F) → (⟨S40x1, .f32⟩ : BufTy).Contents (Elt F)),
    StableHlo.unary main_v20 main_v21 (broadcastInDim S40x160 ![0, 1] bcast_S40x1_S40x160_0_1 : (⟨S40x1, .f32⟩ : BufTy).Contents (Elt F) → (⟨S40x160, .f32⟩ : BufTy).Contents (Elt F)),
    StableHlo.binary main_arg1 main_v21 main_v22 (Host.divf : (⟨S40x160, .f32⟩ : BufTy).Contents (Elt F) → (⟨S40x160, .f32⟩ : BufTy).Contents (Elt F) → (⟨S40x160, .f32⟩ : BufTy).Contents (Elt F)),
    StableHlo.TRef.unary (.of main_v22 : StableHlo.TRef sig ⟨S40x160, .f32⟩) main_call1.v0 Host.roundeven,
    StableHlo.unary main_v20 main_v24 (broadcastInDim S40x160 ![0, 1] bcast_S40x1_S40x160_0_1 : (⟨S40x1, .f32⟩ : BufTy).Contents (Elt F) → (⟨S40x160, .f32⟩ : BufTy).Contents (Elt F)),
    StableHlo.binary main_v23 main_v24 main_v25 (mulf : (⟨S40x160, .f32⟩ : BufTy).Contents (Elt F) → (⟨S40x160, .f32⟩ : BufTy).Contents (Elt F) → (⟨S40x160, .f32⟩ : BufTy).Contents (Elt F)),
    StableHlo.binary main_v25 main_arg1 main_v26 (subf : (⟨S40x160, .f32⟩ : BufTy).Contents (Elt F) → (⟨S40x160, .f32⟩ : BufTy).Contents (Elt F) → (⟨S40x160, .f32⟩ : BufTy).Contents (Elt F)),
    StableHlo.binary main_arg1 main_v26 main_v27 (addf : (⟨S40x160, .f32⟩ : BufTy).Contents (Elt F) → (⟨S40x160, .f32⟩ : BufTy).Contents (Elt F) → (⟨S40x160, .f32⟩ : BufTy).Contents (Elt F)),
    StableHlo.unary main_v27 main_v28 ((transpose S160x40 [1, 0] · transposes_S40x160_S160x40_1_0) : (⟨S40x160, .f32⟩ : BufTy).Contents (Elt F) → (⟨S160x40, .f32⟩ : BufTy).Contents (Elt F)),
    StableHlo.binary main_v13 main_v28 main_v29 ((fun l r => Host.dotGeneral dot_S262144x160_S160x40_S262144x40_1_0_0_1_n_n none l r) : (⟨S262144x160, .f32⟩ : BufTy).Contents (Elt F) → (⟨S160x40, .f32⟩ : BufTy).Contents (Elt F) → (⟨S262144x40, .f32⟩ : BufTy).Contents (Elt F)),
    StableHlo.unary main_arg2 main_v30 (broadcastInDim S1x40 ![1] bcast_S40_S1x40_1 : (⟨S40, .f32⟩ : BufTy).Contents (Elt F) → (⟨S1x40, .f32⟩ : BufTy).Contents (Elt F)),
    StableHlo.unary main_v30 main_v31 (broadcastInDim S262144x40 ![0, 1] bcast_S1x40_S262144x40_0_1 : (⟨S1x40, .f32⟩ : BufTy).Contents (Elt F) → (⟨S262144x40, .f32⟩ : BufTy).Contents (Elt F)),
    StableHlo.binary main_v29 main_v31 main_v32 (addf : (⟨S262144x40, .f32⟩ : BufTy).Contents (Elt F) → (⟨S262144x40, .f32⟩ : BufTy).Contents (Elt F) → (⟨S262144x40, .f32⟩ : BufTy).Contents (Elt F)),
    StableHlo.unary main_v32 main_v33 (Host.tanh : (⟨S262144x40, .f32⟩ : BufTy).Contents (Elt F) → (⟨S262144x40, .f32⟩ : BufTy).Contents (Elt F)),
    StableHlo.unary main_v33 main_v34 (Host.absf : (⟨S262144x40, .f32⟩ : BufTy).Contents (Elt F) → (⟨S262144x40, .f32⟩ : BufTy).Contents (Elt F)),
    StableHlo.nullary main_cst_5 (constant S_ .f32 0xFF800000#32),
    StableHlo.binary main_v34 main_cst_5 main_v35 ((fun x v => Host.reduce FloatOps.maximumf x v reducesTo_S262144x40_S262144_d1 h_S_) : (⟨S262144x40, .f32⟩ : BufTy).Contents (Elt F) → (⟨S_, .f32⟩ : BufTy).Contents (Elt F) → (⟨S262144, .f32⟩ : BufTy).Contents (Elt F)),
    StableHlo.unary main_v35 main_v36 (broadcastInDim S262144x1 ![0] bcast_S262144_S262144x1_0 : (⟨S262144, .f32⟩ : BufTy).Contents (Elt F) → (⟨S262144x1, .f32⟩ : BufTy).Contents (Elt F)),
    StableHlo.nullary main_cst_6 (constant S_ .f32 0x42FE0000#32),
    StableHlo.unary main_cst_6 main_v37 (broadcastInDim S262144x1 ![] bcast_S_S262144x1 : (⟨S_, .f32⟩ : BufTy).Contents (Elt F) → (⟨S262144x1, .f32⟩ : BufTy).Contents (Elt F)),
    StableHlo.binary main_v36 main_v37 main_v38 (Host.divf : (⟨S262144x1, .f32⟩ : BufTy).Contents (Elt F) → (⟨S262144x1, .f32⟩ : BufTy).Contents (Elt F) → (⟨S262144x1, .f32⟩ : BufTy).Contents (Elt F)),
    StableHlo.nullary main_cst_7 (constant S_ .f32 0x322BCC77#32),
    StableHlo.unary main_cst_7 main_v39 (broadcastInDim S262144x1 ![] bcast_S_S262144x1 : (⟨S_, .f32⟩ : BufTy).Contents (Elt F) → (⟨S262144x1, .f32⟩ : BufTy).Contents (Elt F)),
    StableHlo.binary main_v38 main_v39 main_v40 (maximumf : (⟨S262144x1, .f32⟩ : BufTy).Contents (Elt F) → (⟨S262144x1, .f32⟩ : BufTy).Contents (Elt F) → (⟨S262144x1, .f32⟩ : BufTy).Contents (Elt F)),
    StableHlo.unary main_v40 main_v41 (broadcastInDim S262144x40 ![0, 1] bcast_S262144x1_S262144x40_0_1 : (⟨S262144x1, .f32⟩ : BufTy).Contents (Elt F) → (⟨S262144x40, .f32⟩ : BufTy).Contents (Elt F)),
    StableHlo.binary main_v33 main_v41 main_v42 (Host.divf : (⟨S262144x40, .f32⟩ : BufTy).Contents (Elt F) → (⟨S262144x40, .f32⟩ : BufTy).Contents (Elt F) → (⟨S262144x40, .f32⟩ : BufTy).Contents (Elt F)),
    StableHlo.TRef.unary (.of main_v42 : StableHlo.TRef sig ⟨S262144x40, .f32⟩) main_call2.v0 Host.roundeven,
    StableHlo.unary main_v40 main_v44 (broadcastInDim S262144x40 ![0, 1] bcast_S262144x1_S262144x40_0_1 : (⟨S262144x1, .f32⟩ : BufTy).Contents (Elt F) → (⟨S262144x40, .f32⟩ : BufTy).Contents (Elt F)),
    StableHlo.binary main_v43 main_v44 main_v45 (mulf : (⟨S262144x40, .f32⟩ : BufTy).Contents (Elt F) → (⟨S262144x40, .f32⟩ : BufTy).Contents (Elt F) → (⟨S262144x40, .f32⟩ : BufTy).Contents (Elt F)),
    StableHlo.binary main_v45 main_v33 main_v46 (subf : (⟨S262144x40, .f32⟩ : BufTy).Contents (Elt F) → (⟨S262144x40, .f32⟩ : BufTy).Contents (Elt F) → (⟨S262144x40, .f32⟩ : BufTy).Contents (Elt F)),
    StableHlo.binary main_v33 main_v46 main_v47 (addf : (⟨S262144x40, .f32⟩ : BufTy).Contents (Elt F) → (⟨S262144x40, .f32⟩ : BufTy).Contents (Elt F) → (⟨S262144x40, .f32⟩ : BufTy).Contents (Elt F)),
    StableHlo.unary main_arg3 main_v48 (Host.absf : (⟨S40x40, .f32⟩ : BufTy).Contents (Elt F) → (⟨S40x40, .f32⟩ : BufTy).Contents (Elt F)),
    StableHlo.nullary main_cst_8 (constant S_ .f32 0xFF800000#32),
    StableHlo.binary main_v48 main_cst_8 main_v49 ((fun x v => Host.reduce FloatOps.maximumf x v reducesTo_S40x40_S40_d1 h_S_) : (⟨S40x40, .f32⟩ : BufTy).Contents (Elt F) → (⟨S_, .f32⟩ : BufTy).Contents (Elt F) → (⟨S40, .f32⟩ : BufTy).Contents (Elt F)),
    StableHlo.unary main_v49 main_v50 (broadcastInDim S40x1 ![0] bcast_S40_S40x1_0 : (⟨S40, .f32⟩ : BufTy).Contents (Elt F) → (⟨S40x1, .f32⟩ : BufTy).Contents (Elt F)),
    StableHlo.nullary main_cst_9 (constant S_ .f32 0x42FE0000#32),
    StableHlo.unary main_cst_9 main_v51 (broadcastInDim S40x1 ![] bcast_S_S40x1 : (⟨S_, .f32⟩ : BufTy).Contents (Elt F) → (⟨S40x1, .f32⟩ : BufTy).Contents (Elt F)),
    StableHlo.binary main_v50 main_v51 main_v52 (Host.divf : (⟨S40x1, .f32⟩ : BufTy).Contents (Elt F) → (⟨S40x1, .f32⟩ : BufTy).Contents (Elt F) → (⟨S40x1, .f32⟩ : BufTy).Contents (Elt F)),
    StableHlo.nullary main_cst_10 (constant S_ .f32 0x322BCC77#32),
    StableHlo.unary main_cst_10 main_v53 (broadcastInDim S40x1 ![] bcast_S_S40x1 : (⟨S_, .f32⟩ : BufTy).Contents (Elt F) → (⟨S40x1, .f32⟩ : BufTy).Contents (Elt F)),
    StableHlo.binary main_v52 main_v53 main_v54 (maximumf : (⟨S40x1, .f32⟩ : BufTy).Contents (Elt F) → (⟨S40x1, .f32⟩ : BufTy).Contents (Elt F) → (⟨S40x1, .f32⟩ : BufTy).Contents (Elt F)),
    StableHlo.unary main_v54 main_v55 (broadcastInDim S40x40 ![0, 1] bcast_S40x1_S40x40_0_1 : (⟨S40x1, .f32⟩ : BufTy).Contents (Elt F) → (⟨S40x40, .f32⟩ : BufTy).Contents (Elt F)),
    StableHlo.binary main_arg3 main_v55 main_v56 (Host.divf : (⟨S40x40, .f32⟩ : BufTy).Contents (Elt F) → (⟨S40x40, .f32⟩ : BufTy).Contents (Elt F) → (⟨S40x40, .f32⟩ : BufTy).Contents (Elt F)),
    StableHlo.TRef.unary (.of main_v56 : StableHlo.TRef sig ⟨S40x40, .f32⟩) main_call3.v0 Host.roundeven,
    StableHlo.unary main_v54 main_v58 (broadcastInDim S40x40 ![0, 1] bcast_S40x1_S40x40_0_1 : (⟨S40x1, .f32⟩ : BufTy).Contents (Elt F) → (⟨S40x40, .f32⟩ : BufTy).Contents (Elt F)),
    StableHlo.binary main_v57 main_v58 main_v59 (mulf : (⟨S40x40, .f32⟩ : BufTy).Contents (Elt F) → (⟨S40x40, .f32⟩ : BufTy).Contents (Elt F) → (⟨S40x40, .f32⟩ : BufTy).Contents (Elt F)),
    StableHlo.binary main_v59 main_arg3 main_v60 (subf : (⟨S40x40, .f32⟩ : BufTy).Contents (Elt F) → (⟨S40x40, .f32⟩ : BufTy).Contents (Elt F) → (⟨S40x40, .f32⟩ : BufTy).Contents (Elt F)),
    StableHlo.binary main_arg3 main_v60 main_v61 (addf : (⟨S40x40, .f32⟩ : BufTy).Contents (Elt F) → (⟨S40x40, .f32⟩ : BufTy).Contents (Elt F) → (⟨S40x40, .f32⟩ : BufTy).Contents (Elt F)),
    StableHlo.unary main_v61 main_v62 ((transpose S40x40 [1, 0] · transposes_S40x40_S40x40_1_0) : (⟨S40x40, .f32⟩ : BufTy).Contents (Elt F) → (⟨S40x40, .f32⟩ : BufTy).Contents (Elt F)),
    StableHlo.binary main_v47 main_v62 main_v63 ((fun l r => Host.dotGeneral dot_S262144x40_S40x40_S262144x40_1_0_0_1_n_n none l r) : (⟨S262144x40, .f32⟩ : BufTy).Contents (Elt F) → (⟨S40x40, .f32⟩ : BufTy).Contents (Elt F) → (⟨S262144x40, .f32⟩ : BufTy).Contents (Elt F)),
    StableHlo.unary main_arg4 main_v64 (broadcastInDim S1x40 ![1] bcast_S40_S1x40_1 : (⟨S40, .f32⟩ : BufTy).Contents (Elt F) → (⟨S1x40, .f32⟩ : BufTy).Contents (Elt F)),
    StableHlo.unary main_v64 main_v65 (broadcastInDim S262144x40 ![0, 1] bcast_S1x40_S262144x40_0_1 : (⟨S1x40, .f32⟩ : BufTy).Contents (Elt F) → (⟨S262144x40, .f32⟩ : BufTy).Contents (Elt F)),
    StableHlo.binary main_v63 main_v65 main_v66 (addf : (⟨S262144x40, .f32⟩ : BufTy).Contents (Elt F) → (⟨S262144x40, .f32⟩ : BufTy).Contents (Elt F) → (⟨S262144x40, .f32⟩ : BufTy).Contents (Elt F)),
    StableHlo.TRef.nullary main_call4.cst (constant S_ .f32 0x00000000#32),
    StableHlo.TRef.unary main_call4.cst main_call4.v0 (broadcastInDim S262144x40 ![] bcast_S_S262144x40),
    StableHlo.TRef.binary (.of main_v66 : StableHlo.TRef sig ⟨S262144x40, .f32⟩) main_call4.v0 main_call4.v1 (cmpf .ogt),
    StableHlo.TRef.nullary main_call4.cst_0 (constant S_ .f32 0x00000000#32),
    StableHlo.TRef.unary main_call4.cst_0 main_call4.v2 (broadcastInDim S262144x40 ![] bcast_S_S262144x40),
    StableHlo.TRef.binary (.of main_v66 : StableHlo.TRef sig ⟨S262144x40, .f32⟩) main_call4.v2 main_call4.v3 (cmpf .ogt),
    StableHlo.TRef.nullary main_call4.cst_1 (constant S_ .f32 0x00000000#32),
    StableHlo.TRef.unary main_call4.cst_1 main_call4.call0.v0 id,
    StableHlo.TRef.unary main_call4.call0.v0 main_call4.call0.v1 (broadcastInDim S262144x40 ![] bcast_S_S262144x40),
    StableHlo.TRef.ternary main_call4.v3 main_call4.call0.v1 (.of main_v66 : StableHlo.TRef sig ⟨S262144x40, .f32⟩) main_call4.call0.v2 select,
    StableHlo.TRef.unary main_call4.call0.v2 main_call4.v5 Host.expm1,
    StableHlo.TRef.nullary main_call4.cst_2 (constant S_ .f32 0x3F800000#32),
    StableHlo.TRef.unary main_call4.cst_2 main_call4.v6 (broadcastInDim S262144x40 ![] bcast_S_S262144x40),
    StableHlo.TRef.binary main_call4.v6 main_call4.v5 main_call4.v7 mulf,
    StableHlo.TRef.ternary main_call4.v1 (.of main_v66 : StableHlo.TRef sig ⟨S262144x40, .f32⟩) main_call4.v7 main_call4.call1.v0 select,
    StableHlo.unary main_v67 main_v68 (Host.absf : (⟨S262144x40, .f32⟩ : BufTy).Contents (Elt F) → (⟨S262144x40, .f32⟩ : BufTy).Contents (Elt F)),
    StableHlo.nullary main_cst_11 (constant S_ .f32 0xFF800000#32),
    StableHlo.binary main_v68 main_cst_11 main_v69 ((fun x v => Host.reduce FloatOps.maximumf x v reducesTo_S262144x40_S262144_d1 h_S_) : (⟨S262144x40, .f32⟩ : BufTy).Contents (Elt F) → (⟨S_, .f32⟩ : BufTy).Contents (Elt F) → (⟨S262144, .f32⟩ : BufTy).Contents (Elt F)),
    StableHlo.unary main_v69 main_v70 (broadcastInDim S262144x1 ![0] bcast_S262144_S262144x1_0 : (⟨S262144, .f32⟩ : BufTy).Contents (Elt F) → (⟨S262144x1, .f32⟩ : BufTy).Contents (Elt F)),
    StableHlo.nullary main_cst_12 (constant S_ .f32 0x42FE0000#32),
    StableHlo.unary main_cst_12 main_v71 (broadcastInDim S262144x1 ![] bcast_S_S262144x1 : (⟨S_, .f32⟩ : BufTy).Contents (Elt F) → (⟨S262144x1, .f32⟩ : BufTy).Contents (Elt F)),
    StableHlo.binary main_v70 main_v71 main_v72 (Host.divf : (⟨S262144x1, .f32⟩ : BufTy).Contents (Elt F) → (⟨S262144x1, .f32⟩ : BufTy).Contents (Elt F) → (⟨S262144x1, .f32⟩ : BufTy).Contents (Elt F)),
    StableHlo.nullary main_cst_13 (constant S_ .f32 0x322BCC77#32),
    StableHlo.unary main_cst_13 main_v73 (broadcastInDim S262144x1 ![] bcast_S_S262144x1 : (⟨S_, .f32⟩ : BufTy).Contents (Elt F) → (⟨S262144x1, .f32⟩ : BufTy).Contents (Elt F)),
    StableHlo.binary main_v72 main_v73 main_v74 (maximumf : (⟨S262144x1, .f32⟩ : BufTy).Contents (Elt F) → (⟨S262144x1, .f32⟩ : BufTy).Contents (Elt F) → (⟨S262144x1, .f32⟩ : BufTy).Contents (Elt F)),
    StableHlo.unary main_v74 main_v75 (broadcastInDim S262144x40 ![0, 1] bcast_S262144x1_S262144x40_0_1 : (⟨S262144x1, .f32⟩ : BufTy).Contents (Elt F) → (⟨S262144x40, .f32⟩ : BufTy).Contents (Elt F)),
    StableHlo.binary main_v67 main_v75 main_v76 (Host.divf : (⟨S262144x40, .f32⟩ : BufTy).Contents (Elt F) → (⟨S262144x40, .f32⟩ : BufTy).Contents (Elt F) → (⟨S262144x40, .f32⟩ : BufTy).Contents (Elt F)),
    StableHlo.TRef.unary (.of main_v76 : StableHlo.TRef sig ⟨S262144x40, .f32⟩) main_call5.v0 Host.roundeven,
    StableHlo.unary main_v74 main_v78 (broadcastInDim S262144x40 ![0, 1] bcast_S262144x1_S262144x40_0_1 : (⟨S262144x1, .f32⟩ : BufTy).Contents (Elt F) → (⟨S262144x40, .f32⟩ : BufTy).Contents (Elt F)),
    StableHlo.binary main_v77 main_v78 main_v79 (mulf : (⟨S262144x40, .f32⟩ : BufTy).Contents (Elt F) → (⟨S262144x40, .f32⟩ : BufTy).Contents (Elt F) → (⟨S262144x40, .f32⟩ : BufTy).Contents (Elt F)),
    StableHlo.binary main_v79 main_v67 main_v80 (subf : (⟨S262144x40, .f32⟩ : BufTy).Contents (Elt F) → (⟨S262144x40, .f32⟩ : BufTy).Contents (Elt F) → (⟨S262144x40, .f32⟩ : BufTy).Contents (Elt F)),
    StableHlo.binary main_v67 main_v80 main_v81 (addf : (⟨S262144x40, .f32⟩ : BufTy).Contents (Elt F) → (⟨S262144x40, .f32⟩ : BufTy).Contents (Elt F) → (⟨S262144x40, .f32⟩ : BufTy).Contents (Elt F)),
    StableHlo.unary main_arg5 main_v82 (Host.absf : (⟨S40x40, .f32⟩ : BufTy).Contents (Elt F) → (⟨S40x40, .f32⟩ : BufTy).Contents (Elt F)),
    StableHlo.nullary main_cst_14 (constant S_ .f32 0xFF800000#32),
    StableHlo.binary main_v82 main_cst_14 main_v83 ((fun x v => Host.reduce FloatOps.maximumf x v reducesTo_S40x40_S40_d1 h_S_) : (⟨S40x40, .f32⟩ : BufTy).Contents (Elt F) → (⟨S_, .f32⟩ : BufTy).Contents (Elt F) → (⟨S40, .f32⟩ : BufTy).Contents (Elt F)),
    StableHlo.unary main_v83 main_v84 (broadcastInDim S40x1 ![0] bcast_S40_S40x1_0 : (⟨S40, .f32⟩ : BufTy).Contents (Elt F) → (⟨S40x1, .f32⟩ : BufTy).Contents (Elt F)),
    StableHlo.nullary main_cst_15 (constant S_ .f32 0x42FE0000#32),
    StableHlo.unary main_cst_15 main_v85 (broadcastInDim S40x1 ![] bcast_S_S40x1 : (⟨S_, .f32⟩ : BufTy).Contents (Elt F) → (⟨S40x1, .f32⟩ : BufTy).Contents (Elt F)),
    StableHlo.binary main_v84 main_v85 main_v86 (Host.divf : (⟨S40x1, .f32⟩ : BufTy).Contents (Elt F) → (⟨S40x1, .f32⟩ : BufTy).Contents (Elt F) → (⟨S40x1, .f32⟩ : BufTy).Contents (Elt F)),
    StableHlo.nullary main_cst_16 (constant S_ .f32 0x322BCC77#32),
    StableHlo.unary main_cst_16 main_v87 (broadcastInDim S40x1 ![] bcast_S_S40x1 : (⟨S_, .f32⟩ : BufTy).Contents (Elt F) → (⟨S40x1, .f32⟩ : BufTy).Contents (Elt F)),
    StableHlo.binary main_v86 main_v87 main_v88 (maximumf : (⟨S40x1, .f32⟩ : BufTy).Contents (Elt F) → (⟨S40x1, .f32⟩ : BufTy).Contents (Elt F) → (⟨S40x1, .f32⟩ : BufTy).Contents (Elt F)),
    StableHlo.unary main_v88 main_v89 (broadcastInDim S40x40 ![0, 1] bcast_S40x1_S40x40_0_1 : (⟨S40x1, .f32⟩ : BufTy).Contents (Elt F) → (⟨S40x40, .f32⟩ : BufTy).Contents (Elt F)),
    StableHlo.binary main_arg5 main_v89 main_v90 (Host.divf : (⟨S40x40, .f32⟩ : BufTy).Contents (Elt F) → (⟨S40x40, .f32⟩ : BufTy).Contents (Elt F) → (⟨S40x40, .f32⟩ : BufTy).Contents (Elt F)),
    StableHlo.TRef.unary (.of main_v90 : StableHlo.TRef sig ⟨S40x40, .f32⟩) main_call6.v0 Host.roundeven,
    StableHlo.unary main_v88 main_v92 (broadcastInDim S40x40 ![0, 1] bcast_S40x1_S40x40_0_1 : (⟨S40x1, .f32⟩ : BufTy).Contents (Elt F) → (⟨S40x40, .f32⟩ : BufTy).Contents (Elt F)),
    StableHlo.binary main_v91 main_v92 main_v93 (mulf : (⟨S40x40, .f32⟩ : BufTy).Contents (Elt F) → (⟨S40x40, .f32⟩ : BufTy).Contents (Elt F) → (⟨S40x40, .f32⟩ : BufTy).Contents (Elt F)),
    StableHlo.binary main_v93 main_arg5 main_v94 (subf : (⟨S40x40, .f32⟩ : BufTy).Contents (Elt F) → (⟨S40x40, .f32⟩ : BufTy).Contents (Elt F) → (⟨S40x40, .f32⟩ : BufTy).Contents (Elt F)),
    StableHlo.binary main_arg5 main_v94 main_v95 (addf : (⟨S40x40, .f32⟩ : BufTy).Contents (Elt F) → (⟨S40x40, .f32⟩ : BufTy).Contents (Elt F) → (⟨S40x40, .f32⟩ : BufTy).Contents (Elt F)),
    StableHlo.unary main_v95 main_v96 ((transpose S40x40 [1, 0] · transposes_S40x40_S40x40_1_0) : (⟨S40x40, .f32⟩ : BufTy).Contents (Elt F) → (⟨S40x40, .f32⟩ : BufTy).Contents (Elt F)),
    StableHlo.binary main_v81 main_v96 main_v97 ((fun l r => Host.dotGeneral dot_S262144x40_S40x40_S262144x40_1_0_0_1_n_n none l r) : (⟨S262144x40, .f32⟩ : BufTy).Contents (Elt F) → (⟨S40x40, .f32⟩ : BufTy).Contents (Elt F) → (⟨S262144x40, .f32⟩ : BufTy).Contents (Elt F)),
    StableHlo.unary main_arg6 main_v98 (broadcastInDim S1x40 ![1] bcast_S40_S1x40_1 : (⟨S40, .f32⟩ : BufTy).Contents (Elt F) → (⟨S1x40, .f32⟩ : BufTy).Contents (Elt F)),
    StableHlo.unary main_v98 main_v99 (broadcastInDim S262144x40 ![0, 1] bcast_S1x40_S262144x40_0_1 : (⟨S1x40, .f32⟩ : BufTy).Contents (Elt F) → (⟨S262144x40, .f32⟩ : BufTy).Contents (Elt F)),
    StableHlo.binary main_v97 main_v99 main_v100 (addf : (⟨S262144x40, .f32⟩ : BufTy).Contents (Elt F) → (⟨S262144x40, .f32⟩ : BufTy).Contents (Elt F) → (⟨S262144x40, .f32⟩ : BufTy).Contents (Elt F)),
    StableHlo.TRef.nullary main_call7.cst (constant S_ .f32 0x00000000#32),
    StableHlo.TRef.unary main_call7.cst main_call7.v0 (broadcastInDim S262144x40 ![] bcast_S_S262144x40),
    StableHlo.TRef.binary (.of main_v100 : StableHlo.TRef sig ⟨S262144x40, .f32⟩) main_call7.v0 main_call7.v1 (cmpf .ogt),
    StableHlo.TRef.nullary main_call7.cst_0 (constant S_ .f32 0x00000000#32),
    StableHlo.TRef.unary main_call7.cst_0 main_call7.v2 (broadcastInDim S262144x40 ![] bcast_S_S262144x40),
    StableHlo.TRef.binary (.of main_v100 : StableHlo.TRef sig ⟨S262144x40, .f32⟩) main_call7.v2 main_call7.v3 (cmpf .ogt),
    StableHlo.TRef.nullary main_call7.cst_1 (constant S_ .f32 0x00000000#32),
    StableHlo.TRef.unary main_call7.cst_1 main_call7.call0.v0 id,
    StableHlo.TRef.unary main_call7.call0.v0 main_call7.call0.v1 (broadcastInDim S262144x40 ![] bcast_S_S262144x40),
    StableHlo.TRef.ternary main_call7.v3 main_call7.call0.v1 (.of main_v100 : StableHlo.TRef sig ⟨S262144x40, .f32⟩) main_call7.call0.v2 select,
    StableHlo.TRef.unary main_call7.call0.v2 main_call7.v5 Host.expm1,
    StableHlo.TRef.nullary main_call7.cst_2 (constant S_ .f32 0x3F800000#32),
    StableHlo.TRef.unary main_call7.cst_2 main_call7.v6 (broadcastInDim S262144x40 ![] bcast_S_S262144x40),
    StableHlo.TRef.binary main_call7.v6 main_call7.v5 main_call7.v7 mulf,
    StableHlo.TRef.ternary main_call7.v1 (.of main_v100 : StableHlo.TRef sig ⟨S262144x40, .f32⟩) main_call7.v7 main_call7.call1.v0 select,
    StableHlo.unary main_v101 main_v102 (Host.absf : (⟨S262144x40, .f32⟩ : BufTy).Contents (Elt F) → (⟨S262144x40, .f32⟩ : BufTy).Contents (Elt F)),
    StableHlo.nullary main_cst_17 (constant S_ .f32 0xFF800000#32),
    StableHlo.binary main_v102 main_cst_17 main_v103 ((fun x v => Host.reduce FloatOps.maximumf x v reducesTo_S262144x40_S262144_d1 h_S_) : (⟨S262144x40, .f32⟩ : BufTy).Contents (Elt F) → (⟨S_, .f32⟩ : BufTy).Contents (Elt F) → (⟨S262144, .f32⟩ : BufTy).Contents (Elt F)),
    StableHlo.unary main_v103 main_v104 (broadcastInDim S262144x1 ![0] bcast_S262144_S262144x1_0 : (⟨S262144, .f32⟩ : BufTy).Contents (Elt F) → (⟨S262144x1, .f32⟩ : BufTy).Contents (Elt F)),
    StableHlo.nullary main_cst_18 (constant S_ .f32 0x42FE0000#32),
    StableHlo.unary main_cst_18 main_v105 (broadcastInDim S262144x1 ![] bcast_S_S262144x1 : (⟨S_, .f32⟩ : BufTy).Contents (Elt F) → (⟨S262144x1, .f32⟩ : BufTy).Contents (Elt F)),
    StableHlo.binary main_v104 main_v105 main_v106 (Host.divf : (⟨S262144x1, .f32⟩ : BufTy).Contents (Elt F) → (⟨S262144x1, .f32⟩ : BufTy).Contents (Elt F) → (⟨S262144x1, .f32⟩ : BufTy).Contents (Elt F)),
    StableHlo.nullary main_cst_19 (constant S_ .f32 0x322BCC77#32),
    StableHlo.unary main_cst_19 main_v107 (broadcastInDim S262144x1 ![] bcast_S_S262144x1 : (⟨S_, .f32⟩ : BufTy).Contents (Elt F) → (⟨S262144x1, .f32⟩ : BufTy).Contents (Elt F)),
    StableHlo.binary main_v106 main_v107 main_v108 (maximumf : (⟨S262144x1, .f32⟩ : BufTy).Contents (Elt F) → (⟨S262144x1, .f32⟩ : BufTy).Contents (Elt F) → (⟨S262144x1, .f32⟩ : BufTy).Contents (Elt F)),
    StableHlo.unary main_v108 main_v109 (broadcastInDim S262144x40 ![0, 1] bcast_S262144x1_S262144x40_0_1 : (⟨S262144x1, .f32⟩ : BufTy).Contents (Elt F) → (⟨S262144x40, .f32⟩ : BufTy).Contents (Elt F)),
    StableHlo.binary main_v101 main_v109 main_v110 (Host.divf : (⟨S262144x40, .f32⟩ : BufTy).Contents (Elt F) → (⟨S262144x40, .f32⟩ : BufTy).Contents (Elt F) → (⟨S262144x40, .f32⟩ : BufTy).Contents (Elt F)),
    StableHlo.TRef.unary (.of main_v110 : StableHlo.TRef sig ⟨S262144x40, .f32⟩) main_call8.v0 Host.roundeven,
    StableHlo.unary main_v108 main_v112 (broadcastInDim S262144x40 ![0, 1] bcast_S262144x1_S262144x40_0_1 : (⟨S262144x1, .f32⟩ : BufTy).Contents (Elt F) → (⟨S262144x40, .f32⟩ : BufTy).Contents (Elt F)),
    StableHlo.binary main_v111 main_v112 main_v113 (mulf : (⟨S262144x40, .f32⟩ : BufTy).Contents (Elt F) → (⟨S262144x40, .f32⟩ : BufTy).Contents (Elt F) → (⟨S262144x40, .f32⟩ : BufTy).Contents (Elt F)),
    StableHlo.binary main_v113 main_v101 main_v114 (subf : (⟨S262144x40, .f32⟩ : BufTy).Contents (Elt F) → (⟨S262144x40, .f32⟩ : BufTy).Contents (Elt F) → (⟨S262144x40, .f32⟩ : BufTy).Contents (Elt F)),
    StableHlo.binary main_v101 main_v114 main_v115 (addf : (⟨S262144x40, .f32⟩ : BufTy).Contents (Elt F) → (⟨S262144x40, .f32⟩ : BufTy).Contents (Elt F) → (⟨S262144x40, .f32⟩ : BufTy).Contents (Elt F)),
    StableHlo.unary main_arg7 main_v116 (Host.absf : (⟨S2x40, .f32⟩ : BufTy).Contents (Elt F) → (⟨S2x40, .f32⟩ : BufTy).Contents (Elt F)),
    StableHlo.nullary main_cst_20 (constant S_ .f32 0xFF800000#32),
    StableHlo.binary main_v116 main_cst_20 main_v117 ((fun x v => Host.reduce FloatOps.maximumf x v reducesTo_S2x40_S2_d1 h_S_) : (⟨S2x40, .f32⟩ : BufTy).Contents (Elt F) → (⟨S_, .f32⟩ : BufTy).Contents (Elt F) → (⟨S2, .f32⟩ : BufTy).Contents (Elt F)),
    StableHlo.unary main_v117 main_v118 (broadcastInDim S2x1 ![0] bcast_S2_S2x1_0 : (⟨S2, .f32⟩ : BufTy).Contents (Elt F) → (⟨S2x1, .f32⟩ : BufTy).Contents (Elt F)),
    StableHlo.nullary main_cst_21 (constant S_ .f32 0x42FE0000#32),
    StableHlo.unary main_cst_21 main_v119 (broadcastInDim S2x1 ![] bcast_S_S2x1 : (⟨S_, .f32⟩ : BufTy).Contents (Elt F) → (⟨S2x1, .f32⟩ : BufTy).Contents (Elt F)),
    StableHlo.binary main_v118 main_v119 main_v120 (Host.divf : (⟨S2x1, .f32⟩ : BufTy).Contents (Elt F) → (⟨S2x1, .f32⟩ : BufTy).Contents (Elt F) → (⟨S2x1, .f32⟩ : BufTy).Contents (Elt F)),
    StableHlo.nullary main_cst_22 (constant S_ .f32 0x322BCC77#32),
    StableHlo.unary main_cst_22 main_v121 (broadcastInDim S2x1 ![] bcast_S_S2x1 : (⟨S_, .f32⟩ : BufTy).Contents (Elt F) → (⟨S2x1, .f32⟩ : BufTy).Contents (Elt F)),
    StableHlo.binary main_v120 main_v121 main_v122 (maximumf : (⟨S2x1, .f32⟩ : BufTy).Contents (Elt F) → (⟨S2x1, .f32⟩ : BufTy).Contents (Elt F) → (⟨S2x1, .f32⟩ : BufTy).Contents (Elt F)),
    StableHlo.unary main_v122 main_v123 (broadcastInDim S2x40 ![0, 1] bcast_S2x1_S2x40_0_1 : (⟨S2x1, .f32⟩ : BufTy).Contents (Elt F) → (⟨S2x40, .f32⟩ : BufTy).Contents (Elt F)),
    StableHlo.binary main_arg7 main_v123 main_v124 (Host.divf : (⟨S2x40, .f32⟩ : BufTy).Contents (Elt F) → (⟨S2x40, .f32⟩ : BufTy).Contents (Elt F) → (⟨S2x40, .f32⟩ : BufTy).Contents (Elt F)),
    StableHlo.TRef.unary (.of main_v124 : StableHlo.TRef sig ⟨S2x40, .f32⟩) main_call9.v0 Host.roundeven,
    StableHlo.unary main_v122 main_v126 (broadcastInDim S2x40 ![0, 1] bcast_S2x1_S2x40_0_1 : (⟨S2x1, .f32⟩ : BufTy).Contents (Elt F) → (⟨S2x40, .f32⟩ : BufTy).Contents (Elt F)),
    StableHlo.binary main_v125 main_v126 main_v127 (mulf : (⟨S2x40, .f32⟩ : BufTy).Contents (Elt F) → (⟨S2x40, .f32⟩ : BufTy).Contents (Elt F) → (⟨S2x40, .f32⟩ : BufTy).Contents (Elt F)),
    StableHlo.binary main_v127 main_arg7 main_v128 (subf : (⟨S2x40, .f32⟩ : BufTy).Contents (Elt F) → (⟨S2x40, .f32⟩ : BufTy).Contents (Elt F) → (⟨S2x40, .f32⟩ : BufTy).Contents (Elt F)),
    StableHlo.binary main_arg7 main_v128 main_v129 (addf : (⟨S2x40, .f32⟩ : BufTy).Contents (Elt F) → (⟨S2x40, .f32⟩ : BufTy).Contents (Elt F) → (⟨S2x40, .f32⟩ : BufTy).Contents (Elt F)),
    StableHlo.unary main_v129 main_v130 ((transpose S40x2 [1, 0] · transposes_S2x40_S40x2_1_0) : (⟨S2x40, .f32⟩ : BufTy).Contents (Elt F) → (⟨S40x2, .f32⟩ : BufTy).Contents (Elt F)),
    StableHlo.binary main_v115 main_v130 main_v131 ((fun l r => Host.dotGeneral dot_S262144x40_S40x2_S262144x2_1_0_0_1_n_n none l r) : (⟨S262144x40, .f32⟩ : BufTy).Contents (Elt F) → (⟨S40x2, .f32⟩ : BufTy).Contents (Elt F) → (⟨S262144x2, .f32⟩ : BufTy).Contents (Elt F)),
    StableHlo.unary main_arg8 main_v132 (broadcastInDim S1x2 ![1] bcast_S2_S1x2_1 : (⟨S2, .f32⟩ : BufTy).Contents (Elt F) → (⟨S1x2, .f32⟩ : BufTy).Contents (Elt F)),
    StableHlo.unary main_v132 main_v133 (broadcastInDim S262144x2 ![0, 1] bcast_S1x2_S262144x2_0_1 : (⟨S1x2, .f32⟩ : BufTy).Contents (Elt F) → (⟨S262144x2, .f32⟩ : BufTy).Contents (Elt F)),
    StableHlo.binary main_v131 main_v133 main_v134 (addf : (⟨S262144x2, .f32⟩ : BufTy).Contents (Elt F) → (⟨S262144x2, .f32⟩ : BufTy).Contents (Elt F) → (⟨S262144x2, .f32⟩ : BufTy).Contents (Elt F)),
    StableHlo.TRef.nullary main_call10.cst (constant S_ .f32 0x00000000#32),
    StableHlo.TRef.unary main_call10.cst main_call10.v0 (broadcastInDim S262144x2 ![] bcast_S_S262144x2),
    StableHlo.TRef.binary (.of main_v134 : StableHlo.TRef sig ⟨S262144x2, .f32⟩) main_call10.v0 main_call10.v1 maximumf,
    StableHlo.TRef.unary main_call10.cst main_call10.v2 (broadcastInDim S262144x2 ![] bcast_S_S262144x2),
    StableHlo.TRef.binary (.of main_v134 : StableHlo.TRef sig ⟨S262144x2, .f32⟩) main_call10.v2 main_call10.v3 subf,
    StableHlo.TRef.binary main_call10.v3 main_call10.v3 main_call10.v4 (cmpf .une),
    StableHlo.TRef.unary main_call10.cst main_call10.v5 (broadcastInDim S262144x2 ![] bcast_S_S262144x2),
    StableHlo.TRef.binary (.of main_v134 : StableHlo.TRef sig ⟨S262144x2, .f32⟩) main_call10.v5 main_call10.v6 addf,
    StableHlo.TRef.unary main_call10.v3 main_call10.v7 Host.absf,
    StableHlo.TRef.unary main_call10.v7 main_call10.v8 Host.negf,
    StableHlo.TRef.unary main_call10.v8 main_call10.v9 Host.exp,
    StableHlo.TRef.unary main_call10.v9 main_call10.v10 Host.log1p,
    StableHlo.TRef.binary main_call10.v1 main_call10.v10 main_call10.v11 addf,
    StableHlo.TRef.ternary main_call10.v4 main_call10.v6 main_call10.v11 main_call10.v12 select ]

/-- Every operation of the line touches TensorCore buffers only. -/
theorem ops_sub : (ops : List (HloOp τ sig (Elt F))).Forall fun op => op.bufs ⊆ tcRefs τ sig :=
  ⟨unary_bufs_sub .., nullary_bufs_sub .., binary_bufs_sub .., unary_bufs_sub .., nullary_bufs_sub .., unary_bufs_sub ..,
    binary_bufs_sub .., nullary_bufs_sub .., unary_bufs_sub .., binary_bufs_sub .., unary_bufs_sub .., binary_bufs_sub ..,
    unary_bufs_sub .., unary_bufs_sub .., binary_bufs_sub .., binary_bufs_sub .., binary_bufs_sub .., unary_bufs_sub ..,
    nullary_bufs_sub .., binary_bufs_sub .., unary_bufs_sub .., nullary_bufs_sub .., unary_bufs_sub .., binary_bufs_sub ..,
    nullary_bufs_sub .., unary_bufs_sub .., binary_bufs_sub .., unary_bufs_sub .., binary_bufs_sub .., unary_bufs_sub ..,
    unary_bufs_sub .., binary_bufs_sub .., binary_bufs_sub .., binary_bufs_sub .., unary_bufs_sub .., binary_bufs_sub ..,
    unary_bufs_sub .., unary_bufs_sub .., binary_bufs_sub .., unary_bufs_sub .., unary_bufs_sub .., nullary_bufs_sub ..,
    binary_bufs_sub .., unary_bufs_sub .., nullary_bufs_sub .., unary_bufs_sub .., binary_bufs_sub .., nullary_bufs_sub ..,
    unary_bufs_sub .., binary_bufs_sub .., unary_bufs_sub .., binary_bufs_sub .., unary_bufs_sub .., unary_bufs_sub ..,
    binary_bufs_sub .., binary_bufs_sub .., binary_bufs_sub .., unary_bufs_sub .., nullary_bufs_sub .., binary_bufs_sub ..,
    unary_bufs_sub .., nullary_bufs_sub .., unary_bufs_sub .., binary_bufs_sub .., nullary_bufs_sub .., unary_bufs_sub ..,
    binary_bufs_sub .., unary_bufs_sub .., binary_bufs_sub .., unary_bufs_sub .., unary_bufs_sub .., binary_bufs_sub ..,
    binary_bufs_sub .., binary_bufs_sub .., unary_bufs_sub .., binary_bufs_sub .., unary_bufs_sub .., unary_bufs_sub ..,
    binary_bufs_sub .., nullary_bufs_sub .., unary_bufs_sub .., binary_bufs_sub .., nullary_bufs_sub .., unary_bufs_sub ..,
    binary_bufs_sub .., nullary_bufs_sub .., unary_bufs_sub .., unary_bufs_sub .., ternary_bufs_sub .., unary_bufs_sub ..,
    nullary_bufs_sub .., unary_bufs_sub .., binary_bufs_sub .., ternary_bufs_sub .., unary_bufs_sub .., nullary_bufs_sub ..,
    binary_bufs_sub .., unary_bufs_sub .., nullary_bufs_sub .., unary_bufs_sub .., binary_bufs_sub .., nullary_bufs_sub ..,
    unary_bufs_sub .., binary_bufs_sub .., unary_bufs_sub .., binary_bufs_sub .., unary_bufs_sub .., unary_bufs_sub ..,
    binary_bufs_sub .., binary_bufs_sub .., binary_bufs_sub .., unary_bufs_sub .., nullary_bufs_sub .., binary_bufs_sub ..,
    unary_bufs_sub .., nullary_bufs_sub .., unary_bufs_sub .., binary_bufs_sub .., nullary_bufs_sub .., unary_bufs_sub ..,
    binary_bufs_sub .., unary_bufs_sub .., binary_bufs_sub .., unary_bufs_sub .., unary_bufs_sub .., binary_bufs_sub ..,
    binary_bufs_sub .., binary_bufs_sub .., unary_bufs_sub .., binary_bufs_sub .., unary_bufs_sub .., unary_bufs_sub ..,
    binary_bufs_sub .., nullary_bufs_sub .., unary_bufs_sub .., binary_bufs_sub .., nullary_bufs_sub .., unary_bufs_sub ..,
    binary_bufs_sub .., nullary_bufs_sub .., unary_bufs_sub .., unary_bufs_sub .., ternary_bufs_sub .., unary_bufs_sub ..,
    nullary_bufs_sub .., unary_bufs_sub .., binary_bufs_sub .., ternary_bufs_sub .., unary_bufs_sub .., nullary_bufs_sub ..,
    binary_bufs_sub .., unary_bufs_sub .., nullary_bufs_sub .., unary_bufs_sub .., binary_bufs_sub .., nullary_bufs_sub ..,
    unary_bufs_sub .., binary_bufs_sub .., unary_bufs_sub .., binary_bufs_sub .., unary_bufs_sub .., unary_bufs_sub ..,
    binary_bufs_sub .., binary_bufs_sub .., binary_bufs_sub .., unary_bufs_sub .., nullary_bufs_sub .., binary_bufs_sub ..,
    unary_bufs_sub .., nullary_bufs_sub .., unary_bufs_sub .., binary_bufs_sub .., nullary_bufs_sub .., unary_bufs_sub ..,
    binary_bufs_sub .., unary_bufs_sub .., binary_bufs_sub .., unary_bufs_sub .., unary_bufs_sub .., binary_bufs_sub ..,
    binary_bufs_sub .., binary_bufs_sub .., unary_bufs_sub .., binary_bufs_sub .., unary_bufs_sub .., unary_bufs_sub ..,
    binary_bufs_sub .., nullary_bufs_sub .., unary_bufs_sub .., binary_bufs_sub .., unary_bufs_sub .., binary_bufs_sub ..,
    binary_bufs_sub .., unary_bufs_sub .., binary_bufs_sub .., unary_bufs_sub .., unary_bufs_sub .., unary_bufs_sub ..,
    unary_bufs_sub .., binary_bufs_sub .., ternary_bufs_sub ..⟩

end Cert.ReferenceIdeal.RefRun

end
-- ==== Proof.RefRun.lean ====
/-
  The reference network's program runs as its straight line of host operations.  The program is that line — the called
  functions unfolded at their calls, the sequencing reassociated —, the line is its twelve per-layer segments one after
  the other, and so every weakly fair execution terminates with each buffer holding what the line, folded over the
  launch contents, leaves in it.
-/
import proofs.«101763_j14748917694594_2_alg».proof.Proof.RefOps

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- The line is its twelve segments one after the other. -/
theorem ops_eq : (ops : List (HloOp τ sig (Elt F))) = segA1 ++ segW1 ++ segD1 ++ segA2 ++ segW2 ++ segD2 ++ segA3 ++ segW3 ++ segD3 ++ segA4 ++ segW4 ++ segD4 := rfl

set_option maxRecDepth 16384 in
set_option maxHeartbeats 4000000 in
/-- The program is that line: with the called functions' definitions unfolded at their calls, both sides are one chain of
    host steps once the sequencing is reassociated. -/
theorem main_eq (c : Dev nD) : main (F := F) c = seq ops := by
  simp only [main, main_part0, main_part1, main_part2, fn_round.body, fn_round_0.body, fn_round_1.body, fn_round_2.body, fn_where.body, fn_where_3.body, fn_elu.body, fn_round_4.body, fn_softplus.body, seq, bind_assoc, pure_bind]

/-- The program scopes no buffer and no semaphore. -/
theorem scopedRefs_eq : (Finset.univ.filter fun b : Ref sig .tc => b.isScoped) = ∅ := by decide
theorem scopedSems_eq : (Finset.univ.filter fun sm : SemLoc sig => sm.isScoped .tc) = ∅ := by decide

/-- From any memory with zero counters every weakly fair execution of the program terminates, and each buffer then holds
    what the line's operations, folded over the launch contents, leave in it. -/
theorem run_main (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ

end Cert.ReferenceIdeal.RefRun

end
-- ==== Proof.LibAfterAppend.lean ====
/-
  The contents after two lines of host operations run one after the other are the second line's contents over the
  first line's: the fold over a concatenated list is the composition of the folds. General: nothing here depends on a
  program.
-/
import Idealize.ShloMosaic.Lib.StableHlo.Run

namespace Cert.LibAfterAppend

open Idealize.ShloMosaic Idealize.ShloMosaic.StableHlo

variable {τ : Topo} {sig : RefSig} {Val : EltTy → Type}

/-- Running `l₁` then `l₂` from contents `V` is running `l₂` from what `l₁` leaves. -/
theorem after_append (l₁ l₂ : List (HloOp τ sig Val)) (V : Valuation τ sig Val) :
    after (l₁ ++ l₂) V = after l₂ (after l₁ V) := by
  induction l₁ generalizing V with
  | nil => rfl
  | cons op l ih => simp only [List.cons_append, after_cons, ih]

end Cert.LibAfterAppend
-- ==== Proof.RefKeeps.lean ====
/-
  What the segments of the reference line leave alone.

  Each operation of the line writes one buffer, its result's, and every result has a buffer of its own.  So a segment's
  operations write exactly the buffers listed for it below, and any buffer outside that list holds after the segment
  what it held before.  In particular no segment writes an argument array, so the nine arguments pass through every
  segment, and through the whole line, unchanged; and the four quantised activation arrays, each made by one segment
  and multiplied two segments later, pass through the segment between.  A buffer's absence from a list is decided by
  comparing buffer names.
-/
import proofs.«101763_j14748917694594_2_alg».proof.Proof.RefRun
import proofs.«101763_j14748917694594_2_alg».proof.Proof.LibAfterAppend
import Idealize.ShloMosaic.PureOps.Ideal

noncomputable section

namespace Cert.ReferenceIdeal.RefKeeps

open Idealize.ShloMosaic Idealize.ShloMosaic.TcCoe Idealize.ShloMosaic.StableHlo Cert.ReferenceIdeal Cert.ReferenceIdeal.Gen Cert.ReferenceIdeal.RefRun

/-! ## Segment A1 -/

/-- The buffers segment A1's operations write, in order. -/
abbrev segA1_W : List (Ref sig .tc) :=
  [main_v0, main_cst, main_v1, main_v2, main_cst_0, main_v3, main_v4, main_cst_1, main_v5, main_v6, main_v7, main_v8, main_call0.v0.ref, main_v10, main_v11, main_v12, main_v13]
/-- Each operation of segment A1 writes a buffer of that list. -/
theorem segA1_writes : (segA1 (F := Ideal)).Forall fun op => op.writes ⊆ (segA1_W.map (Proc.devRef (τ := τ) .tc)).toFinset := by
  simp only [List.Forall]
  repeat' apply And.intro
  all_goals (simp only [StableHlo.nullary_writes, StableHlo.unary_writes, StableHlo.binary_writes, StableHlo.ternary_writes, Finset.singleton_subset_iff, List.mem_toFinset]; exact List.mem_map_of_mem (by decide))
/-- A buffer outside that list keeps its contents through segment A1. -/
theorem keep_A1 (W : Valuation τ sig (Elt Ideal)) (r : Ref sig .tc) (h : r ∉ segA1_W) :
    after (segA1 (F := Ideal)) W (r : DevRef τ sig) = W (r : DevRef τ sig) :=
  after_of_writes_sub _ _ segA1_writes h
theorem keep_A1_arg0 (W : Valuation τ sig (Elt Ideal)) : after (segA1 (F := Ideal)) W (main_arg0 : DevRef τ sig) = W (main_arg0 : DevRef τ sig) := keep_A1 W main_arg0 (by decide)
theorem keep_A1_arg1 (W : Valuation τ sig (Elt Ideal)) : after (segA1 (F := Ideal)) W (main_arg1 : DevRef τ sig) = W (main_arg1 : DevRef τ sig) := keep_A1 W main_arg1 (by decide)
theorem keep_A1_arg2 (W : Valuation τ sig (Elt Ideal)) : after (segA1 (F := Ideal)) W (main_arg2 : DevRef τ sig) = W (main_arg2 : DevRef τ sig) := keep_A1 W main_arg2 (by decide)
theorem keep_A1_arg3 (W : Valuation τ sig (Elt Ideal)) : after (segA1 (F := Ideal)) W (main_arg3 : DevRef τ sig) = W (main_arg3 : DevRef τ sig) := keep_A1 W main_arg3 (by decide)
theorem keep_A1_arg4 (W : Valuation τ sig (Elt Ideal)) : after (segA1 (F := Ideal)) W (main_arg4 : DevRef τ sig) = W (main_arg4 : DevRef τ sig) := keep_A1 W main_arg4 (by decide)
theorem keep_A1_arg5 (W : Valuation τ sig (Elt Ideal)) : after (segA1 (F := Ideal)) W (main_arg5 : DevRef τ sig) = W (main_arg5 : DevRef τ sig) := keep_A1 W main_arg5 (by decide)
theorem keep_A1_arg6 (W : Valuation τ sig (Elt Ideal)) : after (segA1 (F := Ideal)) W (main_arg6 : DevRef τ sig) = W (main_arg6 : DevRef τ sig) := keep_A1 W main_arg6 (by decide)
theorem keep_A1_arg7 (W : Valuation τ sig (Elt Ideal)) : after (segA1 (F := Ideal)) W (main_arg7 : DevRef τ sig) = W (main_arg7 : DevRef τ sig) := keep_A1 W main_arg7 (by decide)
theorem keep_A1_arg8 (W : Valuation τ sig (Elt Ideal)) : after (segA1 (F := Ideal)) W (main_arg8 : DevRef τ sig) = W (main_arg8 : DevRef τ sig) := keep_A1 W main_arg8 (by decide)

/-! ## Segment W1 -/

/-- The buffers segment W1's operations write, in order. -/
abbrev segW1_W : List (Ref sig .tc) :=
  [main_v14, main_cst_2, main_v15, main_v16, main_cst_3, main_v17, main_v18, main_cst_4, main_v19, main_v20, main_v21, main_v22, main_call1.v0.ref, main_v24, main_v25, main_v26, main_v27, main_v28]
/-- Each operation of segment W1 writes a buffer of that list. -/
theorem segW1_writes : (segW1 (F := Ideal)).Forall fun op => op.writes ⊆ (segW1_W.map (Proc.devRef (τ := τ) .tc)).toFinset := by
  simp only [List.Forall]
  repeat' apply And.intro
  all_goals (simp only [StableHlo.nullary_writes, StableHlo.unary_writes, StableHlo.binary_writes, StableHlo.ternary_writes, Finset.singleton_subset_iff, List.mem_toFinset]; exact List.mem_map_of_mem (by decide))
/-- A buffer outside that list keeps its contents through segment W1. -/
theorem keep_W1 (W : Valuation τ sig (Elt Ideal)) (r : Ref sig .tc) (h : r ∉ segW1_W) :
    after (segW1 (F := Ideal)) W (r : DevRef τ sig) = W (r : DevRef τ sig) :=
  after_of_writes_sub _ _ segW1_writes h
theorem keep_W1_arg0 (W : Valuation τ sig (Elt Ideal)) : after (segW1 (F := Ideal)) W (main_arg0 : DevRef τ sig) = W (main_arg0 : DevRef τ sig) := keep_W1 W main_arg0 (by decide)
theorem keep_W1_arg1 (W : Valuation τ sig (Elt Ideal)) : after (segW1 (F := Ideal)) W (main_arg1 : DevRef τ sig) = W (main_arg1 : DevRef τ sig) := keep_W1 W main_arg1 (by decide)
theorem keep_W1_arg2 (W : Valuation τ sig (Elt Ideal)) : after (segW1 (F := Ideal)) W (main_arg2 : DevRef τ sig) = W (main_arg2 : DevRef τ sig) := keep_W1 W main_arg2 (by decide)
theorem keep_W1_arg3 (W : Valuation τ sig (Elt Ideal)) : after (segW1 (F := Ideal)) W (main_arg3 : DevRef τ sig) = W (main_arg3 : DevRef τ sig) := keep_W1 W main_arg3 (by decide)
theorem keep_W1_arg4 (W : Valuation τ sig (Elt Ideal)) : after (segW1 (F := Ideal)) W (main_arg4 : DevRef τ sig) = W (main_arg4 : DevRef τ sig) := keep_W1 W main_arg4 (by decide)
theorem keep_W1_arg5 (W : Valuation τ sig (Elt Ideal)) : after (segW1 (F := Ideal)) W (main_arg5 : DevRef τ sig) = W (main_arg5 : DevRef τ sig) := keep_W1 W main_arg5 (by decide)
theorem keep_W1_arg6 (W : Valuation τ sig (Elt Ideal)) : after (segW1 (F := Ideal)) W (main_arg6 : DevRef τ sig) = W (main_arg6 : DevRef τ sig) := keep_W1 W main_arg6 (by decide)
theorem keep_W1_arg7 (W : Valuation τ sig (Elt Ideal)) : after (segW1 (F := Ideal)) W (main_arg7 : DevRef τ sig) = W (main_arg7 : DevRef τ sig) := keep_W1 W main_arg7 (by decide)
theorem keep_W1_arg8 (W : Valuation τ sig (Elt Ideal)) : after (segW1 (F := Ideal)) W (main_arg8 : DevRef τ sig) = W (main_arg8 : DevRef τ sig) := keep_W1 W main_arg8 (by decide)

/-! ## Segment D1 -/

/-- The buffers segment D1's operations write, in order. -/
abbrev segD1_W : List (Ref sig .tc) :=
  [main_v29, main_v30, main_v31, main_v32, main_v33]
/-- Each operation of segment D1 writes a buffer of that list. -/
theorem segD1_writes : (segD1 (F := Ideal)).Forall fun op => op.writes ⊆ (segD1_W.map (Proc.devRef (τ := τ) .tc)).toFinset := by
  simp only [List.Forall]
  repeat' apply And.intro
  all_goals (simp only [StableHlo.nullary_writes, StableHlo.unary_writes, StableHlo.binary_writes, StableHlo.ternary_writes, Finset.singleton_subset_iff, List.mem_toFinset]; exact List.mem_map_of_mem (by decide))
/-- A buffer outside that list keeps its contents through segment D1. -/
theorem keep_D1 (W : Valuation τ sig (Elt Ideal)) (r : Ref sig .tc) (h : r ∉ segD1_W) :
    after (segD1 (F := Ideal)) W (r : DevRef τ sig) = W (r : DevRef τ sig) :=
  after_of_writes_sub _ _ segD1_writes h
theorem keep_D1_arg0 (W : Valuation τ sig (Elt Ideal)) : after (segD1 (F := Ideal)) W (main_arg0 : DevRef τ sig) = W (main_arg0 : DevRef τ sig) := keep_D1 W main_arg0 (by decide)
theorem keep_D1_arg1 (W : Valuation τ sig (Elt Ideal)) : after (segD1 (F := Ideal)) W (main_arg1 : DevRef τ sig) = W (main_arg1 : DevRef τ sig) := keep_D1 W main_arg1 (by decide)
theorem keep_D1_arg2 (W : Valuation τ sig (Elt Ideal)) : after (segD1 (F := Ideal)) W (main_arg2 : DevRef τ sig) = W (main_arg2 : DevRef τ sig) := keep_D1 W main_arg2 (by decide)
theorem keep_D1_arg3 (W : Valuation τ sig (Elt Ideal)) : after (segD1 (F := Ideal)) W (main_arg3 : DevRef τ sig) = W (main_arg3 : DevRef τ sig) := keep_D1 W main_arg3 (by decide)
theorem keep_D1_arg4 (W : Valuation τ sig (Elt Ideal)) : after (segD1 (F := Ideal)) W (main_arg4 : DevRef τ sig) = W (main_arg4 : DevRef τ sig) := keep_D1 W main_arg4 (by decide)
theorem keep_D1_arg5 (W : Valuation τ sig (Elt Ideal)) : after (segD1 (F := Ideal)) W (main_arg5 : DevRef τ sig) = W (main_arg5 : DevRef τ sig) := keep_D1 W main_arg5 (by decide)
theorem keep_D1_arg6 (W : Valuation τ sig (Elt Ideal)) : after (segD1 (F := Ideal)) W (main_arg6 : DevRef τ sig) = W (main_arg6 : DevRef τ sig) := keep_D1 W main_arg6 (by decide)
theorem keep_D1_arg7 (W : Valuation τ sig (Elt Ideal)) : after (segD1 (F := Ideal)) W (main_arg7 : DevRef τ sig) = W (main_arg7 : DevRef τ sig) := keep_D1 W main_arg7 (by decide)
theorem keep_D1_arg8 (W : Valuation τ sig (Elt Ideal)) : after (segD1 (F := Ideal)) W (main_arg8 : DevRef τ sig) = W (main_arg8 : DevRef τ sig) := keep_D1 W main_arg8 (by decide)

/-! ## Segment A2 -/

/-- The buffers segment A2's operations write, in order. -/
abbrev segA2_W : List (Ref sig .tc) :=
  [main_v34, main_cst_5, main_v35, main_v36, main_cst_6, main_v37, main_v38, main_cst_7, main_v39, main_v40, main_v41, main_v42, main_call2.v0.ref, main_v44, main_v45, main_v46, main_v47]
/-- Each operation of segment A2 writes a buffer of that list. -/
theorem segA2_writes : (segA2 (F := Ideal)).Forall fun op => op.writes ⊆ (segA2_W.map (Proc.devRef (τ := τ) .tc)).toFinset := by
  simp only [List.Forall]
  repeat' apply And.intro
  all_goals (simp only [StableHlo.nullary_writes, StableHlo.unary_writes, StableHlo.binary_writes, StableHlo.ternary_writes, Finset.singleton_subset_iff, List.mem_toFinset]; exact List.mem_map_of_mem (by decide))
/-- A buffer outside that list keeps its contents through segment A2. -/
theorem keep_A2 (W : Valuation τ sig (Elt Ideal)) (r : Ref sig .tc) (h : r ∉ segA2_W) :
    after (segA2 (F := Ideal)) W (r : DevRef τ sig) = W (r : DevRef τ sig) :=
  after_of_writes_sub _ _ segA2_writes h
theorem keep_A2_arg0 (W : Valuation τ sig (Elt Ideal)) : after (segA2 (F := Ideal)) W (main_arg0 : DevRef τ sig) = W (main_arg0 : DevRef τ sig) := keep_A2 W main_arg0 (by decide)
theorem keep_A2_arg1 (W : Valuation τ sig (Elt Ideal)) : after (segA2 (F := Ideal)) W (main_arg1 : DevRef τ sig) = W (main_arg1 : DevRef τ sig) := keep_A2 W main_arg1 (by decide)
theorem keep_A2_arg2 (W : Valuation τ sig (Elt Ideal)) : after (segA2 (F := Ideal)) W (main_arg2 : DevRef τ sig) = W (main_arg2 : DevRef τ sig) := keep_A2 W main_arg2 (by decide)
theorem keep_A2_arg3 (W : Valuation τ sig (Elt Ideal)) : after (segA2 (F := Ideal)) W (main_arg3 : DevRef τ sig) = W (main_arg3 : DevRef τ sig) := keep_A2 W main_arg3 (by decide)
theorem keep_A2_arg4 (W : Valuation τ sig (Elt Ideal)) : after (segA2 (F := Ideal)) W (main_arg4 : DevRef τ sig) = W (main_arg4 : DevRef τ sig) := keep_A2 W main_arg4 (by decide)
theorem keep_A2_arg5 (W : Valuation τ sig (Elt Ideal)) : after (segA2 (F := Ideal)) W (main_arg5 : DevRef τ sig) = W (main_arg5 : DevRef τ sig) := keep_A2 W main_arg5 (by decide)
theorem keep_A2_arg6 (W : Valuation τ sig (Elt Ideal)) : after (segA2 (F := Ideal)) W (main_arg6 : DevRef τ sig) = W (main_arg6 : DevRef τ sig) := keep_A2 W main_arg6 (by decide)
theorem keep_A2_arg7 (W : Valuation τ sig (Elt Ideal)) : after (segA2 (F := Ideal)) W (main_arg7 : DevRef τ sig) = W (main_arg7 : DevRef τ sig) := keep_A2 W main_arg7 (by decide)
theorem keep_A2_arg8 (W : Valuation τ sig (Elt Ideal)) : after (segA2 (F := Ideal)) W (main_arg8 : DevRef τ sig) = W (main_arg8 : DevRef τ sig) := keep_A2 W main_arg8 (by decide)

/-! ## Segment W2 -/

/-- The buffers segment W2's operations write, in order. -/
abbrev segW2_W : List (Ref sig .tc) :=
  [main_v48, main_cst_8, main_v49, main_v50, main_cst_9, main_v51, main_v52, main_cst_10, main_v53, main_v54, main_v55, main_v56, main_call3.v0.ref, main_v58, main_v59, main_v60, main_v61, main_v62]
/-- Each operation of segment W2 writes a buffer of that list. -/
theorem segW2_writes : (segW2 (F := Ideal)).Forall fun op => op.writes ⊆ (segW2_W.map (Proc.devRef (τ := τ) .tc)).toFinset := by
  simp only [List.Forall]
  repeat' apply And.intro
  all_goals (simp only [StableHlo.nullary_writes, StableHlo.unary_writes, StableHlo.binary_writes, StableHlo.ternary_writes, Finset.singleton_subset_iff, List.mem_toFinset]; exact List.mem_map_of_mem (by decide))
/-- A buffer outside that list keeps its contents through segment W2. -/
theorem keep_W2 (W : Valuation τ sig (Elt Ideal)) (r : Ref sig .tc) (h : r ∉ segW2_W) :
    after (segW2 (F := Ideal)) W (r : DevRef τ sig) = W (r : DevRef τ sig) :=
  after_of_writes_sub _ _ segW2_writes h
theorem keep_W2_arg0 (W : Valuation τ sig (Elt Ideal)) : after (segW2 (F := Ideal)) W (main_arg0 : DevRef τ sig) = W (main_arg0 : DevRef τ sig) := keep_W2 W main_arg0 (by decide)
theorem keep_W2_arg1 (W : Valuation τ sig (Elt Ideal)) : after (segW2 (F := Ideal)) W (main_arg1 : DevRef τ sig) = W (main_arg1 : DevRef τ sig) := keep_W2 W main_arg1 (by decide)
theorem keep_W2_arg2 (W : Valuation τ sig (Elt Ideal)) : after (segW2 (F := Ideal)) W (main_arg2 : DevRef τ sig) = W (main_arg2 : DevRef τ sig) := keep_W2 W main_arg2 (by decide)
theorem keep_W2_arg3 (W : Valuation τ sig (Elt Ideal)) : after (segW2 (F := Ideal)) W (main_arg3 : DevRef τ sig) = W (main_arg3 : DevRef τ sig) := keep_W2 W main_arg3 (by decide)
theorem keep_W2_arg4 (W : Valuation τ sig (Elt Ideal)) : after (segW2 (F := Ideal)) W (main_arg4 : DevRef τ sig) = W (main_arg4 : DevRef τ sig) := keep_W2 W main_arg4 (by decide)
theorem keep_W2_arg5 (W : Valuation τ sig (Elt Ideal)) : after (segW2 (F := Ideal)) W (main_arg5 : DevRef τ sig) = W (main_arg5 : DevRef τ sig) := keep_W2 W main_arg5 (by decide)
theorem keep_W2_arg6 (W : Valuation τ sig (Elt Ideal)) : after (segW2 (F := Ideal)) W (main_arg6 : DevRef τ sig) = W (main_arg6 : DevRef τ sig) := keep_W2 W main_arg6 (by decide)
theorem keep_W2_arg7 (W : Valuation τ sig (Elt Ideal)) : after (segW2 (F := Ideal)) W (main_arg7 : DevRef τ sig) = W (main_arg7 : DevRef τ sig) := keep_W2 W main_arg7 (by decide)
theorem keep_W2_arg8 (W : Valuation τ sig (Elt Ideal)) : after (segW2 (F := Ideal)) W (main_arg8 : DevRef τ sig) = W (main_arg8 : DevRef τ sig) := keep_W2 W main_arg8 (by decide)

/-! ## Segment D2 -/

/-- The buffers segment D2's operations write, in order. -/
abbrev segD2_W : List (Ref sig .tc) :=
  [main_v63, main_v64, main_v65, main_v66, main_call4.cst.ref, main_call4.v0.ref, main_call4.v1.ref, main_call4.cst_0.ref, main_call4.v2.ref, main_call4.v3.ref, main_call4.cst_1.ref, main_call4.call0.v0.ref, main_call4.call0.v1.ref, main_call4.call0.v2.ref, main_call4.v5.ref, main_call4.cst_2.ref, main_call4.v6.ref, main_call4.v7.ref, main_call4.call1.v0.ref]
/-- Each operation of segment D2 writes a buffer of that list. -/
theorem segD2_writes : (segD2 (F := Ideal)).Forall fun op => op.writes ⊆ (segD2_W.map (Proc.devRef (τ := τ) .tc)).toFinset := by
  simp only [List.Forall]
  repeat' apply And.intro
  all_goals (simp only [StableHlo.nullary_writes, StableHlo.unary_writes, StableHlo.binary_writes, StableHlo.ternary_writes, Finset.singleton_subset_iff, List.mem_toFinset]; exact List.mem_map_of_mem (by decide))
/-- A buffer outside that list keeps its contents through segment D2. -/
theorem keep_D2 (W : Valuation τ sig (Elt Ideal)) (r : Ref sig .tc) (h : r ∉ segD2_W) :
    after (segD2 (F := Ideal)) W (r : DevRef τ sig) = W (r : DevRef τ sig) :=
  after_of_writes_sub _ _ segD2_writes h
theorem keep_D2_arg0 (W : Valuation τ sig (Elt Ideal)) : after (segD2 (F := Ideal)) W (main_arg0 : DevRef τ sig) = W (main_arg0 : DevRef τ sig) := keep_D2 W main_arg0 (by decide)
theorem keep_D2_arg1 (W : Valuation τ sig (Elt Ideal)) : after (segD2 (F := Ideal)) W (main_arg1 : DevRef τ sig) = W (main_arg1 : DevRef τ sig) := keep_D2 W main_arg1 (by decide)
theorem keep_D2_arg2 (W : Valuation τ sig (Elt Ideal)) : after (segD2 (F := Ideal)) W (main_arg2 : DevRef τ sig) = W (main_arg2 : DevRef τ sig) := keep_D2 W main_arg2 (by decide)
theorem keep_D2_arg3 (W : Valuation τ sig (Elt Ideal)) : after (segD2 (F := Ideal)) W (main_arg3 : DevRef τ sig) = W (main_arg3 : DevRef τ sig) := keep_D2 W main_arg3 (by decide)
theorem keep_D2_arg4 (W : Valuation τ sig (Elt Ideal)) : after (segD2 (F := Ideal)) W (main_arg4 : DevRef τ sig) = W (main_arg4 : DevRef τ sig) := keep_D2 W main_arg4 (by decide)
theorem keep_D2_arg5 (W : Valuation τ sig (Elt Ideal)) : after (segD2 (F := Ideal)) W (main_arg5 : DevRef τ sig) = W (main_arg5 : DevRef τ sig) := keep_D2 W main_arg5 (by decide)
theorem keep_D2_arg6 (W : Valuation τ sig (Elt Ideal)) : after (segD2 (F := Ideal)) W (main_arg6 : DevRef τ sig) = W (main_arg6 : DevRef τ sig) := keep_D2 W main_arg6 (by decide)
theorem keep_D2_arg7 (W : Valuation τ sig (Elt Ideal)) : after (segD2 (F := Ideal)) W (main_arg7 : DevRef τ sig) = W (main_arg7 : DevRef τ sig) := keep_D2 W main_arg7 (by decide)
theorem keep_D2_arg8 (W : Valuation τ sig (Elt Ideal)) : after (segD2 (F := Ideal)) W (main_arg8 : DevRef τ sig) = W (main_arg8 : DevRef τ sig) := keep_D2 W main_arg8 (by decide)

/-! ## Segment A3 -/

/-- The buffers segment A3's operations write, in order. -/
abbrev segA3_W : List (Ref sig .tc) :=
  [main_v68, main_cst_11, main_v69, main_v70, main_cst_12, main_v71, main_v72, main_cst_13, main_v73, main_v74, main_v75, main_v76, main_call5.v0.ref, main_v78, main_v79, main_v80, main_v81]
/-- Each operation of segment A3 writes a buffer of that list. -/
theorem segA3_writes : (segA3 (F := Ideal)).Forall fun op => op.writes ⊆ (segA3_W.map (Proc.devRef (τ := τ) .tc)).toFinset := by
  simp only [List.Forall]
  repeat' apply And.intro
  all_goals (simp only [StableHlo.nullary_writes, StableHlo.unary_writes, StableHlo.binary_writes, StableHlo.ternary_writes, Finset.singleton_subset_iff, List.mem_toFinset]; exact List.mem_map_of_mem (by decide))
/-- A buffer outside that list keeps its contents through segment A3. -/
theorem keep_A3 (W : Valuation τ sig (Elt Ideal)) (r : Ref sig .tc) (h : r ∉ segA3_W) :
    after (segA3 (F := Ideal)) W (r : DevRef τ sig) = W (r : DevRef τ sig) :=
  after_of_writes_sub _ _ segA3_writes h
theorem keep_A3_arg0 (W : Valuation τ sig (Elt Ideal)) : after (segA3 (F := Ideal)) W (main_arg0 : DevRef τ sig) = W (main_arg0 : DevRef τ sig) := keep_A3 W main_arg0 (by decide)
theorem keep_A3_arg1 (W : Valuation τ sig (Elt Ideal)) : after (segA3 (F := Ideal)) W (main_arg1 : DevRef τ sig) = W (main_arg1 : DevRef τ sig) := keep_A3 W main_arg1 (by decide)
theorem keep_A3_arg2 (W : Valuation τ sig (Elt Ideal)) : after (segA3 (F := Ideal)) W (main_arg2 : DevRef τ sig) = W (main_arg2 : DevRef τ sig) := keep_A3 W main_arg2 (by decide)
theorem keep_A3_arg3 (W : Valuation τ sig (Elt Ideal)) : after (segA3 (F := Ideal)) W (main_arg3 : DevRef τ sig) = W (main_arg3 : DevRef τ sig) := keep_A3 W main_arg3 (by decide)
theorem keep_A3_arg4 (W : Valuation τ sig (Elt Ideal)) : after (segA3 (F := Ideal)) W (main_arg4 : DevRef τ sig) = W (main_arg4 : DevRef τ sig) := keep_A3 W main_arg4 (by decide)
theorem keep_A3_arg5 (W : Valuation τ sig (Elt Ideal)) : after (segA3 (F := Ideal)) W (main_arg5 : DevRef τ sig) = W (main_arg5 : DevRef τ sig) := keep_A3 W main_arg5 (by decide)
theorem keep_A3_arg6 (W : Valuation τ sig (Elt Ideal)) : after (segA3 (F := Ideal)) W (main_arg6 : DevRef τ sig) = W (main_arg6 : DevRef τ sig) := keep_A3 W main_arg6 (by decide)
theorem keep_A3_arg7 (W : Valuation τ sig (Elt Ideal)) : after (segA3 (F := Ideal)) W (main_arg7 : DevRef τ sig) = W (main_arg7 : DevRef τ sig) := keep_A3 W main_arg7 (by decide)
theorem keep_A3_arg8 (W : Valuation τ sig (Elt Ideal)) : after (segA3 (F := Ideal)) W (main_arg8 : DevRef τ sig) = W (main_arg8 : DevRef τ sig) := keep_A3 W main_arg8 (by decide)

/-! ## Segment W3 -/

/-- The buffers segment W3's operations write, in order. -/
abbrev segW3_W : List (Ref sig .tc) :=
  [main_v82, main_cst_14, main_v83, main_v84, main_cst_15, main_v85, main_v86, main_cst_16, main_v87, main_v88, main_v89, main_v90, main_call6.v0.ref, main_v92, main_v93, main_v94, main_v95, main_v96]
/-- Each operation of segment W3 writes a buffer of that list. -/
theorem segW3_writes : (segW3 (F := Ideal)).Forall fun op => op.writes ⊆ (segW3_W.map (Proc.devRef (τ := τ) .tc)).toFinset := by
  simp only [List.Forall]
  repeat' apply And.intro
  all_goals (simp only [StableHlo.nullary_writes, StableHlo.unary_writes, StableHlo.binary_writes, StableHlo.ternary_writes, Finset.singleton_subset_iff, List.mem_toFinset]; exact List.mem_map_of_mem (by decide))
/-- A buffer outside that list keeps its contents through segment W3. -/
theorem keep_W3 (W : Valuation τ sig (Elt Ideal)) (r : Ref sig .tc) (h : r ∉ segW3_W) :
    after (segW3 (F := Ideal)) W (r : DevRef τ sig) = W (r : DevRef τ sig) :=
  after_of_writes_sub _ _ segW3_writes h
theorem keep_W3_arg0 (W : Valuation τ sig (Elt Ideal)) : after (segW3 (F := Ideal)) W (main_arg0 : DevRef τ sig) = W (main_arg0 : DevRef τ sig) := keep_W3 W main_arg0 (by decide)
theorem keep_W3_arg1 (W : Valuation τ sig (Elt Ideal)) : after (segW3 (F := Ideal)) W (main_arg1 : DevRef τ sig) = W (main_arg1 : DevRef τ sig) := keep_W3 W main_arg1 (by decide)
theorem keep_W3_arg2 (W : Valuation τ sig (Elt Ideal)) : after (segW3 (F := Ideal)) W (main_arg2 : DevRef τ sig) = W (main_arg2 : DevRef τ sig) := keep_W3 W main_arg2 (by decide)
theorem keep_W3_arg3 (W : Valuation τ sig (Elt Ideal)) : after (segW3 (F := Ideal)) W (main_arg3 : DevRef τ sig) = W (main_arg3 : DevRef τ sig) := keep_W3 W main_arg3 (by decide)
theorem keep_W3_arg4 (W : Valuation τ sig (Elt Ideal)) : after (segW3 (F := Ideal)) W (main_arg4 : DevRef τ sig) = W (main_arg4 : DevRef τ sig) := keep_W3 W main_arg4 (by decide)
theorem keep_W3_arg5 (W : Valuation τ sig (Elt Ideal)) : after (segW3 (F := Ideal)) W (main_arg5 : DevRef τ sig) = W (main_arg5 : DevRef τ sig) := keep_W3 W main_arg5 (by decide)
theorem keep_W3_arg6 (W : Valuation τ sig (Elt Ideal)) : after (segW3 (F := Ideal)) W (main_arg6 : DevRef τ sig) = W (main_arg6 : DevRef τ sig) := keep_W3 W main_arg6 (by decide)
theorem keep_W3_arg7 (W : Valuation τ sig (Elt Ideal)) : after (segW3 (F := Ideal)) W (main_arg7 : DevRef τ sig) = W (main_arg7 : DevRef τ sig) := keep_W3 W main_arg7 (by decide)
theorem keep_W3_arg8 (W : Valuation τ sig (Elt Ideal)) : after (segW3 (F := Ideal)) W (main_arg8 : DevRef τ sig) = W (main_arg8 : DevRef τ sig) := keep_W3 W main_arg8 (by decide)

/-! ## Segment D3 -/

/-- The buffers segment D3's operations write, in order. -/
abbrev segD3_W : List (Ref sig .tc) :=
  [main_v97, main_v98, main_v99, main_v100, main_call7.cst.ref, main_call7.v0.ref, main_call7.v1.ref, main_call7.cst_0.ref, main_call7.v2.ref, main_call7.v3.ref, main_call7.cst_1.ref, main_call7.call0.v0.ref, main_call7.call0.v1.ref, main_call7.call0.v2.ref, main_call7.v5.ref, main_call7.cst_2.ref, main_call7.v6.ref, main_call7.v7.ref, main_call7.call1.v0.ref]
/-- Each operation of segment D3 writes a buffer of that list. -/
theorem segD3_writes : (segD3 (F := Ideal)).Forall fun op => op.writes ⊆ (segD3_W.map (Proc.devRef (τ := τ) .tc)).toFinset := by
  simp only [List.Forall]
  repeat' apply And.intro
  all_goals (simp only [StableHlo.nullary_writes, StableHlo.unary_writes, StableHlo.binary_writes, StableHlo.ternary_writes, Finset.singleton_subset_iff, List.mem_toFinset]; exact List.mem_map_of_mem (by decide))
/-- A buffer outside that list keeps its contents through segment D3. -/
theorem keep_D3 (W : Valuation τ sig (Elt Ideal)) (r : Ref sig .tc) (h : r ∉ segD3_W) :
    after (segD3 (F := Ideal)) W (r : DevRef τ sig) = W (r : DevRef τ sig) :=
  after_of_writes_sub _ _ segD3_writes h
theorem keep_D3_arg0 (W : Valuation τ sig (Elt Ideal)) : after (segD3 (F := Ideal)) W (main_arg0 : DevRef τ sig) = W (main_arg0 : DevRef τ sig) := keep_D3 W main_arg0 (by decide)
theorem keep_D3_arg1 (W : Valuation τ sig (Elt Ideal)) : after (segD3 (F := Ideal)) W (main_arg1 : DevRef τ sig) = W (main_arg1 : DevRef τ sig) := keep_D3 W main_arg1 (by decide)
theorem keep_D3_arg2 (W : Valuation τ sig (Elt Ideal)) : after (segD3 (F := Ideal)) W (main_arg2 : DevRef τ sig) = W (main_arg2 : DevRef τ sig) := keep_D3 W main_arg2 (by decide)
theorem keep_D3_arg3 (W : Valuation τ sig (Elt Ideal)) : after (segD3 (F := Ideal)) W (main_arg3 : DevRef τ sig) = W (main_arg3 : DevRef τ sig) := keep_D3 W main_arg3 (by decide)
theorem keep_D3_arg4 (W : Valuation τ sig (Elt Ideal)) : after (segD3 (F := Ideal)) W (main_arg4 : DevRef τ sig) = W (main_arg4 : DevRef τ sig) := keep_D3 W main_arg4 (by decide)
theorem keep_D3_arg5 (W : Valuation τ sig (Elt Ideal)) : after (segD3 (F := Ideal)) W (main_arg5 : DevRef τ sig) = W (main_arg5 : DevRef τ sig) := keep_D3 W main_arg5 (by decide)
theorem keep_D3_arg6 (W : Valuation τ sig (Elt Ideal)) : after (segD3 (F := Ideal)) W (main_arg6 : DevRef τ sig) = W (main_arg6 : DevRef τ sig) := keep_D3 W main_arg6 (by decide)
theorem keep_D3_arg7 (W : Valuation τ sig (Elt Ideal)) : after (segD3 (F := Ideal)) W (main_arg7 : DevRef τ sig) = W (main_arg7 : DevRef τ sig) := keep_D3 W main_arg7 (by decide)
theorem keep_D3_arg8 (W : Valuation τ sig (Elt Ideal)) : after (segD3 (F := Ideal)) W (main_arg8 : DevRef τ sig) = W (main_arg8 : DevRef τ sig) := keep_D3 W main_arg8 (by decide)

/-! ## Segment A4 -/

/-- The buffers segment A4's operations write, in order. -/
abbrev segA4_W : List (Ref sig .tc) :=
  [main_v102, main_cst_17, main_v103, main_v104, main_cst_18, main_v105, main_v106, main_cst_19, main_v107, main_v108, main_v109, main_v110, main_call8.v0.ref, main_v112, main_v113, main_v114, main_v115]
/-- Each operation of segment A4 writes a buffer of that list. -/
theorem segA4_writes : (segA4 (F := Ideal)).Forall fun op => op.writes ⊆ (segA4_W.map (Proc.devRef (τ := τ) .tc)).toFinset := by
  simp only [List.Forall]
  repeat' apply And.intro
  all_goals (simp only [StableHlo.nullary_writes, StableHlo.unary_writes, StableHlo.binary_writes, StableHlo.ternary_writes, Finset.singleton_subset_iff, List.mem_toFinset]; exact List.mem_map_of_mem (by decide))
/-- A buffer outside that list keeps its contents through segment A4. -/
theorem keep_A4 (W : Valuation τ sig (Elt Ideal)) (r : Ref sig .tc) (h : r ∉ segA4_W) :
    after (segA4 (F := Ideal)) W (r : DevRef τ sig) = W (r : DevRef τ sig) :=
  after_of_writes_sub _ _ segA4_writes h
theorem keep_A4_arg0 (W : Valuation τ sig (Elt Ideal)) : after (segA4 (F := Ideal)) W (main_arg0 : DevRef τ sig) = W (main_arg0 : DevRef τ sig) := keep_A4 W main_arg0 (by decide)
theorem keep_A4_arg1 (W : Valuation τ sig (Elt Ideal)) : after (segA4 (F := Ideal)) W (main_arg1 : DevRef τ sig) = W (main_arg1 : DevRef τ sig) := keep_A4 W main_arg1 (by decide)
theorem keep_A4_arg2 (W : Valuation τ sig (Elt Ideal)) : after (segA4 (F := Ideal)) W (main_arg2 : DevRef τ sig) = W (main_arg2 : DevRef τ sig) := keep_A4 W main_arg2 (by decide)
theorem keep_A4_arg3 (W : Valuation τ sig (Elt Ideal)) : after (segA4 (F := Ideal)) W (main_arg3 : DevRef τ sig) = W (main_arg3 : DevRef τ sig) := keep_A4 W main_arg3 (by decide)
theorem keep_A4_arg4 (W : Valuation τ sig (Elt Ideal)) : after (segA4 (F := Ideal)) W (main_arg4 : DevRef τ sig) = W (main_arg4 : DevRef τ sig) := keep_A4 W main_arg4 (by decide)
theorem keep_A4_arg5 (W : Valuation τ sig (Elt Ideal)) : after (segA4 (F := Ideal)) W (main_arg5 : DevRef τ sig) = W (main_arg5 : DevRef τ sig) := keep_A4 W main_arg5 (by decide)
theorem keep_A4_arg6 (W : Valuation τ sig (Elt Ideal)) : after (segA4 (F := Ideal)) W (main_arg6 : DevRef τ sig) = W (main_arg6 : DevRef τ sig) := keep_A4 W main_arg6 (by decide)
theorem keep_A4_arg7 (W : Valuation τ sig (Elt Ideal)) : after (segA4 (F := Ideal)) W (main_arg7 : DevRef τ sig) = W (main_arg7 : DevRef τ sig) := keep_A4 W main_arg7 (by decide)
theorem keep_A4_arg8 (W : Valuation τ sig (Elt Ideal)) : after (segA4 (F := Ideal)) W (main_arg8 : DevRef τ sig) = W (main_arg8 : DevRef τ sig) := keep_A4 W main_arg8 (by decide)

/-! ## Segment W4 -/

/-- The buffers segment W4's operations write, in order. -/
abbrev segW4_W : List (Ref sig .tc) :=
  [main_v116, main_cst_20, main_v117, main_v118, main_cst_21, main_v119, main_v120, main_cst_22, main_v121, main_v122, main_v123, main_v124, main_call9.v0.ref, main_v126, main_v127, main_v128, main_v129, main_v130]
/-- Each operation of segment W4 writes a buffer of that list. -/
theorem segW4_writes : (segW4 (F := Ideal)).Forall fun op => op.writes ⊆ (segW4_W.map (Proc.devRef (τ := τ) .tc)).toFinset := by
  simp only [List.Forall]
  repeat' apply And.intro
  all_goals (simp only [StableHlo.nullary_writes, StableHlo.unary_writes, StableHlo.binary_writes, StableHlo.ternary_writes, Finset.singleton_subset_iff, List.mem_toFinset]; exact List.mem_map_of_mem (by decide))
/-- A buffer outside that list keeps its contents through segment W4. -/
theorem keep_W4 (W : Valuation τ sig (Elt Ideal)) (r : Ref sig .tc) (h : r ∉ segW4_W) :
    after (segW4 (F := Ideal)) W (r : DevRef τ sig) = W (r : DevRef τ sig) :=
  after_of_writes_sub _ _ segW4_writes h
theorem keep_W4_arg0 (W : Valuation τ sig (Elt Ideal)) : after (segW4 (F := Ideal)) W (main_arg0 : DevRef τ sig) = W (main_arg0 : DevRef τ sig) := keep_W4 W main_arg0 (by decide)
theorem keep_W4_arg1 (W : Valuation τ sig (Elt Ideal)) : after (segW4 (F := Ideal)) W (main_arg1 : DevRef τ sig) = W (main_arg1 : DevRef τ sig) := keep_W4 W main_arg1 (by decide)
theorem keep_W4_arg2 (W : Valuation τ sig (Elt Ideal)) : after (segW4 (F := Ideal)) W (main_arg2 : DevRef τ sig) = W (main_arg2 : DevRef τ sig) := keep_W4 W main_arg2 (by decide)
theorem keep_W4_arg3 (W : Valuation τ sig (Elt Ideal)) : after (segW4 (F := Ideal)) W (main_arg3 : DevRef τ sig) = W (main_arg3 : DevRef τ sig) := keep_W4 W main_arg3 (by decide)
theorem keep_W4_arg4 (W : Valuation τ sig (Elt Ideal)) : after (segW4 (F := Ideal)) W (main_arg4 : DevRef τ sig) = W (main_arg4 : DevRef τ sig) := keep_W4 W main_arg4 (by decide)
theorem keep_W4_arg5 (W : Valuation τ sig (Elt Ideal)) : after (segW4 (F := Ideal)) W (main_arg5 : DevRef τ sig) = W (main_arg5 : DevRef τ sig) := keep_W4 W main_arg5 (by decide)
theorem keep_W4_arg6 (W : Valuation τ sig (Elt Ideal)) : after (segW4 (F := Ideal)) W (main_arg6 : DevRef τ sig) = W (main_arg6 : DevRef τ sig) := keep_W4 W main_arg6 (by decide)
theorem keep_W4_arg7 (W : Valuation τ sig (Elt Ideal)) : after (segW4 (F := Ideal)) W (main_arg7 : DevRef τ sig) = W (main_arg7 : DevRef τ sig) := keep_W4 W main_arg7 (by decide)
theorem keep_W4_arg8 (W : Valuation τ sig (Elt Ideal)) : after (segW4 (F := Ideal)) W (main_arg8 : DevRef τ sig) = W (main_arg8 : DevRef τ sig) := keep_W4 W main_arg8 (by decide)

/-! ## Segment D4 -/

/-- The buffers segment D4's operations write, in order. -/
abbrev segD4_W : List (Ref sig .tc) :=
  [main_v131, main_v132, main_v133, main_v134, main_call10.cst.ref, main_call10.v0.ref, main_call10.v1.ref, main_call10.v2.ref, main_call10.v3.ref, main_call10.v4.ref, main_call10.v5.ref, main_call10.v6.ref, main_call10.v7.ref, main_call10.v8.ref, main_call10.v9.ref, main_call10.v10.ref, main_call10.v11.ref, main_call10.v12.ref]
/-- Each operation of segment D4 writes a buffer of that list. -/
theorem segD4_writes : (segD4 (F := Ideal)).Forall fun op => op.writes ⊆ (segD4_W.map (Proc.devRef (τ := τ) .tc)).toFinset := by
  simp only [List.Forall]
  repeat' apply And.intro
  all_goals (simp only [StableHlo.nullary_writes, StableHlo.unary_writes, StableHlo.binary_writes, StableHlo.ternary_writes, Finset.singleton_subset_iff, List.mem_toFinset]; exact List.mem_map_of_mem (by decide))
/-- A buffer outside that list keeps its contents through segment D4. -/
theorem keep_D4 (W : Valuation τ sig (Elt Ideal)) (r : Ref sig .tc) (h : r ∉ segD4_W) :
    after (segD4 (F := Ideal)) W (r : DevRef τ sig) = W (r : DevRef τ sig) :=
  after_of_writes_sub _ _ segD4_writes h
theorem keep_D4_arg0 (W : Valuation τ sig (Elt Ideal)) : after (segD4 (F := Ideal)) W (main_arg0 : DevRef τ sig) = W (main_arg0 : DevRef τ sig) := keep_D4 W main_arg0 (by decide)
theorem keep_D4_arg1 (W : Valuation τ sig (Elt Ideal)) : after (segD4 (F := Ideal)) W (main_arg1 : DevRef τ sig) = W (main_arg1 : DevRef τ sig) := keep_D4 W main_arg1 (by decide)
theorem keep_D4_arg2 (W : Valuation τ sig (Elt Ideal)) : after (segD4 (F := Ideal)) W (main_arg2 : DevRef τ sig) = W (main_arg2 : DevRef τ sig) := keep_D4 W main_arg2 (by decide)
theorem keep_D4_arg3 (W : Valuation τ sig (Elt Ideal)) : after (segD4 (F := Ideal)) W (main_arg3 : DevRef τ sig) = W (main_arg3 : DevRef τ sig) := keep_D4 W main_arg3 (by decide)
theorem keep_D4_arg4 (W : Valuation τ sig (Elt Ideal)) : after (segD4 (F := Ideal)) W (main_arg4 : DevRef τ sig) = W (main_arg4 : DevRef τ sig) := keep_D4 W main_arg4 (by decide)
theorem keep_D4_arg5 (W : Valuation τ sig (Elt Ideal)) : after (segD4 (F := Ideal)) W (main_arg5 : DevRef τ sig) = W (main_arg5 : DevRef τ sig) := keep_D4 W main_arg5 (by decide)
theorem keep_D4_arg6 (W : Valuation τ sig (Elt Ideal)) : after (segD4 (F := Ideal)) W (main_arg6 : DevRef τ sig) = W (main_arg6 : DevRef τ sig) := keep_D4 W main_arg6 (by decide)
theorem keep_D4_arg7 (W : Valuation τ sig (Elt Ideal)) : after (segD4 (F := Ideal)) W (main_arg7 : DevRef τ sig) = W (main_arg7 : DevRef τ sig) := keep_D4 W main_arg7 (by decide)
theorem keep_D4_arg8 (W : Valuation τ sig (Elt Ideal)) : after (segD4 (F := Ideal)) W (main_arg8 : DevRef τ sig) = W (main_arg8 : DevRef τ sig) := keep_D4 W main_arg8 (by decide)

/-! ## The quantised activations pass through the weight segments -/

theorem keep_W1_v13 (W : Valuation τ sig (Elt Ideal)) : after (segW1 (F := Ideal)) W (main_v13 : DevRef τ sig) = W (main_v13 : DevRef τ sig) := keep_W1 W main_v13 (by decide)
theorem keep_W2_v47 (W : Valuation τ sig (Elt Ideal)) : after (segW2 (F := Ideal)) W (main_v47 : DevRef τ sig) = W (main_v47 : DevRef τ sig) := keep_W2 W main_v47 (by decide)
theorem keep_W3_v81 (W : Valuation τ sig (Elt Ideal)) : after (segW3 (F := Ideal)) W (main_v81 : DevRef τ sig) = W (main_v81 : DevRef τ sig) := keep_W3 W main_v81 (by decide)
theorem keep_W4_v115 (W : Valuation τ sig (Elt Ideal)) : after (segW4 (F := Ideal)) W (main_v115 : DevRef τ sig) = W (main_v115 : DevRef τ sig) := keep_W4 W main_v115 (by decide)

/-! ## The arguments pass through the whole line -/

theorem arg0_kept (W : Valuation τ sig (Elt Ideal)) : after (ops (F := Ideal)) W (main_arg0 : DevRef τ sig) = W (main_arg0 : DevRef τ sig) := by
  rw [ops_eq (F := Ideal)]
  simp only [Cert.LibAfterAppend.after_append]
  rw [keep_D4_arg0, keep_W4_arg0, keep_A4_arg0, keep_D3_arg0, keep_W3_arg0, keep_A3_arg0, keep_D2_arg0, keep_W2_arg0, keep_A2_arg0, keep_D1_arg0, keep_W1_arg0, keep_A1_arg0]
theorem arg1_kept (W : Valuation τ sig (Elt Ideal)) : after (ops (F := Ideal)) W (main_arg1 : DevRef τ sig) = W (main_arg1 : DevRef τ sig) := by
  rw [ops_eq (F := Ideal)]
  simp only [Cert.LibAfterAppend.after_append]
  rw [keep_D4_arg1, keep_W4_arg1, keep_A4_arg1, keep_D3_arg1, keep_W3_arg1, keep_A3_arg1, keep_D2_arg1, keep_W2_arg1, keep_A2_arg1, keep_D1_arg1, keep_W1_arg1, keep_A1_arg1]
theorem arg2_kept (W : Valuation τ sig (Elt Ideal)) : after (ops (F := Ideal)) W (main_arg2 : DevRef τ sig) = W (main_arg2 : DevRef τ sig) := by
  rw [ops_eq (F := Ideal)]
  simp only [Cert.LibAfterAppend.after_append]
  rw [keep_D4_arg2, keep_W4_arg2, keep_A4_arg2, keep_D3_arg2, keep_W3_arg2, keep_A3_arg2, keep_D2_arg2, keep_W2_arg2, keep_A2_arg2, keep_D1_arg2, keep_W1_arg2, keep_A1_arg2]
theorem arg3_kept (W : Valuation τ sig (Elt Ideal)) : after (ops (F := Ideal)) W (main_arg3 : DevRef τ sig) = W (main_arg3 : DevRef τ sig) := by
  rw [ops_eq (F := Ideal)]
  simp only [Cert.LibAfterAppend.after_append]
  rw [keep_D4_arg3, keep_W4_arg3, keep_A4_arg3, keep_D3_arg3, keep_W3_arg3, keep_A3_arg3, keep_D2_arg3, keep_W2_arg3, keep_A2_arg3, keep_D1_arg3, keep_W1_arg3, keep_A1_arg3]
theorem arg4_kept (W : Valuation τ sig (Elt Ideal)) : after (ops (F := Ideal)) W (main_arg4 : DevRef τ sig) = W (main_arg4 : DevRef τ sig) := by
  rw [ops_eq (F := Ideal)]
  simp only [Cert.LibAfterAppend.after_append]
  rw [keep_D4_arg4, keep_W4_arg4, keep_A4_arg4, keep_D3_arg4, keep_W3_arg4, keep_A3_arg4, keep_D2_arg4, keep_W2_arg4, keep_A2_arg4, keep_D1_arg4, keep_W1_arg4, keep_A1_arg4]
theorem arg5_kept (W : Valuation τ sig (Elt Ideal)) : after (ops (F := Ideal)) W (main_arg5 : DevRef τ sig) = W (main_arg5 : DevRef τ sig) := by
  rw [ops_eq (F := Ideal)]
  simp only [Cert.LibAfterAppend.after_append]
  rw [keep_D4_arg5, keep_W4_arg5, keep_A4_arg5, keep_D3_arg5, keep_W3_arg5, keep_A3_arg5, keep_D2_arg5, keep_W2_arg5, keep_A2_arg5, keep_D1_arg5, keep_W1_arg5, keep_A1_arg5]
theorem arg6_kept (W : Valuation τ sig (Elt Ideal)) : after (ops (F := Ideal)) W (main_arg6 : DevRef τ sig) = W (main_arg6 : DevRef τ sig) := by
  rw [ops_eq (F := Ideal)]
  simp only [Cert.LibAfterAppend.after_append]
  rw [keep_D4_arg6, keep_W4_arg6, keep_A4_arg6, keep_D3_arg6, keep_W3_arg6, keep_A3_arg6, keep_D2_arg6, keep_W2_arg6, keep_A2_arg6, keep_D1_arg6, keep_W1_arg6, keep_A1_arg6]
theorem arg7_kept (W : Valuation τ sig (Elt Ideal)) : after (ops (F := Ideal)) W (main_arg7 : DevRef τ sig) = W (main_arg7 : DevRef τ sig) := by
  rw [ops_eq (F := Ideal)]
  simp only [Cert.LibAfterAppend.after_append]
  rw [keep_D4_arg7, keep_W4_arg7, keep_A4_arg7, keep_D3_arg7, keep_W3_arg7, keep_A3_arg7, keep_D2_arg7, keep_W2_arg7, keep_A2_arg7, keep_D1_arg7, keep_W1_arg7, keep_A1_arg7]
theorem arg8_kept (W : Valuation τ sig (Elt Ideal)) : after (ops (F := Ideal)) W (main_arg8 : DevRef τ sig) = W (main_arg8 : DevRef τ sig) := by
  rw [ops_eq (F := Ideal)]
  simp only [Cert.LibAfterAppend.after_append]
  rw [keep_D4_arg8, keep_W4_arg8, keep_A4_arg8, keep_D3_arg8, keep_W3_arg8, keep_A3_arg8, keep_D2_arg8, keep_W2_arg8, keep_A2_arg8, keep_D1_arg8, keep_W1_arg8, keep_A1_arg8]

end Cert.ReferenceIdeal.RefKeeps

end
-- ==== Proof.LibKeeps.lean ====
/-
  A buffer that no operation of a stretch writes keeps its contents across the stretch.

  The contents after a list of host operations are a fold: each operation replaces the one buffer it writes. So for a
  literal list and a literal buffer the statement "the fold at this buffer is what was there" comes down to one
  inequality of buffer names per operation, each decided by evaluation. `keeps_host ops` closes a goal
  `after ops V (devRef b) = V (devRef b)` that way, `ops` being the name of the list's definition.
-/
import Idealize.ShloMosaic.Lib.StableHlo.Run

open Idealize.ShloMosaic in
/-- Closes `StableHlo.after ops V (Proc.devRef .tc b) = V (Proc.devRef .tc b)` for the literal list of host operations
    named `ops` and a literal buffer `b` none of them writes. -/
macro "keeps_host " ops:ident : tactic =>
  `(tactic| exact StableHlo.after_of_forall_not_mem _ _ (List.forall_iff_forall_mem.mp (by
      simp only [$ops:ident, List.flatten_cons, List.flatten_nil, List.append_nil, List.cons_append, List.nil_append, List.Forall,
        StableHlo.nullary_writes, StableHlo.unary_writes, StableHlo.binary_writes, StableHlo.ternary_writes,
        StableHlo.quaternary_writes, StableHlo.reshape_writes, StableHlo.binaryIndexed_writes, Finset.mem_singleton]
      repeat' apply And.intro
      all_goals exact StableHlo.devRef_ne_of_ne (by decide))))
-- ==== Proof.LibTRefCasts.lean ====
/-
  Contents carried to a typed reference's buffer and back.

  A module-local function's operations are stated over typed references: a reference together with a proof that its
  buffer's type is the tensor value's. Writing through one transports contents along that equation, reading transports
  them back. Written and then read through the same typed reference, contents are unchanged; and at a reference whose
  buffer type IS the value type each transport alone is the identity. General: nothing here depends on a program.
-/
import Idealize.ShloMosaic.Lib.StableHlo

namespace Cert.LibTRefCasts

open Idealize.ShloMosaic Idealize.ShloMosaic.StableHlo

variable {sig : RefSig} {Val : EltTy → Type}

/-- Contents written through a typed reference and read back through it are unchanged. -/
theorem ofBuf_toBuf {T : BufTy} (x : TRef sig T) (v : T.Contents Val) : x.ofBuf (x.toBuf v) = v := by
  obtain ⟨r, h, _, _⟩ := x
  subst h
  rfl

/-- Contents read through a typed reference and written back through it are unchanged. -/
theorem toBuf_ofBuf {T : BufTy} (x : TRef sig T) (v : x.ref.ty.Contents Val) : x.toBuf (x.ofBuf v) = v := by
  obtain ⟨r, h, _, _⟩ := x
  subst h
  rfl

/-- Contents written through a typed reference whose value type is the buffer's own type are unchanged. -/
theorem toBuf_self (r : Ref sig .tc) (h1 : r.ty = r.ty) (h2 : r.space ≠ .host) (h3 : r.isScoped = false) (v : r.ty.Contents Val) :
    (TRef.of (T := r.ty) r h1 h2 h3).toBuf v = v := rfl

/-- Contents read through a typed reference whose value type is the buffer's own type are unchanged. -/
theorem ofBuf_self (r : Ref sig .tc) (h1 : r.ty = r.ty) (h2 : r.space ≠ .host) (h3 : r.isScoped = false) (v : r.ty.Contents Val) :
    (TRef.of (T := r.ty) r h1 h2 h3).ofBuf v = v := rfl

end Cert.LibTRefCasts
-- ==== Proof.RefSegs.lean ====
/-
  The reference network's twelve stretches of host operations, each read as one function of the buffers it starts from.

  A stretch that quantises activation rows leaves, in its last buffer, the straight-through quantisation x + (q · step − x)
  of the array it read; a stretch that quantises weight rows leaves the transpose of that; a stretch that multiplies leaves
  the activation (hyperbolic tangent, exponential linear unit, soft-plus) of the product of the quantised activations
  and the transposed quantised weights plus the bias spread down the rows.  Each stretch writes only its own buffers, so
  every buffer a later stretch reads passes through the stretches in between unchanged.
-/
import proofs.«101763_j14748917694594_2_alg».proof.Proof.RefOps
import proofs.«101763_j14748917694594_2_alg».proof.Proof.HostQuant
import proofs.«101763_j14748917694594_2_alg».proof.Proof.LibKeeps
import proofs.«101763_j14748917694594_2_alg».proof.Proof.LibTRefCasts

noncomputable section

namespace Cert.ReferenceIdeal.RefRead

open Idealize.ShloMosaic Idealize.ShloMosaic.TcCoe Idealize.ShloMosaic.StableHlo Idealize.ShloMosaic.ValueIdx Cert.ReferenceIdeal Cert.ReferenceIdeal.Gen
open Cert.ReferenceIdeal.RefRun

/-! ## The composed host terms -/

section Terms
variable {a k : ℕ}

/-- The quantised weight matrix [a, k], transposed to [k, a]. -/
def fakeQuantT (w : FVec Ideal ⟨2, ![a, k]⟩ .f32)
    (hred : (⟨2, ![a, k]⟩ : Shape).ReducesTo [1] ⟨1, ![a]⟩) (hS : 0 < (⟨0, ![]⟩ : Shape).numel)
    (hb0 : (⟨1, ![a]⟩ : Shape).BroadcastsInDim ⟨2, ![a, 1]⟩ (![0] : Fin 1 → Fin 2))
    (hbs : (⟨0, ![]⟩ : Shape).BroadcastsInDim ⟨2, ![a, 1]⟩ (![] : Fin 0 → Fin 2))
    (hb01 : (⟨2, ![a, 1]⟩ : Shape).BroadcastsInDim ⟨2, ![a, k]⟩ (![0, 1] : Fin 2 → Fin 2))
    (ht : (⟨2, ![a, k]⟩ : Shape).Transposes [1, 0] ⟨2, ![k, a]⟩) : FVec Ideal ⟨2, ![k, a]⟩ .f32 :=
  transpose ⟨2, ![k, a]⟩ [1, 0] (Cert.HostQuant.fakeQuant w hred hS hb0 hbs hb01) ht

/-- A plain product [A, K] × [K, B] plus a bias vector [B] spread down the rows. -/
def dense {A K B : ℕ} (D : DotDims ⟨2, ![A, K]⟩ ⟨2, ![K, B]⟩ ⟨2, ![A, B]⟩)
    (l : FVec Ideal ⟨2, ![A, K]⟩ .f32) (r : FVec Ideal ⟨2, ![K, B]⟩ .f32) (b : FVec Ideal ⟨1, ![B]⟩ .f32)
    (h1 : (⟨1, ![B]⟩ : Shape).BroadcastsInDim ⟨2, ![1, B]⟩ (![1] : Fin 1 → Fin 2))
    (h2 : (⟨2, ![1, B]⟩ : Shape).BroadcastsInDim ⟨2, ![A, B]⟩ (![0, 1] : Fin 2 → Fin 2)) : FVec Ideal ⟨2, ![A, B]⟩ .f32 :=
  addf (Host.dotGeneral (F := Ideal) D none l r)
    (broadcastInDim ⟨2, ![A, B]⟩ ![0, 1] h2 (broadcastInDim ⟨2, ![1, B]⟩ ![1] h1 b))

/-- The exponential linear unit on a whole array, as the program spells it:
    where(v > 0, v, 1 · expm1(where(v > 0, 0, v))), every scalar a zero-rank constant spread to the array's shape. -/
def eluJ {s : Shape} (v : FVec Ideal s .f32) (h0 : (⟨0, ![]⟩ : Shape).BroadcastsInDim s ![]) : FVec Ideal s .f32 :=
  select (cmpf .ogt v (broadcastInDim s ![] h0 (constant (F := Ideal) ⟨0, ![]⟩ .f32 0x00000000#32))) v
    (mulf (broadcastInDim s ![] h0 (constant (F := Ideal) ⟨0, ![]⟩ .f32 0x3F800000#32))
      (Host.expm1 (select (cmpf .ogt v (broadcastInDim s ![] h0 (constant (F := Ideal) ⟨0, ![]⟩ .f32 0x00000000#32)))
        (broadcastInDim s ![] h0 (id (constant (F := Ideal) ⟨0, ![]⟩ .f32 0x00000000#32))) v)))

/-- The soft-plus on a whole array, as the program spells it: max(v, 0) + log1p(exp(−|v − 0|)), behind the test
    "v − 0 differs from itself" that selects v + 0. -/
def spJ {s : Shape} (v : FVec Ideal s .f32) (h0 : (⟨0, ![]⟩ : Shape).BroadcastsInDim s ![]) : FVec Ideal s .f32 :=
  select
    (cmpf .une (subf v (broadcastInDim s ![] h0 (constant (F := Ideal) ⟨0, ![]⟩ .f32 0x00000000#32)))
      (subf v (broadcastInDim s ![] h0 (constant (F := Ideal) ⟨0, ![]⟩ .f32 0x00000000#32))))
    (addf v (broadcastInDim s ![] h0 (constant (F := Ideal) ⟨0, ![]⟩ .f32 0x00000000#32)))
    (addf (maximumf v (broadcastInDim s ![] h0 (constant (F := Ideal) ⟨0, ![]⟩ .f32 0x00000000#32)))
      (Host.log1p (Host.exp (Host.negf (Host.absf
        (subf v (broadcastInDim s ![] h0 (constant (F := Ideal) ⟨0, ![]⟩ .f32 0x00000000#32))))))))

end Terms

/-! ## Each stretch's last buffer -/

/-- Stretch A1 leaves the quantised activations. -/
theorem segA1_out (W : Valuation τ sig (Elt Ideal)) :
    after (segA1 (F := Ideal)) W (main_v13 : DevRef τ sig)
      = Cert.HostQuant.fakeQuant (W (main_arg0 : DevRef τ sig)) reducesTo_S262144x160_S262144_d1 h_S_ bcast_S262144_S262144x1_0 bcast_S_S262144x1 bcast_S262144x1_S262144x160_0_1 := by
  after_results_simp
  repeat (first | rw [Cert.LibTRefCasts.toBuf_self] | rw [Cert.LibTRefCasts.ofBuf_self])
  rfl

/-- Stretch A2 leaves the quantised activations. -/
theorem segA2_out (W : Valuation τ sig (Elt Ideal)) :
    after (segA2 (F := Ideal)) W (main_v47 : DevRef τ sig)
      = Cert.HostQuant.fakeQuant (W (main_v33 : DevRef τ sig)) reducesTo_S262144x40_S262144_d1 h_S_ bcast_S262144_S262144x1_0 bcast_S_S262144x1 bcast_S262144x1_S262144x40_0_1 := by
  after_results_simp
  repeat (first | rw [Cert.LibTRefCasts.toBuf_self] | rw [Cert.LibTRefCasts.ofBuf_self])
  rfl

/-- Stretch A3 leaves the quantised activations. -/
theorem segA3_out (W : Valuation τ sig (Elt Ideal)) :
    after (segA3 (F := Ideal)) W (main_v81 : DevRef τ sig)
      = Cert.HostQuant.fakeQuant (W (main_v67 : DevRef τ sig)) reducesTo_S262144x40_S262144_d1 h_S_ bcast_S262144_S262144x1_0 bcast_S_S262144x1 bcast_S262144x1_S262144x40_0_1 := by
  after_results_simp
  repeat (first | rw [Cert.LibTRefCasts.toBuf_self] | rw [Cert.LibTRefCasts.ofBuf_self])
  rfl

/-- Stretch A4 leaves the quantised activations. -/
theorem segA4_out (W : Valuation τ sig (Elt Ideal)) :
    after (segA4 (F := Ideal)) W (main_v115 : DevRef τ sig)
      = Cert.HostQuant.fakeQuant (W (main_v101 : DevRef τ sig)) reducesTo_S262144x40_S262144_d1 h_S_ bcast_S262144_S262144x1_0 bcast_S_S262144x1 bcast_S262144x1_S262144x40_0_1 := by
  after_results_simp
  repeat (first | rw [Cert.LibTRefCasts.toBuf_self] | rw [Cert.LibTRefCasts.ofBuf_self])
  rfl

/-- Stretch W1 leaves the quantised weights, transposed. -/
theorem segW1_out (W : Valuation τ sig (Elt Ideal)) :
    after (segW1 (F := Ideal)) W (main_v28 : DevRef τ sig)
      = fakeQuantT (W (main_arg1 : DevRef τ sig)) reducesTo_S40x160_S40_d1 h_S_ bcast_S40_S40x1_0 bcast_S_S40x1 bcast_S40x1_S40x160_0_1 transposes_S40x160_S160x40_1_0 := by
  after_results_simp
  repeat (first | rw [Cert.LibTRefCasts.toBuf_self] | rw [Cert.LibTRefCasts.ofBuf_self])
  rfl

/-- Stretch W2 leaves the quantised weights, transposed. -/
theorem segW2_out (W : Valuation τ sig (Elt Ideal)) :
    after (segW2 (F := Ideal)) W (main_v62 : DevRef τ sig)
      = fakeQuantT (W (main_arg3 : DevRef τ sig)) reducesTo_S40x40_S40_d1 h_S_ bcast_S40_S40x1_0 bcast_S_S40x1 bcast_S40x1_S40x40_0_1 transposes_S40x40_S40x40_1_0 := by
  after_results_simp
  repeat (first | rw [Cert.LibTRefCasts.toBuf_self] | rw [Cert.LibTRefCasts.ofBuf_self])
  rfl

/-- Stretch W3 leaves the quantised weights, transposed. -/
theorem segW3_out (W : Valuation τ sig (Elt Ideal)) :
    after (segW3 (F := Ideal)) W (main_v96 : DevRef τ sig)
      = fakeQuantT (W (main_arg5 : DevRef τ sig)) reducesTo_S40x40_S40_d1 h_S_ bcast_S40_S40x1_0 bcast_S_S40x1 bcast_S40x1_S40x40_0_1 transposes_S40x40_S40x40_1_0 := by
  after_results_simp
  repeat (first | rw [Cert.LibTRefCasts.toBuf_self] | rw [Cert.LibTRefCasts.ofBuf_self])
  rfl

/-- Stretch W4 leaves the quantised weights, transposed. -/
theorem segW4_out (W : Valuation τ sig (Elt Ideal)) :
    after (segW4 (F := Ideal)) W (main_v130 : DevRef τ sig)
      = fakeQuantT (W (main_arg7 : DevRef τ sig)) reducesTo_S2x40_S2_d1 h_S_ bcast_S2_S2x1_0 bcast_S_S2x1 bcast_S2x1_S2x40_0_1 transposes_S2x40_S40x2_1_0 := by
  after_results_simp
  repeat (first | rw [Cert.LibTRefCasts.toBuf_self] | rw [Cert.LibTRefCasts.ofBuf_self])
  rfl

/-- Stretch D1 leaves the activation of the product plus the bias. -/
theorem segD1_out (W : Valuation τ sig (Elt Ideal)) :
    after (segD1 (F := Ideal)) W (main_v33 : DevRef τ sig)
      = Host.tanh (F := Ideal) (dense dot_S262144x160_S160x40_S262144x40_1_0_0_1_n_n (W (main_v13 : DevRef τ sig)) (W (main_v28 : DevRef τ sig)) (W (main_arg2 : DevRef τ sig)) bcast_S40_S1x40_1 bcast_S1x40_S262144x40_0_1) := by
  after_results_simp
  rfl

/-- Stretch D2 leaves the activation of the product plus the bias. -/
theorem segD2_out (W : Valuation τ sig (Elt Ideal)) :
    after (segD2 (F := Ideal)) W (main_v67 : DevRef τ sig)
      = eluJ (dense dot_S262144x40_S40x40_S262144x40_1_0_0_1_n_n (W (main_v47 : DevRef τ sig)) (W (main_v62 : DevRef τ sig)) (W (main_arg4 : DevRef τ sig)) bcast_S40_S1x40_1 bcast_S1x40_S262144x40_0_1) bcast_S_S262144x40 := by
  after_results_simp
  repeat (first | rw [Cert.LibTRefCasts.toBuf_self] | rw [Cert.LibTRefCasts.ofBuf_self])
  rfl

/-- Stretch D3 leaves the activation of the product plus the bias. -/
theorem segD3_out (W : Valuation τ sig (Elt Ideal)) :
    after (segD3 (F := Ideal)) W (main_v101 : DevRef τ sig)
      = eluJ (dense dot_S262144x40_S40x40_S262144x40_1_0_0_1_n_n (W (main_v81 : DevRef τ sig)) (W (main_v96 : DevRef τ sig)) (W (main_arg6 : DevRef τ sig)) bcast_S40_S1x40_1 bcast_S1x40_S262144x40_0_1) bcast_S_S262144x40 := by
  after_results_simp
  repeat (first | rw [Cert.LibTRefCasts.toBuf_self] | rw [Cert.LibTRefCasts.ofBuf_self])
  rfl

/-- Stretch D4 leaves the activation of the product plus the bias. -/
theorem segD4_out (W : Valuation τ sig (Elt Ideal)) :
    after (segD4 (F := Ideal)) W (main_v135 : DevRef τ sig)
      = spJ (dense dot_S262144x40_S40x2_S262144x2_1_0_0_1_n_n (W (main_v115 : DevRef τ sig)) (W (main_v130 : DevRef τ sig)) (W (main_arg8 : DevRef τ sig)) bcast_S2_S1x2_1 bcast_S1x2_S262144x2_0_1) bcast_S_S262144x2 := by
  after_results_simp
  repeat (first | rw [Cert.LibTRefCasts.toBuf_self] | rw [Cert.LibTRefCasts.ofBuf_self])
  rfl

end Cert.ReferenceIdeal.RefRead

end
-- ==== Proof.RefChain.lean ====
/-
  The reference network's whole line of host operations, read at its last buffer as one nested function of the nine
  arguments' contents.

  The line is twelve stretches run one after the other, and running two lists in turn is running the second from what
  the first leaves.  So the buffers are followed stretch by stretch: a stretch's last buffer is its function of the
  buffers it reads; each of those is either the last buffer of an earlier stretch, carried unchanged through the
  stretches in between, or an argument, which no stretch writes.  Layer by layer this gives the activations' array as
  tanh, then twice the exponential linear unit, then the soft-plus, each of the product of the quantised previous array
  with the transposed quantised weights plus the bias.
-/
import proofs.«101763_j14748917694594_2_alg».proof.Proof.RefSegs
import proofs.«101763_j14748917694594_2_alg».proof.Proof.RefRun
import proofs.«101763_j14748917694594_2_alg».proof.Proof.RefKeeps
import proofs.«101763_j14748917694594_2_alg».proof.Proof.LibAfterAppend

noncomputable section

namespace Cert.ReferenceIdeal.RefRead

open Idealize.ShloMosaic Idealize.ShloMosaic.TcCoe Idealize.ShloMosaic.StableHlo Idealize.ShloMosaic.ValueIdx Cert.ReferenceIdeal Cert.ReferenceIdeal.Gen
open Cert.ReferenceIdeal.RefRun

/-! ## The layers' arrays -/

/-- Layer 1 on whole arrays: tanh of the quantised product plus bias. -/
def L1 (x : FVec Ideal S262144x160 .f32) (w : FVec Ideal S40x160 .f32) (b : FVec Ideal S40 .f32) : FVec Ideal S262144x40 .f32 :=
  Host.tanh (F := Ideal) (dense dot_S262144x160_S160x40_S262144x40_1_0_0_1_n_n (Cert.HostQuant.fakeQuant x reducesTo_S262144x160_S262144_d1 h_S_ bcast_S262144_S262144x1_0 bcast_S_S262144x1 bcast_S262144x1_S262144x160_0_1) (fakeQuantT w reducesTo_S40x160_S40_d1 h_S_ bcast_S40_S40x1_0 bcast_S_S40x1 bcast_S40x1_S40x160_0_1 transposes_S40x160_S160x40_1_0) b bcast_S40_S1x40_1 bcast_S1x40_S262144x40_0_1)

/-- Layers 2 and 3 on whole arrays: the exponential linear unit of the quantised product plus bias. -/
def L23 (h : FVec Ideal S262144x40 .f32) (w : FVec Ideal S40x40 .f32) (b : FVec Ideal S40 .f32) : FVec Ideal S262144x40 .f32 :=
  eluJ (dense dot_S262144x40_S40x40_S262144x40_1_0_0_1_n_n (Cert.HostQuant.fakeQuant h reducesTo_S262144x40_S262144_d1 h_S_ bcast_S262144_S262144x1_0 bcast_S_S262144x1 bcast_S262144x1_S262144x40_0_1) (fakeQuantT w reducesTo_S40x40_S40_d1 h_S_ bcast_S40_S40x1_0 bcast_S_S40x1 bcast_S40x1_S40x40_0_1 transposes_S40x40_S40x40_1_0) b bcast_S40_S1x40_1 bcast_S1x40_S262144x40_0_1) bcast_S_S262144x40

/-- Layer 4 on whole arrays: the soft-plus of the quantised product plus bias. -/
def L4 (h : FVec Ideal S262144x40 .f32) (w : FVec Ideal S2x40 .f32) (b : FVec Ideal S2 .f32) : FVec Ideal S262144x2 .f32 :=
  spJ (dense dot_S262144x40_S40x2_S262144x2_1_0_0_1_n_n (Cert.HostQuant.fakeQuant h reducesTo_S262144x40_S262144_d1 h_S_ bcast_S262144_S262144x1_0 bcast_S_S262144x1 bcast_S262144x1_S262144x40_0_1) (fakeQuantT w reducesTo_S2x40_S2_d1 h_S_ bcast_S2_S2x1_0 bcast_S_S2x1 bcast_S2x1_S2x40_0_1 transposes_S2x40_S40x2_1_0) b bcast_S2_S1x2_1 bcast_S1x2_S262144x2_0_1) bcast_S_S262144x2

section Chain
variable (V : Valuation τ sig (Elt Ideal))

/-- The four layers' arrays as functions of the nine arguments' contents. -/
def N1 : FVec Ideal S262144x40 .f32 := L1 (V (main_arg0 : DevRef τ sig)) (V (main_arg1 : DevRef τ sig)) (V (main_arg2 : DevRef τ sig))
def N2 : FVec Ideal S262144x40 .f32 := L23 (N1 V) (V (main_arg3 : DevRef τ sig)) (V (main_arg4 : DevRef τ sig))
def N3 : FVec Ideal S262144x40 .f32 := L23 (N2 V) (V (main_arg5 : DevRef τ sig)) (V (main_arg6 : DevRef τ sig))
def N4 : FVec Ideal S262144x2 .f32 := L4 (N3 V) (V (main_arg7 : DevRef τ sig)) (V (main_arg8 : DevRef τ sig))

/-- After the first 1 stretches, buffer v13 as a function of the arguments. -/
theorem pre1_v13 : after (segA1 (F := Ideal)) V (main_v13 : DevRef τ sig) = Cert.HostQuant.fakeQuant (V (main_arg0 : DevRef τ sig)) reducesTo_S262144x160_S262144_d1 h_S_ bcast_S262144_S262144x1_0 bcast_S_S262144x1 bcast_S262144x1_S262144x160_0_1 := by
  exact segA1_out V

/-- The first 1 stretches leave argument 1 as it was. -/
theorem pre1_arg1 : after (segA1 (F := Ideal)) V (main_arg1 : DevRef τ sig) = V (main_arg1 : DevRef τ sig) := by
  rw [RefKeeps.keep_A1_arg1]

/-- After the first 2 stretches, buffer v28 as a function of the arguments. -/
theorem pre2_v28 : after (segA1 (F := Ideal) ++ segW1) V (main_v28 : DevRef τ sig) = fakeQuantT (V (main_arg1 : DevRef τ sig)) reducesTo_S40x160_S40_d1 h_S_ bcast_S40_S40x1_0 bcast_S_S40x1 bcast_S40x1_S40x160_0_1 transposes_S40x160_S160x40_1_0 := by
  rw [Cert.LibAfterAppend.after_append, segW1_out, pre1_arg1]

/-- After the first 2 stretches, buffer v13 as a function of the arguments. -/
theorem pre2_v13 : after (segA1 (F := Ideal) ++ segW1) V (main_v13 : DevRef τ sig) = Cert.HostQuant.fakeQuant (V (main_arg0 : DevRef τ sig)) reducesTo_S262144x160_S262144_d1 h_S_ bcast_S262144_S262144x1_0 bcast_S_S262144x1 bcast_S262144x1_S262144x160_0_1 := by
  rw [Cert.LibAfterAppend.after_append, RefKeeps.keep_W1_v13, pre1_v13]

/-- The first 2 stretches leave argument 2 as it was. -/
theorem pre2_arg2 : after (segA1 (F := Ideal) ++ segW1) V (main_arg2 : DevRef τ sig) = V (main_arg2 : DevRef τ sig) := by
  rw [Cert.LibAfterAppend.after_append, RefKeeps.keep_W1_arg2, RefKeeps.keep_A1_arg2]

/-- After the first 3 stretches, buffer v33 as a function of the arguments. -/
theorem pre3_v33 : after (segA1 (F := Ideal) ++ segW1 ++ segD1) V (main_v33 : DevRef τ sig) = N1 V := by
  rw [Cert.LibAfterAppend.after_append, segD1_out, pre2_v13, pre2_v28, pre2_arg2]
  rfl

/-- After the first 4 stretches, buffer v47 as a function of the arguments. -/
theorem pre4_v47 : after (segA1 (F := Ideal) ++ segW1 ++ segD1 ++ segA2) V (main_v47 : DevRef τ sig) = Cert.HostQuant.fakeQuant (N1 V) reducesTo_S262144x40_S262144_d1 h_S_ bcast_S262144_S262144x1_0 bcast_S_S262144x1 bcast_S262144x1_S262144x40_0_1 := by
  rw [Cert.LibAfterAppend.after_append, segA2_out, pre3_v33]

/-- The first 4 stretches leave argument 3 as it was. -/
theorem pre4_arg3 : after (segA1 (F := Ideal) ++ segW1 ++ segD1 ++ segA2) V (main_arg3 : DevRef τ sig) = V (main_arg3 : DevRef τ sig) := by
  rw [Cert.LibAfterAppend.after_append, RefKeeps.keep_A2_arg3, Cert.LibAfterAppend.after_append, RefKeeps.keep_D1_arg3, Cert.LibAfterAppend.after_append, RefKeeps.keep_W1_arg3, RefKeeps.keep_A1_arg3]

/-- After the first 5 stretches, buffer v62 as a function of the arguments. -/
theorem pre5_v62 : after (segA1 (F := Ideal) ++ segW1 ++ segD1 ++ segA2 ++ segW2) V (main_v62 : DevRef τ sig) = fakeQuantT (V (main_arg3 : DevRef τ sig)) reducesTo_S40x40_S40_d1 h_S_ bcast_S40_S40x1_0 bcast_S_S40x1 bcast_S40x1_S40x40_0_1 transposes_S40x40_S40x40_1_0 := by
  rw [Cert.LibAfterAppend.after_append, segW2_out, pre4_arg3]

/-- After the first 5 stretches, buffer v47 as a function of the arguments. -/
theorem pre5_v47 : after (segA1 (F := Ideal) ++ segW1 ++ segD1 ++ segA2 ++ segW2) V (main_v47 : DevRef τ sig) = Cert.HostQuant.fakeQuant (N1 V) reducesTo_S262144x40_S262144_d1 h_S_ bcast_S262144_S262144x1_0 bcast_S_S262144x1 bcast_S262144x1_S262144x40_0_1 := by
  rw [Cert.LibAfterAppend.after_append, RefKeeps.keep_W2_v47, pre4_v47]

/-- The first 5 stretches leave argument 4 as it was. -/
theorem pre5_arg4 : after (segA1 (F := Ideal) ++ segW1 ++ segD1 ++ segA2 ++ segW2) V (main_arg4 : DevRef τ sig) = V (main_arg4 : DevRef τ sig) := by
  rw [Cert.LibAfterAppend.after_append, RefKeeps.keep_W2_arg4, Cert.LibAfterAppend.after_append, RefKeeps.keep_A2_arg4, Cert.LibAfterAppend.after_append, RefKeeps.keep_D1_arg4, Cert.LibAfterAppend.after_append, RefKeeps.keep_W1_arg4, RefKeeps.keep_A1_arg4]

/-- After the first 6 stretches, buffer v67 as a function of the arguments. -/
theorem pre6_v67 : after (segA1 (F := Ideal) ++ segW1 ++ segD1 ++ segA2 ++ segW2 ++ segD2) V (main_v67 : DevRef τ sig) = N2 V := by
  rw [Cert.LibAfterAppend.after_append, segD2_out, pre5_v47, pre5_v62, pre5_arg4]
  rfl

/-- After the first 7 stretches, buffer v81 as a function of the arguments. -/
theorem pre7_v81 : after (segA1 (F := Ideal) ++ segW1 ++ segD1 ++ segA2 ++ segW2 ++ segD2 ++ segA3) V (main_v81 : DevRef τ sig) = Cert.HostQuant.fakeQuant (N2 V) reducesTo_S262144x40_S262144_d1 h_S_ bcast_S262144_S262144x1_0 bcast_S_S262144x1 bcast_S262144x1_S262144x40_0_1 := by
  rw [Cert.LibAfterAppend.after_append, segA3_out, pre6_v67]

/-- The first 7 stretches leave argument 5 as it was. -/
theorem pre7_arg5 : after (segA1 (F := Ideal) ++ segW1 ++ segD1 ++ segA2 ++ segW2 ++ segD2 ++ segA3) V (main_arg5 : DevRef τ sig) = V (main_arg5 : DevRef τ sig) := by
  rw [Cert.LibAfterAppend.after_append, RefKeeps.keep_A3_arg5, Cert.LibAfterAppend.after_append, RefKeeps.keep_D2_arg5, Cert.LibAfterAppend.after_append, RefKeeps.keep_W2_arg5, Cert.LibAfterAppend.after_append, RefKeeps.keep_A2_arg5, Cert.LibAfterAppend.after_append, RefKeeps.keep_D1_arg5, Cert.LibAfterAppend.after_append, RefKeeps.keep_W1_arg5, RefKeeps.keep_A1_arg5]

/-- After the first 8 stretches, buffer v96 as a function of the arguments. -/
theorem pre8_v96 : after (segA1 (F := Ideal) ++ segW1 ++ segD1 ++ segA2 ++ segW2 ++ segD2 ++ segA3 ++ segW3) V (main_v96 : DevRef τ sig) = fakeQuantT (V (main_arg5 : DevRef τ sig)) reducesTo_S40x40_S40_d1 h_S_ bcast_S40_S40x1_0 bcast_S_S40x1 bcast_S40x1_S40x40_0_1 transposes_S40x40_S40x40_1_0 := by
  rw [Cert.LibAfterAppend.after_append, segW3_out, pre7_arg5]

/-- After the first 8 stretches, buffer v81 as a function of the arguments. -/
theorem pre8_v81 : after (segA1 (F := Ideal) ++ segW1 ++ segD1 ++ segA2 ++ segW2 ++ segD2 ++ segA3 ++ segW3) V (main_v81 : DevRef τ sig) = Cert.HostQuant.fakeQuant (N2 V) reducesTo_S262144x40_S262144_d1 h_S_ bcast_S262144_S262144x1_0 bcast_S_S262144x1 bcast_S262144x1_S262144x40_0_1 := by
  rw [Cert.LibAfterAppend.after_append, RefKeeps.keep_W3_v81, pre7_v81]

/-- The first 8 stretches leave argument 6 as it was. -/
theorem pre8_arg6 : after (segA1 (F := Ideal) ++ segW1 ++ segD1 ++ segA2 ++ segW2 ++ segD2 ++ segA3 ++ segW3) V (main_arg6 : DevRef τ sig) = V (main_arg6 : DevRef τ sig) := by
  rw [Cert.LibAfterAppend.after_append, RefKeeps.keep_W3_arg6, Cert.LibAfterAppend.after_append, RefKeeps.keep_A3_arg6, Cert.LibAfterAppend.after_append, RefKeeps.keep_D2_arg6, Cert.LibAfterAppend.after_append, RefKeeps.keep_W2_arg6, Cert.LibAfterAppend.after_append, RefKeeps.keep_A2_arg6, Cert.LibAfterAppend.after_append, RefKeeps.keep_D1_arg6, Cert.LibAfterAppend.after_append, RefKeeps.keep_W1_arg6, RefKeeps.keep_A1_arg6]

/-- After the first 9 stretches, buffer v101 as a function of the arguments. -/
theorem pre9_v101 : after (segA1 (F := Ideal) ++ segW1 ++ segD1 ++ segA2 ++ segW2 ++ segD2 ++ segA3 ++ segW3 ++ segD3) V (main_v101 : DevRef τ sig) = N3 V := by
  rw [Cert.LibAfterAppend.after_append, segD3_out, pre8_v81, pre8_v96, pre8_arg6]
  rfl

/-- After the first 10 stretches, buffer v115 as a function of the arguments. -/
theorem pre10_v115 : after (segA1 (F := Ideal) ++ segW1 ++ segD1 ++ segA2 ++ segW2 ++ segD2 ++ segA3 ++ segW3 ++ segD3 ++ segA4) V (main_v115 : DevRef τ sig) = Cert.HostQuant.fakeQuant (N3 V) reducesTo_S262144x40_S262144_d1 h_S_ bcast_S262144_S262144x1_0 bcast_S_S262144x1 bcast_S262144x1_S262144x40_0_1 := by
  rw [Cert.LibAfterAppend.after_append, segA4_out, pre9_v101]

/-- The first 10 stretches leave argument 7 as it was. -/
theorem pre10_arg7 : after (segA1 (F := Ideal) ++ segW1 ++ segD1 ++ segA2 ++ segW2 ++ segD2 ++ segA3 ++ segW3 ++ segD3 ++ segA4) V (main_arg7 : DevRef τ sig) = V (main_arg7 : DevRef τ sig) := by
  rw [Cert.LibAfterAppend.after_append, RefKeeps.keep_A4_arg7, Cert.LibAfterAppend.after_append, RefKeeps.keep_D3_arg7, Cert.LibAfterAppend.after_append, RefKeeps.keep_W3_arg7, Cert.LibAfterAppend.after_append, RefKeeps.keep_A3_arg7, Cert.LibAfterAppend.after_append, RefKeeps.keep_D2_arg7, Cert.LibAfterAppend.after_append, RefKeeps.keep_W2_arg7, Cert.LibAfterAppend.after_append, RefKeeps.keep_A2_arg7, Cert.LibAfterAppend.after_append, RefKeeps.keep_D1_arg7, Cert.LibAfterAppend.after_append, RefKeeps.keep_W1_arg7, RefKeeps.keep_A1_arg7]

/-- After the first 11 stretches, buffer v130 as a function of the arguments. -/
theorem pre11_v130 : after (segA1 (F := Ideal) ++ segW1 ++ segD1 ++ segA2 ++ segW2 ++ segD2 ++ segA3 ++ segW3 ++ segD3 ++ segA4 ++ segW4) V (main_v130 : DevRef τ sig) = fakeQuantT (V (main_arg7 : DevRef τ sig)) reducesTo_S2x40_S2_d1 h_S_ bcast_S2_S2x1_0 bcast_S_S2x1 bcast_S2x1_S2x40_0_1 transposes_S2x40_S40x2_1_0 := by
  rw [Cert.LibAfterAppend.after_append, segW4_out, pre10_arg7]

/-- After the first 11 stretches, buffer v115 as a function of the arguments. -/
theorem pre11_v115 : after (segA1 (F := Ideal) ++ segW1 ++ segD1 ++ segA2 ++ segW2 ++ segD2 ++ segA3 ++ segW3 ++ segD3 ++ segA4 ++ segW4) V (main_v115 : DevRef τ sig) = Cert.HostQuant.fakeQuant (N3 V) reducesTo_S262144x40_S262144_d1 h_S_ bcast_S262144_S262144x1_0 bcast_S_S262144x1 bcast_S262144x1_S262144x40_0_1 := by
  rw [Cert.LibAfterAppend.after_append, RefKeeps.keep_W4_v115, pre10_v115]

/-- The first 11 stretches leave argument 8 as it was. -/
theorem pre11_arg8 : after (segA1 (F := Ideal) ++ segW1 ++ segD1 ++ segA2 ++ segW2 ++ segD2 ++ segA3 ++ segW3 ++ segD3 ++ segA4 ++ segW4) V (main_arg8 : DevRef τ sig) = V (main_arg8 : DevRef τ sig) := by
  rw [Cert.LibAfterAppend.after_append, RefKeeps.keep_W4_arg8, Cert.LibAfterAppend.after_append, RefKeeps.keep_A4_arg8, Cert.LibAfterAppend.after_append, RefKeeps.keep_D3_arg8, Cert.LibAfterAppend.after_append, RefKeeps.keep_W3_arg8, Cert.LibAfterAppend.after_append, RefKeeps.keep_A3_arg8, Cert.LibAfterAppend.after_append, RefKeeps.keep_D2_arg8, Cert.LibAfterAppend.after_append, RefKeeps.keep_W2_arg8, Cert.LibAfterAppend.after_append, RefKeeps.keep_A2_arg8, Cert.LibAfterAppend.after_append, RefKeeps.keep_D1_arg8, Cert.LibAfterAppend.after_append, RefKeeps.keep_W1_arg8, RefKeeps.keep_A1_arg8]

/-- After the whole line, the last buffer is the four layers' nested function of the nine arguments. -/
theorem pre12_v135 : after (ops (F := Ideal)) V (main_v135 : DevRef τ sig) = N4 V := by
  rw [ops_eq, Cert.LibAfterAppend.after_append, segD4_out, pre11_v115, pre11_v130, pre11_arg8]
  rfl

end Chain

end Cert.ReferenceIdeal.RefRead

end
-- ==== Proof.LibRowBcast.lean ====
/-
  A vector spread down the rows of a table by two host broadcasts, read at an entry: `[b] → [1, b]` (the vector laid
  along axis 1 of a one-row array) and `[1, b] → [a, b]` (the row repeated); entry `(i, j)` of the result is the
  vector's entry `j`.  Generic in the extents and the entry type.
-/
import Idealize.ShloMosaic.Lib.Pipeline.Value
import Idealize.ShloMosaic.Lib.ValueIdx

noncomputable section

namespace Cert.LibRowBcast

open Idealize.ShloMosaic Idealize.ShloMosaic.ValueIdx

variable {α : Type}

/-- A vector made a one-row array reads the vector's entry. -/
theorem bcast_vec_row_apply {b : ℕ} (h : (⟨1, ![b]⟩ : Shape).BroadcastsInDim ⟨2, ![1, b]⟩ (![1] : Fin 1 → Fin 2))
    (x : (⟨1, ![b]⟩ : Shape).Idx → α) (u : Fin 1) (j : Fin b) :
    broadcastInDim ⟨2, ![1, b]⟩ ![1] h x (ix2 u j) = x (ix1 j) := by
  refine broadcastInDim_apply _ h x _ (ix1 j) fun ax => ?_
  match ax with
  | ⟨0, _⟩ =>
    show j.val = if b = 1 then 0 else j.val
    split
    · have := j.isLt; omega
    · rfl

/-- A one-row array repeated down the rows reads the row's entry of that column. -/
theorem bcast_row_rows_apply {a b : ℕ} (h : (⟨2, ![1, b]⟩ : Shape).BroadcastsInDim ⟨2, ![a, b]⟩ (![0, 1] : Fin 2 → Fin 2))
    (x : (⟨2, ![1, b]⟩ : Shape).Idx → α) (i : Fin a) (j : Fin b) :
    broadcastInDim ⟨2, ![a, b]⟩ ![0, 1] h x (ix2 i j) = x (ix2 (0 : Fin 1) j) := by
  refine broadcastInDim_apply _ h x _ (ix2 (0 : Fin 1) j) fun ax => ?_
  match ax with
  | ⟨0, _⟩ => rfl
  | ⟨1, _⟩ =>
    show j.val = if b = 1 then 0 else j.val
    split
    · have := j.isLt; omega
    · rfl

/-- The two together: the vector's entry `j` at every row. -/
theorem bcast_vec_rows_apply {a b : ℕ} (h₁ : (⟨1, ![b]⟩ : Shape).BroadcastsInDim ⟨2, ![1, b]⟩ (![1] : Fin 1 → Fin 2))
    (h₂ : (⟨2, ![1, b]⟩ : Shape).BroadcastsInDim ⟨2, ![a, b]⟩ (![0, 1] : Fin 2 → Fin 2))
    (x : (⟨1, ![b]⟩ : Shape).Idx → α) (i : Fin a) (j : Fin b) :
    broadcastInDim ⟨2, ![a, b]⟩ ![0, 1] h₂ (broadcastInDim ⟨2, ![1, b]⟩ ![1] h₁ x) (ix2 i j) = x (ix1 j) :=
  (bcast_row_rows_apply h₂ _ i j).trans (bcast_vec_row_apply h₁ x 0 j)

end Cert.LibRowBcast

end
-- ==== Proof.LibElu.lean ====
/-
  The exponential linear unit over the extended reals, in its two usual spellings, and that they agree.

  One spelling is  v if v > 0 else exp v − 1.  The other is  where(v > 0, v, 1 · expm1(where(v > 0, 0, v))),  written so
  that expm1 is never applied to a large positive argument; on a whole array every scalar in it is a zero-rank constant
  spread to the array's shape.  Where the guard fails the inner choice returns v itself, expm1 is exp − 1 over the
  extended reals, and 1 · y = y, so the two agree at every extended real v, the infinities included.  Generic in the
  array's shape.
-/
import Idealize.ShloMosaic.PureOps.Ideal.Laws
import Idealize.ShloMosaic.Lib.ValueIdx
import Idealize.ShloMosaic.Lib.IdealHost
import Idealize.ShloMosaic.Lib.Pipeline.Value

noncomputable section

namespace Cert.LibElu

open Idealize.ShloMosaic Idealize.ShloMosaic.ValueIdx

/-- The exponential linear unit in its direct spelling: the value itself where it is positive, exp − 1 elsewhere. -/
def elu (v : EReal) : EReal :=
  Scalar.select (Ideal.cmp .ogt v (Ideal.ofBits .f32 0x00000000#32)) v (Ideal.exp v - Ideal.ofBits .f32 0x3F800000#32)

/-- For any guard bit the two spellings of the unit's value agree: under the guard both are `v`; otherwise the inner
    choice is `v`, and `1 · (exp v − 1) = exp v − 1`. -/
theorem elu_scalar (c : BitVec 1) (v z : EReal) :
    Scalar.select c v (Ideal.ofBits .f32 0x3F800000#32 * (Ideal.exp (Scalar.select c z v) - 1))
      = Scalar.select c v (Ideal.exp v - Ideal.ofBits .f32 0x3F800000#32) := by
  unfold Scalar.select
  by_cases h : c = 1
  · simp only [if_pos h]
  · simp only [if_neg h, Ideal.ofBits_one_f32, one_mul]

/-- A scalar spread to any shape reads the scalar. -/
theorem bcast_scalar_apply {α : Type} {t : Shape} (h : (⟨0, ![]⟩ : Shape).BroadcastsInDim t ![])
    (x : (⟨0, ![]⟩ : Shape).Idx → α) (j : t.Idx) : broadcastInDim t ![] h x j = x ix0 :=
  broadcastInDim_apply _ h x j ix0 (fun a => a.elim0)

/-- The unit as jax spells it on a whole array — `where(v > 0, v, 1 · expm1(where(v > 0, 0, v)))`, every scalar a
    zero-rank constant spread to the array's shape — is `elu` entry by entry. -/
theorem elu_jax_apply {s : Shape} (v : FVec Ideal s .f32) (h0 : (⟨0, ![]⟩ : Shape).BroadcastsInDim s ![]) (j : s.Idx) :
    select (cmpf .ogt v (broadcastInDim s ![] h0 (constant (F := Ideal) ⟨0, ![]⟩ .f32 0x00000000#32))) v
      (mulf (broadcastInDim s ![] h0 (constant (F := Ideal) ⟨0, ![]⟩ .f32 0x3F800000#32))
        (Host.expm1 (select (cmpf .ogt v (broadcastInDim s ![] h0 (constant (F := Ideal) ⟨0, ![]⟩ .f32 0x00000000#32)))
          (broadcastInDim s ![] h0 (id (constant (F := Ideal) ⟨0, ![]⟩ .f32 0x00000000#32))) v))) j = elu (v j) := by
  simp only [select, cmpf, mulf, Host.expm1, id, bcast_scalar_apply, constant]
  exact elu_scalar _ _ _

end Cert.LibElu

end
-- ==== Proof.RefLayers.lean ====
/-
  The dense stage and the activations of the reference network, as functions of whole arrays, read at an entry.

  A dense stage takes activations [A, K] and a weight matrix already transposed to [K, B], contracts the activations'
  second axis against the weights' first, and adds the bias vector [B] spread down the rows: entry (p, c) of the result
  is Σ_j l (p, j) · r (j, c) + b c.  When the activations are a row-quantised array and the weights the transpose of a
  row-quantised [B, K] array, this is the rescale-then-multiply arrangement of the layer on row p of the activations and
  row c of the weights.  The activations are the hyperbolic tangent, the exponential linear unit in the spelling that guards the
  argument of expm1, and the soft-plus in its numerically careful spelling with the magnitude negated outright; each is
  read entry by entry in the vocabulary of a single extended real.  All of it holds for any extents.
-/
import Idealize.ShloMosaic.Lib.Pipeline.Value
import Idealize.ShloMosaic.Lib.ValueIdx
import Idealize.ShloMosaic.Lib.IdealHost
import Idealize.ShloMosaic.PureOps.Ideal.Laws
import proofs.«101763_j14748917694594_2_alg».proof.Proof.LibQuant
import proofs.«101763_j14748917694594_2_alg».proof.Proof.HostQuant
import proofs.«101763_j14748917694594_2_alg».proof.Proof.LibJoinedRows
import proofs.«101763_j14748917694594_2_alg».proof.Proof.LibRowBcast
import proofs.«101763_j14748917694594_2_alg».proof.Proof.LibPlainDot
import proofs.«101763_j14748917694594_2_alg».proof.Proof.LibElu

noncomputable section

open scoped BigOperators

namespace Cert.RefLayers

open Idealize.ShloMosaic Idealize.ShloMosaic.ValueIdx

/-! ## The dense stage -/

section Dense
variable {A K B : ℕ}

/-- A row-quantised weight matrix [a, k], transposed to [k, a]. -/
def fakeQuantT {a k : ℕ} (w : FVec Ideal ⟨2, ![a, k]⟩ .f32)
    (hred : (⟨2, ![a, k]⟩ : Shape).ReducesTo [1] ⟨1, ![a]⟩) (hS : 0 < (⟨0, ![]⟩ : Shape).numel)
    (hb0 : (⟨1, ![a]⟩ : Shape).BroadcastsInDim ⟨2, ![a, 1]⟩ (![0] : Fin 1 → Fin 2))
    (hbs : (⟨0, ![]⟩ : Shape).BroadcastsInDim ⟨2, ![a, 1]⟩ (![] : Fin 0 → Fin 2))
    (hb01 : (⟨2, ![a, 1]⟩ : Shape).BroadcastsInDim ⟨2, ![a, k]⟩ (![0, 1] : Fin 2 → Fin 2))
    (ht : (⟨2, ![a, k]⟩ : Shape).Transposes [1, 0] ⟨2, ![k, a]⟩) : FVec Ideal ⟨2, ![k, a]⟩ .f32 :=
  transpose ⟨2, ![k, a]⟩ [1, 0] (Cert.HostQuant.fakeQuant w hred hS hb0 hbs hb01) ht

/-- Entry (j, c) of the transposed quantised weights: the quantised entry j of the weights' row c. -/
theorem fakeQuantT_apply {a k : ℕ} (w : FVec Ideal ⟨2, ![a, k]⟩ .f32)
    (hred : (⟨2, ![a, k]⟩ : Shape).ReducesTo [1] ⟨1, ![a]⟩) (hS : 0 < (⟨0, ![]⟩ : Shape).numel)
    (hb0 : (⟨1, ![a]⟩ : Shape).BroadcastsInDim ⟨2, ![a, 1]⟩ (![0] : Fin 1 → Fin 2))
    (hbs : (⟨0, ![]⟩ : Shape).BroadcastsInDim ⟨2, ![a, 1]⟩ (![] : Fin 0 → Fin 2))
    (hb01 : (⟨2, ![a, 1]⟩ : Shape).BroadcastsInDim ⟨2, ![a, k]⟩ (![0, 1] : Fin 2 → Fin 2))
    (ht : (⟨2, ![a, k]⟩ : Shape).Transposes [1, 0] ⟨2, ![k, a]⟩) (j : Fin k) (c : Fin a) :
    fakeQuantT w hred hS hb0 hbs hb01 ht (ix2 j c) = Cert.LibQuant.fq (fun j => w (ix2 c j)) j := by
  unfold fakeQuantT
  rw [Cert.LibJoinedRows.transpose2_apply, Cert.HostQuant.fakeQuant_apply]

/-- The dense stage on whole arrays: the activations [A, K] against the (already transposed) weights [K, B], plus the
    bias vector [B] spread down the rows. -/
def dense (D : DotDims ⟨2, ![A, K]⟩ ⟨2, ![K, B]⟩ ⟨2, ![A, B]⟩)
    (l : FVec Ideal ⟨2, ![A, K]⟩ .f32) (r : FVec Ideal ⟨2, ![K, B]⟩ .f32) (b : FVec Ideal ⟨1, ![B]⟩ .f32)
    (h1 : (⟨1, ![B]⟩ : Shape).BroadcastsInDim ⟨2, ![1, B]⟩ (![1] : Fin 1 → Fin 2))
    (h2 : (⟨2, ![1, B]⟩ : Shape).BroadcastsInDim ⟨2, ![A, B]⟩ (![0, 1] : Fin 2 → Fin 2)) :
    FVec Ideal ⟨2, ![A, B]⟩ .f32 :=
  addf (Host.dotGeneral (F := Ideal) D none l r)
    (broadcastInDim ⟨2, ![A, B]⟩ ![0, 1] h2 (broadcastInDim ⟨2, ![1, B]⟩ ![1] h1 b))

/-- Entry (p, c) of the dense stage: the row of activations against the column of weights, plus the bias entry. -/
theorem dense_apply {D : DotDims ⟨2, ![A, K]⟩ ⟨2, ![K, B]⟩ ⟨2, ![A, B]⟩} (hD : Cert.LibPlainDot.Plain D)
    (l : FVec Ideal ⟨2, ![A, K]⟩ .f32) (r : FVec Ideal ⟨2, ![K, B]⟩ .f32) (b : FVec Ideal ⟨1, ![B]⟩ .f32)
    (h1 : (⟨1, ![B]⟩ : Shape).BroadcastsInDim ⟨2, ![1, B]⟩ (![1] : Fin 1 → Fin 2))
    (h2 : (⟨2, ![1, B]⟩ : Shape).BroadcastsInDim ⟨2, ![A, B]⟩ (![0, 1] : Fin 2 → Fin 2)) (p : Fin A) (c : Fin B) :
    dense D l r b h1 h2 (ix2 p c) = (∑ j : Fin K, l (ix2 p j) * r (ix2 j c)) + b (ix1 c) := by
  show FloatOps.dotGeneral D none .single l r (ix2 p c)
      + broadcastInDim ⟨2, ![A, B]⟩ ![0, 1] h2 (broadcastInDim ⟨2, ![1, B]⟩ ![1] h1 b) (ix2 p c) = _
  rw [hD.dotGeneral_apply, Cert.LibRowBcast.bcast_vec_rows_apply]

/-- The dense stage of row-quantised activations [A, K] against the transpose of row-quantised weights [B, K], at
    (p, c): the rescale-then-multiply arrangement of the layer on row `p` of the activations and row `c` of the weights. -/
theorem dense_fakeQuant_apply {D : DotDims ⟨2, ![A, K]⟩ ⟨2, ![K, B]⟩ ⟨2, ![A, B]⟩} (hD : Cert.LibPlainDot.Plain D)
    (x : FVec Ideal ⟨2, ![A, K]⟩ .f32) (w : FVec Ideal ⟨2, ![B, K]⟩ .f32) (b : FVec Ideal ⟨1, ![B]⟩ .f32)
    (hredx : (⟨2, ![A, K]⟩ : Shape).ReducesTo [1] ⟨1, ![A]⟩) (hSx : 0 < (⟨0, ![]⟩ : Shape).numel)
    (hb0x : (⟨1, ![A]⟩ : Shape).BroadcastsInDim ⟨2, ![A, 1]⟩ (![0] : Fin 1 → Fin 2))
    (hbsx : (⟨0, ![]⟩ : Shape).BroadcastsInDim ⟨2, ![A, 1]⟩ (![] : Fin 0 → Fin 2))
    (hb01x : (⟨2, ![A, 1]⟩ : Shape).BroadcastsInDim ⟨2, ![A, K]⟩ (![0, 1] : Fin 2 → Fin 2))
    (hredw : (⟨2, ![B, K]⟩ : Shape).ReducesTo [1] ⟨1, ![B]⟩) (hSw : 0 < (⟨0, ![]⟩ : Shape).numel)
    (hb0w : (⟨1, ![B]⟩ : Shape).BroadcastsInDim ⟨2, ![B, 1]⟩ (![0] : Fin 1 → Fin 2))
    (hbsw : (⟨0, ![]⟩ : Shape).BroadcastsInDim ⟨2, ![B, 1]⟩ (![] : Fin 0 → Fin 2))
    (hb01w : (⟨2, ![B, 1]⟩ : Shape).BroadcastsInDim ⟨2, ![B, K]⟩ (![0, 1] : Fin 2 → Fin 2))
    (ht : (⟨2, ![B, K]⟩ : Shape).Transposes [1, 0] ⟨2, ![K, B]⟩)
    (h1 : (⟨1, ![B]⟩ : Shape).BroadcastsInDim ⟨2, ![1, B]⟩ (![1] : Fin 1 → Fin 2))
    (h2 : (⟨2, ![1, B]⟩ : Shape).BroadcastsInDim ⟨2, ![A, B]⟩ (![0, 1] : Fin 2 → Fin 2)) (p : Fin A) (c : Fin B) :
    dense D (Cert.HostQuant.fakeQuant x hredx hSx hb0x hbsx hb01x)
        (transpose ⟨2, ![K, B]⟩ [1, 0] (Cert.HostQuant.fakeQuant w hredw hSw hb0w hbsw hb01w) ht) b h1 h2 (ix2 p c)
      = Cert.LibQuant.layerR (fun j => x (ix2 p j)) (fun j => w (ix2 c j)) (b (ix1 c)) := by
  rw [dense_apply hD]
  refine congrArg (· + b (ix1 c)) (Finset.sum_congr rfl fun j _ => ?_)
  rw [Cert.LibJoinedRows.transpose2_apply, Cert.HostQuant.fakeQuant_apply, Cert.HostQuant.fakeQuant_apply]

/-- The same with the transposed quantised weights under their own name. -/
theorem dense_fakeQuantT_apply {D : DotDims ⟨2, ![A, K]⟩ ⟨2, ![K, B]⟩ ⟨2, ![A, B]⟩} (hD : Cert.LibPlainDot.Plain D)
    (x : FVec Ideal ⟨2, ![A, K]⟩ .f32) (w : FVec Ideal ⟨2, ![B, K]⟩ .f32) (b : FVec Ideal ⟨1, ![B]⟩ .f32)
    (hredx : (⟨2, ![A, K]⟩ : Shape).ReducesTo [1] ⟨1, ![A]⟩) (hSx : 0 < (⟨0, ![]⟩ : Shape).numel)
    (hb0x : (⟨1, ![A]⟩ : Shape).BroadcastsInDim ⟨2, ![A, 1]⟩ (![0] : Fin 1 → Fin 2))
    (hbsx : (⟨0, ![]⟩ : Shape).BroadcastsInDim ⟨2, ![A, 1]⟩ (![] : Fin 0 → Fin 2))
    (hb01x : (⟨2, ![A, 1]⟩ : Shape).BroadcastsInDim ⟨2, ![A, K]⟩ (![0, 1] : Fin 2 → Fin 2))
    (hredw : (⟨2, ![B, K]⟩ : Shape).ReducesTo [1] ⟨1, ![B]⟩) (hSw : 0 < (⟨0, ![]⟩ : Shape).numel)
    (hb0w : (⟨1, ![B]⟩ : Shape).BroadcastsInDim ⟨2, ![B, 1]⟩ (![0] : Fin 1 → Fin 2))
    (hbsw : (⟨0, ![]⟩ : Shape).BroadcastsInDim ⟨2, ![B, 1]⟩ (![] : Fin 0 → Fin 2))
    (hb01w : (⟨2, ![B, 1]⟩ : Shape).BroadcastsInDim ⟨2, ![B, K]⟩ (![0, 1] : Fin 2 → Fin 2))
    (ht : (⟨2, ![B, K]⟩ : Shape).Transposes [1, 0] ⟨2, ![K, B]⟩)
    (h1 : (⟨1, ![B]⟩ : Shape).BroadcastsInDim ⟨2, ![1, B]⟩ (![1] : Fin 1 → Fin 2))
    (h2 : (⟨2, ![1, B]⟩ : Shape).BroadcastsInDim ⟨2, ![A, B]⟩ (![0, 1] : Fin 2 → Fin 2)) (p : Fin A) (c : Fin B) :
    dense D (Cert.HostQuant.fakeQuant x hredx hSx hb0x hbsx hb01x) (fakeQuantT w hredw hSw hb0w hbsw hb01w ht) b h1 h2
        (ix2 p c)
      = Cert.LibQuant.layerR (fun j => x (ix2 p j)) (fun j => w (ix2 c j)) (b (ix1 c)) :=
  dense_fakeQuant_apply hD x w b hredx hSx hb0x hbsx hb01x hredw hSw hb0w hbsw hb01w ht h1 h2 p c

end Dense

/-! ## The activations -/

section Activations
variable {s : Shape}

/-- The hyperbolic tangent of an array, at an entry. -/
theorem tanhHost_apply (v : FVec Ideal s .f32) (j : s.Idx) : Host.tanh v j = Ideal.tanh (v j) := rfl

/-- The exponential linear unit on a whole array: `where(v > 0, v, 1 · expm1(where(v > 0, 0, v)))`, every scalar a
    zero-rank constant spread to the array's shape. -/
def eluJ (v : FVec Ideal s .f32) (h0 : (⟨0, ![]⟩ : Shape).BroadcastsInDim s ![]) : FVec Ideal s .f32 :=
  select (cmpf .ogt v (broadcastInDim s ![] h0 (constant (F := Ideal) ⟨0, ![]⟩ .f32 0x00000000#32))) v
    (mulf (broadcastInDim s ![] h0 (constant (F := Ideal) ⟨0, ![]⟩ .f32 0x3F800000#32))
      (Host.expm1 (select (cmpf .ogt v (broadcastInDim s ![] h0 (constant (F := Ideal) ⟨0, ![]⟩ .f32 0x00000000#32)))
        (broadcastInDim s ![] h0 (id (constant (F := Ideal) ⟨0, ![]⟩ .f32 0x00000000#32))) v)))

/-- It is the unit's guarded spelling entry by entry. -/
theorem eluJ_apply (v : FVec Ideal s .f32) (h0 : (⟨0, ![]⟩ : Shape).BroadcastsInDim s ![]) (j : s.Idx) :
    eluJ v h0 j = Cert.LibQuant.eluR (v j) := by
  simp only [eluJ, select, cmpf, mulf, Host.expm1, id, Cert.LibElu.bcast_scalar_apply, constant]
  rfl

/-- The soft-plus on a whole array: `max(v, 0) + log1p(exp(−|v − 0|))` behind the test "`v − 0` differs from itself",
    which selects `v + 0`; the zero a zero-rank constant spread to the array's shape. -/
def spJ (v : FVec Ideal s .f32) (h0 : (⟨0, ![]⟩ : Shape).BroadcastsInDim s ![]) : FVec Ideal s .f32 :=
  select
    (cmpf .une (subf v (broadcastInDim s ![] h0 (constant (F := Ideal) ⟨0, ![]⟩ .f32 0x00000000#32)))
      (subf v (broadcastInDim s ![] h0 (constant (F := Ideal) ⟨0, ![]⟩ .f32 0x00000000#32))))
    (addf v (broadcastInDim s ![] h0 (constant (F := Ideal) ⟨0, ![]⟩ .f32 0x00000000#32)))
    (addf (maximumf v (broadcastInDim s ![] h0 (constant (F := Ideal) ⟨0, ![]⟩ .f32 0x00000000#32)))
      (Host.log1p (Host.exp (Host.negf (Host.absf
        (subf v (broadcastInDim s ![] h0 (constant (F := Ideal) ⟨0, ![]⟩ .f32 0x00000000#32))))))))

/-- It is the soft-plus's careful spelling entry by entry. -/
theorem spJ_apply (v : FVec Ideal s .f32) (h0 : (⟨0, ![]⟩ : Shape).BroadcastsInDim s ![]) (j : s.Idx) :
    spJ v h0 j = Cert.LibQuant.spR (v j) := by
  simp only [spJ, select, cmpf, subf, addf, maximumf, Host.log1p, Host.exp, Host.negf, Host.absf,
    Cert.LibElu.bcast_scalar_apply, constant]
  rfl

/-- The unit's whole-array term is the one the entrywise law of the exponential linear unit is stated for. -/
theorem eluJ_eq_elu (v : FVec Ideal s .f32) (h0 : (⟨0, ![]⟩ : Shape).BroadcastsInDim s ![]) (j : s.Idx) :
    eluJ v h0 j = Cert.LibElu.elu (v j) := Cert.LibElu.elu_jax_apply v h0 j

end Activations

end Cert.RefLayers

end
-- ==== Proof.RefNet.lean ====
/-
  The reference network on whole arrays, read at an entry.

  Each of its four layers quantises the rows of its activations, quantises the rows of its weight matrix and transposes
  the result, multiplies the two, adds the bias spread down the rows, and applies its activation: the hyperbolic tangent,
  the exponential linear unit twice, the soft-plus.  An entry of a layer's output depends on the whole corresponding ROW
  of the layer before, through that row's greatest magnitude; so entry (r, o) of the network is the four-layer
  rescale-then-multiply network on the input row r, each layer's row being the entries of the layer before it.
-/
import proofs.«101763_j14748917694594_2_alg».proof.Proof.Gen.ReferenceIdeal
import proofs.«101763_j14748917694594_2_alg».proof.Proof.LibQuant
import proofs.«101763_j14748917694594_2_alg».proof.Proof.HostQuant
import proofs.«101763_j14748917694594_2_alg».proof.Proof.RefLayers
import proofs.«101763_j14748917694594_2_alg».proof.Proof.RefSegs

noncomputable section

open scoped BigOperators

namespace Cert.RefNet

open Idealize.ShloMosaic Idealize.ShloMosaic.ValueIdx Cert.ReferenceIdeal Cert.ReferenceIdeal.Gen
open Cert.ReferenceIdeal.RefRead

/-! ## The layers on whole arrays -/

/-- The first layer: 160 inputs to 40 outputs, the hyperbolic tangent. -/
def L1 (a0 : FVec Ideal S262144x160 .f32) (a1 : FVec Ideal S40x160 .f32) (a2 : FVec Ideal S40 .f32) :
    FVec Ideal S262144x40 .f32 :=
  Host.tanh (F := Ideal)
    (dense dot_S262144x160_S160x40_S262144x40_1_0_0_1_n_n
      (Cert.HostQuant.fakeQuant a0 reducesTo_S262144x160_S262144_d1 h_S_ bcast_S262144_S262144x1_0 bcast_S_S262144x1
        bcast_S262144x1_S262144x160_0_1)
      (fakeQuantT a1 reducesTo_S40x160_S40_d1 h_S_ bcast_S40_S40x1_0 bcast_S_S40x1 bcast_S40x1_S40x160_0_1
        transposes_S40x160_S160x40_1_0)
      a2 bcast_S40_S1x40_1 bcast_S1x40_S262144x40_0_1)

/-- A middle layer: 40 to 40, the exponential linear unit. -/
def L23 (h : FVec Ideal S262144x40 .f32) (w : FVec Ideal S40x40 .f32) (b : FVec Ideal S40 .f32) :
    FVec Ideal S262144x40 .f32 :=
  eluJ
    (dense dot_S262144x40_S40x40_S262144x40_1_0_0_1_n_n
      (Cert.HostQuant.fakeQuant h reducesTo_S262144x40_S262144_d1 h_S_ bcast_S262144_S262144x1_0 bcast_S_S262144x1
        bcast_S262144x1_S262144x40_0_1)
      (fakeQuantT w reducesTo_S40x40_S40_d1 h_S_ bcast_S40_S40x1_0 bcast_S_S40x1 bcast_S40x1_S40x40_0_1
        transposes_S40x40_S40x40_1_0)
      b bcast_S40_S1x40_1 bcast_S1x40_S262144x40_0_1)
    bcast_S_S262144x40

/-- The last layer: 40 to 2, the soft-plus. -/
def L4 (h : FVec Ideal S262144x40 .f32) (w : FVec Ideal S2x40 .f32) (b : FVec Ideal S2 .f32) :
    FVec Ideal S262144x2 .f32 :=
  spJ
    (dense dot_S262144x40_S40x2_S262144x2_1_0_0_1_n_n
      (Cert.HostQuant.fakeQuant h reducesTo_S262144x40_S262144_d1 h_S_ bcast_S262144_S262144x1_0 bcast_S_S262144x1
        bcast_S262144x1_S262144x40_0_1)
      (fakeQuantT w reducesTo_S2x40_S2_d1 h_S_ bcast_S2_S2x1_0 bcast_S_S2x1 bcast_S2x1_S2x40_0_1
        transposes_S2x40_S40x2_1_0)
      b bcast_S2_S1x2_1 bcast_S1x2_S262144x2_0_1)
    bcast_S_S262144x2

/-- The network: the four layers in turn. -/
def refNet (a0 : FVec Ideal S262144x160 .f32) (a1 : FVec Ideal S40x160 .f32) (a2 : FVec Ideal S40 .f32)
    (a3 : FVec Ideal S40x40 .f32) (a4 : FVec Ideal S40 .f32) (a5 : FVec Ideal S40x40 .f32) (a6 : FVec Ideal S40 .f32)
    (a7 : FVec Ideal S2x40 .f32) (a8 : FVec Ideal S2 .f32) : FVec Ideal S262144x2 .f32 :=
  L4 (L23 (L23 (L1 a0 a1 a2) a3 a4) a5 a6) a7 a8

/-- The network with every layer written out. -/
theorem refNet_eq (a0 : FVec Ideal S262144x160 .f32) (a1 : FVec Ideal S40x160 .f32) (a2 : FVec Ideal S40 .f32)
    (a3 : FVec Ideal S40x40 .f32) (a4 : FVec Ideal S40 .f32) (a5 : FVec Ideal S40x40 .f32) (a6 : FVec Ideal S40 .f32)
    (a7 : FVec Ideal S2x40 .f32) (a8 : FVec Ideal S2 .f32) :
    refNet a0 a1 a2 a3 a4 a5 a6 a7 a8 = L4 (L23 (L23 (L1 a0 a1 a2) a3 a4) a5 a6) a7 a8 := rfl

/-! ## The layers at an entry -/

/-- The three contractions are plain matrix products. -/
theorem plain1 : Cert.LibPlainDot.Plain dot_S262144x160_S160x40_S262144x40_1_0_0_1_n_n := ⟨rfl, rfl, rfl, rfl, rfl, rfl⟩
theorem plain2 : Cert.LibPlainDot.Plain dot_S262144x40_S40x40_S262144x40_1_0_0_1_n_n := ⟨rfl, rfl, rfl, rfl, rfl, rfl⟩
theorem plain3 : Cert.LibPlainDot.Plain dot_S262144x40_S40x2_S262144x2_1_0_0_1_n_n := ⟨rfl, rfl, rfl, rfl, rfl, rfl⟩

/-- Entry (r, a) of the first layer: the hyperbolic tangent of the layer on input row `r` and weight row `a`. -/
theorem L1_apply (a0 : FVec Ideal S262144x160 .f32) (a1 : FVec Ideal S40x160 .f32) (a2 : FVec Ideal S40 .f32)
    (r : Fin 262144) (a : Fin 40) :
    L1 a0 a1 a2 (ix2 r a)
      = Ideal.tanh (Cert.LibQuant.layerR (fun k => a0 (ix2 r k)) (fun k => a1 (ix2 a k)) (a2 (ix1 a))) := by
  unfold L1
  refine (Cert.RefLayers.tanhHost_apply _ _).trans (congrArg Ideal.tanh ?_)
  exact Cert.RefLayers.dense_fakeQuantT_apply plain1 a0 a1 a2 _ _ _ _ _ _ _ _ _ _ _ _ _ r a

/-- Entry (r, a) of a middle layer: the unit of the layer on row `r` of the layer before and weight row `a`. -/
theorem L23_apply (h : FVec Ideal S262144x40 .f32) (w : FVec Ideal S40x40 .f32) (b : FVec Ideal S40 .f32)
    (r : Fin 262144) (a : Fin 40) :
    L23 h w b (ix2 r a)
      = Cert.LibQuant.eluR (Cert.LibQuant.layerR (fun k => h (ix2 r k)) (fun k => w (ix2 a k)) (b (ix1 a))) := by
  unfold L23
  refine (Cert.RefLayers.eluJ_apply _ _ _).trans (congrArg Cert.LibQuant.eluR ?_)
  exact Cert.RefLayers.dense_fakeQuantT_apply plain2 h w b _ _ _ _ _ _ _ _ _ _ _ _ _ r a

/-- Entry (r, o) of the last layer: the soft-plus of the layer on row `r` of the layer before and weight row `o`. -/
theorem L4_apply (h : FVec Ideal S262144x40 .f32) (w : FVec Ideal S2x40 .f32) (b : FVec Ideal S2 .f32)
    (r : Fin 262144) (o : Fin 2) :
    L4 h w b (ix2 r o)
      = Cert.LibQuant.spR (Cert.LibQuant.layerR (fun k => h (ix2 r k)) (fun k => w (ix2 o k)) (b (ix1 o))) := by
  unfold L4
  refine (Cert.RefLayers.spJ_apply _ _ _).trans (congrArg Cert.LibQuant.spR ?_)
  exact Cert.RefLayers.dense_fakeQuantT_apply plain3 h w b _ _ _ _ _ _ _ _ _ _ _ _ _ r o

/-! ## The network at an entry -/

/-- Entry (r, o) of the network is the rescale-then-multiply network on input row `r`: each layer's entry is the layer
    on the row of entries of the layer before. -/
theorem refNet_apply (a0 : FVec Ideal S262144x160 .f32) (a1 : FVec Ideal S40x160 .f32) (a2 : FVec Ideal S40 .f32)
    (a3 : FVec Ideal S40x40 .f32) (a4 : FVec Ideal S40 .f32) (a5 : FVec Ideal S40x40 .f32) (a6 : FVec Ideal S40 .f32)
    (a7 : FVec Ideal S2x40 .f32) (a8 : FVec Ideal S2 .f32) (r : Fin 262144) (o : Fin 2) :
    refNet a0 a1 a2 a3 a4 a5 a6 a7 a8 (ix2 r o)
      = Cert.LibQuant.netR (fun k => a0 (ix2 r k)) (fun a k => a1 (ix2 a k)) (fun a => a2 (ix1 a))
          (fun a k => a3 (ix2 a k)) (fun a => a4 (ix1 a)) (fun a k => a5 (ix2 a k)) (fun a => a6 (ix1 a))
          (fun a k => a7 (ix2 a k)) (fun a => a8 (ix1 a)) o := by
  unfold refNet
  rw [L4_apply]
  simp only [L23_apply, L1_apply]
  rfl

end Cert.RefNet

end
-- ==== Proof.RefRead.lean ====
/-
  The reference network's result read at an entry.

  Entry (r, o) of the last buffer depends on row r of the input only: each layer's output row is a function of the
  previous layer's output row — the products of the row's quantised entries with each weight row's quantised entries,
  summed, plus the bias, under the layer's activation.  Read layer by layer, the nested whole-array function of the
  nine arguments is, at (r, o), the four-layer network on row r in the rescale-then-multiply arrangement.  The nine
  arguments themselves are written by no operation of the line.
-/
import proofs.«101763_j14748917694594_2_alg».proof.Proof.RefChain
import proofs.«101763_j14748917694594_2_alg».proof.Proof.RefNet

noncomputable section

namespace Cert.ReferenceIdeal.RefRead

open Idealize.ShloMosaic Idealize.ShloMosaic.TcCoe Idealize.ShloMosaic.StableHlo Idealize.ShloMosaic.ValueIdx Cert.ReferenceIdeal Cert.ReferenceIdeal.Gen

/-! ## The result as one function of the arguments -/

/-- After the whole line the last buffer is the four layers' nested function of the nine arguments' contents. -/
theorem out_fold (V : Valuation τ sig (Elt Ideal)) :
    after (Cert.ReferenceIdeal.RefRun.ops (F := Ideal)) V (main_v135 : DevRef τ sig)
      = Cert.RefNet.refNet (V (main_arg0 : DevRef τ sig)) (V (main_arg1 : DevRef τ sig)) (V (main_arg2 : DevRef τ sig)) (V (main_arg3 : DevRef τ sig)) (V (main_arg4 : DevRef τ sig)) (V (main_arg5 : DevRef τ sig)) (V (main_arg6 : DevRef τ sig)) (V (main_arg7 : DevRef τ sig)) (V (main_arg8 : DevRef τ sig)) :=
  (pre12_v135 V).trans rfl

/-! ## The result at an entry -/

/-- Entry (r, o) of the reference's result is the four-layer network on row r of the input. -/
theorem out_apply (V : Valuation τ sig (Elt Ideal)) (r : Fin 262144) (o : Fin 2) :
    (after (Cert.ReferenceIdeal.RefRun.ops (F := Ideal)) V (main_v135 : DevRef τ sig) : S262144x2.Idx → EReal) (ix2 r o)
      = Cert.LibQuant.netR (fun k => (V (main_arg0 : DevRef τ sig) : S262144x160.Idx → EReal) (ix2 r k))
          (fun a k => (V (main_arg1 : DevRef τ sig) : S40x160.Idx → EReal) (ix2 a k)) (fun a => (V (main_arg2 : DevRef τ sig) : S40.Idx → EReal) (ix1 a))
          (fun a k => (V (main_arg3 : DevRef τ sig) : S40x40.Idx → EReal) (ix2 a k)) (fun a => (V (main_arg4 : DevRef τ sig) : S40.Idx → EReal) (ix1 a))
          (fun a k => (V (main_arg5 : DevRef τ sig) : S40x40.Idx → EReal) (ix2 a k)) (fun a => (V (main_arg6 : DevRef τ sig) : S40.Idx → EReal) (ix1 a))
          (fun a k => (V (main_arg7 : DevRef τ sig) : S2x40.Idx → EReal) (ix2 a k)) (fun a => (V (main_arg8 : DevRef τ sig) : S2.Idx → EReal) (ix1 a)) o := by
  rw [out_fold]
  exact Cert.RefNet.refNet_apply (V (main_arg0 : DevRef τ sig)) (V (main_arg1 : DevRef τ sig)) (V (main_arg2 : DevRef τ sig)) (V (main_arg3 : DevRef τ sig)) (V (main_arg4 : DevRef τ sig)) (V (main_arg5 : DevRef τ sig)) (V (main_arg6 : DevRef τ sig)) (V (main_arg7 : DevRef τ sig)) (V (main_arg8 : DevRef τ sig)) r o

/-! ## The arguments -/

/-- No operation of the line writes argument 0. -/
theorem arg0_kept (V : Valuation τ sig (Elt Ideal)) :
    after (Cert.ReferenceIdeal.RefRun.ops (F := Ideal)) V (main_arg0 : DevRef τ sig) = V (main_arg0 : DevRef τ sig) :=
  RefKeeps.arg0_kept V

/-- No operation of the line writes argument 1. -/
theorem arg1_kept (V : Valuation τ sig (Elt Ideal)) :
    after (Cert.ReferenceIdeal.RefRun.ops (F := Ideal)) V (main_arg1 : DevRef τ sig) = V (main_arg1 : DevRef τ sig) :=
  RefKeeps.arg1_kept V

/-- No operation of the line writes argument 2. -/
theorem arg2_kept (V : Valuation τ sig (Elt Ideal)) :
    after (Cert.ReferenceIdeal.RefRun.ops (F := Ideal)) V (main_arg2 : DevRef τ sig) = V (main_arg2 : DevRef τ sig) :=
  RefKeeps.arg2_kept V

/-- No operation of the line writes argument 3. -/
theorem arg3_kept (V : Valuation τ sig (Elt Ideal)) :
    after (Cert.ReferenceIdeal.RefRun.ops (F := Ideal)) V (main_arg3 : DevRef τ sig) = V (main_arg3 : DevRef τ sig) :=
  RefKeeps.arg3_kept V

/-- No operation of the line writes argument 4. -/
theorem arg4_kept (V : Valuation τ sig (Elt Ideal)) :
    after (Cert.ReferenceIdeal.RefRun.ops (F := Ideal)) V (main_arg4 : DevRef τ sig) = V (main_arg4 : DevRef τ sig) :=
  RefKeeps.arg4_kept V

/-- No operation of the line writes argument 5. -/
theorem arg5_kept (V : Valuation τ sig (Elt Ideal)) :
    after (Cert.ReferenceIdeal.RefRun.ops (F := Ideal)) V (main_arg5 : DevRef τ sig) = V (main_arg5 : DevRef τ sig) :=
  RefKeeps.arg5_kept V

/-- No operation of the line writes argument 6. -/
theorem arg6_kept (V : Valuation τ sig (Elt Ideal)) :
    after (Cert.ReferenceIdeal.RefRun.ops (F := Ideal)) V (main_arg6 : DevRef τ sig) = V (main_arg6 : DevRef τ sig) :=
  RefKeeps.arg6_kept V

/-- No operation of the line writes argument 7. -/
theorem arg7_kept (V : Valuation τ sig (Elt Ideal)) :
    after (Cert.ReferenceIdeal.RefRun.ops (F := Ideal)) V (main_arg7 : DevRef τ sig) = V (main_arg7 : DevRef τ sig) :=
  RefKeeps.arg7_kept V

/-- No operation of the line writes argument 8. -/
theorem arg8_kept (V : Valuation τ sig (Elt Ideal)) :
    after (Cert.ReferenceIdeal.RefRun.ops (F := Ideal)) V (main_arg8 : DevRef τ sig) = V (main_arg8 : DevRef τ sig) :=
  RefKeeps.arg8_kept V

end Cert.ReferenceIdeal.RefRead

end
-- ==== Proof.LibQuantLaws.lean ====
/-
  Laws of the row-wise quantisation on the extended reals: the float words as numbers; the quotient and the product
  spellings of a row's step agree; a real row has a positive real step, real integer parts, and its straight-through
  quantised entry is the integer part times the step; for real operands the two arrangements of a dense layer agree
  (a real factor moves across a finite sum of reals); the two spellings of the exponential linear unit and of the
  soft-plus agree everywhere; hence the two arrangements of the four-layer network agree on real data.
-/
import proofs.«101763_j14748917694594_2_alg».proof.Proof.LibQuant

noncomputable section

open scoped BigOperators

namespace Cert.LibQuant

open Idealize.ShloMosaic Cert.LibRealEntries

/-! ## The float words as numbers -/

theorem w0_eq : w0 = 0 := Ideal.ofBits_zero_f32

theorem w1_eq : w1 = 1 := by
  unfold w1
  simp [Ideal.ofBits, Ideal.ieee]
  norm_cast
  norm_num

theorem w127_eq : w127 = ((127 : ℝ) : EReal) := by
  unfold w127
  simp [Ideal.ofBits, Ideal.ieee, -EReal.coe_mul]
  norm_num

/-- The floor of a step is the dyadic rational `11258999 / 2^50` (just above `1e-8`). -/
theorem eps_eq : eps = ((11258999 / 2 ^ 50 : ℝ) : EReal) := by
  unfold eps
  simp [Ideal.ofBits, Ideal.ieee, -EReal.coe_mul]
  norm_num

/-- Dividing by the float 127 is multiplying by the exact reciprocal, on every extended real. -/
theorem div_w127 (x : EReal) : Ideal.div x w127 = x * r127 := by
  rw [w127_eq]
  exact Ideal.div_coe (by norm_num) x

theorem stepMul_r127 {n : ℕ} (x : Fin n → EReal) : stepMul r127 x = step x := by
  unfold stepMul step
  rw [div_w127]

theorem qvMul_r127 {n : ℕ} (x : Fin n → EReal) (k : Fin n) : qvMul r127 x k = qv x k := by
  unfold qvMul qv
  rw [stepMul_r127]

/-! ## Real rows -/

theorem coe_max (a b : ℝ) : ((max a b : ℝ) : EReal) = max (a : EReal) (b : EReal) :=
  EReal.coe_strictMono.monotone.map_max

theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The greatest magnitude of a real row is a nonnegative real, or `⊥` when the row is empty. -/
theorem amax_bot_or_real {n : ℕ} (x : Fin n → EReal) (hx : ∀ k, IsReal (x k)) :
    amax x = ⊥ ∨ ∃ a : ℝ, 0 ≤ a ∧ amax x = (a : EReal) := by
  unfold amax
  refine Finset.sup_induction (p := fun y => y = ⊥ ∨ ∃ a : ℝ, 0 ≤ a ∧ y = (a : EReal)) (Or.inl rfl) ?_ ?_
  · rintro a1 (rfl | ⟨a, ha, rfl⟩) a2 (rfl | ⟨b, hb, rfl⟩)
    · left; simp
    · right; exact ⟨b, hb, by simp⟩
    · right; exact ⟨a, ha, by simp⟩
    · right; exact ⟨max a b, le_max_of_le_left ha, by rw [coe_max]⟩
  · intro k _
    obtain ⟨y, hy⟩ := hx k
    right
    refine ⟨|y|, abs_nonneg y, ?_⟩
    rw [hy, ← EReal.coe_neg, ← coe_max, abs_eq_max_neg]

/-- A real row's step is a positive real. -/
theorem step_pos_real {n : ℕ} (x : Fin n → EReal) (hx : ∀ k, IsReal (x k)) : ∃ s : ℝ, 0 < s ∧ step x = (s : EReal) := by
  unfold step
  rw [div_w127, eps_eq]
  rcases amax_bot_or_real x hx with h | ⟨a, _, h⟩
  · refine ⟨11258999 / 2 ^ 50, by norm_num, ?_⟩
    rw [h, r127, EReal.bot_mul_coe_of_pos (by norm_num)]
    exact max_eq_right bot_le
  · refine ⟨max (a * (1 / 127)) (11258999 / 2 ^ 50), lt_max_of_lt_right (by norm_num), ?_⟩
    rw [h, r127, ← EReal.coe_mul, ← coe_max]

theorem div_coe_real (v s : ℝ) (hs : s ≠ 0) : Ideal.div (v : EReal) (s : EReal) = ((v / s : ℝ) : EReal) := by
  rw [Ideal.div_coe hs, ← EReal.coe_mul, mul_one_div]

theorem rnd_coe (r : ℝ) : rnd (r : EReal) = ((Ideal.roundHalfEven r : ℝ) : EReal) := rfl

theorem qv_real {n : ℕ} (x : Fin n → EReal) (hx : ∀ k, IsReal (x k)) (k : Fin n) : IsReal (qv x k) := by
  obtain ⟨s, hs, e⟩ := step_pos_real x hx
  obtain ⟨y, hy⟩ := hx k
  unfold qv
  rw [e, hy, div_coe_real _ _ hs.ne', rnd_coe]
  exact ⟨_, rfl⟩

/-- For a real row the straight-through spelling is the integer part times the step. -/
theorem fq_eq {n : ℕ} (x : Fin n → EReal) (hx : ∀ k, IsReal (x k)) (k : Fin n) : fq x k = qv x k * step x := by
  obtain ⟨s, _, e⟩ := step_pos_real x hx
  obtain ⟨y, hy⟩ := hx k
  obtain ⟨q, hq⟩ := qv_real x hx k
  unfold fq
  rw [hq, e, hy, ← EReal.coe_mul, ← EReal.coe_sub, ← EReal.coe_add]
  congr 1
  ring

theorem fq_real {n : ℕ} (x : Fin n → EReal) (hx : ∀ k, IsReal (x k)) (k : Fin n) : IsReal (fq x k) := by
  rw [fq_eq x hx]
  obtain ⟨s, _, e⟩ := step_pos_real x hx
  exact (qv_real x hx k).mul ⟨s, e⟩

/-! ## One dense layer: the two arrangements agree on real operands -/

/-- For real rows, quantising and rescaling both operands before the product is the product of the integer parts with
    the two steps applied after the sum. -/
theorem layerR_eq_layerKq {k : ℕ} (x w : Fin k → EReal) (b : EReal) (hx : ∀ j, IsReal (x j)) (hw : ∀ j, IsReal (w j)) :
    layerR x w b = layerKq r127 x (qv w) (step w) b := by
  obtain ⟨s, _, es⟩ := step_pos_real x hx
  obtain ⟨t, _, et⟩ := step_pos_real w hw
  choose qx hqx using fun j => qv_real x hx j
  choose qw hqw using fun j => qv_real w hw j
  unfold layerR layerKq
  congr 1
  have h1 : ∀ j, fq x j * fq w j = (((qx j * s) * (qw j * t) : ℝ) : EReal) := fun j => by
    rw [fq_eq x hx, fq_eq w hw, hqx, hqw, es, et, ← EReal.coe_mul, ← EReal.coe_mul, ← EReal.coe_mul]
  have h2 : ∀ j, qvMul r127 x j * qv w j = ((qx j * qw j : ℝ) : EReal) := fun j => by
    rw [qvMul_r127, hqx, hqw, ← EReal.coe_mul]
  simp only [h1, h2, stepMul_r127, es, et]
  rw [← coe_sum, ← coe_sum, ← EReal.coe_mul, ← EReal.coe_mul]
  congr 1
  rw [Finset.sum_mul, Finset.sum_mul]
  exact Finset.sum_congr rfl fun j _ => by ring

theorem layerR_real {k : ℕ} (x w : Fin k → EReal) (b : EReal) (hx : ∀ j, IsReal (x j)) (hw : ∀ j, IsReal (w j))
    (hb : IsReal b) : IsReal (layerR x w b) :=
  (IsReal.sum _ _ fun j _ => (fq_real x hx j).mul (fq_real w hw j)).add hb

/-! ## The activations -/

theorem tanh_real {v : EReal} (h : IsReal v) : IsReal (Ideal.tanh v) := by
  obtain ⟨y, rfl⟩ := h
  exact ⟨Real.tanh y, rfl⟩

theorem select_zero {α : Type} (a b : α) : Scalar.select (0#1) a b = b := by
  unfold Scalar.select
  exact if_neg (by decide)

theorem select_one {α : Type} (a b : α) : Scalar.select (1#1) a b = a := by
  unfold Scalar.select
  exact if_pos (by decide)

/-- The two spellings of the exponential linear unit agree on every extended real. -/
theorem eluK_eq_eluR (v : EReal) : eluK v = eluR v := by
  unfold eluK eluR
  rw [w0_eq, w1_eq]
  by_cases h : (0 : EReal) < v
  · have hc : Ideal.cmp .ogt v 0 = 1#1 := by simp [Ideal.cmp, h]
    rw [hc, select_one, select_one]
  · have hc : Ideal.cmp .ogt v 0 = 0#1 := by simp [Ideal.cmp, h]
    rw [hc, select_zero, select_zero, select_zero, one_mul, min_eq_left (not_lt.mp h)]

theorem eluR_real {v : EReal} (h : IsReal v) : IsReal (eluR v) := by
  rw [← eluK_eq_eluR]
  obtain ⟨y, rfl⟩ := h
  unfold eluK
  rw [w0_eq, w1_eq]
  by_cases hy : (0 : EReal) < (y : EReal)
  · have hc : Ideal.cmp .ogt (y : EReal) 0 = 1#1 := by simp [Ideal.cmp, hy]
    rw [hc, select_one]
    exact ⟨y, rfl⟩
  · have hc : Ideal.cmp .ogt (y : EReal) 0 = 0#1 := by simp [Ideal.cmp, hy]
    rw [hc, select_zero, min_eq_left (not_lt.mp hy)]
    exact ⟨Real.exp y - 1, by rw [EReal.coe_sub]; rfl⟩

/-- The two spellings of the soft-plus agree on every extended real: nothing differs from itself, and subtracting from
    zero is negating. -/
theorem spK_eq_spR (v : EReal) : spK v = spR v := by
  unfold spK spR
  have h1 : Ideal.cmp .one (v - w0) (v - w0) = 0#1 := by simp [Ideal.cmp]
  have h2 : Ideal.cmp .une (v - w0) (v - w0) = 0#1 := by simp [Ideal.cmp]
  rw [h1, h2, select_zero, select_zero, w0_eq, zero_sub]

/-! ## The network -/

/-- On real data the integer-product arrangement of the network, fed each weight row's integer parts and step, is the
    rescale-then-multiply arrangement over the raw weights. -/
theorem netK_eq_netR (x : Fin 160 → EReal)
    (W1 : Fin 40 → Fin 160 → EReal) (b1 : Fin 40 → EReal) (W2 : Fin 40 → Fin 40 → EReal) (b2 : Fin 40 → EReal)
    (W3 : Fin 40 → Fin 40 → EReal) (b3 : Fin 40 → EReal) (W4 : Fin 2 → Fin 40 → EReal) (b4 : Fin 2 → EReal)
    (hx : ∀ k, IsReal (x k)) (hW1 : ∀ a k, IsReal (W1 a k)) (hb1 : ∀ a, IsReal (b1 a))
    (hW2 : ∀ a k, IsReal (W2 a k)) (hb2 : ∀ a, IsReal (b2 a)) (hW3 : ∀ a k, IsReal (W3 a k)) (hb3 : ∀ a, IsReal (b3 a))
    (hW4 : ∀ a k, IsReal (W4 a k)) (o : Fin 2) :
    netK r127 x (fun k a => qv (W1 a) k) (fun a => step (W1 a)) b1 (fun k a => qv (W2 a) k) (fun a => step (W2 a)) b2
        (fun k a => qv (W3 a) k) (fun a => step (W3 a)) b3 (fun k a => qv (W4 a) k) (fun a => step (W4 a)) b4 o
      = netR x W1 b1 W2 b2 W3 b3 W4 b4 o := by
  unfold netK netR
  have e1 : (fun a => Ideal.tanh (layerKq r127 x (fun k => qv (W1 a) k) (step (W1 a)) (b1 a)))
      = fun a => Ideal.tanh (layerR x (W1 a) (b1 a)) :=
    funext fun a => by rw [layerR_eq_layerKq x (W1 a) (b1 a) hx (hW1 a)]
  have r1 : ∀ a, IsReal (Ideal.tanh (layerR x (W1 a) (b1 a))) := fun a =>
    tanh_real (layerR_real x (W1 a) (b1 a) hx (hW1 a) (hb1 a))
  have e2 : (fun a => eluK (layerKq r127 (fun a => Ideal.tanh (layerR x (W1 a) (b1 a))) (fun k => qv (W2 a) k) (step (W2 a)) (b2 a)))
      = fun a => eluR (layerR (fun a => Ideal.tanh (layerR x (W1 a) (b1 a))) (W2 a) (b2 a)) :=
    funext fun a => by rw [eluK_eq_eluR, layerR_eq_layerKq _ (W2 a) (b2 a) r1 (hW2 a)]
  have r2 : ∀ a, IsReal (eluR (layerR (fun a => Ideal.tanh (layerR x (W1 a) (b1 a))) (W2 a) (b2 a))) := fun a =>
    eluR_real (layerR_real _ (W2 a) (b2 a) r1 (hW2 a) (hb2 a))
  have e3 : (fun a => eluK (layerKq r127 (fun a => eluR (layerR (fun a => Ideal.tanh (layerR x (W1 a) (b1 a))) (W2 a) (b2 a))) (fun k => qv (W3 a) k) (step (W3 a)) (b3 a)))
      = fun a => eluR (layerR (fun a => eluR (layerR (fun a => Ideal.tanh (layerR x (W1 a) (b1 a))) (W2 a) (b2 a))) (W3 a) (b3 a)) :=
    funext fun a => by rw [eluK_eq_eluR, layerR_eq_layerKq _ (W3 a) (b3 a) r2 (hW3 a)]
  have r3 : ∀ a, IsReal (eluR (layerR (fun a => eluR (layerR (fun a => Ideal.tanh (layerR x (W1 a) (b1 a))) (W2 a) (b2 a))) (W3 a) (b3 a))) := fun a =>
    eluR_real (layerR_real _ (W3 a) (b3 a) r2 (hW3 a) (hb3 a))
  simp only [e1, e2, e3]
  rw [spK_eq_spR, layerR_eq_layerKq _ (W4 o) (b4 o) r3 (hW4 o)]

end Cert.LibQuant

end
-- ==== Proof.LibAllFinite.lean ====
/-
  Reading a precondition's words. A precondition printed from `jnp.all(jnp.abs(x) < inf) & … & jnp.all(s > 0)` is a
  conjunction of `and`-reductions of comparison words, read at its one index. A comparison word that is `1` is the
  comparison of the two extended reals; `|x| < +∞` makes `x` a real number; hence an all-reduction of `|a| < +∞`
  that is `1` makes every entry of `a` real, and a word `a > b` at an index is `b j < a j`.
-/
import proofs.«101763_j14748917694594_2_alg».proof.Proof.LibRealEntries
import Idealize.ShloMosaic.Lib.ReduceAll
import Idealize.ShloMosaic.Lib.ValueIdx
import Idealize.ShloMosaic.PureOps.Ideal.Laws

noncomputable section

namespace Cert.LibAllFinite

open Idealize.ShloMosaic Idealize.ShloMosaic.ValueIdx Cert.LibRealEntries

instance : Subsingleton (⟨0, ![]⟩ : Shape).Idx := ⟨fun a b => funext fun d => d.elim0⟩

/-- The word `0x7F800000` is `+∞`. -/
theorem ofBits_inf : Ideal.ofBits .f32 0x7F800000#32 = (⊤ : EReal) := by
  simp [Ideal.ofBits, Ideal.ieee]

/-- A true comparison word is the comparison. -/
theorem lt_of_cmp_olt {x y : EReal} (h : Ideal.cmp .olt x y = 1#1) : x < y := by
  by_contra hn
  have : decide (x < y) = false := decide_eq_false hn
  simp [Ideal.cmp, this] at h

theorem lt_of_cmp_ogt {x y : EReal} (h : Ideal.cmp .ogt x y = 1#1) : y < x := by
  by_contra hn
  have : decide (y < x) = false := decide_eq_false hn
  simp [Ideal.cmp, this] at h

/-- `|x| < +∞` makes `x` a real number. -/
theorem isReal_of_abs_lt_top (x : EReal) (h : max x (-x) < (⊤ : EReal)) : IsReal x := by
  induction x using EReal.rec with
  | bot => simp at h
  | coe r => exact ⟨r, rfl⟩
  | top => simp at h

/-- `jnp.all(|a| < +∞)` that is true makes every entry of `a` a real number. -/
theorem real_of_all {s : Shape} {axes : List (Fin s.rank)} (a : FVec Ideal s .f32)
    (hb : (⟨0, ![]⟩ : Shape).BroadcastsInDim s (![] : Fin 0 → Fin s.rank))
    (init : IVec ⟨0, ![]⟩ 1) (hred : s.ReducesTo axes ⟨0, ![]⟩) (hu : 0 < (⟨0, ![]⟩ : Shape).numel)
    (h : Host.reduce IntOp.andi
      (cmpf .olt (Host.absf a) (broadcastInDim s ![] hb (constant (F := Ideal) ⟨0, ![]⟩ .f32 0x7F800000#32)))
      init hred hu ix0 = 1#1) (i : s.Idx) : IsReal (a i) := by
  have hi := Host.reduce_andi_all _ init hred hu ix0 h i
  have h1 : Ideal.cmp .olt (max (a i) (-(a i))) (Ideal.ofBits .f32 0x7F800000#32) = 1#1 := hi
  rw [ofBits_inf] at h1
  exact isReal_of_abs_lt_top _ (lt_of_cmp_olt h1)

/-- A true comparison word between two arrays at an index is the inequality of their entries. -/
theorem lt_of_cmpf_ogt {s : Shape} (a b : FVec Ideal s .f32) (j : s.Idx) (h : cmpf .ogt a b j = 1#1) : b j < a j :=
  lt_of_cmp_ogt h

end Cert.LibAllFinite

end
-- ==== Proof.Finite.lean ====
/-
  The precondition's words read back: it is the conjunction, one word per argument array, of "every entry has a magnitude
  below +∞"; when it holds, every entry of every argument array is a real number.
-/
import proofs.«101763_j14748917694594_2_alg».proof.Pre_finite_inputs
import proofs.«101763_j14748917694594_2_alg».proof.Proof.Gen.Pre_finite_inputs
import proofs.«101763_j14748917694594_2_alg».proof.Proof.LibAllFinite

noncomputable section

namespace Cert.Finite

open Idealize.ShloMosaic Idealize.ShloMosaic.ValueIdx Cert.LibRealEntries Cert.LibAllFinite Cert.Pre_finite_inputs Cert.Pre_finite_inputs.Gen

/-- If the precondition's word is one, every entry of each of the nine argument arrays is a real number. -/
theorem real_of_pre (a0 : FVec Ideal S262144x160 .f32) (a1 : FVec Ideal S40x160 .f32) (a2 : FVec Ideal S40 .f32)
    (a3 : FVec Ideal S40x40 .f32) (a4 : FVec Ideal S40 .f32) (a5 : FVec Ideal S40x40 .f32) (a6 : FVec Ideal S40 .f32)
    (a7 : FVec Ideal S2x40 .f32) (a8 : FVec Ideal S2 .f32)
    (h : Cert.Pre_finite_inputs.fn (F := Ideal) a0 a1 a2 a3 a4 a5 a6 a7 a8 = fun _ => 1#1) :
    (∀ i, IsReal (a0 i)) ∧ (∀ i, IsReal (a1 i)) ∧ (∀ i, IsReal (a2 i)) ∧ (∀ i, IsReal (a3 i)) ∧ (∀ i, IsReal (a4 i))
      ∧ (∀ i, IsReal (a5 i)) ∧ (∀ i, IsReal (a6 i)) ∧ (∀ i, IsReal (a7 i)) ∧ (∀ i, IsReal (a8 i)) := by
  have h0 := congrFun h ix0
  dsimp only [fn, fn_part1, fn_part2] at h0
  obtain ⟨h0, h8⟩ := IntOp.andi_eq_one.mp h0
  obtain ⟨h0, h7⟩ := IntOp.andi_eq_one.mp h0
  obtain ⟨h0, h6⟩ := IntOp.andi_eq_one.mp h0
  obtain ⟨h0, h5⟩ := IntOp.andi_eq_one.mp h0
  obtain ⟨h0, h4⟩ := IntOp.andi_eq_one.mp h0
  obtain ⟨h0, h3⟩ := IntOp.andi_eq_one.mp h0
  obtain ⟨h0, h2⟩ := IntOp.andi_eq_one.mp h0
  obtain ⟨h0, h1⟩ := IntOp.andi_eq_one.mp h0
  exact ⟨real_of_all a0 _ _ _ _ h0, real_of_all a1 _ _ _ _ h1, real_of_all a2 _ _ _ _ h2, real_of_all a3 _ _ _ _ h3,
    real_of_all a4 _ _ _ _ h4, real_of_all a5 _ _ _ _ h5, real_of_all a6 _ _ _ _ h6, real_of_all a7 _ _ _ _ h7,
    real_of_all a8 _ _ _ _ h8⟩

end Cert.Finite

end
-- ==== Proof.lean ====
/-
  The five claims.  The kernel's program and its idealized form run by their launch certificates, the reference program
  by its straight line of host operations.  The idealization names one constant, the reciprocal of 127, four times.  At
  the extended reals the kernel's result array is, row by row, the four-layer quantised network in the arrangement that
  multiplies integer parts and applies the quantisation steps after each sum; the reference's result is the same network
  in the arrangement that rescales before multiplying; under the precondition every argument entry is a real number, and
  on real data the two arrangements agree.
-/
import proofs.«101763_j14748917694594_2_alg».proof.Defs
import proofs.«101763_j14748917694594_2_alg».proof.Proof.Gen.Kernel
import proofs.«101763_j14748917694594_2_alg».proof.Proof.Gen.Kernel.Skeleton
import proofs.«101763_j14748917694594_2_alg».proof.Proof.Gen.Kernel.Launch
import proofs.«101763_j14748917694594_2_alg».proof.Proof.Gen.Kernel.Points
import proofs.«101763_j14748917694594_2_alg».proof.Proof.Gen.Kernel.Frame
import proofs.«101763_j14748917694594_2_alg».proof.Proof.Gen.KernelIdeal
import proofs.«101763_j14748917694594_2_alg».proof.Proof.Gen.KernelIdeal.Skeleton
import proofs.«101763_j14748917694594_2_alg».proof.Proof.Gen.KernelIdeal.Launch
import proofs.«101763_j14748917694594_2_alg».proof.Proof.Gen.KernelIdeal.Points
import proofs.«101763_j14748917694594_2_alg».proof.Proof.Gen.KernelIdeal.Frame
import proofs.«101763_j14748917694594_2_alg».proof.Proof.Gen.KernelIdeal.Value
import proofs.«101763_j14748917694594_2_alg».proof.Proof.Gen.ReferenceIdeal
import proofs.«101763_j14748917694594_2_alg».proof.Proof.Gen.Pre_finite_inputs
import proofs.«101763_j14748917694594_2_alg».proof.Proof.KernelPayload
import proofs.«101763_j14748917694594_2_alg».proof.Proof.KernelHost
import proofs.«101763_j14748917694594_2_alg».proof.Proof.KernelValue
import proofs.«101763_j14748917694594_2_alg».proof.Proof.RefRun
import proofs.«101763_j14748917694594_2_alg».proof.Proof.RefKeeps
import proofs.«101763_j14748917694594_2_alg».proof.Proof.RefRead
import proofs.«101763_j14748917694594_2_alg».proof.Proof.LibQuantLaws
import proofs.«101763_j14748917694594_2_alg».proof.Proof.Finite
import Idealize.ShloMosaic.Adequacy
import Idealize.ShloMosaic.Init

noncomputable section

namespace Cert.Proof

open Idealize.ShloMosaic Idealize.ShloMosaic.TcCoe Idealize.SL.Sem Idealize.ShloMosaic.StableHlo Idealize.ShloMosaic.ValueIdx

/-! ## The frames -/

theorem frame_k : Cert.frame_Kernel := fun m ρ _ => Cert.Kernel.Gen.frame m ρ

theorem frame_ki : Cert.frame_KernelIdeal := fun m ρ _ => Cert.KernelIdeal.Gen.frame m ρ

/-- The reference program ends with every argument as launched: its line of operations writes none of them. -/
theorem frame_ri : Cert.frame_ReferenceIdeal := fun m ρ _ =>
  (θ_run Cert.ReferenceIdeal.defs _ _).mono
    (fun _ h c => ⟨(h c Cert.ReferenceIdeal.main_arg0).trans (Cert.ReferenceIdeal.RefKeeps.arg0_kept (launchContents m c)),
      (h c Cert.ReferenceIdeal.main_arg1).trans (Cert.ReferenceIdeal.RefKeeps.arg1_kept (launchContents m c)),
      (h c Cert.ReferenceIdeal.main_arg2).trans (Cert.ReferenceIdeal.RefKeeps.arg2_kept (launchContents m c)),
      (h c Cert.ReferenceIdeal.main_arg3).trans (Cert.ReferenceIdeal.RefKeeps.arg3_kept (launchContents m c)),
      (h c Cert.ReferenceIdeal.main_arg4).trans (Cert.ReferenceIdeal.RefKeeps.arg4_kept (launchContents m c)),
      (h c Cert.ReferenceIdeal.main_arg5).trans (Cert.ReferenceIdeal.RefKeeps.arg5_kept (launchContents m c)),
      (h c Cert.ReferenceIdeal.main_arg6).trans (Cert.ReferenceIdeal.RefKeeps.arg6_kept (launchContents m c)),
      (h c Cert.ReferenceIdeal.main_arg7).trans (Cert.ReferenceIdeal.RefKeeps.arg7_kept (launchContents m c)),
      (h c Cert.ReferenceIdeal.main_arg8).trans (Cert.ReferenceIdeal.RefKeeps.arg8_kept (launchContents m c))⟩)
    (Cert.ReferenceIdeal.RefRun.run_main (F := Ideal) m ρ)

/-! ## The idealization's ledger -/

/-- The four entries are one: the table gives the name "inv_127" the value 1/127, and the printed constant is that
    value at the extended reals. -/
theorem preserves : Cert.preserves_Kernel_KernelIdeal :=
  have s := IdealRules.named_const.statement Cert.KernelIdeal.κ "inv_127" .f32 0x3C010204#32 ((1 / 127 : ℝ) : EReal) rfl
  ⟨s, s, s, s⟩

/-! ## The two results are equal -/

/-- Under the precondition, from memories that agree on the arguments, both programs run and end with the same result
    array: entry (r, o) of either is the network on input row r. -/
theorem algebraic : Cert.algebraic_KernelIdeal_ReferenceIdeal := by
  intro m ρ m' ρ' hpre hagree
  refine ⟨fun c => Cert.KernelIdeal.KVal.G m c,
    Cert.KernelIdeal.KVal.run m ρ Cert.KernelIdeal.Pay.out_apply (Cert.KernelIdeal.HostVals.v41_apply m) (Cert.KernelIdeal.HostVals.v48_apply m) (Cert.KernelIdeal.HostVals.v52_apply m) (Cert.KernelIdeal.HostVals.v43_apply m) (Cert.KernelIdeal.HostVals.v49_apply m) (Cert.KernelIdeal.HostVals.v53_apply m) (Cert.KernelIdeal.HostVals.v45_apply m) (Cert.KernelIdeal.HostVals.v50_apply m) (Cert.KernelIdeal.HostVals.v54_apply m) (Cert.KernelIdeal.HostVals.v47_apply m) (Cert.KernelIdeal.HostVals.v51_apply m) (Cert.KernelIdeal.HostVals.v55_apply m), ?_⟩
  refine (θ_run Cert.ReferenceIdeal.defs _ _).mono
    (fun r h c => ⟨?_, (h c Cert.ReferenceIdeal.main_arg0).trans (Cert.ReferenceIdeal.RefKeeps.arg0_kept (launchContents m' c)),
      (h c Cert.ReferenceIdeal.main_arg1).trans (Cert.ReferenceIdeal.RefKeeps.arg1_kept (launchContents m' c)),
      (h c Cert.ReferenceIdeal.main_arg2).trans (Cert.ReferenceIdeal.RefKeeps.arg2_kept (launchContents m' c)),
      (h c Cert.ReferenceIdeal.main_arg3).trans (Cert.ReferenceIdeal.RefKeeps.arg3_kept (launchContents m' c)),
      (h c Cert.ReferenceIdeal.main_arg4).trans (Cert.ReferenceIdeal.RefKeeps.arg4_kept (launchContents m' c)),
      (h c Cert.ReferenceIdeal.main_arg5).trans (Cert.ReferenceIdeal.RefKeeps.arg5_kept (launchContents m' c)),
      (h c Cert.ReferenceIdeal.main_arg6).trans (Cert.ReferenceIdeal.RefKeeps.arg6_kept (launchContents m' c)),
      (h c Cert.ReferenceIdeal.main_arg7).trans (Cert.ReferenceIdeal.RefKeeps.arg7_kept (launchContents m' c)),
      (h c Cert.ReferenceIdeal.main_arg8).trans (Cert.ReferenceIdeal.RefKeeps.arg8_kept (launchContents m' c))⟩)
    (Cert.ReferenceIdeal.RefRun.run_main (F := Ideal) m' ρ')
  obtain ⟨g0, g1, g2, g3, g4, g5, g6, g7, g8⟩ := hagree c
  obtain ⟨r0, r1, r2, r3, r4, r5, r6, r7, r8⟩ := Cert.Finite.real_of_pre _ _ _ _ _ _ _ _ _ (hpre c)
  refine (h c Cert.ReferenceIdeal.main_v135).trans ?_
  funext i
  obtain ⟨q, o, rfl⟩ : ∃ (q : Fin 262144) (o : Fin 2), i = ix2 q o := ⟨i 0, i 1, eq_ix2 i⟩
  show _ = Cert.KernelIdeal.KVal.row m c q o
  refine (Cert.ReferenceIdeal.RefRead.out_apply (launchContents m' c) q o).trans ?_
  unfold Cert.KernelIdeal.KVal.row
  show Cert.LibQuant.netR (fun k => m' ((c.tc : Thread Cert.ReferenceIdeal.nD Cert.ReferenceIdeal.τ).loc Cert.ReferenceIdeal.main_arg0) (ix2 q k))
      (fun a k => m' ((c.tc : Thread Cert.ReferenceIdeal.nD Cert.ReferenceIdeal.τ).loc Cert.ReferenceIdeal.main_arg1) (ix2 a k)) (fun a => m' ((c.tc : Thread Cert.ReferenceIdeal.nD Cert.ReferenceIdeal.τ).loc Cert.ReferenceIdeal.main_arg2) (ix1 a))
      (fun a k => m' ((c.tc : Thread Cert.ReferenceIdeal.nD Cert.ReferenceIdeal.τ).loc Cert.ReferenceIdeal.main_arg3) (ix2 a k)) (fun a => m' ((c.tc : Thread Cert.ReferenceIdeal.nD Cert.ReferenceIdeal.τ).loc Cert.ReferenceIdeal.main_arg4) (ix1 a))
      (fun a k => m' ((c.tc : Thread Cert.ReferenceIdeal.nD Cert.ReferenceIdeal.τ).loc Cert.ReferenceIdeal.main_arg5) (ix2 a k)) (fun a => m' ((c.tc : Thread Cert.ReferenceIdeal.nD Cert.ReferenceIdeal.τ).loc Cert.ReferenceIdeal.main_arg6) (ix1 a))
      (fun a k => m' ((c.tc : Thread Cert.ReferenceIdeal.nD Cert.ReferenceIdeal.τ).loc Cert.ReferenceIdeal.main_arg7) (ix2 a k)) (fun a => m' ((c.tc : Thread Cert.ReferenceIdeal.nD Cert.ReferenceIdeal.τ).loc Cert.ReferenceIdeal.main_arg8) (ix1 a)) o = _
  rw [g0, g1, g2, g3, g4, g5, g6, g7, g8]
  exact (Cert.LibQuant.netK_eq_netR _ _ _ _ _ _ _ _ _ (fun k => r0 _) (fun a k => r1 _) (fun a => r2 _) (fun a k => r3 _) (fun a => r4 _)
    (fun a k => r5 _) (fun a => r6 _) (fun a k => r7 _) o).symm

/-! ## The claim -/

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
